-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x16 : Shape := ⟨2, ![10000, 16]⟩
abbrev S128x64 : Shape := ⟨2, ![128, 64]⟩
abbrev S64 : Shape := ⟨1, ![64]⟩
abbrev S64x40 : Shape := ⟨2, ![64, 40]⟩
abbrev S40 : Shape := ⟨1, ![40]⟩
abbrev S16x64 : Shape := ⟨2, ![16, 64]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x16 : S_.BroadcastsInDim S10000x16 (![] : Fin 0 → Fin S10000x16.rank)
  reducesTo_S10000x16_S_d0_1 : S10000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x64 .f32) (main_arg8 : FVec F S16 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S64x40 .f32) (main_arg6 : FVec F S40 .f32) (main_arg7 : FVec F S16x64 .f32) (main_arg8 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg5
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S10000x16 .f32) (main_arg3 : FVec F S128x64 .f32) (main_arg4 : FVec F S64 .f32) (main_arg5 : FVec F S64x40 .f32) (main_arg6 : FVec F S40 .f32) (main_arg7 : FVec F S16x64 .f32) (main_arg8 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S10000x16 : Shape := ⟨2, ![10000, 16]⟩
abbrev S128x64 : Shape := ⟨2, ![128, 64]⟩
abbrev S64 : Shape := ⟨1, ![64]⟩
abbrev S64x40 : Shape := ⟨2, ![64, 40]⟩
abbrev S40 : Shape := ⟨1, ![40]⟩
abbrev S16x64 : Shape := ⟨2, ![16, 64]⟩
abbrev S16 : Shape := ⟨1, ![16]⟩
abbrev S1x64 : Shape := ⟨2, ![1, 64]⟩
abbrev S1x40 : Shape := ⟨2, ![1, 40]⟩
abbrev S1x16 : Shape := ⟨2, ![1, 16]⟩
abbrev S10000x40 : Shape := ⟨2, ![10000, 40]⟩
abbrev S80x10000 : Shape := ⟨2, ![80, 10000]⟩
abbrev S400x16 : Shape := ⟨2, ![400, 16]⟩
abbrev S400x40 : Shape := ⟨2, ![400, 40]⟩
abbrev S10000x64 : Shape := ⟨2, ![10000, 64]⟩
abbrev S80x64 : Shape := ⟨2, ![80, 64]⟩
abbrev S80x40 : Shape := ⟨2, ![80, 40]⟩
abbrev S80 : Shape := ⟨1, ![80]⟩
abbrev S80x1 : Shape := ⟨2, ![80, 1]⟩
abbrev S80x16 : Shape := ⟨2, ![80, 16]⟩

abbrev nBuf : Space → Nat
  | .hbm => 14
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S16x64, .f32⟩
  | .hbm, ⟨8, _⟩ => ⟨S16, .f32⟩
  | .hbm, ⟨9, _⟩ => ⟨S1x64, .f32⟩
  | .hbm, ⟨10, _⟩ => ⟨S1x40, .f32⟩
  | .hbm, ⟨11, _⟩ => ⟨S1x16, .f32⟩
  | .hbm, ⟨12, _⟩ => ⟨S10000x40, .f32⟩
  | .hbm, ⟨13, _⟩ => ⟨S10000x16, .f32⟩
  | .local _ .vmem, ⟨0, _⟩ => ⟨S80x10000, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x10000, .f32⟩
  | .local _ .vmem, ⟨5, _⟩ => ⟨S80x10000, .f32⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S10000x128, .f32⟩
  | .local _ .vmem, ⟨11, _⟩ => ⟨S128x64, .f32⟩
  | .local _ .vmem, ⟨12, _⟩ => ⟨S1x64, .f32⟩
  | .local _ .vmem, ⟨13, _⟩ => ⟨S64x40, .f32⟩
  | .local _ .vmem, ⟨14, _⟩ => ⟨S1x40, .f32⟩
  | .local _ .vmem, ⟨15, _⟩ => ⟨S16x64, .f32⟩
  | .local _ .vmem, ⟨16, _⟩ => ⟨S1x16, .f32⟩
  | .local _ .vmem, ⟨17, _⟩ => ⟨S400x16, .f32⟩
  | .local _ .vmem, ⟨18, _⟩ => ⟨S400x16, .f32⟩
  | .local _ .vmem, ⟨19, _⟩ => ⟨S400x40, .f32⟩
  | .local _ .vmem, ⟨20, _⟩ => ⟨S400x40, .f32⟩
  | .local _ .vmem, ⟨21, _⟩ => ⟨S400x16, .f32⟩
  | .local _ .vmem, ⟨22, _⟩ => ⟨S400x16, .f32⟩
  | .local _ .vmem, ⟨23, _⟩ => ⟨S10000x64, .f32⟩
  | .local _ .vmem, ⟨24, _⟩ => ⟨S10000x64, .f32⟩
  | .local _ .vmem, ⟨25, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) (c0_i32_14 : BitVec 32) : Fin 2 → Nat :=
  let arg1 : BitVec 32 := BitVec.ofNat 32 (i 1).val
  let c400_i32 : BitVec 32 := 400#32
  let v25 : BitVec 32 := Scalar.muli arg1 c400_i32
  let v26 : BitVec 32 := Scalar.addi v25 c0_i32_14
  let v27 : Index := Scalar.indexCast v26
  let c0_15 : Index := 0#32
  ![v27.toNat, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off2 (i : grid0.Coords) (c0_i32_17 : BitVec 32) : Fin 2 → Nat :=
  let arg1 : BitVec 32 := BitVec.ofNat 32 (i 1).val
  let c400_i32 : BitVec 32 := 400#32
  let v36 : BitVec 32 := Scalar.muli arg1 c400_i32
  let v37 : BitVec 32 := Scalar.addi v36 c0_i32_17
  let v38 : Index := Scalar.indexCast v37
  let c0_18 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S80x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S400x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S400x40 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S400x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  shapeCasts_S64_S1x64 : S64.ShapeCasts S1x64
  shapeCasts_S40_S1x40 : S40.ShapeCasts S1x40
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S80x10000_S80x10000_0_0 : ∀ a, (![0, 0] : Fin 2 → Nat) a + S80x10000.size a ≤ S80x10000.size a
  h_S80x10000 : 0 < S80x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S80x64 : S1x64.Broadcasts S80x64
  h_S80x64 : 0 < S80x64.numel
  shapeCasts_S80x64_S80x64 : S80x64.ShapeCasts S80x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S80x40 : S1x40.Broadcasts S80x40
  reduces_S80x40_S80 : S80x40.Reduces [1] S80
  shapeCasts_S80_S80x1 : S80.ShapeCasts S80x1
  broadcasts_S80x1_S80x40 : S80x1.Broadcasts S80x40
  inb_S400x40_S80x40_0_0 : ∀ a, (![0, 0] : Fin 2 → Nat) a + S80x40.size a ≤ S400x40.size a
  h_S80x40 : 0 < S80x40.numel
  inb_S16x64_S16x64_0_0 : ∀ a, (![0, 0] : Fin 2 → Nat) a + S16x64.size a ≤ S16x64.size a
  h_S16x64 : 0 < S16x64.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S80x16 : S1x16.Broadcasts S80x16
  inb_S400x16_S80x16_0_0 : ∀ a, (![0, 0] : Fin 2 → Nat) a + S80x16.size a ≤ S400x16.size a
  h_S80x16 : 0 < S80x16.numel
  inb_S400x40_S80x40_80_0 : ∀ a, (![80, 0] : Fin 2 → Nat) a + S80x40.size a ≤ S400x40.size a
  inb_S400x16_S80x16_80_0 : ∀ a, (![80, 0] : Fin 2 → Nat) a + S80x16.size a ≤ S400x16.size a
  inb_S400x40_S80x40_160_0 : ∀ a, (![160, 0] : Fin 2 → Nat) a + S80x40.size a ≤ S400x40.size a
  inb_S400x16_S80x16_160_0 : ∀ a, (![160, 0] : Fin 2 → Nat) a + S80x16.size a ≤ S400x16.size a
  inb_S400x40_S80x40_240_0 : ∀ a, (![240, 0] : Fin 2 → Nat) a + S80x40.size a ≤ S400x40.size a
  inb_S400x16_S80x16_240_0 : ∀ a, (![240, 0] : Fin 2 → Nat) a + S80x16.size a ≤ S400x16.size a
  inb_S400x40_S80x40_320_0 : ∀ a, (![320, 0] : Fin 2 → Nat) a + S80x40.size a ≤ S400x40.size a
  inb_S400x16_S80x16_320_0 : ∀ a, (![320, 0] : Fin 2 → Nat) a + S80x16.size a ≤ S400x16.size a
  dot_S10000x128_S128x64_S10000x64_1_0_0_1_n_n_wf : DotDims.WF S10000x128 S128x64 S10000x64 [1] [0] [0] [1] [] []
  dot_S80x10000_S10000x64_S80x64_1_0_0_1_n_n_wf : DotDims.WF S80x10000 S10000x64 S80x64 [1] [0] [0] [1] [] []
  dot_S10000x64_S64x40_S10000x40_1_0_0_1_n_n_wf : DotDims.WF S10000x64 S64x40 S10000x40 [1] [0] [0] [1] [] []
  dot_S80x10000_S10000x40_S80x40_1_0_0_1_n_n_wf : DotDims.WF S80x10000 S10000x40 S80x40 [1] [0] [0] [1] [] []
  dot_S80x64_S16x64_S80x16_1_1_0_0_n_n_wf : DotDims.WF S80x64 S16x64 S80x16 [1] [1] [0] [0] [] []
  hrank0 : 0 < grid0.rank
  k0_off1_inb : ∀ i : grid0.Coords, ∀ (k0_h2 : k0_cond2 i = 1#1), ∀ (r : Fin 5), ∀ a, (k0_off1 i (BitVec.ofNat 32 (80 * r.val))) a + S80x64.size a ≤ S10000x64.size a
  k0_off2_inb : ∀ i : grid0.Coords, ∀ (k0_h4 : k0_cond4 i = 1#1), ∀ (r : Fin 5), ∀ a, (k0_off2 i (BitVec.ofNat 32 (80 * r.val))) a + S80x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x10000.size a ≤ S10000x10000.size a
  hwx0_2 : ∀ i : grid0.Coords, EltTy.bits .f32 = 32 ∨ (Rect.block (s := S10000x10000) S80x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .f32 = 32 ∨ (Rect.block (s := S10000x10000) S80x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x40.size a ≤ S64x40.size a
  hwx0_8 : ∀ i : grid0.Coords, EltTy.bits .f32 = 32 ∨ (Rect.block (s := S64x40) S64x40.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x40.size a ≤ S1x40.size a
  hwx0_9 : ∀ i : grid0.Coords, EltTy.bits .f32 = 32 ∨ (Rect.block (s := S1x40) S1x40.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x64.size a ≤ S16x64.size a
  hwx0_10 : ∀ i : grid0.Coords, EltTy.bits .f32 = 32 ∨ (Rect.block (s := S16x64) S16x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x16.size a ≤ S10000x16.size a
  hwx0_12 : ∀ i : grid0.Coords, EltTy.bits .f32 = 32 ∨ (Rect.block (s := S10000x16) S400x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x40.size a ≤ S10000x40.size a
  hwx0_13 : ∀ i : grid0.Coords, EltTy.bits .f32 = 32 ∨ (Rect.block (s := S10000x40) S400x40.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S400x16.size a ≤ S10000x16.size a
  hwx0_14 : ∀ i : grid0.Coords, EltTy.bits .f32 = 32 ∨ (Rect.block (s := S10000x16) S400x16.size (cc0_transform_14 i) (hinb0_14 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S80x10000_S10000x64_S80x64_1_0_0_1_n_n : DotDims S80x10000 S10000x64 S80x64 where
  lhsContracting := [1]
  rhsContracting := [0]
  lhsNonContracting := [0]
  rhsNonContracting := [1]
  lhsBatch := []
  rhsBatch := []
  wf := dot_S80x10000_S10000x64_S80x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S80x10000_S10000x40_S80x40_1_0_0_1_n_n : DotDims S80x10000 S10000x40 S80x40 where
  lhsContracting := [1]
  rhsContracting := [0]
  lhsNonContracting := [0]
  rhsNonContracting := [1]
  lhsBatch := []
  rhsBatch := []
  wf := dot_S80x10000_S10000x40_S80x40_1_0_0_1_n_n_wf
def dot_S80x64_S16x64_S80x16_1_1_0_0_n_n : DotDims S80x64 S16x64 S80x16 where
  lhsContracting := [1]
  rhsContracting := [1]
  lhsNonContracting := [0]
  rhsNonContracting := [0]
  lhsBatch := []
  rhsBatch := []
  wf := dot_S80x64_S16x64_S80x16_1_1_0_0_n_n_wf

abbrev win0_0 : Pipeline.Window sig grid0 :=
  Pipeline.Window.ofSpec (Memref.whole main_arg1) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S80x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S80x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S10000x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S64x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S16x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg2) S400x16.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3_0) S400x40.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3_1) S400x16.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond4 i == 1#1) | 14 => fun i => !(k0_cond4 i == 1#1) | ⟨_ + 15, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S10000x16 : Shape := ⟨2, ![10000, 16]⟩
abbrev S128x64 : Shape := ⟨2, ![128, 64]⟩
abbrev S64 : Shape := ⟨1, ![64]⟩
abbrev S64x40 : Shape := ⟨2, ![64, 40]⟩
abbrev S40 : Shape := ⟨1, ![40]⟩
abbrev S16x64 : Shape := ⟨2, ![16, 64]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x40 : Shape := ⟨2, ![10000, 40]⟩
abbrev S1x40 : Shape := ⟨2, ![1, 40]⟩
abbrev S64x16 : Shape := ⟨2, ![64, 16]⟩
abbrev S1x16 : Shape := ⟨2, ![1, 16]⟩
abbrev S10000 : Shape := ⟨1, ![10000]⟩
abbrev S10000x1 : Shape := ⟨2, ![10000, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S16x64, .f32⟩
  | .hbm, ⟨8, _⟩ => ⟨S16, .f32⟩
  | .hbm, ⟨9, _⟩ => ⟨S10000x64, .f32⟩
  | .hbm, ⟨10, _⟩ => ⟨S10000x64, .f32⟩
  | .hbm, ⟨11, _⟩ => ⟨S1x64, .f32⟩
  | .hbm, ⟨12, _⟩ => ⟨S10000x64, .f32⟩
  | .hbm, ⟨13, _⟩ => ⟨S10000x64, .f32⟩
  | .hbm, ⟨14, _⟩ => ⟨S_, .f32⟩
  | .hbm, ⟨15, _⟩ => ⟨S10000x64, .f32⟩
  | .hbm, ⟨16, _⟩ => ⟨S10000x64, .f32⟩
  | .hbm, ⟨17, _⟩ => ⟨S10000x40, .f32⟩
  | .hbm, ⟨18, _⟩ => ⟨S10000x40, .f32⟩
  | .hbm, ⟨19, _⟩ => ⟨S1x40, .f32⟩
  | .hbm, ⟨20, _⟩ => ⟨S10000x40, .f32⟩
  | .hbm, ⟨21, _⟩ => ⟨S10000x40, .f32⟩
  | .hbm, ⟨22, _⟩ => ⟨S64x16, .f32⟩
  | .hbm, ⟨23, _⟩ => ⟨S10000x16, .f32⟩
  | .hbm, ⟨24, _⟩ => ⟨S1x16, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000x16, .f32⟩
  | .hbm, ⟨31, _⟩ => ⟨S10000x16, .f32⟩
  | .hbm, ⟨32, _⟩ => ⟨S_, .f32⟩
  | .hbm, ⟨33, _⟩ => ⟨S10000x16, .f32⟩
  | .hbm, ⟨34, _⟩ => ⟨S10000x16, .f32⟩
  | .hbm, ⟨35, _⟩ => ⟨S10000x16, .f32⟩
  | .hbm, ⟨36, _⟩ => ⟨S_, .f32⟩
  | .hbm, ⟨37, _⟩ => ⟨S10000, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000x1, .f32⟩
  | .hbm, ⟨42, _⟩ => ⟨S10000x40, .f32⟩
  | .hbm, ⟨43, _⟩ => ⟨S10000x40, .f32⟩
  | .hbm, ⟨44, _⟩ => ⟨S10000x40, .f32⟩
  | .hbm, ⟨45, _⟩ => ⟨S_, .f32⟩
  | .hbm, ⟨46, _⟩ => ⟨S10000, .f32⟩
  | .hbm, ⟨47, _⟩ => ⟨S10000x1, .f32⟩
  | .hbm, ⟨48, _⟩ => ⟨S10000x1, .f32⟩
  | .hbm, ⟨49, _⟩ => ⟨S10000x40, .f32⟩
  | .hbm, ⟨50, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v23 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  transposes_S16x64_S64x16_1_0 : S16x64.Transposes [1, 0] S64x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []
  dot_S10000x64_S64x16_S10000x16_1_0_0_1_n_n_wf : DotDims.WF S10000x64 S64x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

class Facts : Prop extends Facts₀ where

variable [Facts]
-- ==== Proof.LibSharedFrame.lean ====
/-
  A frame run for a pipeline whose windows may SHARE an array.

  The library's frame runs take the pipeline's layout as one bundle whose window facts demand pairwise distinct
  arrays. A kernel handed ONE array through several input windows has no such bundle. Array distinctness is used
  by those runs in a single place: to split the distinct buffers behind the arrays, each whole at the full share,
  into the proof data's `arrays` at entry. Here that split is a hypothesis (`hsplit`), and the layout is taken as
  separate facts without distinctness; everything else is as in the library's tracking frame run.
-/
import Idealize.ShloMosaic.Lib.Pipeline.Frame
import Idealize.ShloMosaic.Lib.Pipeline.Kit
import Idealize.ShloMosaic.Lib.Pipeline.Launch

noncomputable section

namespace Cert.LibSharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- THE FRAME RUN with a TRACKING invariant for a pipeline whose windows may SHARE ARRAYS (one array handed to the
    kernel through several input windows). It is the library's tracking frame run with the layout bundle replaced by
    its separate facts minus the arrays' distinctness (`hinj`: the pipelines' cells are pairwise distinct; `hw`: the
    window facts without distinctness; `hne`, `harr`, `hstage`: blocks are non-empty, arrays and staging memrefs are
    whole buffers), and with the two hypotheses that presuppose every window holding its array at the full share
    replaced by `hsplit`: the DISTINCT buffers behind the arrays, each whole at the full share at the entry contents
    `V c`, yield the proof data's arrays at entry, each window at the share the data name. The invariant `Φ` is any
    the proof data state point by point, entered from the class invariant before point 0 (`hin`) and returned to it
    after the last point (`hout`). Conclusion: every weakly fair execution of @main on the TensorCores terminates, and in
    every final state each window's array holds what the proof data compute after all write-backs, and every
    unscoped buffer that is no window's array holds what it held at the region's entry. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p V) := by
  classical
  exact Pipeline.θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

/-! ## Dealing one array's full share among the windows that read it -/

section Shares

variable {Ix : Type} [DecidableEq Ix] {Name : Type} [DecidableEq Name] {U : Type} [URA U] {Lvl : Type}

local notation "𝕄'" => MT nD τ sig Ix Val Name U Lvl

/-- A points-to at a positive share is the two points-tos at the share's halves; the direction that splits. -/
theorem pointsTo_halve {ℓ : Loc nD τ sig} (I : Finset (Idx ℓ)) (q : PosShare TreeShare) (f : Buf Val ℓ) :
    (ℓ ↦[I]{q} f : sProp 𝕄') ⊢ iprop((ℓ ↦[I]{q.left} f) ∗ ℓ ↦[I]{q.right} f) :=
  (pointsTo_share (PosShare.mem_left_op_right q)).1

/-- Five pairwise disjoint positive shares that compose to the full share: the left half of the whole, then the left
    half of what remains, three times over, the fifth taking the remainder. -/
def q5 : Fin 5 → PosShare TreeShare
  | ⟨0, _⟩ => fullShare.left
  | ⟨1, _⟩ => fullShare.right.left
  | ⟨2, _⟩ => fullShare.right.right.left
  | ⟨3, _⟩ => fullShare.right.right.right.left
  | ⟨_ + 4, _⟩ => fullShare.right.right.right.right

@[simp] theorem q5_zero : q5 0 = fullShare.left := rfl
@[simp] theorem q5_one : q5 1 = fullShare.right.left := rfl
@[simp] theorem q5_two : q5 2 = fullShare.right.right.left := rfl
@[simp] theorem q5_three : q5 3 = fullShare.right.right.right.left := rfl
@[simp] theorem q5_four : q5 4 = fullShare.right.right.right.right := rfl

/-- A buffer's elements `I` held at the full share are the same elements, at the same contents, held five times over
    at the five shares `q5`. -/
theorem pointsTo_split5 {ℓ : Loc nD τ sig} (I : Finset (Idx ℓ)) (f : Buf Val ℓ) :
    (ℓ ↦[I]{fullShare} f : sProp 𝕄')
      ⊢ iprop((ℓ ↦[I]{q5 0} f) ∗ (ℓ ↦[I]{q5 1} f) ∗ (ℓ ↦[I]{q5 2} f) ∗ (ℓ ↦[I]{q5 3} f) ∗ ℓ ↦[I]{q5 4} f) :=
  (pointsTo_halve I fullShare f).trans <| sep_mono_right <|
    (pointsTo_halve I fullShare.right f).trans <| sep_mono_right <|
      (pointsTo_halve I fullShare.right.right f).trans <| sep_mono_right <|
        pointsTo_halve I fullShare.right.right.right f

/-- `pointsTo_split5` as one iterated conjunction over the five shares. -/
theorem pointsTo_split5_bigSep {ℓ : Loc nD τ sig} (I : Finset (Idx ℓ)) (f : Buf Val ℓ) :
    (ℓ ↦[I]{fullShare} f : sProp 𝕄') ⊢ bigSep Finset.univ fun k : Fin 5 => (ℓ ↦[I]{q5 k} f : sProp 𝕄') := by
  rw [show (Finset.univ : Finset (Fin 5)) = {0, 1, 2, 3, 4} by decide,
    BI.bigSep_insert (by decide), BI.bigSep_insert (by decide), BI.bigSep_insert (by decide), BI.bigSep_insert (by decide),
    BI.bigSep_singleton]
  exact pointsTo_split5 I f

end Shares

/-! ## The proof data's arrays at entry from the distinct buffers behind them -/

section Fibres

variable {M : Type} [URA M] {I J : Type} [DecidableEq I] [DecidableEq J]

/-- The iterated conjunction over the members of `s` that `f` sends into `T` is, over `T`, that of the conjunctions
    over `f`'s fibres. -/
theorem bigSep_filter_mem (s : Finset I) (f : I → J) (Φ : I → sProp M) (T : Finset J) :
    bigSep (s.filter fun i => f i ∈ T) Φ = bigSep T fun b => bigSep (s.filter fun i => f i = b) Φ := by
  induction T using Finset.induction_on with
  | empty => simp
  | insert b T hb ih =>
    have hd : Disjoint (s.filter fun i => f i = b) (s.filter fun i => f i ∈ T) :=
      Finset.disjoint_filter.mpr fun i _ h hT => hb (h ▸ hT)
    rw [BI.bigSep_insert hb, ← ih, ← BI.bigSep_union hd, ← Finset.filter_or]
    exact congrArg (fun t => bigSep t Φ) (Finset.filter_congr fun i _ => Finset.mem_insert)

/-- An iterated conjunction over `s` is, over the values `f` takes on `s`, that of the conjunctions over `f`'s fibres. -/
theorem bigSep_fiberwise (s : Finset I) (f : I → J) (Φ : I → sProp M) :
    bigSep s Φ = bigSep (s.image f) fun b => bigSep (s.filter fun i => f i = b) Φ := by
  rw [← bigSep_filter_mem s f Φ (s.image f), Finset.filter_true_of_mem fun i hi => Finset.mem_image_of_mem f hi]

end Fibres

section Split

variable {Ix : Type} [DecidableEq Ix] {Name : Type} [DecidableEq Name] {U : Type} [URA U] {Lvl : Type}

local notation "𝕄'" => MT nD τ sig Ix Val Name U Lvl

/-- THE SPLIT, in general: the distinct buffers behind the windows' arrays, each whole at the full share at contents
    `V`, yield the proof data's `arrays` at the same contents (`hF`), every array a whole buffer (`harr`), provided each
    such buffer's full share can be dealt among the windows whose array it is, each at the share the data name
    (`hdeal`). For a buffer behind one window only that is the window holding it at the full share; for a buffer read by
    several input windows it is a split of the full share into the windows' shares. -/
theorem arrays_of_arrBufs (cfg : Cfg sig Λ₀) {c : Dev nD} (dat : Dat τ Val Ix Name U Lvl cfg c)
    (harr : ∀ w, (cfg.spec w).arr.IsWhole)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w))
    (hdeal : ∀ b ∈ Finset.univ.image (arrRef cfg.spec),
      (((c.tc : Thread nD τ).loc b) ↦{fullShare} V b : sProp 𝕄')
        ⊢ bigSep (Finset.univ.filter fun w => arrRef cfg.spec w = b)
            fun w => (((c.tc : Thread nD τ).loc b) ↦{dat.share w} V b : sProp 𝕄')) :
    (arrBufs cfg.spec c V : sProp 𝕄') ⊢ dat.arrays F := by
  unfold arrBufs Dat.arrays
  rw [bigSep_fiberwise Finset.univ (arrRef cfg.spec)
    (fun w => ((cfg.win w).arr.view.loc (c.tc : Thread nD τ) ↦[(cfg.win w).arr.view.set]{dat.share w} F w : sProp 𝕄'))]
  refine BI.bigSep_mono fun b hb => ?_
  refine (hdeal b hb).trans (Entails.of_eq (BI.bigSep_congr fun w hw => ?_))
  obtain rfl := (Finset.mem_filter.mp hw).2
  rw [(harr w).set_eq_univ, hF]

/-- THE SPLIT when the windows in `S` all have ONE array (that of `w₀ ∈ S`, `hS`) and every other window has an array of
    its own, behind no other window (`hown`), held at the full share (`hfull`): it remains to deal the shared buffer's
    full share among the windows of `S` (`hdealS`). -/
theorem arrays_of_arrBufs_shared (cfg : Cfg sig Λ₀) {c : Dev nD} (dat : Dat τ Val Ix Name U Lvl cfg c)
    (harr : ∀ w, (cfg.spec w).arr.IsWhole)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w))
    (S : Finset (Fin cfg.W)) (w₀ : Fin cfg.W) (hw₀ : w₀ ∈ S)
    (hS : ∀ w ∈ S, arrRef cfg.spec w = arrRef cfg.spec w₀)
    (hown : ∀ w, w ∉ S → ∀ w', arrRef cfg.spec w' = arrRef cfg.spec w → w' = w)
    (hfull : ∀ w, w ∉ S → dat.share w = fullShare)
    (hdealS : (((c.tc : Thread nD τ).loc (arrRef cfg.spec w₀)) ↦{fullShare} V (arrRef cfg.spec w₀) : sProp 𝕄')
        ⊢ bigSep S fun w => (((c.tc : Thread nD τ).loc (arrRef cfg.spec w₀)) ↦{dat.share w} V (arrRef cfg.spec w₀) : sProp 𝕄')) :
    (arrBufs cfg.spec c V : sProp 𝕄') ⊢ dat.arrays F := by
  refine arrays_of_arrBufs cfg dat harr V F hF fun b hb => ?_
  obtain ⟨w, -, rfl⟩ := Finset.mem_image.mp hb
  by_cases hw : w ∈ S
  · have hfil : (Finset.univ.filter fun w' => arrRef cfg.spec w' = arrRef cfg.spec w) = S := by
      ext w'
      simp only [Finset.mem_filter, Finset.mem_univ, true_and]
      constructor
      · intro h
        by_contra hn
        exact hn ((hown w' hn w₀ (h.trans (hS w hw)).symm) ▸ hw₀)
      · intro h; rw [hS w' h, hS w hw]
    rw [hfil, hS w hw]; exact hdealS
  · have hfil : (Finset.univ.filter fun w' => arrRef cfg.spec w' = arrRef cfg.spec w) = {w} := by
      ext w'
      simp only [Finset.mem_filter, Finset.mem_univ, true_and, Finset.mem_singleton]
      exact ⟨fun h => hown w hw w' h, fun h => h ▸ rfl⟩
    rw [hfil, BI.bigSep_singleton, hfull w hw]

/-- THE SPLIT when FIVE input windows `ι 0 … ι 4` read one array at the shares `q5` (`hS`, `hq`) and every other window
    has an array of its own, behind no other window (`hown`), held at the full share (`hfull`). -/
theorem arrays_of_arrBufs_five (cfg : Cfg sig Λ₀) {c : Dev nD} (dat : Dat τ Val Ix Name U Lvl cfg c)
    (harr : ∀ w, (cfg.spec w).arr.IsWhole)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w))
    (ι : Fin 5 → Fin cfg.W) (hι : Function.Injective ι)
    (hS : ∀ k, arrRef cfg.spec (ι k) = arrRef cfg.spec (ι 0))
    (hown : ∀ w, (∀ k, ι k ≠ w) → ∀ w', arrRef cfg.spec w' = arrRef cfg.spec w → w' = w)
    (hq : ∀ k, dat.share (ι k) = q5 k)
    (hfull : ∀ w, (∀ k, ι k ≠ w) → dat.share w = fullShare) :
    (arrBufs cfg.spec c V : sProp 𝕄') ⊢ dat.arrays F := by
  refine arrays_of_arrBufs_shared cfg dat harr V F hF (Finset.univ.map ⟨ι, hι⟩) (ι 0)
    (Finset.mem_map.mpr ⟨0, Finset.mem_univ 0, rfl⟩) ?_ ?_ ?_ ?_
  · intro w hw; obtain ⟨k, -, rfl⟩ := Finset.mem_map.mp hw; exact hS k
  · intro w hw; exact hown w fun k hk => hw (Finset.mem_map.mpr ⟨k, Finset.mem_univ k, hk⟩)
  · intro w hw; exact hfull w fun k hk => hw (Finset.mem_map.mpr ⟨k, Finset.mem_univ k, hk⟩)
  · rw [bigSep_map]
    refine (pointsTo_split5_bigSep Finset.univ _).trans (Entails.of_eq (BI.bigSep_congr fun k _ => ?_))
    rw [show (⟨ι, hι⟩ : Fin 5 ↪ Fin cfg.W) k = ι k from rfl, hq]

end Split

end Cert.LibSharedFrame
-- ==== Proof.LibWritesOver.lean ====
/-
  What a run of unmasked stores through rectangles leaves in a buffer, as a function of what the buffer read
  before and of the stores alone — with no covering assumed: an index under some store reads the newest such
  store's payload, an index under none reads what was there.
-/
import Idealize.ShloMosaic.Lib.Pipeline.FrameBody

noncomputable section

namespace Cert.Lib

open Idealize.ShloMosaic

variable {sig : RefSig} {κ : Kind} {sp : Space} {s : Shape} {e : EltTy} {Val : EltTy → Type}

/-- The contents the stores `L` (newest first) leave over earlier contents `X`: each store's payload overlaid on
    its rectangle, oldest first. -/
def over (X : s.Idx → Val e) : List (View.Piece Val s e) → s.Idx → Val e
  | [] => X
  | p :: L => p.1.overlay (over X L) p.2

@[simp] theorem over_nil (X : s.Idx → Val e) : over X ([] : List (View.Piece Val s e)) = X := rfl
theorem over_cons (X : s.Idx → Val e) (p : View.Piece Val s e) (L : List (View.Piece Val s e)) :
    over X (p :: L) = p.1.overlay (over X L) p.2 := rfl

/-- Under the newest store the contents are its payload. -/
theorem over_cons_emb (X : s.Idx → Val e) (r : Rect s) (w : r.shape.Idx → Val e) (L : List (View.Piece Val s e))
    (x : r.shape.Idx) : over X (⟨r, w⟩ :: L) (r.emb x) = w x := by
  rw [over_cons]; exact r.overlay_emb _ _ x

/-- Off the newest store they are what the older stores left. -/
theorem over_cons_of_not_mem (X : s.Idx → Val e) (p : View.Piece Val s e) (L : List (View.Piece Val s e)) {y : s.Idx}
    (h : y ∉ p.1.set) : over X (p :: L) y = over X L y := by
  rw [over_cons]; exact p.1.overlay_of_not_mem _ _ h

/-- A buffer read back after the stores `L` is `over` of what it read before: for any view and earlier contents. -/
theorem read_writes_eq_over (v : View sig κ sp s e) (f : v.ty.Contents Val) :
    ∀ L : List (View.Piece Val s e), v.read Val (v.writes Val f L) = over (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb, over_cons_emb]
    · have hy' : y ∉ Finset.univ.map p.1.emb := by rwa [Rect.map_emb_univ]
      rw [View.writes_cons, View.read_slice_write_of_not_mem p.1 _ _ _ hy', over_cons_of_not_mem _ p L hy,
        read_writes_eq_over v f L]

/-- When the stores cover the buffer, what was there before does not matter. -/
theorem over_eq_of_cover (X X' : s.Idx → Val e) :
    ∀ (L : List (View.Piece Val s e)) (y : s.Idx), (∃ p ∈ L, y ∈ p.1.set) → over X L y = over X' L y
  | [], _, h => by obtain ⟨_, hm, _⟩ := h; exact absurd hm List.not_mem_nil
  | p :: L, y, h => by
    by_cases hy : y ∈ p.1.set
    · obtain ⟨r, w⟩ := p
      obtain ⟨x, rfl⟩ : ∃ x, r.emb x = y := r.exists_idx_of_mem hy
      rw [over_cons_emb, over_cons_emb]
    · have hL : ∃ p' ∈ L, y ∈ p'.1.set := by
        obtain ⟨p', hm, hy'⟩ := h
        rcases List.mem_cons.mp hm with rfl | hm
        · exact absurd hy' hy
        · exact ⟨p', hm, hy'⟩
      rw [over_cons_of_not_mem _ p L hy, over_cons_of_not_mem _ p L hy]
      exact over_eq_of_cover X X' L y hL

/-! ## Stores through unit-stride rectangles, read at an index

A unit-stride rectangle at offsets `off` with extents `size` holds the index `y` exactly when
`off a ≤ y a < off a + size a` on every axis, and `y` is then its position `y − off`. -/

/-- An index at position `x` of the newest store's unit-stride rectangle reads that store's payload at `x`. -/
theorem over_cons_unit_of_mem (X : s.Idx → Val e) {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    over X ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact over_cons_emb X (Rect.unit off size inb) w L x

/-- An index that misses the newest store's unit-stride rectangle on some axis reads what the older stores left. -/
theorem over_cons_unit_of_not_mem (X : s.Idx → Val e) {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    over X ((⟨Rect.unit off size inb, w⟩ : View.Piece Val s e) :: L) y = over X L y := by
  refine over_cons_of_not_mem X _ L ?_
  show y ∉ (Rect.unit off size inb).set
  rw [Rect.mem_set_unit]
  intro hall
  have := hall a
  omega

/-- A newest store through the whole shape (offsets zero, however the zeros are spelt) leaves its payload. -/
theorem over_cons_unit_zero (X : s.Idx → Val e) {off : Fin s.rank → ℕ} (h : off = fun _ => 0)
    (inb : ∀ a, off a + s.size a ≤ s.size a) (w : s.Idx → Val e) (L : List (View.Piece Val s e)) :
    over X ((⟨Rect.unit off s.size inb, w⟩ : View.Piece Val s e) :: L) = w := by
  subst h; funext y
  have e' := over_cons_emb X (Rect.whole s) w L y
  rw [Rect.emb_whole_apply] at e'
  exact e'

/-- Where a load through a unit-stride rectangle reads: position `x` inside it is the index `off + x`. -/
theorem ld_unit_apply (X : s.Idx → Val e) {off size : Fin s.rank → ℕ} (inb : ∀ a, off a + size a ≤ s.size a)
    (x : (Rect.unit off size inb).shape.Idx) (y : s.Idx) (hx : ∀ a, (y a).val = off a + (x a).val) :
    View.ld X (Rect.unit off size inb) x = X y := by
  have hy : (Rect.unit off size inb).idx x = y := funext fun a => Fin.ext (by
    show off a + 1 * (x a).val = (y a).val
    rw [hx a, Nat.one_mul])
  show X ((Rect.unit off size inb).idx x) = X y
  rw [hy]

end Cert.Lib

end
-- ==== Proof.KFrmBase.lean ====
import proofs.«139686_g86887188398715_cont_sun_m_547_23_alg».proof.Proof.Gen.Kernel.Launch
import proofs.«139686_g86887188398715_cont_sun_m_547_23_alg».proof.Proof.Gen.Kernel.Skeleton
import proofs.«139686_g86887188398715_cont_sun_m_547_23_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«139686_g86887188398715_cont_sun_m_547_23_alg».proof.Proof.LibSharedFrame
import proofs.«139686_g86887188398715_cont_sun_m_547_23_alg».proof.Proof.LibWritesOver

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four conditionals of the body, decided over the grid

The grid has 2 × 25 points in row-major order: points 0‥24 are the first phase (the hidden features are built),
points 25‥49 the second (the two results are written). -/

/-- The first conditional of the body: first phase and first row block. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second: first phase. -/
abbrev cond2 (i : grid0.Coords) : Prop := k0_cond2 i = 1#1
/-- The third: second phase and first row block. -/
abbrev cond3 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The fourth: second phase. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-! ## The two result windows: idle through the first phase, written back at every point of the second -/

theorem idle13 : ∀ t : Fin cfg0.N, cfg0.idle 13 (grid0.coords t) = decide (t.val < 25) := by decide +kernel
theorem idle14 : ∀ t : Fin cfg0.N, cfg0.idle 14 (grid0.coords t) = decide (t.val < 25) := by decide +kernel
theorem flush13 : ∀ t : Fin cfg0.N, (cfg0.win 13).flush t = decide (25 ≤ t.val) :=
  (by decide +kernel : ∀ t : Fin grid0.N, win0_13.flush t = decide (25 ≤ t.val))
theorem flush14 : ∀ t : Fin cfg0.N, (cfg0.win 14).flush t = decide (25 ≤ t.val) :=
  (by decide +kernel : ∀ t : Fin grid0.N, win0_14.flush t = decide (25 ≤ t.val))

/-! ## The row offsets of the strips, in closed form

Row block `k = t mod 25` holds rows 400·k ‥ 400·k + 399, cut into five strips of 80 rows. -/
theorem off1_0 : ∀ t : Fin cfg0.N, k0_off1 (grid0.coords t) 0#32 = ![400 * (t.val % 25) + 0, 0] :=
  (by decide +kernel : ∀ t : Fin grid0.N, k0_off1 (grid0.coords t) 0#32 = ![400 * (t.val % 25) + 0, 0])
theorem off2_0 : ∀ t : Fin cfg0.N, k0_off2 (grid0.coords t) 0#32 = ![400 * (t.val % 25) + 0, 0] :=
  (by decide +kernel : ∀ t : Fin grid0.N, k0_off2 (grid0.coords t) 0#32 = ![400 * (t.val % 25) + 0, 0])
theorem off1_80 : ∀ t : Fin cfg0.N, k0_off1 (grid0.coords t) 80#32 = ![400 * (t.val % 25) + 80, 0] :=
  (by decide +kernel : ∀ t : Fin grid0.N, k0_off1 (grid0.coords t) 80#32 = ![400 * (t.val % 25) + 80, 0])
theorem off2_80 : ∀ t : Fin cfg0.N, k0_off2 (grid0.coords t) 80#32 = ![400 * (t.val % 25) + 80, 0] :=
  (by decide +kernel : ∀ t : Fin grid0.N, k0_off2 (grid0.coords t) 80#32 = ![400 * (t.val % 25) + 80, 0])
theorem off1_160 : ∀ t : Fin cfg0.N, k0_off1 (grid0.coords t) 160#32 = ![400 * (t.val % 25) + 160, 0] :=
  (by decide +kernel : ∀ t : Fin grid0.N, k0_off1 (grid0.coords t) 160#32 = ![400 * (t.val % 25) + 160, 0])
theorem off2_160 : ∀ t : Fin cfg0.N, k0_off2 (grid0.coords t) 160#32 = ![400 * (t.val % 25) + 160, 0] :=
  (by decide +kernel : ∀ t : Fin grid0.N, k0_off2 (grid0.coords t) 160#32 = ![400 * (t.val % 25) + 160, 0])
theorem off1_240 : ∀ t : Fin cfg0.N, k0_off1 (grid0.coords t) 240#32 = ![400 * (t.val % 25) + 240, 0] :=
  (by decide +kernel : ∀ t : Fin grid0.N, k0_off1 (grid0.coords t) 240#32 = ![400 * (t.val % 25) + 240, 0])
theorem off2_240 : ∀ t : Fin cfg0.N, k0_off2 (grid0.coords t) 240#32 = ![400 * (t.val % 25) + 240, 0] :=
  (by decide +kernel : ∀ t : Fin grid0.N, k0_off2 (grid0.coords t) 240#32 = ![400 * (t.val % 25) + 240, 0])
theorem off1_320 : ∀ t : Fin cfg0.N, k0_off1 (grid0.coords t) 320#32 = ![400 * (t.val % 25) + 320, 0] :=
  (by decide +kernel : ∀ t : Fin grid0.N, k0_off1 (grid0.coords t) 320#32 = ![400 * (t.val % 25) + 320, 0])
theorem off2_320 : ∀ t : Fin cfg0.N, k0_off2 (grid0.coords t) 320#32 = ![400 * (t.val % 25) + 320, 0] :=
  (by decide +kernel : ∀ t : Fin grid0.N, k0_off2 (grid0.coords t) 320#32 = ![400 * (t.val % 25) + 320, 0])

/-! ## The contents when the region is entered, and the windows' blocks -/

/-- Core `c`'s buffers when the region is entered: after the three reshapes of the bias vectors to rows. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program up to the region: the three reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The staging and scratch memrefs -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
abbrev ms13 (t : Fin cfg0.N) := win0_13.stage (cfg0.slots t 13)
abbrev hs13 (t : Fin cfg0.N) : (ms13 t).IsWhole := hstage0_13 ((cfg0.slots t 13).cast nbuf0_13)
abbrev ms14 (t : Fin cfg0.N) := win0_14.stage (cfg0.slots t 14)
abbrev hs14 (t : Fin cfg0.N) : (ms14 t).IsWhole := hstage0_14 ((cfg0.slots t 14).cast nbuf0_14)
/-- The three scratch buffers: the projected features `x · W1`, the hidden features, and `h · W2`. -/
abbrev scM0 : Memref sig .tc .vmem S10000x64 .f32 := Memref.whole cc0_scratch0
abbrev scM1 : Memref sig .tc .vmem S10000x64 .f32 := Memref.whole cc0_scratch1
abbrev scM2 : Memref sig .tc .vmem S10000x40 .f32 := Memref.whole cc0_scratch2

/-- The class invariant with the scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the kernel carries between points, as functions of the arrays

Everything is stated through the body's own arithmetic (the payload terms of its stores), at any float instance:
the projected features, one 80-row strip of hidden features, the hidden features as a whole array (row r lies in
strip `r / 80`, at position `r mod 80`), their projection, and one 400-row block of each result. -/

/-- Index (r mod n, q) of an `[n, d]` array. -/
def ixm {n d : ℕ} (hn : 0 < n) (r : ℕ) (q : Fin d) : (⟨2, ![n, d]⟩ : Shape).Idx := ValueIdx.ix2 ⟨r % n, Nat.mod_lt _ hn⟩ q

/-- The arrays as the region finds them. -/
abbrev aX (c : Dev nD) : Vec F S10000x128 .f32 := V m c main_arg0
abbrev aAdj (c : Dev nD) : Vec F S10000x10000 .f32 := V m c main_arg1
abbrev aAtt (c : Dev nD) : Vec F S10000x16 .f32 := V m c main_arg2
abbrev aW1 (c : Dev nD) : Vec F S128x64 .f32 := V m c main_arg3
abbrev aB1 (c : Dev nD) : Vec F S1x64 .f32 := V m c main_v0
abbrev aW2 (c : Dev nD) : Vec F S64x40 .f32 := V m c main_arg5
abbrev aB2 (c : Dev nD) : Vec F S1x40 .f32 := V m c main_v1
abbrev aWe (c : Dev nD) : Vec F S16x64 .f32 := V m c main_arg7
abbrev aBe (c : Dev nD) : Vec F S1x16 .f32 := V m c main_v2

/-- Strip `k` of the adjacency matrix: its rows 80·k ‥ 80·k + 79. -/
def adjStrip (c : Dev nD) (k : ℕ) : Vec F S80x10000 .f32 := fun y => aAdj m c (ixm (by decide) (80 * k + (y 0).val) (y 1))

/-- The projected features `x · W1`, as the first point stores them. -/
def S1f (c : Dev nD) : Vec F S10000x64 .f32 := k0_pay1 (aX m c) (aW1 m c)

/-- One strip of hidden features from a strip of the adjacency matrix: the body's `j`-th store of the first phase. -/
def hStrip (j : ℕ) (a : Vec F S80x10000 .f32) (s : Vec F S10000x64 .f32) (b : Vec F S1x64 .f32) : Vec F S80x64 .f32 :=
  if j = 0 then k0_pay6 a s b else if j = 1 then k0_pay7 a s b else if j = 2 then k0_pay8 a s b
  else if j = 3 then k0_pay9 a s b else k0_pay2 (k0_pay10 a s) (k0_pay11 b)

/-- The hidden features: row r is row `r mod 80` of the strip computed from strip `r / 80` of the adjacency matrix. -/
def Hf (c : Dev nD) : Vec F S10000x64 .f32 := fun y =>
  hStrip (((y 0).val % 400) / 80) (adjStrip m c ((y 0).val / 80)) (S1f m c) (aB1 m c) (ixm (by decide) (y 0).val (y 1))

/-- Their projection `h · W2`, as the first point of the second phase stores it. -/
def S2f (c : Dev nD) : Vec F S10000x40 .f32 := k0_pay3 (Hf m c) (aW2 m c)

/-- One strip of the first result: the body's `j`-th store of it. -/
def oStrip (j : ℕ) (a : Vec F S80x10000 .f32) (s : Vec F S10000x40 .f32) (b : Vec F S1x40 .f32) : Vec F S80x40 .f32 :=
  if j = 0 then k0_pay12 a s b else if j = 1 then k0_pay14 a s b else if j = 2 then k0_pay16 a s b
  else if j = 3 then k0_pay18 a s b else k0_pay4 a s b

/-- One strip of the second result. -/
def yStrip (j : ℕ) (hh : Vec F S80x64 .f32) (we : Vec F S16x64 .f32) (be : Vec F S1x16 .f32) (at' : Vec F S80x16 .f32) : Vec F S80x16 .f32 :=
  if j = 0 then k0_pay13 hh we be at' else if j = 1 then k0_pay15 hh we be at' else if j = 2 then k0_pay17 hh we be at'
  else if j = 3 then k0_pay19 hh we be at' else k0_pay5 hh we be at'

/-- Rows r0 ‥ r0 + 79 of the hidden features, and of the attention array. -/
def hRows (c : Dev nD) (r0 : ℕ) : Vec F S80x64 .f32 := fun y => Hf m c (ixm (by decide) (r0 + (y 0).val) (y 1))
def attRows (c : Dev nD) (r0 : ℕ) : Vec F S80x16 .f32 := fun y => aAtt m c (ixm (by decide) (r0 + (y 0).val) (y 1))

/-- Row block `k` of the first result: row r of it lies in strip `r / 80`. -/
def O13f (c : Dev nD) (k : ℕ) : Vec F S400x40 .f32 := fun y =>
  oStrip ((y 0).val / 80) (adjStrip m c (5 * k + (y 0).val / 80)) (S2f m c) (aB2 m c) (ixm (by decide) (y 0).val (y 1))

/-- Row block `k` of the second result. -/
def O14f (c : Dev nD) (k : ℕ) : Vec F S400x16 .f32 := fun y =>
  yStrip ((y 0).val / 80) (hRows m c (400 * k + 80 * ((y 0).val / 80))) (aWe m c) (aBe m c)
    (attRows m c (400 * k + 80 * ((y 0).val / 80))) (ixm (by decide) (y 0).val (y 1))

/-! ## The invariant between points -/

/-- Before point `n`: before the first point the scratch buffers hold anything; through the first phase the projected
    features are in place and the hidden features agree with `Hf` on the rows below 400·n; from the end of the first
    phase on the hidden features are whole, and after the first point of the second phase their projection is in place. -/
def PhiT (c : Dev nD) (n : ℕ) : sProp 𝕄 :=
  if n = 0 then Pipeline.ΦA spec0 c
  else if n ≤ 25 then
    iprop(iprop(owns (c : Thread nD τ) scM0 fullShare (S1f m c)
      ∗ (∃ h : Vec F S10000x64 .f32, ⌜∀ y : S10000x64.Idx, (y 0).val < 400 * n → h y = Hf m c y⌝ ∗ owns (c : Thread nD τ) scM1 fullShare h)
      ∗ (∃ d, owns (c : Thread nD τ) scM2 fullShare d)) ∗ (∃ r, prngReg c r))
  else
    iprop(iprop(owns (c : Thread nD τ) scM0 fullShare (S1f m c) ∗ owns (c : Thread nD τ) scM1 fullShare (Hf m c)
      ∗ owns (c : Thread nD τ) scM2 fullShare (S2f m c)) ∗ (∃ r, prngReg c r))

/-! ## The proof data -/

/-- The adjacency matrix is read through five windows: its full share is dealt among them. -/
def qAdj : Fin 5 → PosShare TreeShare := Cert.LibSharedFrame.q5

/-- The proof data of the pipeline on core `c`: the arrays as the region finds them; after the body each input's
    buffer at its block and, at a point of the second phase, the results' buffers at that point's row block; the
    invariant `PhiT`; nothing owed; the adjacency matrix's share dealt among its five windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => O13f m c (t.val - 25)
    | ⟨14, _⟩ => O14f m c (t.val - 25)
  Φ t := PhiT m c t.val
  q w := match w with
    | ⟨0, _⟩ => qAdj 0
    | ⟨1, _⟩ => qAdj 1
    | ⟨2, _⟩ => qAdj 2
    | ⟨3, _⟩ => qAdj 3
    | ⟨4, _⟩ => qAdj 4
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = O13f m c (t.val - 25) := by dsimp only [dats]
theorem after14 (c : Dev nD) (t : Fin cfg0.N) : (dats m 0 c).after 14 t = O14f m c (t.val - 25) := by dsimp only [dats]

/-- Each input's current staging buffer holds its block at every point, fetched there or not: an input that is not
    fetched has not moved, and the body leaves every input's block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)

end Cert.Kernel.Frm

end
-- ==== Proof.KFrmRunA.lean ====
import proofs.«139686_g86887188398715_cont_sun_m_547_23_alg».proof.Proof.KFrmBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The body on any whole staging and scratch memrefs at contents `x·`, in the case of its conditionals the hypotheses
    name: it runs, without fault, to the continuation holding every buffer it only reads as it was and every buffer it
    stores into with its stores written over what it held — the stores found by running the body. -/
noncomputable def runA (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole)
    (hc1 : cond1 i) (hc2 : cond2 i) (hc3 : ¬cond3 i) (hc4 : ¬cond4 i)
    (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Σ' (L17 : List (View.Piece (Elt F) S10000x64 .f32)), { L18 : List (View.Piece (Elt F) S10000x64 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ owns (c : Thread nD τ) arg19 fullShare x19) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0__fused_eq_skeleton]; unfold cc0__fused_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexact H17
    isplitl [H18]
    · iexact H18
    · iexists _; isplitr; · ipureintro; exact harg19.read_unread _
      iexact H19

end Cert.Kernel.Frm

end
-- ==== Proof.KFrmRunB.lean ====
import proofs.«139686_g86887188398715_cont_sun_m_547_23_alg».proof.Proof.KFrmBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The body on any whole staging and scratch memrefs at contents `x·`, in the case of its conditionals the hypotheses
    name: it runs, without fault, to the continuation holding every buffer it only reads as it was and every buffer it
    stores into with its stores written over what it held — the stores found by running the body. -/
noncomputable def runB (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole)
    (hc1 : ¬cond1 i) (hc2 : cond2 i) (hc3 : ¬cond3 i) (hc4 : ¬cond4 i)
    (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    { L18 : List (View.Piece (Elt F) S10000x64 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (arg18.view.loc (c : Thread nD τ) ↦[arg18.view.set]{fullShare} arg18.view.writes (Elt F) (harg18.unread x18) L18) ∗ owns (c : Thread nD τ) arg19 fullShare x19) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0__fused_eq_skeleton]; unfold cc0__fused_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexact H18
    · iexists _; isplitr; · ipureintro; exact harg19.read_unread _
      iexact H19

end Cert.Kernel.Frm

end
-- ==== Proof.KFrmRunC.lean ====
import proofs.«139686_g86887188398715_cont_sun_m_547_23_alg».proof.Proof.KFrmBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The body on any whole staging and scratch memrefs at contents `x·`, in the case of its conditionals the hypotheses
    name: it runs, without fault, to the continuation holding every buffer it only reads as it was and every buffer it
    stores into with its stores written over what it held — the stores found by running the body. -/
noncomputable def runC (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole)
    (hc1 : ¬cond1 i) (hc2 : ¬cond2 i) (hc3 : cond3 i) (hc4 : cond4 i)
    (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Σ' (L15 : List (View.Piece (Elt F) S400x40 .f32)), Σ' (L16 : List (View.Piece (Elt F) S400x16 .f32)), { L19 : List (View.Piece (Elt F) S10000x40 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ owns (c : Thread nD τ) arg17 fullShare x17 ∗ owns (c : Thread nD τ) arg18 fullShare x18 ∗ (arg19.view.loc (c : Thread nD τ) ↦[arg19.view.set]{fullShare} arg19.view.writes (Elt F) (harg19.unread x19) L19)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__fused_eq_skeleton]; unfold cc0__fused_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexact H15
    isplitl [H16]
    · iexact H16
    isplitl [H17]
    · iexists _; isplitr; · ipureintro; exact harg17.read_unread _
      iexact H17
    isplitl [H18]
    · iexists _; isplitr; · ipureintro; exact harg18.read_unread _
      iexact H18
    · iexact H19

end Cert.Kernel.Frm

end
-- ==== Proof.KFrmRunD.lean ====
import proofs.«139686_g86887188398715_cont_sun_m_547_23_alg».proof.Proof.KFrmBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The body on any whole staging and scratch memrefs at contents `x·`, in the case of its conditionals the hypotheses
    name: it runs, without fault, to the continuation holding every buffer it only reads as it was and every buffer it
    stores into with its stores written over what it held — the stores found by running the body. -/
noncomputable def runD (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole)
    (hc1 : ¬cond1 i) (hc2 : ¬cond2 i) (hc3 : ¬cond3 i) (hc4 : cond4 i)
    (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Σ' (L15 : List (View.Piece (Elt F) S400x40 .f32)), { L16 : List (View.Piece (Elt F) S400x16 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ owns (c : Thread nD τ) arg17 fullShare x17 ∗ owns (c : Thread nD τ) arg18 fullShare x18 ∗ owns (c : Thread nD τ) arg19 fullShare x19) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0__fused_eq_skeleton]; unfold cc0__fused_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexact H15
    isplitl [H16]
    · iexact H16
    isplitl [H17]
    · iexists _; isplitr; · ipureintro; exact harg17.read_unread _
      iexact H17
    isplitl [H18]
    · iexists _; isplitr; · ipureintro; exact harg18.read_unread _
      iexact H18
    · iexists _; isplitr; · ipureintro; exact harg19.read_unread _
      iexact H19

end Cert.Kernel.Frm

end
-- ==== Proof.KFrmSel.lean ====
import proofs.«139686_g86887188398715_cont_sun_m_547_23_alg».proof.Proof.KFrmBase
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One of five things, by position. -/
def sel5 {α : Sort _} (j : ℕ) (a0 a1 a2 a3 a4 : α) : α :=
  if j = 0 then a0 else if j = 1 then a1 else if j = 2 then a2 else if j = 3 then a3 else a4

theorem hz2 : (![0, 0] : Fin 2 → Nat) = fun _ => 0 := funext fun a => by fin_cases a <;> rfl

/-- A load of a whole buffer through the rectangle at the origin of the buffer's own size reads its contents. -/
theorem readAt_whole {S : Shape} (arg : Memref sig .tc .vmem S .f32) (harg : arg.IsWhole) (off : Fin S.rank → ℕ) (h : off = fun _ => 0)
    (inb : ∀ a, off a + S.size a ≤ S.size a) (x : Vec F S .f32) :
    View.readAt (Elt F) arg.view (Rect.unit (s := S) off S.size inb).toLoadRect (harg.unread x) = x := by
  rw [View.readAt_eq_ld, harg.read_unread]; exact View.ld_unit_zero h inb x

/-- A load of a slice of a whole buffer reads its contents through the slice. -/
theorem readAt_slice {S : Shape} (arg : Memref sig .tc .vmem S .f32) (harg : arg.IsWhole) (r : Rect S) (x : Vec F S .f32) :
    View.readAt (Elt F) arg.view r.toLoadRect (harg.unread x) = View.ld x r := by
  rw [View.readAt_eq_ld, harg.read_unread]

end Cert.Kernel.Frm

end
-- ==== Proof.KFrmPiecesB.lean ====
import proofs.«139686_g86887188398715_cont_sun_m_547_23_alg».proof.Proof.KFrmRunB
import proofs.«139686_g86887188398715_cont_sun_m_547_23_alg».proof.Proof.KFrmSel
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What a point of the first phase (not the first point) stores into the hidden-feature scratch

Five strips of 80 rows, at rows 400·k + 80·j of the scratch (k the point's row block): an index outside them keeps what
the scratch held; an index inside strip j holds that strip's payload at the position inside the strip. -/

set_option maxHeartbeats 4000000 in
theorem runB_h_off (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx)
    (hy : (y 0).val < 400 * (t.val % 25) ∨ 400 * (t.val % 25) + 400 ≤ (y 0).val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = x18 y := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  rw [Cert.Lib.over_cons_unit_of_not_mem _ _ _ _ y 0 (by rw [off1_80 t]; show (y 0).val < 400 * (t.val % 25) + 80 ∨ 400 * (t.val % 25) + 80 + 80 ≤ (y 0).val; omega)]
  rw [Cert.Lib.over_cons_unit_of_not_mem _ _ _ _ y 0 (by rw [off1_0 t]; show (y 0).val < 400 * (t.val % 25) + 0 ∨ 400 * (t.val % 25) + 0 + 80 ≤ (y 0).val; omega)]
  rfl

set_option maxHeartbeats 4000000 in
theorem runB_h_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 0 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay6 x2 x17 x9 (ValueIdx.ix2 r q) := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  rw [Cert.Lib.over_cons_unit_of_not_mem _ _ _ _ y 0 (by rw [off1_80 t]; show (y 0).val < 400 * (t.val % 25) + 80 ∨ 400 * (t.val % 25) + 80 + 80 ≤ (y 0).val; omega)]
  refine (Cert.Lib.over_cons_unit_of_mem _ _ _ _ y (ValueIdx.ix2 r q) (fun a => ?_)).trans ?_
  · have e0 : k0_off1 (grid0.coords t) 0#32 0 = 400 * (t.val % 25) + 0 := by rw [off1_0 t]; rfl
    have e1 : k0_off1 (grid0.coords t) 0#32 1 = 0 := by rw [off1_0 t]; rfl
    fin_cases a
    · show (y 0).val = k0_off1 (grid0.coords t) 0#32 0 + r.val; omega
    · show (y 1).val = k0_off1 (grid0.coords t) 0#32 1 + q.val; omega
  · rw [readAt_whole arg2 harg2 _ hz2, readAt_whole arg17 harg17 _ hz2, readAt_whole arg9 harg9 _ hz2]

set_option maxHeartbeats 4000000 in
theorem runB_h_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 80 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay7 x3 x17 x9 (ValueIdx.ix2 r q) := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  refine (Cert.Lib.over_cons_unit_of_mem _ _ _ _ y (ValueIdx.ix2 r q) (fun a => ?_)).trans ?_
  · have e0 : k0_off1 (grid0.coords t) 80#32 0 = 400 * (t.val % 25) + 80 := by rw [off1_80 t]; rfl
    have e1 : k0_off1 (grid0.coords t) 80#32 1 = 0 := by rw [off1_80 t]; rfl
    fin_cases a
    · show (y 0).val = k0_off1 (grid0.coords t) 80#32 0 + r.val; omega
    · show (y 1).val = k0_off1 (grid0.coords t) 80#32 1 + q.val; omega
  · rw [readAt_whole arg3 harg3 _ hz2, readAt_whole arg17 harg17 _ hz2, readAt_whole arg9 harg9 _ hz2]

set_option maxHeartbeats 4000000 in
theorem runB_h_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 160 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay8 x4 x17 x9 (ValueIdx.ix2 r q) := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  refine (Cert.Lib.over_cons_unit_of_mem _ _ _ _ y (ValueIdx.ix2 r q) (fun a => ?_)).trans ?_
  · have e0 : k0_off1 (grid0.coords t) 160#32 0 = 400 * (t.val % 25) + 160 := by rw [off1_160 t]; rfl
    have e1 : k0_off1 (grid0.coords t) 160#32 1 = 0 := by rw [off1_160 t]; rfl
    fin_cases a
    · show (y 0).val = k0_off1 (grid0.coords t) 160#32 0 + r.val; omega
    · show (y 1).val = k0_off1 (grid0.coords t) 160#32 1 + q.val; omega
  · rw [readAt_whole arg4 harg4 _ hz2, readAt_whole arg17 harg17 _ hz2, readAt_whole arg9 harg9 _ hz2]

set_option maxHeartbeats 4000000 in
theorem runB_h_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 240 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay9 x5 x17 x9 (ValueIdx.ix2 r q) := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  refine (Cert.Lib.over_cons_unit_of_mem _ _ _ _ y (ValueIdx.ix2 r q) (fun a => ?_)).trans ?_
  · have e0 : k0_off1 (grid0.coords t) 240#32 0 = 400 * (t.val % 25) + 240 := by rw [off1_240 t]; rfl
    have e1 : k0_off1 (grid0.coords t) 240#32 1 = 0 := by rw [off1_240 t]; rfl
    fin_cases a
    · show (y 0).val = k0_off1 (grid0.coords t) 240#32 0 + r.val; omega
    · show (y 1).val = k0_off1 (grid0.coords t) 240#32 1 + q.val; omega
  · rw [readAt_whole arg5 harg5 _ hz2, readAt_whole arg17 harg17 _ hz2, readAt_whole arg9 harg9 _ hz2]

set_option maxHeartbeats 4000000 in
theorem runB_h_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 320 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay2 (k0_pay10 x6 x17) (k0_pay11 x9) (ValueIdx.ix2 r q) := by
  unfold runB; dsimp only; sl_unfold_run_names
  refine (Cert.Lib.over_cons_unit_of_mem _ _ _ _ y (ValueIdx.ix2 r q) (fun a => ?_)).trans ?_
  · have e0 : k0_off1 (grid0.coords t) 320#32 0 = 400 * (t.val % 25) + 320 := by rw [off1_320 t]; rfl
    have e1 : k0_off1 (grid0.coords t) 320#32 1 = 0 := by rw [off1_320 t]; rfl
    fin_cases a
    · show (y 0).val = k0_off1 (grid0.coords t) 320#32 0 + r.val; omega
    · show (y 1).val = k0_off1 (grid0.coords t) 320#32 1 + q.val; omega
  · rw [readAt_whole arg6 harg6 _ hz2, readAt_whole arg17 harg17 _ hz2, readAt_whole arg9 harg9 _ hz2]

end Cert.Kernel.Frm

end
-- ==== Proof.KFrmBlocks.lean ====
import proofs.«139686_g86887188398715_cont_sun_m_547_23_alg».proof.Proof.KFrmBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-! # Each window's block, read off its array

The grid has 2 × 25 points `t` in row-major order (phase `t / 25`, row block `t mod 25`). A block's coordinate along an
axis is always (block index) × (block size) + (coordinate inside the block); so once the block indices are known in
closed form over the grid, the block read at `y` is the array at an explicit index.

* Inputs 0‥4 cut the adjacency matrix into strips of 80 rows: input `j` at point `t` sits at block row
  `5·(t mod 25) + j`, which is strip `5·(t mod 25) + j` (its last row, 80·124 + 79, is below 10000).
* Inputs 5‥11 are whole arrays: the only block is the array itself.
* Input 12 cuts the attention array into blocks of 400 rows, at block row `(t mod 25)·(t / 25)`: through the second
  phase that is `t − 25`. -/

/-! ## The block indices, decided over the grid -/
theorem idx0 : ∀ t : Fin cfg0.N, win0_0.index t (0 : Fin 2) = 5 * (t.val % 25) + 0 ∧ win0_0.index t (1 : Fin 2) = 0 :=
  (by decide +kernel : ∀ t : Fin grid0.N, win0_0.index t (0 : Fin 2) = 5 * (t.val % 25) + 0 ∧ win0_0.index t (1 : Fin 2) = 0)
theorem idx1 : ∀ t : Fin cfg0.N, win0_1.index t (0 : Fin 2) = 5 * (t.val % 25) + 1 ∧ win0_1.index t (1 : Fin 2) = 0 :=
  (by decide +kernel : ∀ t : Fin grid0.N, win0_1.index t (0 : Fin 2) = 5 * (t.val % 25) + 1 ∧ win0_1.index t (1 : Fin 2) = 0)
theorem idx2 : ∀ t : Fin cfg0.N, win0_2.index t (0 : Fin 2) = 5 * (t.val % 25) + 2 ∧ win0_2.index t (1 : Fin 2) = 0 :=
  (by decide +kernel : ∀ t : Fin grid0.N, win0_2.index t (0 : Fin 2) = 5 * (t.val % 25) + 2 ∧ win0_2.index t (1 : Fin 2) = 0)
theorem idx3 : ∀ t : Fin cfg0.N, win0_3.index t (0 : Fin 2) = 5 * (t.val % 25) + 3 ∧ win0_3.index t (1 : Fin 2) = 0 :=
  (by decide +kernel : ∀ t : Fin grid0.N, win0_3.index t (0 : Fin 2) = 5 * (t.val % 25) + 3 ∧ win0_3.index t (1 : Fin 2) = 0)
theorem idx4 : ∀ t : Fin cfg0.N, win0_4.index t (0 : Fin 2) = 5 * (t.val % 25) + 4 ∧ win0_4.index t (1 : Fin 2) = 0 :=
  (by decide +kernel : ∀ t : Fin grid0.N, win0_4.index t (0 : Fin 2) = 5 * (t.val % 25) + 4 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = (t.val % 25) * (t.val / 25) ∧ win0_12.index t (1 : Fin 2) = 0 :=
  (by decide +kernel : ∀ t : Fin grid0.N, win0_12.index t (0 : Fin 2) = (t.val % 25) * (t.val / 25) ∧ win0_12.index t (1 : Fin 2) = 0)

/-! ## The strips of the adjacency matrix -/

/-- Input 0's block at point `t` is strip `5·(t mod 25) + 0` of the adjacency matrix. -/
theorem iblk0 (c : Dev nD) (t : Fin cfg0.N) : iblk m c 0 t = adjStrip m c (5 * (t.val % 25) + 0) := by
  funext y
  unfold iblk adjStrip
  show V m c main_arg1 (((cfg0.win 0).blk t).view.emb y) = V m c main_arg1 _
  obtain ⟨e0, e1⟩ := idx0 t
  have ht : t.val % 25 < 25 := Nat.mod_lt _ (by decide)
  congr 1
  funext a; apply Fin.ext
  match a with
  | ⟨0, _⟩ =>
    show win0_0.index t (0 : Fin 2) * 80 + 1 * (y 0).val = (80 * (5 * (t.val % 25) + 0) + (y 0).val) % 10000
    have hy : (y 0).val < 80 := (y 0).isLt
    omega
  | ⟨1, _⟩ =>
    show win0_0.index t (1 : Fin 2) * 10000 + 1 * (y 1).val = (y 1).val
    omega

/-- Input 1's block at point `t` is strip `5·(t mod 25) + 1` of the adjacency matrix. -/
theorem iblk1 (c : Dev nD) (t : Fin cfg0.N) : iblk m c 1 t = adjStrip m c (5 * (t.val % 25) + 1) := by
  funext y
  unfold iblk adjStrip
  show V m c main_arg1 (((cfg0.win 1).blk t).view.emb y) = V m c main_arg1 _
  obtain ⟨e0, e1⟩ := idx1 t
  have ht : t.val % 25 < 25 := Nat.mod_lt _ (by decide)
  congr 1
  funext a; apply Fin.ext
  match a with
  | ⟨0, _⟩ =>
    show win0_1.index t (0 : Fin 2) * 80 + 1 * (y 0).val = (80 * (5 * (t.val % 25) + 1) + (y 0).val) % 10000
    have hy : (y 0).val < 80 := (y 0).isLt
    omega
  | ⟨1, _⟩ =>
    show win0_1.index t (1 : Fin 2) * 10000 + 1 * (y 1).val = (y 1).val
    omega

/-- Input 2's block at point `t` is strip `5·(t mod 25) + 2` of the adjacency matrix. -/
theorem iblk2 (c : Dev nD) (t : Fin cfg0.N) : iblk m c 2 t = adjStrip m c (5 * (t.val % 25) + 2) := by
  funext y
  unfold iblk adjStrip
  show V m c main_arg1 (((cfg0.win 2).blk t).view.emb y) = V m c main_arg1 _
  obtain ⟨e0, e1⟩ := idx2 t
  have ht : t.val % 25 < 25 := Nat.mod_lt _ (by decide)
  congr 1
  funext a; apply Fin.ext
  match a with
  | ⟨0, _⟩ =>
    show win0_2.index t (0 : Fin 2) * 80 + 1 * (y 0).val = (80 * (5 * (t.val % 25) + 2) + (y 0).val) % 10000
    have hy : (y 0).val < 80 := (y 0).isLt
    omega
  | ⟨1, _⟩ =>
    show win0_2.index t (1 : Fin 2) * 10000 + 1 * (y 1).val = (y 1).val
    omega

/-- Input 3's block at point `t` is strip `5·(t mod 25) + 3` of the adjacency matrix. -/
theorem iblk3 (c : Dev nD) (t : Fin cfg0.N) : iblk m c 3 t = adjStrip m c (5 * (t.val % 25) + 3) := by
  funext y
  unfold iblk adjStrip
  show V m c main_arg1 (((cfg0.win 3).blk t).view.emb y) = V m c main_arg1 _
  obtain ⟨e0, e1⟩ := idx3 t
  have ht : t.val % 25 < 25 := Nat.mod_lt _ (by decide)
  congr 1
  funext a; apply Fin.ext
  match a with
  | ⟨0, _⟩ =>
    show win0_3.index t (0 : Fin 2) * 80 + 1 * (y 0).val = (80 * (5 * (t.val % 25) + 3) + (y 0).val) % 10000
    have hy : (y 0).val < 80 := (y 0).isLt
    omega
  | ⟨1, _⟩ =>
    show win0_3.index t (1 : Fin 2) * 10000 + 1 * (y 1).val = (y 1).val
    omega

/-- Input 4's block at point `t` is strip `5·(t mod 25) + 4` of the adjacency matrix. -/
theorem iblk4 (c : Dev nD) (t : Fin cfg0.N) : iblk m c 4 t = adjStrip m c (5 * (t.val % 25) + 4) := by
  funext y
  unfold iblk adjStrip
  show V m c main_arg1 (((cfg0.win 4).blk t).view.emb y) = V m c main_arg1 _
  obtain ⟨e0, e1⟩ := idx4 t
  have ht : t.val % 25 < 25 := Nat.mod_lt _ (by decide)
  congr 1
  funext a; apply Fin.ext
  match a with
  | ⟨0, _⟩ =>
    show win0_4.index t (0 : Fin 2) * 80 + 1 * (y 0).val = (80 * (5 * (t.val % 25) + 4) + (y 0).val) % 10000
    have hy : (y 0).val < 80 := (y 0).isLt
    omega
  | ⟨1, _⟩ =>
    show win0_4.index t (1 : Fin 2) * 10000 + 1 * (y 1).val = (y 1).val
    omega

/-! ## The whole arrays -/

/-- Input 5's block is the feature array, whole, at every point. -/
theorem iblk5 (c : Dev nD) (t : Fin cfg0.N) : iblk m c 5 t = aX m c := by
  funext y
  unfold iblk
  show V m c main_arg0 (((cfg0.win 5).blk t).view.emb y) = V m c main_arg0 y
  obtain ⟨e0, e1⟩ := idx5 t
  congr 1
  funext a; apply Fin.ext
  match a with
  | ⟨0, _⟩ =>
    show win0_5.index t (0 : Fin 2) * 10000 + 1 * (y 0).val = (y 0).val
    omega
  | ⟨1, _⟩ =>
    show win0_5.index t (1 : Fin 2) * 128 + 1 * (y 1).val = (y 1).val
    omega

/-- Input 6's block is the first weight matrix, whole, at every point. -/
theorem iblk6 (c : Dev nD) (t : Fin cfg0.N) : iblk m c 6 t = aW1 m c := by
  funext y
  unfold iblk
  show V m c main_arg3 (((cfg0.win 6).blk t).view.emb y) = V m c main_arg3 y
  obtain ⟨e0, e1⟩ := idx6 t
  congr 1
  funext a; apply Fin.ext
  match a with
  | ⟨0, _⟩ =>
    show win0_6.index t (0 : Fin 2) * 128 + 1 * (y 0).val = (y 0).val
    omega
  | ⟨1, _⟩ =>
    show win0_6.index t (1 : Fin 2) * 64 + 1 * (y 1).val = (y 1).val
    omega

/-- Input 7's block is the first bias row, whole, at every point. -/
theorem iblk7 (c : Dev nD) (t : Fin cfg0.N) : iblk m c 7 t = aB1 m c := by
  funext y
  unfold iblk
  show V m c main_v0 (((cfg0.win 7).blk t).view.emb y) = V m c main_v0 y
  obtain ⟨e0, e1⟩ := idx7 t
  congr 1
  funext a; apply Fin.ext
  match a with
  | ⟨0, _⟩ =>
    show win0_7.index t (0 : Fin 2) * 1 + 1 * (y 0).val = (y 0).val
    omega
  | ⟨1, _⟩ =>
    show win0_7.index t (1 : Fin 2) * 64 + 1 * (y 1).val = (y 1).val
    omega

/-- Input 8's block is the second weight matrix, whole, at every point. -/
theorem iblk8 (c : Dev nD) (t : Fin cfg0.N) : iblk m c 8 t = aW2 m c := by
  funext y
  unfold iblk
  show V m c main_arg5 (((cfg0.win 8).blk t).view.emb y) = V m c main_arg5 y
  obtain ⟨e0, e1⟩ := idx8 t
  congr 1
  funext a; apply Fin.ext
  match a with
  | ⟨0, _⟩ =>
    show win0_8.index t (0 : Fin 2) * 64 + 1 * (y 0).val = (y 0).val
    omega
  | ⟨1, _⟩ =>
    show win0_8.index t (1 : Fin 2) * 40 + 1 * (y 1).val = (y 1).val
    omega

/-- Input 9's block is the second bias row, whole, at every point. -/
theorem iblk9 (c : Dev nD) (t : Fin cfg0.N) : iblk m c 9 t = aB2 m c := by
  funext y
  unfold iblk
  show V m c main_v1 (((cfg0.win 9).blk t).view.emb y) = V m c main_v1 y
  obtain ⟨e0, e1⟩ := idx9 t
  congr 1
  funext a; apply Fin.ext
  match a with
  | ⟨0, _⟩ =>
    show win0_9.index t (0 : Fin 2) * 1 + 1 * (y 0).val = (y 0).val
    omega
  | ⟨1, _⟩ =>
    show win0_9.index t (1 : Fin 2) * 40 + 1 * (y 1).val = (y 1).val
    omega

/-- Input 10's block is the third weight matrix, whole, at every point. -/
theorem iblk10 (c : Dev nD) (t : Fin cfg0.N) : iblk m c 10 t = aWe m c := by
  funext y
  unfold iblk
  show V m c main_arg7 (((cfg0.win 10).blk t).view.emb y) = V m c main_arg7 y
  obtain ⟨e0, e1⟩ := idx10 t
  congr 1
  funext a; apply Fin.ext
  match a with
  | ⟨0, _⟩ =>
    show win0_10.index t (0 : Fin 2) * 16 + 1 * (y 0).val = (y 0).val
    omega
  | ⟨1, _⟩ =>
    show win0_10.index t (1 : Fin 2) * 64 + 1 * (y 1).val = (y 1).val
    omega

/-- Input 11's block is the third bias row, whole, at every point. -/
theorem iblk11 (c : Dev nD) (t : Fin cfg0.N) : iblk m c 11 t = aBe m c := by
  funext y
  unfold iblk
  show V m c main_v2 (((cfg0.win 11).blk t).view.emb y) = V m c main_v2 y
  obtain ⟨e0, e1⟩ := idx11 t
  congr 1
  funext a; apply Fin.ext
  match a with
  | ⟨0, _⟩ =>
    show win0_11.index t (0 : Fin 2) * 1 + 1 * (y 0).val = (y 0).val
    omega
  | ⟨1, _⟩ =>
    show win0_11.index t (1 : Fin 2) * 16 + 1 * (y 1).val = (y 1).val
    omega

/-! ## The blocks of the attention array -/

/-- Through the second phase input 12's block at point `t` is rows 400·(t − 25) ‥ 400·(t − 25) + 399 of the attention array. -/
theorem iblk12 (c : Dev nD) (t : Fin cfg0.N) (ht : 25 ≤ t.val) :
    iblk m c 12 t = fun y : S400x16.Idx => aAtt m c (ixm (by decide) (400 * (t.val - 25) + (y 0).val) (y 1)) := by
  funext y
  unfold iblk
  show V m c main_arg2 (((cfg0.win 12).blk t).view.emb y) = V m c main_arg2 _
  obtain ⟨e0, e1⟩ := idx12 t
  have ht' : t.val < 50 := t.isLt
  have hd : t.val / 25 = 1 := by omega
  have hm : t.val % 25 = t.val - 25 := by omega
  rw [hd, hm, Nat.mul_one] at e0
  congr 1
  funext a; apply Fin.ext
  match a with
  | ⟨0, _⟩ =>
    show win0_12.index t (0 : Fin 2) * 400 + 1 * (y 0).val = (400 * (t.val - 25) + (y 0).val) % 10000
    have hy : (y 0).val < 400 := (y 0).isLt
    omega
  | ⟨1, _⟩ =>
    show win0_12.index t (1 : Fin 2) * 16 + 1 * (y 1).val = (y 1).val
    omega

end Cert.Kernel.Frm

end
-- ==== Proof.KFrmPureB.lean ====
import proofs.«139686_g86887188398715_cont_sun_m_547_23_alg».proof.Proof.KFrmPiecesB
import proofs.«139686_g86887188398715_cont_sun_m_547_23_alg».proof.Proof.KFrmBlocks
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The hidden features grow by one row block per point of the first phase -/

set_option maxHeartbeats 4000000 in
/-- At a point `t` of the first phase after the first: if the scratch agreed with the hidden features on the rows below
    400·t, then after the point's five stores it agrees with them on the rows below 400·(t + 1): a row below 400·t lies
    outside the five strips and keeps its contents; a row of the point's block lies in strip `(r − 400·t) / 80`, whose
    payload is computed from the matching strip of the adjacency matrix. -/
theorem pureB (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (ht : t.val < 25)
    (x15 : Vec F S400x40 .f32) (x16 : Vec F S400x16 .f32) (x19 : Vec F S10000x40 .f32) (h : Vec F S10000x64 .f32)
    (hh : ∀ y : S10000x64.Idx, (y 0).val < 400 * t.val → h y = Hf m c y) :
    ∀ y : S10000x64.Idx, (y 0).val < 400 * (t.val + 1) →
      Cert.Lib.over h (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19).1 y = Hf m c y := by
  intro y hy
  have htm : t.val % 25 = t.val := Nat.mod_eq_of_lt ht
  by_cases hlt : (y 0).val < 400 * t.val
  · rw [runB_h_off c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y (by left; omega)]
    exact hh y hlt
  · rcases (show (y 0).val - 400 * t.val < 80 ∨ (80 ≤ (y 0).val - 400 * t.val ∧ (y 0).val - 400 * t.val < 160)
        ∨ (160 ≤ (y 0).val - 400 * t.val ∧ (y 0).val - 400 * t.val < 240) ∨ (240 ≤ (y 0).val - 400 * t.val ∧ (y 0).val - 400 * t.val < 320)
        ∨ (320 ≤ (y 0).val - 400 * t.val ∧ (y 0).val - 400 * t.val < 400) by omega) with h0 | h1 | h2 | h3 | h4
    · -- strip 0
      have hr : (y 0).val - 400 * t.val - 0 < 80 := by omega
      rw [runB_h_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 0, hr⟩ (y 1)
        (by show (y 0).val = 400 * (t.val % 25) + 0 + ((y 0).val - 400 * t.val - 0); omega) rfl]
      unfold Hf
      have e1 : ((y 0).val % 400) / 80 = 0 := by omega
      have e2 : (y 0).val / 80 = 5 * (t.val % 25) + 0 := by omega
      have e3 : (ixm (by decide) (y 0).val (y 1) : S80x64.Idx) = ValueIdx.ix2 ⟨(y 0).val - 400 * t.val - 0, hr⟩ (y 1) := by
        unfold ixm; congr 1; exact Fin.ext (by show (y 0).val % 80 = (y 0).val - 400 * t.val - 0; omega)
      rw [e1, e2, e3, iblk0 m c t, iblk7 m c t]
      simp only [hStrip]
      try rfl
    · -- strip 1
      have hr : (y 0).val - 400 * t.val - 80 < 80 := by omega
      rw [runB_h_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 80, hr⟩ (y 1)
        (by show (y 0).val = 400 * (t.val % 25) + 80 + ((y 0).val - 400 * t.val - 80); omega) rfl]
      unfold Hf
      have e1 : ((y 0).val % 400) / 80 = 1 := by omega
      have e2 : (y 0).val / 80 = 5 * (t.val % 25) + 1 := by omega
      have e3 : (ixm (by decide) (y 0).val (y 1) : S80x64.Idx) = ValueIdx.ix2 ⟨(y 0).val - 400 * t.val - 80, hr⟩ (y 1) := by
        unfold ixm; congr 1; exact Fin.ext (by show (y 0).val % 80 = (y 0).val - 400 * t.val - 80; omega)
      rw [e1, e2, e3, iblk1 m c t, iblk7 m c t]
      simp only [hStrip]
      try rfl
    · -- strip 2
      have hr : (y 0).val - 400 * t.val - 160 < 80 := by omega
      rw [runB_h_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 160, hr⟩ (y 1)
        (by show (y 0).val = 400 * (t.val % 25) + 160 + ((y 0).val - 400 * t.val - 160); omega) rfl]
      unfold Hf
      have e1 : ((y 0).val % 400) / 80 = 2 := by omega
      have e2 : (y 0).val / 80 = 5 * (t.val % 25) + 2 := by omega
      have e3 : (ixm (by decide) (y 0).val (y 1) : S80x64.Idx) = ValueIdx.ix2 ⟨(y 0).val - 400 * t.val - 160, hr⟩ (y 1) := by
        unfold ixm; congr 1; exact Fin.ext (by show (y 0).val % 80 = (y 0).val - 400 * t.val - 160; omega)
      rw [e1, e2, e3, iblk2 m c t, iblk7 m c t]
      simp only [hStrip]
      try rfl
    · -- strip 3
      have hr : (y 0).val - 400 * t.val - 240 < 80 := by omega
      rw [runB_h_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 240, hr⟩ (y 1)
        (by show (y 0).val = 400 * (t.val % 25) + 240 + ((y 0).val - 400 * t.val - 240); omega) rfl]
      unfold Hf
      have e1 : ((y 0).val % 400) / 80 = 3 := by omega
      have e2 : (y 0).val / 80 = 5 * (t.val % 25) + 3 := by omega
      have e3 : (ixm (by decide) (y 0).val (y 1) : S80x64.Idx) = ValueIdx.ix2 ⟨(y 0).val - 400 * t.val - 240, hr⟩ (y 1) := by
        unfold ixm; congr 1; exact Fin.ext (by show (y 0).val % 80 = (y 0).val - 400 * t.val - 240; omega)
      rw [e1, e2, e3, iblk3 m c t, iblk7 m c t]
      simp only [hStrip]
      try rfl
    · -- strip 4
      have hr : (y 0).val - 400 * t.val - 320 < 80 := by omega
      rw [runB_h_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 320, hr⟩ (y 1)
        (by show (y 0).val = 400 * (t.val % 25) + 320 + ((y 0).val - 400 * t.val - 320); omega) rfl]
      unfold Hf
      have e1 : ((y 0).val % 400) / 80 = 4 := by omega
      have e2 : (y 0).val / 80 = 5 * (t.val % 25) + 4 := by omega
      have e3 : (ixm (by decide) (y 0).val (y 1) : S80x64.Idx) = ValueIdx.ix2 ⟨(y 0).val - 400 * t.val - 320, hr⟩ (y 1) := by
        unfold ixm; congr 1; exact Fin.ext (by show (y 0).val % 80 = (y 0).val - 400 * t.val - 320; omega)
      rw [e1, e2, e3, iblk4 m c t, iblk7 m c t]
      simp only [hStrip]
      try rfl

end Cert.Kernel.Frm

end
-- ==== Proof.KFrmPiecesA.lean ====
/-
  What the first point's stores leave.

  At the first point of the first phase the body stores the projected features `x · W1` through the whole of the
  first scratch buffer, loads them back, and stores five strips of hidden features — 80 rows each, at rows
  400·(t mod 25) + C for C = 0, 80, 160, 240, 320 — into the second scratch buffer. Read at an index, the stores
  written over the earlier contents leave: in the first buffer the projected features everywhere; in the second, at
  an index of a strip that strip's payload over the projected features just stored, and off the row block what was
  there.
-/
import proofs.«139686_g86887188398715_cont_sun_m_547_23_alg».proof.Proof.KFrmRunA
import proofs.«139686_g86887188398715_cont_sun_m_547_23_alg».proof.Proof.KFrmSel
import proofs.«139686_g86887188398715_cont_sun_m_547_23_alg».proof.Proof.LibWritesOver
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The store of the projected features -/

set_option maxHeartbeats 4000000 in
/-- The one store into the first scratch buffer is through the whole buffer: whatever it held, it now holds the
    projected features of the two arrays loaded whole. -/
theorem runA_s1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Cert.Lib.over x17 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 = k0_pay1 x7 x8 := by
  unfold runA; dsimp only; sl_unfold_run_names
  rw [Cert.Lib.over_cons_unit_zero _ hz2, readAt_whole arg7 harg7 _ hz2, readAt_whole arg8 harg8 _ hz2]

/-! ## The five stores of hidden features

Each is through a strip of 80 rows of the second scratch buffer, at rows 400·(t mod 25) + C for C = 0, 80, 160, 240,
320; the newest is the last strip. -/

set_option maxHeartbeats 4000000 in
/-- An index outside the row block keeps what the buffer held: it misses every strip. -/
theorem runA_h_off (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx)
    (hy : (y 0).val < 400 * (t.val % 25) ∨ 400 * (t.val % 25) + 400 ≤ (y 0).val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = x18 y := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  rw [Cert.Lib.over_cons_unit_of_not_mem _ _ _ _ y 0 (by rw [off1_80 t]; show (y 0).val < 400 * (t.val % 25) + 80 ∨ 400 * (t.val % 25) + 80 + 80 ≤ (y 0).val; omega)]
  rw [Cert.Lib.over_cons_unit_of_not_mem _ _ _ _ y 0 (by rw [off1_0 t]; show (y 0).val < 400 * (t.val % 25) + 0 ∨ 400 * (t.val % 25) + 0 + 80 ≤ (y 0).val; omega)]
  rfl

set_option maxHeartbeats 4000000 in
/-- An index in the first strip of the row block, at position (r, q) of it, reads that strip's store: the strip's
    payload over the strip of the adjacency matrix, the projected features the first store left, and the bias row. -/
theorem runA_h_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 0 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay6 x2 (k0_pay1 x7 x8) x9 (ValueIdx.ix2 r q) := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  rw [Cert.Lib.over_cons_unit_of_not_mem _ _ _ _ y 0 (by rw [off1_80 t]; show (y 0).val < 400 * (t.val % 25) + 80 ∨ 400 * (t.val % 25) + 80 + 80 ≤ (y 0).val; omega)]
  refine (Cert.Lib.over_cons_unit_of_mem _ _ _ _ y (ValueIdx.ix2 r q) (fun a => ?_)).trans ?_
  · have e0 : k0_off1 (grid0.coords t) 0#32 0 = 400 * (t.val % 25) + 0 := by rw [off1_0 t]; rfl
    have e1 : k0_off1 (grid0.coords t) 0#32 1 = 0 := by rw [off1_0 t]; rfl
    fin_cases a
    · show (y 0).val = k0_off1 (grid0.coords t) 0#32 0 + r.val; omega
    · show (y 1).val = k0_off1 (grid0.coords t) 0#32 1 + q.val; omega
  · rw [readAt_whole arg2 harg2 _ hz2, View.readCov_cons_toLoadRect, readAt_whole arg7 harg7 _ hz2,
      readAt_whole arg8 harg8 _ hz2, readAt_whole arg9 harg9 _ hz2]

set_option maxHeartbeats 4000000 in
/-- An index in the second strip of the row block, at position (r, q) of it, reads that strip's store: the strip's
    payload over the strip of the adjacency matrix, the projected features the first store left, and the bias row. -/
theorem runA_h_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 80 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay7 x3 (k0_pay1 x7 x8) x9 (ValueIdx.ix2 r q) := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  refine (Cert.Lib.over_cons_unit_of_mem _ _ _ _ y (ValueIdx.ix2 r q) (fun a => ?_)).trans ?_
  · have e0 : k0_off1 (grid0.coords t) 80#32 0 = 400 * (t.val % 25) + 80 := by rw [off1_80 t]; rfl
    have e1 : k0_off1 (grid0.coords t) 80#32 1 = 0 := by rw [off1_80 t]; rfl
    fin_cases a
    · show (y 0).val = k0_off1 (grid0.coords t) 80#32 0 + r.val; omega
    · show (y 1).val = k0_off1 (grid0.coords t) 80#32 1 + q.val; omega
  · rw [readAt_whole arg3 harg3 _ hz2, View.readCov_cons_toLoadRect, readAt_whole arg7 harg7 _ hz2,
      readAt_whole arg8 harg8 _ hz2, readAt_whole arg9 harg9 _ hz2]

set_option maxHeartbeats 4000000 in
/-- An index in the third strip of the row block, at position (r, q) of it, reads that strip's store: the strip's
    payload over the strip of the adjacency matrix, the projected features the first store left, and the bias row. -/
theorem runA_h_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 160 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay8 x4 (k0_pay1 x7 x8) x9 (ValueIdx.ix2 r q) := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  refine (Cert.Lib.over_cons_unit_of_mem _ _ _ _ y (ValueIdx.ix2 r q) (fun a => ?_)).trans ?_
  · have e0 : k0_off1 (grid0.coords t) 160#32 0 = 400 * (t.val % 25) + 160 := by rw [off1_160 t]; rfl
    have e1 : k0_off1 (grid0.coords t) 160#32 1 = 0 := by rw [off1_160 t]; rfl
    fin_cases a
    · show (y 0).val = k0_off1 (grid0.coords t) 160#32 0 + r.val; omega
    · show (y 1).val = k0_off1 (grid0.coords t) 160#32 1 + q.val; omega
  · rw [readAt_whole arg4 harg4 _ hz2, View.readCov_cons_toLoadRect, readAt_whole arg7 harg7 _ hz2,
      readAt_whole arg8 harg8 _ hz2, readAt_whole arg9 harg9 _ hz2]

set_option maxHeartbeats 4000000 in
/-- An index in the fourth strip of the row block, at position (r, q) of it, reads that strip's store: the strip's
    payload over the strip of the adjacency matrix, the projected features the first store left, and the bias row. -/
theorem runA_h_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 240 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay9 x5 (k0_pay1 x7 x8) x9 (ValueIdx.ix2 r q) := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  refine (Cert.Lib.over_cons_unit_of_mem _ _ _ _ y (ValueIdx.ix2 r q) (fun a => ?_)).trans ?_
  · have e0 : k0_off1 (grid0.coords t) 240#32 0 = 400 * (t.val % 25) + 240 := by rw [off1_240 t]; rfl
    have e1 : k0_off1 (grid0.coords t) 240#32 1 = 0 := by rw [off1_240 t]; rfl
    fin_cases a
    · show (y 0).val = k0_off1 (grid0.coords t) 240#32 0 + r.val; omega
    · show (y 1).val = k0_off1 (grid0.coords t) 240#32 1 + q.val; omega
  · rw [readAt_whole arg5 harg5 _ hz2, View.readCov_cons_toLoadRect, readAt_whole arg7 harg7 _ hz2,
      readAt_whole arg8 harg8 _ hz2, readAt_whole arg9 harg9 _ hz2]

set_option maxHeartbeats 4000000 in
/-- An index in the fifth strip of the row block, at position (r, q) of it, reads that strip's store: the strip's
    payload over the strip of the adjacency matrix, the projected features the first store left, and the bias row. -/
theorem runA_h_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 320 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay2 (k0_pay10 x6 (k0_pay1 x7 x8)) (k0_pay11 x9) (ValueIdx.ix2 r q) := by
  unfold runA; dsimp only; sl_unfold_run_names
  refine (Cert.Lib.over_cons_unit_of_mem _ _ _ _ y (ValueIdx.ix2 r q) (fun a => ?_)).trans ?_
  · have e0 : k0_off1 (grid0.coords t) 320#32 0 = 400 * (t.val % 25) + 320 := by rw [off1_320 t]; rfl
    have e1 : k0_off1 (grid0.coords t) 320#32 1 = 0 := by rw [off1_320 t]; rfl
    fin_cases a
    · show (y 0).val = k0_off1 (grid0.coords t) 320#32 0 + r.val; omega
    · show (y 1).val = k0_off1 (grid0.coords t) 320#32 1 + q.val; omega
  · rw [readAt_whole arg6 harg6 _ hz2, View.readCov_cons_toLoadRect, readAt_whole arg7 harg7 _ hz2,
      readAt_whole arg8 harg8 _ hz2, readAt_whole arg9 harg9 _ hz2]

end Cert.Kernel.Frm

end
-- ==== Proof.KFrmPureA.lean ====
/-
  What the first point leaves, in terms of the arrays.

  With the staging buffers holding the windows' blocks at the first point, the store into the first scratch buffer
  leaves the projected features of the arrays as the region finds them, and the five stores into the second leave the
  hidden features on the rows below 400, whatever either buffer held before.
-/
import proofs.«139686_g86887188398715_cont_sun_m_547_23_alg».proof.Proof.KFrmPiecesA
import proofs.«139686_g86887188398715_cont_sun_m_547_23_alg».proof.Proof.KFrmBlocks
import proofs.«139686_g86887188398715_cont_sun_m_547_23_alg».proof.Proof.KFrmSel
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The first point: the projected features are in place, and the first row block of hidden features -/

set_option maxHeartbeats 4000000 in
/-- At the first point the first scratch buffer is left holding the projected features of the arrays as the region
    finds them, whatever it held: the two windows' blocks at that point are the whole arrays. -/
theorem pureA_s1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x15 : Vec F S400x40 .f32) (x16 : Vec F S400x16 .f32) (x17 x18 : Vec F S10000x64 .f32) (x19 : Vec F S10000x40 .f32) :
    Cert.Lib.over x17 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19).1 = S1f m c := by
  exact (runA_s1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19).trans
    (by rw [iblk5 m c t, iblk6 m c t]; rfl)

set_option maxHeartbeats 4000000 in
/-- At the first point, whatever the second scratch buffer held, after the five stores it agrees with the hidden
    features on the rows below 400: such a row lies in strip `r / 80` of the first row block, whose payload is computed
    from the matching strip of the adjacency matrix, from the projected features just stored, and from the bias row. -/
theorem pureA_h (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (ht : t.val = 0) (x15 : Vec F S400x40 .f32) (x16 : Vec F S400x16 .f32) (x17 x18 : Vec F S10000x64 .f32) (x19 : Vec F S10000x40 .f32) :
    ∀ y : S10000x64.Idx, (y 0).val < 400 * (t.val + 1) →
      Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19).2.1 y = Hf m c y := by
  intro y hy
  have htm : t.val % 25 = 0 := by rw [ht]
  have hs1 : k0_pay1 (iblk m c 5 t) (iblk m c 6 t) = S1f m c := by rw [iblk5 m c t, iblk6 m c t]; rfl
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runA_h_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 0, hr⟩ (y 1)
      (by show (y 0).val = 400 * (t.val % 25) + 0 + ((y 0).val - 0); omega) rfl, hs1]
    unfold Hf
    have e1 : ((y 0).val % 400) / 80 = 0 := by omega
    have e2 : (y 0).val / 80 = 5 * (t.val % 25) + 0 := by omega
    have e3 : (ixm (by decide) (y 0).val (y 1) : S80x64.Idx) = ValueIdx.ix2 ⟨(y 0).val - 0, hr⟩ (y 1) := by
      unfold ixm; congr 1; exact Fin.ext (by show (y 0).val % 80 = (y 0).val - 0; omega)
    rw [e1, e2, e3, iblk0 m c t, iblk7 m c t]
    simp only [hStrip]
    try rfl
  · -- strip 1
    have hr : (y 0).val - 80 < 80 := by omega
    rw [runA_h_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 80, hr⟩ (y 1)
      (by show (y 0).val = 400 * (t.val % 25) + 80 + ((y 0).val - 80); omega) rfl, hs1]
    unfold Hf
    have e1 : ((y 0).val % 400) / 80 = 1 := by omega
    have e2 : (y 0).val / 80 = 5 * (t.val % 25) + 1 := by omega
    have e3 : (ixm (by decide) (y 0).val (y 1) : S80x64.Idx) = ValueIdx.ix2 ⟨(y 0).val - 80, hr⟩ (y 1) := by
      unfold ixm; congr 1; exact Fin.ext (by show (y 0).val % 80 = (y 0).val - 80; omega)
    rw [e1, e2, e3, iblk1 m c t, iblk7 m c t]
    simp only [hStrip]
    try rfl
  · -- strip 2
    have hr : (y 0).val - 160 < 80 := by omega
    rw [runA_h_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 160, hr⟩ (y 1)
      (by show (y 0).val = 400 * (t.val % 25) + 160 + ((y 0).val - 160); omega) rfl, hs1]
    unfold Hf
    have e1 : ((y 0).val % 400) / 80 = 2 := by omega
    have e2 : (y 0).val / 80 = 5 * (t.val % 25) + 2 := by omega
    have e3 : (ixm (by decide) (y 0).val (y 1) : S80x64.Idx) = ValueIdx.ix2 ⟨(y 0).val - 160, hr⟩ (y 1) := by
      unfold ixm; congr 1; exact Fin.ext (by show (y 0).val % 80 = (y 0).val - 160; omega)
    rw [e1, e2, e3, iblk2 m c t, iblk7 m c t]
    simp only [hStrip]
    try rfl
  · -- strip 3
    have hr : (y 0).val - 240 < 80 := by omega
    rw [runA_h_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 240, hr⟩ (y 1)
      (by show (y 0).val = 400 * (t.val % 25) + 240 + ((y 0).val - 240); omega) rfl, hs1]
    unfold Hf
    have e1 : ((y 0).val % 400) / 80 = 3 := by omega
    have e2 : (y 0).val / 80 = 5 * (t.val % 25) + 3 := by omega
    have e3 : (ixm (by decide) (y 0).val (y 1) : S80x64.Idx) = ValueIdx.ix2 ⟨(y 0).val - 240, hr⟩ (y 1) := by
      unfold ixm; congr 1; exact Fin.ext (by show (y 0).val % 80 = (y 0).val - 240; omega)
    rw [e1, e2, e3, iblk3 m c t, iblk7 m c t]
    simp only [hStrip]
    try rfl
  · -- strip 4
    have hr : (y 0).val - 320 < 80 := by omega
    rw [runA_h_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 320, hr⟩ (y 1)
      (by show (y 0).val = 400 * (t.val % 25) + 320 + ((y 0).val - 320); omega) rfl, hs1]
    unfold Hf
    have e1 : ((y 0).val % 400) / 80 = 4 := by omega
    have e2 : (y 0).val / 80 = 5 * (t.val % 25) + 4 := by omega
    have e3 : (ixm (by decide) (y 0).val (y 1) : S80x64.Idx) = ValueIdx.ix2 ⟨(y 0).val - 320, hr⟩ (y 1) := by
      unfold ixm; congr 1; exact Fin.ext (by show (y 0).val % 80 = (y 0).val - 320; omega)
    rw [e1, e2, e3, iblk4 m c t, iblk7 m c t]
    simp only [hStrip]
    try rfl

end Cert.Kernel.Frm

end
-- ==== Proof.KFrmPiecesCD.lean ====
import proofs.«139686_g86887188398715_cont_sun_m_547_23_alg».proof.Proof.KFrmRunC
import proofs.«139686_g86887188398715_cont_sun_m_547_23_alg».proof.Proof.KFrmRunD
import proofs.«139686_g86887188398715_cont_sun_m_547_23_alg».proof.Proof.KFrmSel
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the second phase's stores leave, strip by strip

In the second phase the body stores the two results' 400-row blocks as five strips of 80 rows each, through literal
rectangles at rows 0, 80, 160, 240, 320 of the staging blocks, newest store last in program order. A row of a block
therefore reads the payload of the one strip it lies in. The first point of the second phase also stores the
projection of the hidden features into its scratch buffer, whole, before the strips are computed from it. -/

/-- A load of 80 rows of the hidden features through a rectangle at row offset `R`, column offset zero, as a plain
    function of the rows' positions. -/
theorem ld_rows18 (x : Vec F S10000x64 .f32) {off : Fin 2 → ℕ} (inb : ∀ a, off a + (![80, 64] : Fin 2 → ℕ) a ≤ S10000x64.size a)
    (R : ℕ) (h0 : off 0 = R) (h1 : off 1 = 0) (hR : R + 80 ≤ 10000) :
    View.ld x (Rect.unit off ![80, 64] inb) = fun z : S80x64.Idx => x (ixm (by decide) (R + (z 0).val) (z 1)) := by
  funext z
  refine Cert.Lib.ld_unit_apply x inb z _ (fun a => ?_)
  have hz : (z 0).val < 80 := (z 0).isLt
  fin_cases a
  · show (R + (z 0).val) % 10000 = off 0 + (z 0).val
    rw [h0, Nat.mod_eq_of_lt (by omega)]
  · show (z 1).val = off 1 + (z 1).val
    omega

/-- The same for 80 rows of a 400-row block of the attention array. -/
theorem ld_rows14 (x : Vec F S400x16 .f32) {off : Fin 2 → ℕ} (inb : ∀ a, off a + (![80, 16] : Fin 2 → ℕ) a ≤ S400x16.size a)
    (R : ℕ) (h0 : off 0 = R) (h1 : off 1 = 0) (hR : R + 80 ≤ 400) :
    View.ld x (Rect.unit off ![80, 16] inb) = fun z : S80x16.Idx => x (ixm (by decide) (R + (z 0).val) (z 1)) := by
  funext z
  refine Cert.Lib.ld_unit_apply x inb z _ (fun a => ?_)
  have hz : (z 0).val < 80 := (z 0).isLt
  fin_cases a
  · show (R + (z 0).val) % 400 = off 0 + (z 0).val
    rw [h0, Nat.mod_eq_of_lt (by omega)]
  · show (z 1).val = off 1 + (z 1).val
    omega

set_option maxHeartbeats 4000000 in
/-- Strip 0 of the first result's block after the body's stores: the strip's payload. -/
theorem runD_out_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 0 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay12 x2 x19 x11 (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  rw [Cert.Lib.over_cons_unit_of_not_mem _ _ _ _ y 0 (by show (y 0).val < 80 ∨ 80 + 80 ≤ (y 0).val; omega)]
  refine (Cert.Lib.over_cons_unit_of_mem _ _ _ _ y (ValueIdx.ix2 r q) (fun a => ?_)).trans ?_
  · fin_cases a
    · show (y 0).val = 0 + r.val; omega
    · show (y 1).val = 0 + q.val; omega
  · rw [readAt_whole arg2 harg2 _ hz2, readAt_whole arg19 harg19 _ hz2, readAt_whole arg11 harg11 _ hz2]

set_option maxHeartbeats 4000000 in
/-- Strip 1 of the first result's block after the body's stores: the strip's payload. -/
theorem runD_out_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 80 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay14 x3 x19 x11 (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  refine (Cert.Lib.over_cons_unit_of_mem _ _ _ _ y (ValueIdx.ix2 r q) (fun a => ?_)).trans ?_
  · fin_cases a
    · show (y 0).val = 80 + r.val; omega
    · show (y 1).val = 0 + q.val; omega
  · rw [readAt_whole arg3 harg3 _ hz2, readAt_whole arg19 harg19 _ hz2, readAt_whole arg11 harg11 _ hz2]

set_option maxHeartbeats 4000000 in
/-- Strip 2 of the first result's block after the body's stores: the strip's payload. -/
theorem runD_out_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 160 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay16 x4 x19 x11 (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  refine (Cert.Lib.over_cons_unit_of_mem _ _ _ _ y (ValueIdx.ix2 r q) (fun a => ?_)).trans ?_
  · fin_cases a
    · show (y 0).val = 160 + r.val; omega
    · show (y 1).val = 0 + q.val; omega
  · rw [readAt_whole arg4 harg4 _ hz2, readAt_whole arg19 harg19 _ hz2, readAt_whole arg11 harg11 _ hz2]

set_option maxHeartbeats 4000000 in
/-- Strip 3 of the first result's block after the body's stores: the strip's payload. -/
theorem runD_out_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 240 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay18 x5 x19 x11 (ValueIdx.ix2 r q) := by
  unfold runD; dsimp only; sl_unfold_run_names
  rw [Cert.Lib.over_cons_unit_of_not_mem _ _ _ _ y 0 (by show (y 0).val < 320 ∨ 320 + 80 ≤ (y 0).val; omega)]
  refine (Cert.Lib.over_cons_unit_of_mem _ _ _ _ y (ValueIdx.ix2 r q) (fun a => ?_)).trans ?_
  · fin_cases a
    · show (y 0).val = 240 + r.val; omega
    · show (y 1).val = 0 + q.val; omega
  · rw [readAt_whole arg5 harg5 _ hz2, readAt_whole arg19 harg19 _ hz2, readAt_whole arg11 harg11 _ hz2]

set_option maxHeartbeats 4000000 in
/-- Strip 4 of the first result's block after the body's stores: the strip's payload. -/
theorem runD_out_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 320 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay4 x6 x19 x11 (ValueIdx.ix2 r q) := by
  unfold runD; dsimp only; sl_unfold_run_names
  refine (Cert.Lib.over_cons_unit_of_mem _ _ _ _ y (ValueIdx.ix2 r q) (fun a => ?_)).trans ?_
  · fin_cases a
    · show (y 0).val = 320 + r.val; omega
    · show (y 1).val = 0 + q.val; omega
  · rw [readAt_whole arg6 harg6 _ hz2, readAt_whole arg19 harg19 _ hz2, readAt_whole arg11 harg11 _ hz2]

set_option maxHeartbeats 4000000 in
/-- Strip 0 of the second result's block after the body's stores: the strip's payload, its two sliced operands
    as functions of the rows' positions. -/
theorem runD_y_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 0 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay13 (fun z : S80x64.Idx => x18 (ixm (by decide) (400 * (t.val % 25) + 0 + (z 0).val) (z 1))) x12 x13
          (fun z : S80x16.Idx => x14 (ixm (by decide) (0 + (z 0).val) (z 1))) (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  rw [Cert.Lib.over_cons_unit_of_not_mem _ _ _ _ y 0 (by show (y 0).val < 80 ∨ 80 + 80 ≤ (y 0).val; omega)]
  refine (Cert.Lib.over_cons_unit_of_mem _ _ _ _ y (ValueIdx.ix2 r q) (fun a => ?_)).trans ?_
  · fin_cases a
    · show (y 0).val = 0 + r.val; omega
    · show (y 1).val = 0 + q.val; omega
  · have e0 : k0_off2 (grid0.coords t) 0#32 0 = 400 * (t.val % 25) + 0 := by rw [off2_0 t]; rfl
    have e1 : k0_off2 (grid0.coords t) 0#32 1 = 0 := by rw [off2_0 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 0) e0 e1 (by omega),
      ld_rows14 x14 _ 0 rfl rfl (by omega)]

set_option maxHeartbeats 4000000 in
/-- Strip 1 of the second result's block after the body's stores: the strip's payload, its two sliced operands
    as functions of the rows' positions. -/
theorem runD_y_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 80 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay15 (fun z : S80x64.Idx => x18 (ixm (by decide) (400 * (t.val % 25) + 80 + (z 0).val) (z 1))) x12 x13
          (fun z : S80x16.Idx => x14 (ixm (by decide) (80 + (z 0).val) (z 1))) (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  refine (Cert.Lib.over_cons_unit_of_mem _ _ _ _ y (ValueIdx.ix2 r q) (fun a => ?_)).trans ?_
  · fin_cases a
    · show (y 0).val = 80 + r.val; omega
    · show (y 1).val = 0 + q.val; omega
  · have e0 : k0_off2 (grid0.coords t) 80#32 0 = 400 * (t.val % 25) + 80 := by rw [off2_80 t]; rfl
    have e1 : k0_off2 (grid0.coords t) 80#32 1 = 0 := by rw [off2_80 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 80) e0 e1 (by omega),
      ld_rows14 x14 _ 80 rfl rfl (by omega)]

set_option maxHeartbeats 4000000 in
/-- Strip 2 of the second result's block after the body's stores: the strip's payload, its two sliced operands
    as functions of the rows' positions. -/
theorem runD_y_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 160 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay17 (fun z : S80x64.Idx => x18 (ixm (by decide) (400 * (t.val % 25) + 160 + (z 0).val) (z 1))) x12 x13
          (fun z : S80x16.Idx => x14 (ixm (by decide) (160 + (z 0).val) (z 1))) (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  refine (Cert.Lib.over_cons_unit_of_mem _ _ _ _ y (ValueIdx.ix2 r q) (fun a => ?_)).trans ?_
  · fin_cases a
    · show (y 0).val = 160 + r.val; omega
    · show (y 1).val = 0 + q.val; omega
  · have e0 : k0_off2 (grid0.coords t) 160#32 0 = 400 * (t.val % 25) + 160 := by rw [off2_160 t]; rfl
    have e1 : k0_off2 (grid0.coords t) 160#32 1 = 0 := by rw [off2_160 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 160) e0 e1 (by omega),
      ld_rows14 x14 _ 160 rfl rfl (by omega)]

set_option maxHeartbeats 4000000 in
/-- Strip 3 of the second result's block after the body's stores: the strip's payload, its two sliced operands
    as functions of the rows' positions. -/
theorem runD_y_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 240 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay19 (fun z : S80x64.Idx => x18 (ixm (by decide) (400 * (t.val % 25) + 240 + (z 0).val) (z 1))) x12 x13
          (fun z : S80x16.Idx => x14 (ixm (by decide) (240 + (z 0).val) (z 1))) (ValueIdx.ix2 r q) := by
  unfold runD; dsimp only; sl_unfold_run_names
  rw [Cert.Lib.over_cons_unit_of_not_mem _ _ _ _ y 0 (by show (y 0).val < 320 ∨ 320 + 80 ≤ (y 0).val; omega)]
  refine (Cert.Lib.over_cons_unit_of_mem _ _ _ _ y (ValueIdx.ix2 r q) (fun a => ?_)).trans ?_
  · fin_cases a
    · show (y 0).val = 240 + r.val; omega
    · show (y 1).val = 0 + q.val; omega
  · have e0 : k0_off2 (grid0.coords t) 240#32 0 = 400 * (t.val % 25) + 240 := by rw [off2_240 t]; rfl
    have e1 : k0_off2 (grid0.coords t) 240#32 1 = 0 := by rw [off2_240 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 240) e0 e1 (by omega),
      ld_rows14 x14 _ 240 rfl rfl (by omega)]

set_option maxHeartbeats 4000000 in
/-- Strip 4 of the second result's block after the body's stores: the strip's payload, its two sliced operands
    as functions of the rows' positions. -/
theorem runD_y_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 320 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay5 (fun z : S80x64.Idx => x18 (ixm (by decide) (400 * (t.val % 25) + 320 + (z 0).val) (z 1))) x12 x13
          (fun z : S80x16.Idx => x14 (ixm (by decide) (320 + (z 0).val) (z 1))) (ValueIdx.ix2 r q) := by
  unfold runD; dsimp only; sl_unfold_run_names
  refine (Cert.Lib.over_cons_unit_of_mem _ _ _ _ y (ValueIdx.ix2 r q) (fun a => ?_)).trans ?_
  · fin_cases a
    · show (y 0).val = 320 + r.val; omega
    · show (y 1).val = 0 + q.val; omega
  · have e0 : k0_off2 (grid0.coords t) 320#32 0 = 400 * (t.val % 25) + 320 := by rw [off2_320 t]; rfl
    have e1 : k0_off2 (grid0.coords t) 320#32 1 = 0 := by rw [off2_320 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 320) e0 e1 (by omega),
      ld_rows14 x14 _ 320 rfl rfl (by omega)]

set_option maxHeartbeats 4000000 in
/-- The projection of the hidden features after the body's one store into its scratch buffer: the store's payload. -/
theorem runC_s2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Cert.Lib.over x19 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.2.1 = k0_pay3 x18 x10 := by
  unfold runC; dsimp only; sl_unfold_run_names
  refine (Cert.Lib.over_cons_unit_zero x19 hz2 _ _ _).trans ?_
  rw [readAt_whole arg18 harg18 _ hz2, readAt_whole arg10 harg10 _ hz2]

set_option maxHeartbeats 4000000 in
/-- Strip 0 of the first result's block after the body's stores: the strip's payload. -/
theorem runC_out_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 0 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay12 x2 (k0_pay3 x18 x10) x11 (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  rw [Cert.Lib.over_cons_unit_of_not_mem _ _ _ _ y 0 (by show (y 0).val < 80 ∨ 80 + 80 ≤ (y 0).val; omega)]
  refine (Cert.Lib.over_cons_unit_of_mem _ _ _ _ y (ValueIdx.ix2 r q) (fun a => ?_)).trans ?_
  · fin_cases a
    · show (y 0).val = 0 + r.val; omega
    · show (y 1).val = 0 + q.val; omega
  · rw [View.readCov_cons_toLoadRect, readAt_whole arg2 harg2 _ hz2, readAt_whole arg18 harg18 _ hz2, readAt_whole arg10 harg10 _ hz2,
      readAt_whole arg11 harg11 _ hz2]

set_option maxHeartbeats 4000000 in
/-- Strip 1 of the first result's block after the body's stores: the strip's payload. -/
theorem runC_out_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 80 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay14 x3 (k0_pay3 x18 x10) x11 (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  refine (Cert.Lib.over_cons_unit_of_mem _ _ _ _ y (ValueIdx.ix2 r q) (fun a => ?_)).trans ?_
  · fin_cases a
    · show (y 0).val = 80 + r.val; omega
    · show (y 1).val = 0 + q.val; omega
  · rw [View.readCov_cons_toLoadRect, readAt_whole arg3 harg3 _ hz2, readAt_whole arg18 harg18 _ hz2, readAt_whole arg10 harg10 _ hz2,
      readAt_whole arg11 harg11 _ hz2]

set_option maxHeartbeats 4000000 in
/-- Strip 2 of the first result's block after the body's stores: the strip's payload. -/
theorem runC_out_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 160 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay16 x4 (k0_pay3 x18 x10) x11 (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  refine (Cert.Lib.over_cons_unit_of_mem _ _ _ _ y (ValueIdx.ix2 r q) (fun a => ?_)).trans ?_
  · fin_cases a
    · show (y 0).val = 160 + r.val; omega
    · show (y 1).val = 0 + q.val; omega
  · rw [View.readCov_cons_toLoadRect, readAt_whole arg4 harg4 _ hz2, readAt_whole arg18 harg18 _ hz2, readAt_whole arg10 harg10 _ hz2,
      readAt_whole arg11 harg11 _ hz2]

set_option maxHeartbeats 4000000 in
/-- Strip 3 of the first result's block after the body's stores: the strip's payload. -/
theorem runC_out_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 240 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay18 x5 (k0_pay3 x18 x10) x11 (ValueIdx.ix2 r q) := by
  unfold runC; dsimp only; sl_unfold_run_names
  rw [Cert.Lib.over_cons_unit_of_not_mem _ _ _ _ y 0 (by show (y 0).val < 320 ∨ 320 + 80 ≤ (y 0).val; omega)]
  refine (Cert.Lib.over_cons_unit_of_mem _ _ _ _ y (ValueIdx.ix2 r q) (fun a => ?_)).trans ?_
  · fin_cases a
    · show (y 0).val = 240 + r.val; omega
    · show (y 1).val = 0 + q.val; omega
  · rw [View.readCov_cons_toLoadRect, readAt_whole arg5 harg5 _ hz2, readAt_whole arg18 harg18 _ hz2, readAt_whole arg10 harg10 _ hz2,
      readAt_whole arg11 harg11 _ hz2]

set_option maxHeartbeats 4000000 in
/-- Strip 4 of the first result's block after the body's stores: the strip's payload. -/
theorem runC_out_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 320 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay4 x6 (k0_pay3 x18 x10) x11 (ValueIdx.ix2 r q) := by
  unfold runC; dsimp only; sl_unfold_run_names
  refine (Cert.Lib.over_cons_unit_of_mem _ _ _ _ y (ValueIdx.ix2 r q) (fun a => ?_)).trans ?_
  · fin_cases a
    · show (y 0).val = 320 + r.val; omega
    · show (y 1).val = 0 + q.val; omega
  · rw [View.readCov_cons_toLoadRect, readAt_whole arg6 harg6 _ hz2, readAt_whole arg18 harg18 _ hz2, readAt_whole arg10 harg10 _ hz2,
      readAt_whole arg11 harg11 _ hz2]

set_option maxHeartbeats 4000000 in
/-- Strip 0 of the second result's block after the body's stores: the strip's payload, its two sliced operands
    as functions of the rows' positions. -/
theorem runC_y_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 0 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay13 (fun z : S80x64.Idx => x18 (ixm (by decide) (400 * (t.val % 25) + 0 + (z 0).val) (z 1))) x12 x13
          (fun z : S80x16.Idx => x14 (ixm (by decide) (0 + (z 0).val) (z 1))) (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  rw [Cert.Lib.over_cons_unit_of_not_mem _ _ _ _ y 0 (by show (y 0).val < 80 ∨ 80 + 80 ≤ (y 0).val; omega)]
  refine (Cert.Lib.over_cons_unit_of_mem _ _ _ _ y (ValueIdx.ix2 r q) (fun a => ?_)).trans ?_
  · fin_cases a
    · show (y 0).val = 0 + r.val; omega
    · show (y 1).val = 0 + q.val; omega
  · have e0 : k0_off2 (grid0.coords t) 0#32 0 = 400 * (t.val % 25) + 0 := by rw [off2_0 t]; rfl
    have e1 : k0_off2 (grid0.coords t) 0#32 1 = 0 := by rw [off2_0 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 0) e0 e1 (by omega),
      ld_rows14 x14 _ 0 rfl rfl (by omega)]

set_option maxHeartbeats 4000000 in
/-- Strip 1 of the second result's block after the body's stores: the strip's payload, its two sliced operands
    as functions of the rows' positions. -/
theorem runC_y_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 80 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay15 (fun z : S80x64.Idx => x18 (ixm (by decide) (400 * (t.val % 25) + 80 + (z 0).val) (z 1))) x12 x13
          (fun z : S80x16.Idx => x14 (ixm (by decide) (80 + (z 0).val) (z 1))) (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  refine (Cert.Lib.over_cons_unit_of_mem _ _ _ _ y (ValueIdx.ix2 r q) (fun a => ?_)).trans ?_
  · fin_cases a
    · show (y 0).val = 80 + r.val; omega
    · show (y 1).val = 0 + q.val; omega
  · have e0 : k0_off2 (grid0.coords t) 80#32 0 = 400 * (t.val % 25) + 80 := by rw [off2_80 t]; rfl
    have e1 : k0_off2 (grid0.coords t) 80#32 1 = 0 := by rw [off2_80 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 80) e0 e1 (by omega),
      ld_rows14 x14 _ 80 rfl rfl (by omega)]

set_option maxHeartbeats 4000000 in
/-- Strip 2 of the second result's block after the body's stores: the strip's payload, its two sliced operands
    as functions of the rows' positions. -/
theorem runC_y_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 160 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay17 (fun z : S80x64.Idx => x18 (ixm (by decide) (400 * (t.val % 25) + 160 + (z 0).val) (z 1))) x12 x13
          (fun z : S80x16.Idx => x14 (ixm (by decide) (160 + (z 0).val) (z 1))) (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  refine (Cert.Lib.over_cons_unit_of_mem _ _ _ _ y (ValueIdx.ix2 r q) (fun a => ?_)).trans ?_
  · fin_cases a
    · show (y 0).val = 160 + r.val; omega
    · show (y 1).val = 0 + q.val; omega
  · have e0 : k0_off2 (grid0.coords t) 160#32 0 = 400 * (t.val % 25) + 160 := by rw [off2_160 t]; rfl
    have e1 : k0_off2 (grid0.coords t) 160#32 1 = 0 := by rw [off2_160 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 160) e0 e1 (by omega),
      ld_rows14 x14 _ 160 rfl rfl (by omega)]

set_option maxHeartbeats 4000000 in
/-- Strip 3 of the second result's block after the body's stores: the strip's payload, its two sliced operands
    as functions of the rows' positions. -/
theorem runC_y_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 240 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay19 (fun z : S80x64.Idx => x18 (ixm (by decide) (400 * (t.val % 25) + 240 + (z 0).val) (z 1))) x12 x13
          (fun z : S80x16.Idx => x14 (ixm (by decide) (240 + (z 0).val) (z 1))) (ValueIdx.ix2 r q) := by
  unfold runC; dsimp only; sl_unfold_run_names
  rw [Cert.Lib.over_cons_unit_of_not_mem _ _ _ _ y 0 (by show (y 0).val < 320 ∨ 320 + 80 ≤ (y 0).val; omega)]
  refine (Cert.Lib.over_cons_unit_of_mem _ _ _ _ y (ValueIdx.ix2 r q) (fun a => ?_)).trans ?_
  · fin_cases a
    · show (y 0).val = 240 + r.val; omega
    · show (y 1).val = 0 + q.val; omega
  · have e0 : k0_off2 (grid0.coords t) 240#32 0 = 400 * (t.val % 25) + 240 := by rw [off2_240 t]; rfl
    have e1 : k0_off2 (grid0.coords t) 240#32 1 = 0 := by rw [off2_240 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 240) e0 e1 (by omega),
      ld_rows14 x14 _ 240 rfl rfl (by omega)]

set_option maxHeartbeats 4000000 in
/-- Strip 4 of the second result's block after the body's stores: the strip's payload, its two sliced operands
    as functions of the rows' positions. -/
theorem runC_y_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 320 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay5 (fun z : S80x64.Idx => x18 (ixm (by decide) (400 * (t.val % 25) + 320 + (z 0).val) (z 1))) x12 x13
          (fun z : S80x16.Idx => x14 (ixm (by decide) (320 + (z 0).val) (z 1))) (ValueIdx.ix2 r q) := by
  unfold runC; dsimp only; sl_unfold_run_names
  refine (Cert.Lib.over_cons_unit_of_mem _ _ _ _ y (ValueIdx.ix2 r q) (fun a => ?_)).trans ?_
  · fin_cases a
    · show (y 0).val = 320 + r.val; omega
    · show (y 1).val = 0 + q.val; omega
  · have e0 : k0_off2 (grid0.coords t) 320#32 0 = 400 * (t.val % 25) + 320 := by rw [off2_320 t]; rfl
    have e1 : k0_off2 (grid0.coords t) 320#32 1 = 0 := by rw [off2_320 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 320) e0 e1 (by omega),
      ld_rows14 x14 _ 320 rfl rfl (by omega)]

end Cert.Kernel.Frm

end
-- ==== Proof.KFrmPureCD.lean ====
import proofs.«139686_g86887188398715_cont_sun_m_547_23_alg».proof.Proof.KFrmPiecesCD
import proofs.«139686_g86887188398715_cont_sun_m_547_23_alg».proof.Proof.KFrmBlocks
import proofs.«139686_g86887188398715_cont_sun_m_547_23_alg».proof.Proof.KFrmSel
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The second phase writes the two results block by block

At a point `t` of the second phase the body's stores into the two results' staging blocks leave exactly row block
`t − 25` of the results, computed from the hidden features, their projection, and the point's input blocks: a row of a
block lies in strip `r / 80`, and the strip's payload is the closed form's strip. -/

set_option maxHeartbeats 4000000 in
/-- At the first point of the second phase the scratch buffer of the hidden features' projection is left holding that
    projection. -/
theorem pureC_s2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x15 : Vec F S400x40 .f32) (x16 : Vec F S400x16 .f32) (x19 : Vec F S10000x40 .f32) :
    Cert.Lib.over x19 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19).2.2.1 = S2f m c := by
  rw [runC_s2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19, iblk8 m c t]
  rfl

set_option maxHeartbeats 4000000 in
/-- At the first point of the second phase the first result's staging block is left holding row block 0 of the result. -/
theorem pureC_out (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (ht : t.val = 25) (x15 : Vec F S400x40 .f32) (x16 : Vec F S400x16 .f32) (x19 : Vec F S10000x40 .f32) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19).1 = O13f m c (t.val - 25) := by
  funext y
  have ht50 : t.val < 50 := t.isLt
  have h25 : 25 ≤ t.val := by omega
  have hm : t.val % 25 = t.val - 25 := by omega
  have hy : (y 0).val < 400 := (y 0).isLt
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runC_out_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 0, hr⟩ (y 1)
      (by show (y 0).val = 0 + ((y 0).val - 0); omega) rfl]
    unfold O13f
    have e1 : (y 0).val / 80 = 0 := by omega
    have e3 : (ixm (by decide) (y 0).val (y 1) : S80x40.Idx) = ValueIdx.ix2 ⟨(y 0).val - 0, hr⟩ (y 1) := by
      unfold ixm; congr 1; exact Fin.ext (by show (y 0).val % 80 = (y 0).val - 0; omega)
    rw [e1, e3, iblk0 m c t, iblk9 m c t, iblk8 m c t, hm]
    simp only [oStrip]
    try rfl
  · -- strip 1
    have hr : (y 0).val - 80 < 80 := by omega
    rw [runC_out_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 80, hr⟩ (y 1)
      (by show (y 0).val = 80 + ((y 0).val - 80); omega) rfl]
    unfold O13f
    have e1 : (y 0).val / 80 = 1 := by omega
    have e3 : (ixm (by decide) (y 0).val (y 1) : S80x40.Idx) = ValueIdx.ix2 ⟨(y 0).val - 80, hr⟩ (y 1) := by
      unfold ixm; congr 1; exact Fin.ext (by show (y 0).val % 80 = (y 0).val - 80; omega)
    rw [e1, e3, iblk1 m c t, iblk9 m c t, iblk8 m c t, hm]
    simp only [oStrip]
    try rfl
  · -- strip 2
    have hr : (y 0).val - 160 < 80 := by omega
    rw [runC_out_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 160, hr⟩ (y 1)
      (by show (y 0).val = 160 + ((y 0).val - 160); omega) rfl]
    unfold O13f
    have e1 : (y 0).val / 80 = 2 := by omega
    have e3 : (ixm (by decide) (y 0).val (y 1) : S80x40.Idx) = ValueIdx.ix2 ⟨(y 0).val - 160, hr⟩ (y 1) := by
      unfold ixm; congr 1; exact Fin.ext (by show (y 0).val % 80 = (y 0).val - 160; omega)
    rw [e1, e3, iblk2 m c t, iblk9 m c t, iblk8 m c t, hm]
    simp only [oStrip]
    try rfl
  · -- strip 3
    have hr : (y 0).val - 240 < 80 := by omega
    rw [runC_out_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 240, hr⟩ (y 1)
      (by show (y 0).val = 240 + ((y 0).val - 240); omega) rfl]
    unfold O13f
    have e1 : (y 0).val / 80 = 3 := by omega
    have e3 : (ixm (by decide) (y 0).val (y 1) : S80x40.Idx) = ValueIdx.ix2 ⟨(y 0).val - 240, hr⟩ (y 1) := by
      unfold ixm; congr 1; exact Fin.ext (by show (y 0).val % 80 = (y 0).val - 240; omega)
    rw [e1, e3, iblk3 m c t, iblk9 m c t, iblk8 m c t, hm]
    simp only [oStrip]
    try rfl
  · -- strip 4
    have hr : (y 0).val - 320 < 80 := by omega
    rw [runC_out_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 320, hr⟩ (y 1)
      (by show (y 0).val = 320 + ((y 0).val - 320); omega) rfl]
    unfold O13f
    have e1 : (y 0).val / 80 = 4 := by omega
    have e3 : (ixm (by decide) (y 0).val (y 1) : S80x40.Idx) = ValueIdx.ix2 ⟨(y 0).val - 320, hr⟩ (y 1) := by
      unfold ixm; congr 1; exact Fin.ext (by show (y 0).val % 80 = (y 0).val - 320; omega)
    rw [e1, e3, iblk4 m c t, iblk9 m c t, iblk8 m c t, hm]
    simp only [oStrip]
    try rfl

set_option maxHeartbeats 4000000 in
/-- At the first point of the second phase the second result's staging block is left holding row block 0 of the result. -/
theorem pureC_y (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (ht : t.val = 25) (x15 : Vec F S400x40 .f32) (x16 : Vec F S400x16 .f32) (x19 : Vec F S10000x40 .f32) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19).2.1 = O14f m c (t.val - 25) := by
  funext y
  have ht50 : t.val < 50 := t.isLt
  have h25 : 25 ≤ t.val := by omega
  have hm : t.val % 25 = t.val - 25 := by omega
  have hy : (y 0).val < 400 := (y 0).isLt
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runC_y_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 0, hr⟩ (y 1)
      (by show (y 0).val = 0 + ((y 0).val - 0); omega) rfl]
    unfold O14f
    have e2 : 400 * (t.val - 25) + 80 * ((y 0).val / 80) = 400 * (t.val % 25) + 0 := by omega
    have e1 : (y 0).val / 80 = 0 := by omega
    have e3 : (ixm (by decide) (y 0).val (y 1) : S80x16.Idx) = ValueIdx.ix2 ⟨(y 0).val - 0, hr⟩ (y 1) := by
      unfold ixm; congr 1; exact Fin.ext (by show (y 0).val % 80 = (y 0).val - 0; omega)
    have hatt : (fun z : S80x16.Idx => iblk m c 12 t (ixm (by decide) (0 + (z 0).val) (z 1)))
        = attRows m c (400 * (t.val % 25) + 0) := by
      funext z
      have hz : (z 0).val < 80 := (z 0).isLt
      rw [iblk12 m c t h25]
      unfold attRows
      show aAtt m c _ = aAtt m c _
      congr 1
      unfold ixm; congr 1
      exact Fin.ext (by show (400 * (t.val - 25) + (0 + (z 0).val) % 400) % 10000 = (400 * (t.val % 25) + 0 + (z 0).val) % 10000; omega)
    rw [e2, e1, e3, hatt, iblk10 m c t, iblk11 m c t]
    simp only [yStrip]
    try rfl
  · -- strip 1
    have hr : (y 0).val - 80 < 80 := by omega
    rw [runC_y_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 80, hr⟩ (y 1)
      (by show (y 0).val = 80 + ((y 0).val - 80); omega) rfl]
    unfold O14f
    have e2 : 400 * (t.val - 25) + 80 * ((y 0).val / 80) = 400 * (t.val % 25) + 80 := by omega
    have e1 : (y 0).val / 80 = 1 := by omega
    have e3 : (ixm (by decide) (y 0).val (y 1) : S80x16.Idx) = ValueIdx.ix2 ⟨(y 0).val - 80, hr⟩ (y 1) := by
      unfold ixm; congr 1; exact Fin.ext (by show (y 0).val % 80 = (y 0).val - 80; omega)
    have hatt : (fun z : S80x16.Idx => iblk m c 12 t (ixm (by decide) (80 + (z 0).val) (z 1)))
        = attRows m c (400 * (t.val % 25) + 80) := by
      funext z
      have hz : (z 0).val < 80 := (z 0).isLt
      rw [iblk12 m c t h25]
      unfold attRows
      show aAtt m c _ = aAtt m c _
      congr 1
      unfold ixm; congr 1
      exact Fin.ext (by show (400 * (t.val - 25) + (80 + (z 0).val) % 400) % 10000 = (400 * (t.val % 25) + 80 + (z 0).val) % 10000; omega)
    rw [e2, e1, e3, hatt, iblk10 m c t, iblk11 m c t]
    simp only [yStrip]
    try rfl
  · -- strip 2
    have hr : (y 0).val - 160 < 80 := by omega
    rw [runC_y_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 160, hr⟩ (y 1)
      (by show (y 0).val = 160 + ((y 0).val - 160); omega) rfl]
    unfold O14f
    have e2 : 400 * (t.val - 25) + 80 * ((y 0).val / 80) = 400 * (t.val % 25) + 160 := by omega
    have e1 : (y 0).val / 80 = 2 := by omega
    have e3 : (ixm (by decide) (y 0).val (y 1) : S80x16.Idx) = ValueIdx.ix2 ⟨(y 0).val - 160, hr⟩ (y 1) := by
      unfold ixm; congr 1; exact Fin.ext (by show (y 0).val % 80 = (y 0).val - 160; omega)
    have hatt : (fun z : S80x16.Idx => iblk m c 12 t (ixm (by decide) (160 + (z 0).val) (z 1)))
        = attRows m c (400 * (t.val % 25) + 160) := by
      funext z
      have hz : (z 0).val < 80 := (z 0).isLt
      rw [iblk12 m c t h25]
      unfold attRows
      show aAtt m c _ = aAtt m c _
      congr 1
      unfold ixm; congr 1
      exact Fin.ext (by show (400 * (t.val - 25) + (160 + (z 0).val) % 400) % 10000 = (400 * (t.val % 25) + 160 + (z 0).val) % 10000; omega)
    rw [e2, e1, e3, hatt, iblk10 m c t, iblk11 m c t]
    simp only [yStrip]
    try rfl
  · -- strip 3
    have hr : (y 0).val - 240 < 80 := by omega
    rw [runC_y_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 240, hr⟩ (y 1)
      (by show (y 0).val = 240 + ((y 0).val - 240); omega) rfl]
    unfold O14f
    have e2 : 400 * (t.val - 25) + 80 * ((y 0).val / 80) = 400 * (t.val % 25) + 240 := by omega
    have e1 : (y 0).val / 80 = 3 := by omega
    have e3 : (ixm (by decide) (y 0).val (y 1) : S80x16.Idx) = ValueIdx.ix2 ⟨(y 0).val - 240, hr⟩ (y 1) := by
      unfold ixm; congr 1; exact Fin.ext (by show (y 0).val % 80 = (y 0).val - 240; omega)
    have hatt : (fun z : S80x16.Idx => iblk m c 12 t (ixm (by decide) (240 + (z 0).val) (z 1)))
        = attRows m c (400 * (t.val % 25) + 240) := by
      funext z
      have hz : (z 0).val < 80 := (z 0).isLt
      rw [iblk12 m c t h25]
      unfold attRows
      show aAtt m c _ = aAtt m c _
      congr 1
      unfold ixm; congr 1
      exact Fin.ext (by show (400 * (t.val - 25) + (240 + (z 0).val) % 400) % 10000 = (400 * (t.val % 25) + 240 + (z 0).val) % 10000; omega)
    rw [e2, e1, e3, hatt, iblk10 m c t, iblk11 m c t]
    simp only [yStrip]
    try rfl
  · -- strip 4
    have hr : (y 0).val - 320 < 80 := by omega
    rw [runC_y_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 320, hr⟩ (y 1)
      (by show (y 0).val = 320 + ((y 0).val - 320); omega) rfl]
    unfold O14f
    have e2 : 400 * (t.val - 25) + 80 * ((y 0).val / 80) = 400 * (t.val % 25) + 320 := by omega
    have e1 : (y 0).val / 80 = 4 := by omega
    have e3 : (ixm (by decide) (y 0).val (y 1) : S80x16.Idx) = ValueIdx.ix2 ⟨(y 0).val - 320, hr⟩ (y 1) := by
      unfold ixm; congr 1; exact Fin.ext (by show (y 0).val % 80 = (y 0).val - 320; omega)
    have hatt : (fun z : S80x16.Idx => iblk m c 12 t (ixm (by decide) (320 + (z 0).val) (z 1)))
        = attRows m c (400 * (t.val % 25) + 320) := by
      funext z
      have hz : (z 0).val < 80 := (z 0).isLt
      rw [iblk12 m c t h25]
      unfold attRows
      show aAtt m c _ = aAtt m c _
      congr 1
      unfold ixm; congr 1
      exact Fin.ext (by show (400 * (t.val - 25) + (320 + (z 0).val) % 400) % 10000 = (400 * (t.val % 25) + 320 + (z 0).val) % 10000; omega)
    rw [e2, e1, e3, hatt, iblk10 m c t, iblk11 m c t]
    simp only [yStrip]
    try rfl

set_option maxHeartbeats 4000000 in
/-- At a later point `t` of the second phase the first result's staging block is left holding row block `t − 25`. -/
theorem pureD_out (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (ht : 25 < t.val) (x15 : Vec F S400x40 .f32) (x16 : Vec F S400x16 .f32) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c)).1 = O13f m c (t.val - 25) := by
  funext y
  have ht50 : t.val < 50 := t.isLt
  have h25 : 25 ≤ t.val := by omega
  have hm : t.val % 25 = t.val - 25 := by omega
  have hy : (y 0).val < 400 := (y 0).isLt
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runD_out_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 0, hr⟩ (y 1)
      (by show (y 0).val = 0 + ((y 0).val - 0); omega) rfl]
    unfold O13f
    have e1 : (y 0).val / 80 = 0 := by omega
    have e3 : (ixm (by decide) (y 0).val (y 1) : S80x40.Idx) = ValueIdx.ix2 ⟨(y 0).val - 0, hr⟩ (y 1) := by
      unfold ixm; congr 1; exact Fin.ext (by show (y 0).val % 80 = (y 0).val - 0; omega)
    rw [e1, e3, iblk0 m c t, iblk9 m c t, hm]
    simp only [oStrip]
    try rfl
  · -- strip 1
    have hr : (y 0).val - 80 < 80 := by omega
    rw [runD_out_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 80, hr⟩ (y 1)
      (by show (y 0).val = 80 + ((y 0).val - 80); omega) rfl]
    unfold O13f
    have e1 : (y 0).val / 80 = 1 := by omega
    have e3 : (ixm (by decide) (y 0).val (y 1) : S80x40.Idx) = ValueIdx.ix2 ⟨(y 0).val - 80, hr⟩ (y 1) := by
      unfold ixm; congr 1; exact Fin.ext (by show (y 0).val % 80 = (y 0).val - 80; omega)
    rw [e1, e3, iblk1 m c t, iblk9 m c t, hm]
    simp only [oStrip]
    try rfl
  · -- strip 2
    have hr : (y 0).val - 160 < 80 := by omega
    rw [runD_out_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 160, hr⟩ (y 1)
      (by show (y 0).val = 160 + ((y 0).val - 160); omega) rfl]
    unfold O13f
    have e1 : (y 0).val / 80 = 2 := by omega
    have e3 : (ixm (by decide) (y 0).val (y 1) : S80x40.Idx) = ValueIdx.ix2 ⟨(y 0).val - 160, hr⟩ (y 1) := by
      unfold ixm; congr 1; exact Fin.ext (by show (y 0).val % 80 = (y 0).val - 160; omega)
    rw [e1, e3, iblk2 m c t, iblk9 m c t, hm]
    simp only [oStrip]
    try rfl
  · -- strip 3
    have hr : (y 0).val - 240 < 80 := by omega
    rw [runD_out_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 240, hr⟩ (y 1)
      (by show (y 0).val = 240 + ((y 0).val - 240); omega) rfl]
    unfold O13f
    have e1 : (y 0).val / 80 = 3 := by omega
    have e3 : (ixm (by decide) (y 0).val (y 1) : S80x40.Idx) = ValueIdx.ix2 ⟨(y 0).val - 240, hr⟩ (y 1) := by
      unfold ixm; congr 1; exact Fin.ext (by show (y 0).val % 80 = (y 0).val - 240; omega)
    rw [e1, e3, iblk3 m c t, iblk9 m c t, hm]
    simp only [oStrip]
    try rfl
  · -- strip 4
    have hr : (y 0).val - 320 < 80 := by omega
    rw [runD_out_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 320, hr⟩ (y 1)
      (by show (y 0).val = 320 + ((y 0).val - 320); omega) rfl]
    unfold O13f
    have e1 : (y 0).val / 80 = 4 := by omega
    have e3 : (ixm (by decide) (y 0).val (y 1) : S80x40.Idx) = ValueIdx.ix2 ⟨(y 0).val - 320, hr⟩ (y 1) := by
      unfold ixm; congr 1; exact Fin.ext (by show (y 0).val % 80 = (y 0).val - 320; omega)
    rw [e1, e3, iblk4 m c t, iblk9 m c t, hm]
    simp only [oStrip]
    try rfl

set_option maxHeartbeats 4000000 in
/-- At a later point `t` of the second phase the second result's staging block is left holding row block `t − 25`. -/
theorem pureD_y (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (ht : 25 < t.val) (x15 : Vec F S400x40 .f32) (x16 : Vec F S400x16 .f32) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c)).2.1 = O14f m c (t.val - 25) := by
  funext y
  have ht50 : t.val < 50 := t.isLt
  have h25 : 25 ≤ t.val := by omega
  have hm : t.val % 25 = t.val - 25 := by omega
  have hy : (y 0).val < 400 := (y 0).isLt
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runD_y_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 0, hr⟩ (y 1)
      (by show (y 0).val = 0 + ((y 0).val - 0); omega) rfl]
    unfold O14f
    have e2 : 400 * (t.val - 25) + 80 * ((y 0).val / 80) = 400 * (t.val % 25) + 0 := by omega
    have e1 : (y 0).val / 80 = 0 := by omega
    have e3 : (ixm (by decide) (y 0).val (y 1) : S80x16.Idx) = ValueIdx.ix2 ⟨(y 0).val - 0, hr⟩ (y 1) := by
      unfold ixm; congr 1; exact Fin.ext (by show (y 0).val % 80 = (y 0).val - 0; omega)
    have hatt : (fun z : S80x16.Idx => iblk m c 12 t (ixm (by decide) (0 + (z 0).val) (z 1)))
        = attRows m c (400 * (t.val % 25) + 0) := by
      funext z
      have hz : (z 0).val < 80 := (z 0).isLt
      rw [iblk12 m c t h25]
      unfold attRows
      show aAtt m c _ = aAtt m c _
      congr 1
      unfold ixm; congr 1
      exact Fin.ext (by show (400 * (t.val - 25) + (0 + (z 0).val) % 400) % 10000 = (400 * (t.val % 25) + 0 + (z 0).val) % 10000; omega)
    rw [e2, e1, e3, hatt, iblk10 m c t, iblk11 m c t]
    simp only [yStrip]
    try rfl
  · -- strip 1
    have hr : (y 0).val - 80 < 80 := by omega
    rw [runD_y_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 80, hr⟩ (y 1)
      (by show (y 0).val = 80 + ((y 0).val - 80); omega) rfl]
    unfold O14f
    have e2 : 400 * (t.val - 25) + 80 * ((y 0).val / 80) = 400 * (t.val % 25) + 80 := by omega
    have e1 : (y 0).val / 80 = 1 := by omega
    have e3 : (ixm (by decide) (y 0).val (y 1) : S80x16.Idx) = ValueIdx.ix2 ⟨(y 0).val - 80, hr⟩ (y 1) := by
      unfold ixm; congr 1; exact Fin.ext (by show (y 0).val % 80 = (y 0).val - 80; omega)
    have hatt : (fun z : S80x16.Idx => iblk m c 12 t (ixm (by decide) (80 + (z 0).val) (z 1)))
        = attRows m c (400 * (t.val % 25) + 80) := by
      funext z
      have hz : (z 0).val < 80 := (z 0).isLt
      rw [iblk12 m c t h25]
      unfold attRows
      show aAtt m c _ = aAtt m c _
      congr 1
      unfold ixm; congr 1
      exact Fin.ext (by show (400 * (t.val - 25) + (80 + (z 0).val) % 400) % 10000 = (400 * (t.val % 25) + 80 + (z 0).val) % 10000; omega)
    rw [e2, e1, e3, hatt, iblk10 m c t, iblk11 m c t]
    simp only [yStrip]
    try rfl
  · -- strip 2
    have hr : (y 0).val - 160 < 80 := by omega
    rw [runD_y_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 160, hr⟩ (y 1)
      (by show (y 0).val = 160 + ((y 0).val - 160); omega) rfl]
    unfold O14f
    have e2 : 400 * (t.val - 25) + 80 * ((y 0).val / 80) = 400 * (t.val % 25) + 160 := by omega
    have e1 : (y 0).val / 80 = 2 := by omega
    have e3 : (ixm (by decide) (y 0).val (y 1) : S80x16.Idx) = ValueIdx.ix2 ⟨(y 0).val - 160, hr⟩ (y 1) := by
      unfold ixm; congr 1; exact Fin.ext (by show (y 0).val % 80 = (y 0).val - 160; omega)
    have hatt : (fun z : S80x16.Idx => iblk m c 12 t (ixm (by decide) (160 + (z 0).val) (z 1)))
        = attRows m c (400 * (t.val % 25) + 160) := by
      funext z
      have hz : (z 0).val < 80 := (z 0).isLt
      rw [iblk12 m c t h25]
      unfold attRows
      show aAtt m c _ = aAtt m c _
      congr 1
      unfold ixm; congr 1
      exact Fin.ext (by show (400 * (t.val - 25) + (160 + (z 0).val) % 400) % 10000 = (400 * (t.val % 25) + 160 + (z 0).val) % 10000; omega)
    rw [e2, e1, e3, hatt, iblk10 m c t, iblk11 m c t]
    simp only [yStrip]
    try rfl
  · -- strip 3
    have hr : (y 0).val - 240 < 80 := by omega
    rw [runD_y_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 240, hr⟩ (y 1)
      (by show (y 0).val = 240 + ((y 0).val - 240); omega) rfl]
    unfold O14f
    have e2 : 400 * (t.val - 25) + 80 * ((y 0).val / 80) = 400 * (t.val % 25) + 240 := by omega
    have e1 : (y 0).val / 80 = 3 := by omega
    have e3 : (ixm (by decide) (y 0).val (y 1) : S80x16.Idx) = ValueIdx.ix2 ⟨(y 0).val - 240, hr⟩ (y 1) := by
      unfold ixm; congr 1; exact Fin.ext (by show (y 0).val % 80 = (y 0).val - 240; omega)
    have hatt : (fun z : S80x16.Idx => iblk m c 12 t (ixm (by decide) (240 + (z 0).val) (z 1)))
        = attRows m c (400 * (t.val % 25) + 240) := by
      funext z
      have hz : (z 0).val < 80 := (z 0).isLt
      rw [iblk12 m c t h25]
      unfold attRows
      show aAtt m c _ = aAtt m c _
      congr 1
      unfold ixm; congr 1
      exact Fin.ext (by show (400 * (t.val - 25) + (240 + (z 0).val) % 400) % 10000 = (400 * (t.val % 25) + 240 + (z 0).val) % 10000; omega)
    rw [e2, e1, e3, hatt, iblk10 m c t, iblk11 m c t]
    simp only [yStrip]
    try rfl
  · -- strip 4
    have hr : (y 0).val - 320 < 80 := by omega
    rw [runD_y_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 320, hr⟩ (y 1)
      (by show (y 0).val = 320 + ((y 0).val - 320); omega) rfl]
    unfold O14f
    have e2 : 400 * (t.val - 25) + 80 * ((y 0).val / 80) = 400 * (t.val % 25) + 320 := by omega
    have e1 : (y 0).val / 80 = 4 := by omega
    have e3 : (ixm (by decide) (y 0).val (y 1) : S80x16.Idx) = ValueIdx.ix2 ⟨(y 0).val - 320, hr⟩ (y 1) := by
      unfold ixm; congr 1; exact Fin.ext (by show (y 0).val % 80 = (y 0).val - 320; omega)
    have hatt : (fun z : S80x16.Idx => iblk m c 12 t (ixm (by decide) (320 + (z 0).val) (z 1)))
        = attRows m c (400 * (t.val % 25) + 320) := by
      funext z
      have hz : (z 0).val < 80 := (z 0).isLt
      rw [iblk12 m c t h25]
      unfold attRows
      show aAtt m c _ = aAtt m c _
      congr 1
      unfold ixm; congr 1
      exact Fin.ext (by show (400 * (t.val - 25) + (320 + (z 0).val) % 400) % 10000 = (400 * (t.val % 25) + 320 + (z 0).val) % 10000; omega)
    rw [e2, e1, e3, hatt, iblk10 m c t, iblk11 m c t]
    simp only [yStrip]
    try rfl

end Cert.Kernel.Frm

end
-- ==== Proof.KFrmBody.lean ====
import proofs.«139686_g86887188398715_cont_sun_m_547_23_alg».proof.Proof.KFrmRunA
import proofs.«139686_g86887188398715_cont_sun_m_547_23_alg».proof.Proof.KFrmRunB
import proofs.«139686_g86887188398715_cont_sun_m_547_23_alg».proof.Proof.KFrmRunC
import proofs.«139686_g86887188398715_cont_sun_m_547_23_alg».proof.Proof.KFrmRunD
import proofs.«139686_g86887188398715_cont_sun_m_547_23_alg».proof.Proof.KFrmPureB
import proofs.«139686_g86887188398715_cont_sun_m_547_23_alg».proof.Proof.KFrmPureA
import proofs.«139686_g86887188398715_cont_sun_m_547_23_alg».proof.Proof.KFrmPureCD
import proofs.«139686_g86887188398715_cont_sun_m_547_23_alg».proof.Proof.KFrmSel
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation

At each point the body is handed the invariant, every input window's buffer at its block and the two result
windows' buffers at anything; it runs in the case of its conditionals the point's position decides, and hands back
the invariant one point on: in the first phase the hidden-feature scratch agrees with the strip function on one more
row block and the result buffers are untouched; in the second phase the result buffers hold the point's row block. -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl

theorem Phi_cast (c : Dev nD) (t : Fin cfg0.N) : (dats m 0 c).Φ t.castSucc = PhiT m c t.val := by
  dsimp only [dats]; simp only [Fin.coe_castSucc]
theorem Phi_succ (c : Dev nD) (t : Fin cfg0.N) : (dats m 0 c).Φ t.succ = PhiT m c (t.val + 1) := by
  dsimp only [dats]; simp only [Fin.val_succ]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [Phi_cast, Phi_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  have hN : t.val < 50 := lt_of_lt_of_eq t.isLt (show cfg0.N = 50 from N_0)
  by_cases hA : t.val = 0
  · -- the first point: the projected features are stored, then the first row block of hidden features
    have hc1 : cond1 (grid0.coords t) := (hcond1 t).mpr hA
    have hc2 : cond2 (grid0.coords t) := (hcond2 t).mpr (by omega)
    have hc3 : ¬cond3 (grid0.coords t) := fun h => by have := (hcond3 t).mp h; omega
    have hc4 : ¬cond4 (grid0.coords t) := fun h => by have := (hcond4 t).mp h; omega
    ·
      rw [Dat.leavesExact_idle (dats m 0 c) 13 t (by rw [idle13 t]; exact decide_eq_true (by omega)) (by rw [flush13 t]; exact decide_eq_false (by omega))]
      rw [Dat.leavesExact_idle (dats m 0 c) 14 t (by rw [idle14 t]; exact decide_eq_true (by omega)) (by rw [flush14 t]; exact decide_eq_false (by omega))]
      rw [show PhiT m c t.val = Pipeline.ΦA spec0 c from by unfold PhiT; rw [if_pos hA], PhiA0_eq]
      rw [show PhiT m c (t.val + 1) = iprop(iprop(owns (c : Thread nD τ) scM0 fullShare (S1f m c)
      ∗ (∃ h : Vec F S10000x64 .f32, ⌜∀ y : S10000x64.Idx, (y 0).val < 400 * (t.val + 1) → h y = Hf m c y⌝ ∗ owns (c : Thread nD τ) scM1 fullShare h)
      ∗ (∃ d, owns (c : Thread nD τ) scM2 fullShare d)) ∗ (∃ r, prngReg c r)) from by
        unfold PhiT; rw [if_neg (Nat.succ_ne_zero _), if_pos (by omega)]]
      iintro ⟨⟨⟨⟨%s0, HS0⟩, ⟨%h, HS1⟩, ⟨%sd2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) s0 h sd2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]
          · unfold owns; iexists _; isplitr
            swap; · iexact HS0
            ipureintro; rw [Cert.Lib.read_writes_eq_over, Memref.IsWhole.read_unread]; exact pureA_s1 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 ((dats m 0 c).before 13 t d13) ((dats m 0 c).before 14 t d14) s0 h sd2
          isplitl [HS1]
          · iexists (Cert.Lib.over h (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) s0 h sd2).2.1)
            isplitr
            · ipureintro; exact pureA_h m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 hA ((dats m 0 c).before 13 t d13) ((dats m 0 c).before 14 t d14) s0 h sd2
            · unfold owns; iexists _; isplitr
              swap; · iexact HS1
              ipureintro; rw [Cert.Lib.read_writes_eq_over, Memref.IsWhole.read_unread]
          · iexists _; iexact HS2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      · iexists _; iexact H14
  by_cases hB : t.val < 25
  · -- a later point of the first phase: one more row block of hidden features
    have hc1 : ¬cond1 (grid0.coords t) := fun h => hA ((hcond1 t).mp h)
    have hc2 : cond2 (grid0.coords t) := (hcond2 t).mpr hB
    have hc3 : ¬cond3 (grid0.coords t) := fun h => by have := (hcond3 t).mp h; omega
    have hc4 : ¬cond4 (grid0.coords t) := fun h => by have := (hcond4 t).mp h; omega
    ·
      rw [Dat.leavesExact_idle (dats m 0 c) 13 t (by rw [idle13 t]; exact decide_eq_true (by omega)) (by rw [flush13 t]; exact decide_eq_false (by omega))]
      rw [Dat.leavesExact_idle (dats m 0 c) 14 t (by rw [idle14 t]; exact decide_eq_true (by omega)) (by rw [flush14 t]; exact decide_eq_false (by omega))]
      rw [show PhiT m c t.val = iprop(iprop(owns (c : Thread nD τ) scM0 fullShare (S1f m c)
      ∗ (∃ h : Vec F S10000x64 .f32, ⌜∀ y : S10000x64.Idx, (y 0).val < 400 * t.val → h y = Hf m c y⌝ ∗ owns (c : Thread nD τ) scM1 fullShare h)
      ∗ (∃ d, owns (c : Thread nD τ) scM2 fullShare d)) ∗ (∃ r, prngReg c r)) from by
        unfold PhiT; rw [if_neg hA, if_pos (by omega)]]
      rw [show PhiT m c (t.val + 1) = iprop(iprop(owns (c : Thread nD τ) scM0 fullShare (S1f m c)
      ∗ (∃ h : Vec F S10000x64 .f32, ⌜∀ y : S10000x64.Idx, (y 0).val < 400 * (t.val + 1) → h y = Hf m c y⌝ ∗ owns (c : Thread nD τ) scM1 fullShare h)
      ∗ (∃ d, owns (c : Thread nD τ) scM2 fullShare d)) ∗ (∃ r, prngReg c r)) from by
        unfold PhiT; rw [if_neg (Nat.succ_ne_zero _), if_pos (by omega)]]
      iintro ⟨⟨⟨HS0, ⟨%h, %hh, HS1⟩, ⟨%sd2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) (S1f m c) h sd2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]; · iexact HS0
          isplitl [HS1]
          · iexists (Cert.Lib.over h (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) (S1f m c) h sd2).1)
            isplitr
            · ipureintro; exact pureB m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 hB ((dats m 0 c).before 13 t d13) ((dats m 0 c).before 14 t d14) sd2 h hh
            · unfold owns; iexists _; isplitr
              swap; · iexact HS1
              ipureintro; rw [Cert.Lib.read_writes_eq_over, Memref.IsWhole.read_unread]
          · iexists _; iexact HS2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      · iexists _; iexact H14
  by_cases hC : t.val = 25
  · -- the first point of the second phase: the hidden features are whole; their projection is stored, then the first row block of each result
    have hc1 : ¬cond1 (grid0.coords t) := fun h => hA ((hcond1 t).mp h)
    have hc2 : ¬cond2 (grid0.coords t) := fun h => hB ((hcond2 t).mp h)
    have hc3 : cond3 (grid0.coords t) := (hcond3 t).mpr hC
    have hc4 : cond4 (grid0.coords t) := (hcond4 t).mpr (by omega)
    ·
      rw [show (dats m 0 c).leavesExact 13 t = owns (c : Thread nD τ) (ms13 t) fullShare ((dats m 0 c).after 13 t) from by
        unfold Dat.leavesExact; rw [idle13 t, show decide (t.val < 25) = false from decide_eq_false (by omega)], after13]
      rw [show (dats m 0 c).leavesExact 14 t = owns (c : Thread nD τ) (ms14 t) fullShare ((dats m 0 c).after 14 t) from by
        unfold Dat.leavesExact; rw [idle14 t, show decide (t.val < 25) = false from decide_eq_false (by omega)], after14]
      rw [show PhiT m c t.val = iprop(iprop(owns (c : Thread nD τ) scM0 fullShare (S1f m c)
      ∗ (∃ h : Vec F S10000x64 .f32, ⌜∀ y : S10000x64.Idx, (y 0).val < 400 * t.val → h y = Hf m c y⌝ ∗ owns (c : Thread nD τ) scM1 fullShare h)
      ∗ (∃ d, owns (c : Thread nD τ) scM2 fullShare d)) ∗ (∃ r, prngReg c r)) from by
        unfold PhiT; rw [if_neg hA, if_pos (by omega)]]
      rw [show PhiT m c (t.val + 1) = iprop(iprop(owns (c : Thread nD τ) scM0 fullShare (S1f m c) ∗ owns (c : Thread nD τ) scM1 fullShare (Hf m c)
      ∗ owns (c : Thread nD τ) scM2 fullShare (S2f m c)) ∗ (∃ r, prngReg c r)) from by
        unfold PhiT; rw [if_neg (Nat.succ_ne_zero _), if_neg (by omega)]]
      iintro ⟨⟨⟨HS0, ⟨%h, %hh, HS1⟩, ⟨%sd2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      obtain rfl : h = Hf m c := funext fun y => hh y (by have := ValueIdx.idx2_lt0 y; omega)
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) (S1f m c) (Hf m c) sd2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]; · iexact HS0
          isplitl [HS1]; · iexact HS1
          · unfold owns; iexists _; isplitr
            swap; · iexact HS2
            ipureintro; rw [Cert.Lib.read_writes_eq_over, Memref.IsWhole.read_unread]; exact pureC_s2 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 ((dats m 0 c).before 13 t d13) ((dats m 0 c).before 14 t d14) sd2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; rw [Cert.Lib.read_writes_eq_over, Memref.IsWhole.read_unread]; exact pureC_out m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 hC ((dats m 0 c).before 13 t d13) ((dats m 0 c).before 14 t d14) sd2
      · unfold owns; iexists _; isplitr
        swap; · iexact H14
        ipureintro; rw [Cert.Lib.read_writes_eq_over, Memref.IsWhole.read_unread]; exact pureC_y m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 hC ((dats m 0 c).before 13 t d13) ((dats m 0 c).before 14 t d14) sd2
  · -- a later point of the second phase: one more row block of each result
    have hc1 : ¬cond1 (grid0.coords t) := fun h => hA ((hcond1 t).mp h)
    have hc2 : ¬cond2 (grid0.coords t) := fun h => hB ((hcond2 t).mp h)
    have hc3 : ¬cond3 (grid0.coords t) := fun h => hC ((hcond3 t).mp h)
    have hc4 : cond4 (grid0.coords t) := (hcond4 t).mpr (by omega)
    ·
      rw [show (dats m 0 c).leavesExact 13 t = owns (c : Thread nD τ) (ms13 t) fullShare ((dats m 0 c).after 13 t) from by
        unfold Dat.leavesExact; rw [idle13 t, show decide (t.val < 25) = false from decide_eq_false (by omega)], after13]
      rw [show (dats m 0 c).leavesExact 14 t = owns (c : Thread nD τ) (ms14 t) fullShare ((dats m 0 c).after 14 t) from by
        unfold Dat.leavesExact; rw [idle14 t, show decide (t.val < 25) = false from decide_eq_false (by omega)], after14]
      rw [show PhiT m c t.val = iprop(iprop(owns (c : Thread nD τ) scM0 fullShare (S1f m c) ∗ owns (c : Thread nD τ) scM1 fullShare (Hf m c)
      ∗ owns (c : Thread nD τ) scM2 fullShare (S2f m c)) ∗ (∃ r, prngReg c r)) from by
        unfold PhiT; rw [if_neg hA, if_neg (by omega)]]
      rw [show PhiT m c (t.val + 1) = iprop(iprop(owns (c : Thread nD τ) scM0 fullShare (S1f m c) ∗ owns (c : Thread nD τ) scM1 fullShare (Hf m c)
      ∗ owns (c : Thread nD τ) scM2 fullShare (S2f m c)) ∗ (∃ r, prngReg c r)) from by
        unfold PhiT; rw [if_neg (Nat.succ_ne_zero _), if_neg (by omega)]]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) (S1f m c) (Hf m c) (S2f m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]; · iexact HS0
          isplitl [HS1]; · iexact HS1
          · iexact HS2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; rw [Cert.Lib.read_writes_eq_over, Memref.IsWhole.read_unread]; exact pureD_out m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (by omega) ((dats m 0 c).before 13 t d13) ((dats m 0 c).before 14 t d14)
      · unfold owns; iexists _; isplitr
        swap; · iexact H14
        ipureintro; rw [Cert.Lib.read_writes_eq_over, Memref.IsWhole.read_unread]; exact pureD_y m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (by omega) ((dats m 0 c).before 13 t d13) ((dats m 0 c).before 14 t d14)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.KFrmSplit.lean ====
import proofs.«139686_g86887188398715_cont_sun_m_547_23_alg».proof.Proof.KFrmBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The arrays at entry from the eleven distinct buffers behind them

Windows 0‥4 all read the adjacency matrix; each of the other ten windows has a buffer of its own. The adjacency
matrix's full share is dealt among its five windows; every other buffer goes whole to its one window. -/

/-- The five windows on the adjacency matrix. -/
def adjWin : Fin 5 → Fin cfg0.W := fun k => ⟨k.val, Nat.lt_of_lt_of_le k.isLt (by decide)⟩

theorem adjWin_inj : Function.Injective adjWin := fun a b h => Fin.ext (show a.val = b.val from congrArg (fun x : Fin cfg0.W => x.val) h)

/-- They have one array. -/
theorem adjWin_ref : ∀ k, Pipeline.arrRef spec0 (adjWin k) = Pipeline.arrRef spec0 (adjWin 0) := by decide

/-- Every other window's array is behind no other window. -/
theorem own_ref : ∀ w : Fin 15, (∀ k, adjWin k ≠ w) → ∀ w' : Fin 15, Pipeline.arrRef spec0 w' = Pipeline.arrRef spec0 w → w' = w := by
  decide

/-- The five windows hold the adjacency matrix at the five shares. -/
theorem share_adj (c : Dev nD) : ∀ k, (dats m 0 c).share (adjWin k) = Cert.LibSharedFrame.q5 k := by
  intro k; fin_cases k <;> rfl

/-- Every other window holds its array whole. -/
theorem share_own (c : Dev nD) : ∀ w : Fin cfg0.W, (∀ k, adjWin k ≠ w) → (dats m 0 c).share w = fullShare := by
  intro w hw
  fin_cases w
  · exact absurd rfl (hw 0)
  · exact absurd rfl (hw 1)
  · exact absurd rfl (hw 2)
  · exact absurd rfl (hw 3)
  · exact absurd rfl (hw 4)
  all_goals rfl

/-- The distinct buffers behind the windows' arrays, each whole at the contents the region finds, yield the proof
    data's arrays at entry. -/
theorem hsplit (c : Dev nD) :
    (Pipeline.arrBufs spec0 c (V m c) : sProp 𝕄) ⊢ (dats m 0 c).arrays ((dats m 0 c).arrAt · 0) :=
  Cert.LibSharedFrame.arrays_of_arrBufs_five cfg0 (dats m 0 c) arr_whole0 (V m c) _ (A_eq m c) adjWin adjWin_inj
    adjWin_ref own_ref (share_adj m c) (share_own m c)

end Cert.Kernel.Frm

end
-- ==== Proof.KFrmLaunch.lean ====
import proofs.«139686_g86887188398715_cont_sun_m_547_23_alg».proof.Proof.KFrmBody
import proofs.«139686_g86887188398715_cont_sun_m_547_23_alg».proof.Proof.KFrmSplit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What the launch hands the region is the invariant before the first point. -/
theorem hin (c : Dev nD) : Pipeline.ΦA spec0 c ⊢ (dats m 0 c).Φ 0 := by
  rw [show (dats m 0 c).Φ 0 = PhiT m c 0 from rfl]
  unfold PhiT; rw [if_pos rfl]

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, Fin.val_last,
    show cfg0.N = 50 from N_0]
  unfold PhiT; rw [if_neg (by decide), if_neg (by decide), PhiA0_eq]
  iintro ⟨⟨HS0, HS1, HS2⟩, Hg⟩
  isplitl [HS0 HS1 HS2]
  · isplitl [HS0]; · iexists _; iexact HS0
    isplitl [HS1]; · iexists _; iexact HS1
    · iexists _; iexact HS2
  · iexact Hg

set_option backward.isDefEq.respectTransparency.types false in
/-- At the compiled mesh, for any values, from any memory with zero counters: every weakly fair execution of the program
    terminates, and in every final state each array of the pipeline holds what the proof data computes — an input its
    entry contents, a result the row blocks written back — and every other unscoped buffer what it held when the region
    was entered. The adjacency matrix is read through five windows, its share dealt among them. -/
theorem run_main : θ_run defs (onTc (τ := τ) (main (F := F))) (s₀ m ρ) (Pipeline.FramePost cfgs (dats m) 0 (V m)) :=
  Cert.LibSharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m)
    (hmain := hmain m Variants.none) (hsplit := hsplit m) (hin := hin m) (hout := hout m)

end Cert.Kernel.Frm

end
-- ==== Proof.KFrmRead.lean ====
import proofs.«139686_g86887188398715_cont_sun_m_547_23_alg».proof.Proof.KFrmBase
import Idealize.ShloMosaic.Lib.StableHlo.Run

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays when the region is entered

Before the region only the three bias vectors are re-laid as rows, each into a buffer of its own: every argument array
is found as it was at the launch. -/

theorem V_arg0 (c : Dev nD) : V m c main_arg0 = m ((c.tc : Thread nD τ).loc main_arg0) := by
  dsimp only [V, V0, hostOps0]; after_results
theorem V_arg1 (c : Dev nD) : V m c main_arg1 = m ((c.tc : Thread nD τ).loc main_arg1) := by
  dsimp only [V, V0, hostOps0]; after_results
theorem V_arg2 (c : Dev nD) : V m c main_arg2 = m ((c.tc : Thread nD τ).loc main_arg2) := by
  dsimp only [V, V0, hostOps0]; after_results
theorem V_arg3 (c : Dev nD) : V m c main_arg3 = m ((c.tc : Thread nD τ).loc main_arg3) := by
  dsimp only [V, V0, hostOps0]; after_results
theorem V_arg4 (c : Dev nD) : V m c main_arg4 = m ((c.tc : Thread nD τ).loc main_arg4) := by
  dsimp only [V, V0, hostOps0]; after_results
theorem V_arg5 (c : Dev nD) : V m c main_arg5 = m ((c.tc : Thread nD τ).loc main_arg5) := by
  dsimp only [V, V0, hostOps0]; after_results
theorem V_arg6 (c : Dev nD) : V m c main_arg6 = m ((c.tc : Thread nD τ).loc main_arg6) := by
  dsimp only [V, V0, hostOps0]; after_results
theorem V_arg7 (c : Dev nD) : V m c main_arg7 = m ((c.tc : Thread nD τ).loc main_arg7) := by
  dsimp only [V, V0, hostOps0]; after_results
theorem V_arg8 (c : Dev nD) : V m c main_arg8 = m ((c.tc : Thread nD τ).loc main_arg8) := by
  dsimp only [V, V0, hostOps0]; after_results

/-! ## From the pipeline's post to the arrays at the end

An array read through an input window ends as the region found it; a bias vector, which no window reads, is among the
buffers that bypass the region and ends as the region found it too; the two results' arrays end at what the
write-backs left. -/

/-- The nine argument arrays end unchanged. -/
theorem frame_of_run
    (h : θ_run (defs (F := F)) (onTc (τ := τ) (main (F := F))) (s₀ m ρ) (Pipeline.FramePost cfgs (dats m) 0 (V m))) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 5).trans (((dats m 0 c).arrAt_in 5 rfl _).trans ((A_eq m c 5).trans (V_arg0 m c))),
      ((h c).1 0).trans (((dats m 0 c).arrAt_in 0 rfl _).trans ((A_eq m c 0).trans (V_arg1 m c))),
      ((h c).1 12).trans (((dats m 0 c).arrAt_in 12 rfl _).trans ((A_eq m c 12).trans (V_arg2 m c))),
      ((h c).1 6).trans (((dats m 0 c).arrAt_in 6 rfl _).trans ((A_eq m c 6).trans (V_arg3 m c))),
      ((h c).2 main_arg4 (Pipeline.mem_restRefs_of main_arg4 (by decide) (by decide))).trans (V_arg4 m c),
      ((h c).1 8).trans (((dats m 0 c).arrAt_in 8 rfl _).trans ((A_eq m c 8).trans (V_arg5 m c))),
      ((h c).2 main_arg6 (Pipeline.mem_restRefs_of main_arg6 (by decide) (by decide))).trans (V_arg6 m c),
      ((h c).1 10).trans (((dats m 0 c).arrAt_in 10 rfl _).trans ((A_eq m c 10).trans (V_arg7 m c))),
      ((h c).2 main_arg8 (Pipeline.mem_restRefs_of main_arg8 (by decide) (by decide))).trans (V_arg8 m c)⟩) h

/-- The two results' arrays end at the contents computed from the proof data, and the nine argument arrays unchanged. -/
theorem results_of_run
    (h : θ_run (defs (F := F)) (onTc (τ := τ) (main (F := F))) (s₀ m ρ) (Pipeline.FramePost cfgs (dats m) 0 (V m))) :
    θ_run (defs (F := F)) (onTc (τ := τ) (main (F := F))) ⟨m, fun _ => 0, ρ⟩ (fun r => ∀ c : Dev nD,
      r.2.mem ((c.tc : Thread nD τ).loc main_v3_0) = (dats m 0 c).arrAt 13 cfg0.N
      ∧ r.2.mem ((c.tc : Thread nD τ).loc main_v3_1) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 13, (h c).1 14,
      ((h c).1 5).trans (((dats m 0 c).arrAt_in 5 rfl _).trans ((A_eq m c 5).trans (V_arg0 m c))),
      ((h c).1 0).trans (((dats m 0 c).arrAt_in 0 rfl _).trans ((A_eq m c 0).trans (V_arg1 m c))),
      ((h c).1 12).trans (((dats m 0 c).arrAt_in 12 rfl _).trans ((A_eq m c 12).trans (V_arg2 m c))),
      ((h c).1 6).trans (((dats m 0 c).arrAt_in 6 rfl _).trans ((A_eq m c 6).trans (V_arg3 m c))),
      ((h c).2 main_arg4 (Pipeline.mem_restRefs_of main_arg4 (by decide) (by decide))).trans (V_arg4 m c),
      ((h c).1 8).trans (((dats m 0 c).arrAt_in 8 rfl _).trans ((A_eq m c 8).trans (V_arg5 m c))),
      ((h c).2 main_arg6 (Pipeline.mem_restRefs_of main_arg6 (by decide) (by decide))).trans (V_arg6 m c),
      ((h c).1 10).trans (((dats m 0 c).arrAt_in 10 rfl _).trans ((A_eq m c 10).trans (V_arg7 m c))),
      ((h c).2 main_arg8 (Pipeline.mem_restRefs_of main_arg8 (by decide) (by decide))).trans (V_arg8 m c)⟩) h

end Cert.Kernel.Frm

end
-- ==== Proof.FrmBase.lean ====
import proofs.«139686_g86887188398715_cont_sun_m_547_23_alg».proof.Proof.Gen.KernelIdeal.Launch
import proofs.«139686_g86887188398715_cont_sun_m_547_23_alg».proof.Proof.Gen.KernelIdeal.Skeleton
import proofs.«139686_g86887188398715_cont_sun_m_547_23_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«139686_g86887188398715_cont_sun_m_547_23_alg».proof.Proof.LibSharedFrame
import proofs.«139686_g86887188398715_cont_sun_m_547_23_alg».proof.Proof.LibWritesOver

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four conditionals of the body, decided over the grid

The grid has 2 × 25 points in row-major order: points 0‥24 are the first phase (the hidden features are built),
points 25‥49 the second (the two results are written). -/

/-- The first conditional of the body: first phase and first row block. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second: first phase. -/
abbrev cond2 (i : grid0.Coords) : Prop := k0_cond2 i = 1#1
/-- The third: second phase and first row block. -/
abbrev cond3 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The fourth: second phase. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-! ## The two result windows: idle through the first phase, written back at every point of the second -/

theorem idle13 : ∀ t : Fin cfg0.N, cfg0.idle 13 (grid0.coords t) = decide (t.val < 25) := by decide +kernel
theorem idle14 : ∀ t : Fin cfg0.N, cfg0.idle 14 (grid0.coords t) = decide (t.val < 25) := by decide +kernel
theorem flush13 : ∀ t : Fin cfg0.N, (cfg0.win 13).flush t = decide (25 ≤ t.val) :=
  (by decide +kernel : ∀ t : Fin grid0.N, win0_13.flush t = decide (25 ≤ t.val))
theorem flush14 : ∀ t : Fin cfg0.N, (cfg0.win 14).flush t = decide (25 ≤ t.val) :=
  (by decide +kernel : ∀ t : Fin grid0.N, win0_14.flush t = decide (25 ≤ t.val))

/-! ## The row offsets of the strips, in closed form

Row block `k = t mod 25` holds rows 400·k ‥ 400·k + 399, cut into five strips of 80 rows. -/
theorem off1_0 : ∀ t : Fin cfg0.N, k0_off1 (grid0.coords t) 0#32 = ![400 * (t.val % 25) + 0, 0] :=
  (by decide +kernel : ∀ t : Fin grid0.N, k0_off1 (grid0.coords t) 0#32 = ![400 * (t.val % 25) + 0, 0])
theorem off2_0 : ∀ t : Fin cfg0.N, k0_off2 (grid0.coords t) 0#32 = ![400 * (t.val % 25) + 0, 0] :=
  (by decide +kernel : ∀ t : Fin grid0.N, k0_off2 (grid0.coords t) 0#32 = ![400 * (t.val % 25) + 0, 0])
theorem off1_80 : ∀ t : Fin cfg0.N, k0_off1 (grid0.coords t) 80#32 = ![400 * (t.val % 25) + 80, 0] :=
  (by decide +kernel : ∀ t : Fin grid0.N, k0_off1 (grid0.coords t) 80#32 = ![400 * (t.val % 25) + 80, 0])
theorem off2_80 : ∀ t : Fin cfg0.N, k0_off2 (grid0.coords t) 80#32 = ![400 * (t.val % 25) + 80, 0] :=
  (by decide +kernel : ∀ t : Fin grid0.N, k0_off2 (grid0.coords t) 80#32 = ![400 * (t.val % 25) + 80, 0])
theorem off1_160 : ∀ t : Fin cfg0.N, k0_off1 (grid0.coords t) 160#32 = ![400 * (t.val % 25) + 160, 0] :=
  (by decide +kernel : ∀ t : Fin grid0.N, k0_off1 (grid0.coords t) 160#32 = ![400 * (t.val % 25) + 160, 0])
theorem off2_160 : ∀ t : Fin cfg0.N, k0_off2 (grid0.coords t) 160#32 = ![400 * (t.val % 25) + 160, 0] :=
  (by decide +kernel : ∀ t : Fin grid0.N, k0_off2 (grid0.coords t) 160#32 = ![400 * (t.val % 25) + 160, 0])
theorem off1_240 : ∀ t : Fin cfg0.N, k0_off1 (grid0.coords t) 240#32 = ![400 * (t.val % 25) + 240, 0] :=
  (by decide +kernel : ∀ t : Fin grid0.N, k0_off1 (grid0.coords t) 240#32 = ![400 * (t.val % 25) + 240, 0])
theorem off2_240 : ∀ t : Fin cfg0.N, k0_off2 (grid0.coords t) 240#32 = ![400 * (t.val % 25) + 240, 0] :=
  (by decide +kernel : ∀ t : Fin grid0.N, k0_off2 (grid0.coords t) 240#32 = ![400 * (t.val % 25) + 240, 0])
theorem off1_320 : ∀ t : Fin cfg0.N, k0_off1 (grid0.coords t) 320#32 = ![400 * (t.val % 25) + 320, 0] :=
  (by decide +kernel : ∀ t : Fin grid0.N, k0_off1 (grid0.coords t) 320#32 = ![400 * (t.val % 25) + 320, 0])
theorem off2_320 : ∀ t : Fin cfg0.N, k0_off2 (grid0.coords t) 320#32 = ![400 * (t.val % 25) + 320, 0] :=
  (by decide +kernel : ∀ t : Fin grid0.N, k0_off2 (grid0.coords t) 320#32 = ![400 * (t.val % 25) + 320, 0])

/-! ## The contents when the region is entered, and the windows' blocks -/

/-- Core `c`'s buffers when the region is entered: after the three reshapes of the bias vectors to rows. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program up to the region: the three reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The staging and scratch memrefs -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
abbrev ms13 (t : Fin cfg0.N) := win0_13.stage (cfg0.slots t 13)
abbrev hs13 (t : Fin cfg0.N) : (ms13 t).IsWhole := hstage0_13 ((cfg0.slots t 13).cast nbuf0_13)
abbrev ms14 (t : Fin cfg0.N) := win0_14.stage (cfg0.slots t 14)
abbrev hs14 (t : Fin cfg0.N) : (ms14 t).IsWhole := hstage0_14 ((cfg0.slots t 14).cast nbuf0_14)
/-- The three scratch buffers: the projected features `x · W1`, the hidden features, and `h · W2`. -/
abbrev scM0 : Memref sig .tc .vmem S10000x64 .f32 := Memref.whole cc0_scratch0
abbrev scM1 : Memref sig .tc .vmem S10000x64 .f32 := Memref.whole cc0_scratch1
abbrev scM2 : Memref sig .tc .vmem S10000x40 .f32 := Memref.whole cc0_scratch2

/-- The class invariant with the scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the kernel carries between points, as functions of the arrays

Everything is stated through the body's own arithmetic (the payload terms of its stores), at any float instance:
the projected features, one 80-row strip of hidden features, the hidden features as a whole array (row r lies in
strip `r / 80`, at position `r mod 80`), their projection, and one 400-row block of each result. -/

/-- Index (r mod n, q) of an `[n, d]` array. -/
def ixm {n d : ℕ} (hn : 0 < n) (r : ℕ) (q : Fin d) : (⟨2, ![n, d]⟩ : Shape).Idx := ValueIdx.ix2 ⟨r % n, Nat.mod_lt _ hn⟩ q

/-- The arrays as the region finds them. -/
abbrev aX (c : Dev nD) : Vec F S10000x128 .f32 := V m c main_arg0
abbrev aAdj (c : Dev nD) : Vec F S10000x10000 .f32 := V m c main_arg1
abbrev aAtt (c : Dev nD) : Vec F S10000x16 .f32 := V m c main_arg2
abbrev aW1 (c : Dev nD) : Vec F S128x64 .f32 := V m c main_arg3
abbrev aB1 (c : Dev nD) : Vec F S1x64 .f32 := V m c main_v0
abbrev aW2 (c : Dev nD) : Vec F S64x40 .f32 := V m c main_arg5
abbrev aB2 (c : Dev nD) : Vec F S1x40 .f32 := V m c main_v1
abbrev aWe (c : Dev nD) : Vec F S16x64 .f32 := V m c main_arg7
abbrev aBe (c : Dev nD) : Vec F S1x16 .f32 := V m c main_v2

/-- Strip `k` of the adjacency matrix: its rows 80·k ‥ 80·k + 79. -/
def adjStrip (c : Dev nD) (k : ℕ) : Vec F S80x10000 .f32 := fun y => aAdj m c (ixm (by decide) (80 * k + (y 0).val) (y 1))

/-- The projected features `x · W1`, as the first point stores them. -/
def S1f (c : Dev nD) : Vec F S10000x64 .f32 := k0_pay1 (aX m c) (aW1 m c)

/-- One strip of hidden features from a strip of the adjacency matrix: the body's `j`-th store of the first phase. -/
def hStrip (j : ℕ) (a : Vec F S80x10000 .f32) (s : Vec F S10000x64 .f32) (b : Vec F S1x64 .f32) : Vec F S80x64 .f32 :=
  if j = 0 then k0_pay6 a s b else if j = 1 then k0_pay7 a s b else if j = 2 then k0_pay8 a s b
  else if j = 3 then k0_pay9 a s b else k0_pay2 (k0_pay10 a s) (k0_pay11 b)

/-- The hidden features: row r is row `r mod 80` of the strip computed from strip `r / 80` of the adjacency matrix. -/
def Hf (c : Dev nD) : Vec F S10000x64 .f32 := fun y =>
  hStrip (((y 0).val % 400) / 80) (adjStrip m c ((y 0).val / 80)) (S1f m c) (aB1 m c) (ixm (by decide) (y 0).val (y 1))

/-- Their projection `h · W2`, as the first point of the second phase stores it. -/
def S2f (c : Dev nD) : Vec F S10000x40 .f32 := k0_pay3 (Hf m c) (aW2 m c)

/-- One strip of the first result: the body's `j`-th store of it. -/
def oStrip (j : ℕ) (a : Vec F S80x10000 .f32) (s : Vec F S10000x40 .f32) (b : Vec F S1x40 .f32) : Vec F S80x40 .f32 :=
  if j = 0 then k0_pay12 a s b else if j = 1 then k0_pay14 a s b else if j = 2 then k0_pay16 a s b
  else if j = 3 then k0_pay18 a s b else k0_pay4 a s b

/-- One strip of the second result. -/
def yStrip (j : ℕ) (hh : Vec F S80x64 .f32) (we : Vec F S16x64 .f32) (be : Vec F S1x16 .f32) (at' : Vec F S80x16 .f32) : Vec F S80x16 .f32 :=
  if j = 0 then k0_pay13 hh we be at' else if j = 1 then k0_pay15 hh we be at' else if j = 2 then k0_pay17 hh we be at'
  else if j = 3 then k0_pay19 hh we be at' else k0_pay5 hh we be at'

/-- Rows r0 ‥ r0 + 79 of the hidden features, and of the attention array. -/
def hRows (c : Dev nD) (r0 : ℕ) : Vec F S80x64 .f32 := fun y => Hf m c (ixm (by decide) (r0 + (y 0).val) (y 1))
def attRows (c : Dev nD) (r0 : ℕ) : Vec F S80x16 .f32 := fun y => aAtt m c (ixm (by decide) (r0 + (y 0).val) (y 1))

/-- Row block `k` of the first result: row r of it lies in strip `r / 80`. -/
def O13f (c : Dev nD) (k : ℕ) : Vec F S400x40 .f32 := fun y =>
  oStrip ((y 0).val / 80) (adjStrip m c (5 * k + (y 0).val / 80)) (S2f m c) (aB2 m c) (ixm (by decide) (y 0).val (y 1))

/-- Row block `k` of the second result. -/
def O14f (c : Dev nD) (k : ℕ) : Vec F S400x16 .f32 := fun y =>
  yStrip ((y 0).val / 80) (hRows m c (400 * k + 80 * ((y 0).val / 80))) (aWe m c) (aBe m c)
    (attRows m c (400 * k + 80 * ((y 0).val / 80))) (ixm (by decide) (y 0).val (y 1))

/-! ## The invariant between points -/

/-- Before point `n`: before the first point the scratch buffers hold anything; through the first phase the projected
    features are in place and the hidden features agree with `Hf` on the rows below 400·n; from the end of the first
    phase on the hidden features are whole, and after the first point of the second phase their projection is in place. -/
def PhiT (c : Dev nD) (n : ℕ) : sProp 𝕄 :=
  if n = 0 then Pipeline.ΦA spec0 c
  else if n ≤ 25 then
    iprop(iprop(owns (c : Thread nD τ) scM0 fullShare (S1f m c)
      ∗ (∃ h : Vec F S10000x64 .f32, ⌜∀ y : S10000x64.Idx, (y 0).val < 400 * n → h y = Hf m c y⌝ ∗ owns (c : Thread nD τ) scM1 fullShare h)
      ∗ (∃ d, owns (c : Thread nD τ) scM2 fullShare d)) ∗ (∃ r, prngReg c r))
  else
    iprop(iprop(owns (c : Thread nD τ) scM0 fullShare (S1f m c) ∗ owns (c : Thread nD τ) scM1 fullShare (Hf m c)
      ∗ owns (c : Thread nD τ) scM2 fullShare (S2f m c)) ∗ (∃ r, prngReg c r))

/-! ## The proof data -/

/-- The adjacency matrix is read through five windows: its full share is dealt among them. -/
def qAdj : Fin 5 → PosShare TreeShare := Cert.LibSharedFrame.q5

/-- The proof data of the pipeline on core `c`: the arrays as the region finds them; after the body each input's
    buffer at its block and, at a point of the second phase, the results' buffers at that point's row block; the
    invariant `PhiT`; nothing owed; the adjacency matrix's share dealt among its five windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => O13f m c (t.val - 25)
    | ⟨14, _⟩ => O14f m c (t.val - 25)
  Φ t := PhiT m c t.val
  q w := match w with
    | ⟨0, _⟩ => qAdj 0
    | ⟨1, _⟩ => qAdj 1
    | ⟨2, _⟩ => qAdj 2
    | ⟨3, _⟩ => qAdj 3
    | ⟨4, _⟩ => qAdj 4
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = O13f m c (t.val - 25) := by dsimp only [dats]
theorem after14 (c : Dev nD) (t : Fin cfg0.N) : (dats m 0 c).after 14 t = O14f m c (t.val - 25) := by dsimp only [dats]

/-- Each input's current staging buffer holds its block at every point, fetched there or not: an input that is not
    fetched has not moved, and the body leaves every input's block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)

end Cert.KernelIdeal.Frm

end
-- ==== Proof.FrmRunA.lean ====
import proofs.«139686_g86887188398715_cont_sun_m_547_23_alg».proof.Proof.FrmBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The body on any whole staging and scratch memrefs at contents `x·`, in the case of its conditionals the hypotheses
    name: it runs, without fault, to the continuation holding every buffer it only reads as it was and every buffer it
    stores into with its stores written over what it held — the stores found by running the body. -/
noncomputable def runA (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole)
    (hc1 : cond1 i) (hc2 : cond2 i) (hc3 : ¬cond3 i) (hc4 : ¬cond4 i)
    (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Σ' (L17 : List (View.Piece (Elt F) S10000x64 .f32)), { L18 : List (View.Piece (Elt F) S10000x64 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ owns (c : Thread nD τ) arg19 fullShare x19) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0__fused_eq_skeleton]; unfold cc0__fused_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexact H17
    isplitl [H18]
    · iexact H18
    · iexists _; isplitr; · ipureintro; exact harg19.read_unread _
      iexact H19

end Cert.KernelIdeal.Frm

end
-- ==== Proof.FrmRunB.lean ====
import proofs.«139686_g86887188398715_cont_sun_m_547_23_alg».proof.Proof.FrmBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The body on any whole staging and scratch memrefs at contents `x·`, in the case of its conditionals the hypotheses
    name: it runs, without fault, to the continuation holding every buffer it only reads as it was and every buffer it
    stores into with its stores written over what it held — the stores found by running the body. -/
noncomputable def runB (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole)
    (hc1 : ¬cond1 i) (hc2 : cond2 i) (hc3 : ¬cond3 i) (hc4 : ¬cond4 i)
    (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    { L18 : List (View.Piece (Elt F) S10000x64 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (arg18.view.loc (c : Thread nD τ) ↦[arg18.view.set]{fullShare} arg18.view.writes (Elt F) (harg18.unread x18) L18) ∗ owns (c : Thread nD τ) arg19 fullShare x19) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0__fused_eq_skeleton]; unfold cc0__fused_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexact H18
    · iexists _; isplitr; · ipureintro; exact harg19.read_unread _
      iexact H19

end Cert.KernelIdeal.Frm

end
-- ==== Proof.FrmRunC.lean ====
import proofs.«139686_g86887188398715_cont_sun_m_547_23_alg».proof.Proof.FrmBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The body on any whole staging and scratch memrefs at contents `x·`, in the case of its conditionals the hypotheses
    name: it runs, without fault, to the continuation holding every buffer it only reads as it was and every buffer it
    stores into with its stores written over what it held — the stores found by running the body. -/
noncomputable def runC (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole)
    (hc1 : ¬cond1 i) (hc2 : ¬cond2 i) (hc3 : cond3 i) (hc4 : cond4 i)
    (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Σ' (L15 : List (View.Piece (Elt F) S400x40 .f32)), Σ' (L16 : List (View.Piece (Elt F) S400x16 .f32)), { L19 : List (View.Piece (Elt F) S10000x40 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ owns (c : Thread nD τ) arg17 fullShare x17 ∗ owns (c : Thread nD τ) arg18 fullShare x18 ∗ (arg19.view.loc (c : Thread nD τ) ↦[arg19.view.set]{fullShare} arg19.view.writes (Elt F) (harg19.unread x19) L19)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__fused_eq_skeleton]; unfold cc0__fused_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexact H15
    isplitl [H16]
    · iexact H16
    isplitl [H17]
    · iexists _; isplitr; · ipureintro; exact harg17.read_unread _
      iexact H17
    isplitl [H18]
    · iexists _; isplitr; · ipureintro; exact harg18.read_unread _
      iexact H18
    · iexact H19

end Cert.KernelIdeal.Frm

end
-- ==== Proof.FrmRunD.lean ====
import proofs.«139686_g86887188398715_cont_sun_m_547_23_alg».proof.Proof.FrmBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- The body on any whole staging and scratch memrefs at contents `x·`, in the case of its conditionals the hypotheses
    name: it runs, without fault, to the continuation holding every buffer it only reads as it was and every buffer it
    stores into with its stores written over what it held — the stores found by running the body. -/
noncomputable def runD (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole)
    (hc1 : ¬cond1 i) (hc2 : ¬cond2 i) (hc3 : ¬cond3 i) (hc4 : cond4 i)
    (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Σ' (L15 : List (View.Piece (Elt F) S400x40 .f32)), { L16 : List (View.Piece (Elt F) S400x16 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ owns (c : Thread nD τ) arg17 fullShare x17 ∗ owns (c : Thread nD τ) arg18 fullShare x18 ∗ owns (c : Thread nD τ) arg19 fullShare x19) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0__fused_eq_skeleton]; unfold cc0__fused_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexact H15
    isplitl [H16]
    · iexact H16
    isplitl [H17]
    · iexists _; isplitr; · ipureintro; exact harg17.read_unread _
      iexact H17
    isplitl [H18]
    · iexists _; isplitr; · ipureintro; exact harg18.read_unread _
      iexact H18
    · iexists _; isplitr; · ipureintro; exact harg19.read_unread _
      iexact H19

end Cert.KernelIdeal.Frm

end
-- ==== Proof.FrmSel.lean ====
import proofs.«139686_g86887188398715_cont_sun_m_547_23_alg».proof.Proof.FrmBase
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One of five things, by position. -/
def sel5 {α : Sort _} (j : ℕ) (a0 a1 a2 a3 a4 : α) : α :=
  if j = 0 then a0 else if j = 1 then a1 else if j = 2 then a2 else if j = 3 then a3 else a4

theorem hz2 : (![0, 0] : Fin 2 → Nat) = fun _ => 0 := funext fun a => by fin_cases a <;> rfl

/-- A load of a whole buffer through the rectangle at the origin of the buffer's own size reads its contents. -/
theorem readAt_whole {S : Shape} (arg : Memref sig .tc .vmem S .f32) (harg : arg.IsWhole) (off : Fin S.rank → ℕ) (h : off = fun _ => 0)
    (inb : ∀ a, off a + S.size a ≤ S.size a) (x : Vec F S .f32) :
    View.readAt (Elt F) arg.view (Rect.unit (s := S) off S.size inb).toLoadRect (harg.unread x) = x := by
  rw [View.readAt_eq_ld, harg.read_unread]; exact View.ld_unit_zero h inb x

/-- A load of a slice of a whole buffer reads its contents through the slice. -/
theorem readAt_slice {S : Shape} (arg : Memref sig .tc .vmem S .f32) (harg : arg.IsWhole) (r : Rect S) (x : Vec F S .f32) :
    View.readAt (Elt F) arg.view r.toLoadRect (harg.unread x) = View.ld x r := by
  rw [View.readAt_eq_ld, harg.read_unread]

end Cert.KernelIdeal.Frm

end
-- ==== Proof.FrmPiecesB.lean ====
import proofs.«139686_g86887188398715_cont_sun_m_547_23_alg».proof.Proof.FrmRunB
import proofs.«139686_g86887188398715_cont_sun_m_547_23_alg».proof.Proof.FrmSel
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What a point of the first phase (not the first point) stores into the hidden-feature scratch

Five strips of 80 rows, at rows 400·k + 80·j of the scratch (k the point's row block): an index outside them keeps what
the scratch held; an index inside strip j holds that strip's payload at the position inside the strip. -/

set_option maxHeartbeats 4000000 in
theorem runB_h_off (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx)
    (hy : (y 0).val < 400 * (t.val % 25) ∨ 400 * (t.val % 25) + 400 ≤ (y 0).val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = x18 y := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  rw [Cert.Lib.over_cons_unit_of_not_mem _ _ _ _ y 0 (by rw [off1_80 t]; show (y 0).val < 400 * (t.val % 25) + 80 ∨ 400 * (t.val % 25) + 80 + 80 ≤ (y 0).val; omega)]
  rw [Cert.Lib.over_cons_unit_of_not_mem _ _ _ _ y 0 (by rw [off1_0 t]; show (y 0).val < 400 * (t.val % 25) + 0 ∨ 400 * (t.val % 25) + 0 + 80 ≤ (y 0).val; omega)]
  rfl

set_option maxHeartbeats 4000000 in
theorem runB_h_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 0 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay6 x2 x17 x9 (ValueIdx.ix2 r q) := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  rw [Cert.Lib.over_cons_unit_of_not_mem _ _ _ _ y 0 (by rw [off1_80 t]; show (y 0).val < 400 * (t.val % 25) + 80 ∨ 400 * (t.val % 25) + 80 + 80 ≤ (y 0).val; omega)]
  refine (Cert.Lib.over_cons_unit_of_mem _ _ _ _ y (ValueIdx.ix2 r q) (fun a => ?_)).trans ?_
  · have e0 : k0_off1 (grid0.coords t) 0#32 0 = 400 * (t.val % 25) + 0 := by rw [off1_0 t]; rfl
    have e1 : k0_off1 (grid0.coords t) 0#32 1 = 0 := by rw [off1_0 t]; rfl
    fin_cases a
    · show (y 0).val = k0_off1 (grid0.coords t) 0#32 0 + r.val; omega
    · show (y 1).val = k0_off1 (grid0.coords t) 0#32 1 + q.val; omega
  · rw [readAt_whole arg2 harg2 _ hz2, readAt_whole arg17 harg17 _ hz2, readAt_whole arg9 harg9 _ hz2]

set_option maxHeartbeats 4000000 in
theorem runB_h_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 80 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay7 x3 x17 x9 (ValueIdx.ix2 r q) := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  refine (Cert.Lib.over_cons_unit_of_mem _ _ _ _ y (ValueIdx.ix2 r q) (fun a => ?_)).trans ?_
  · have e0 : k0_off1 (grid0.coords t) 80#32 0 = 400 * (t.val % 25) + 80 := by rw [off1_80 t]; rfl
    have e1 : k0_off1 (grid0.coords t) 80#32 1 = 0 := by rw [off1_80 t]; rfl
    fin_cases a
    · show (y 0).val = k0_off1 (grid0.coords t) 80#32 0 + r.val; omega
    · show (y 1).val = k0_off1 (grid0.coords t) 80#32 1 + q.val; omega
  · rw [readAt_whole arg3 harg3 _ hz2, readAt_whole arg17 harg17 _ hz2, readAt_whole arg9 harg9 _ hz2]

set_option maxHeartbeats 4000000 in
theorem runB_h_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 160 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay8 x4 x17 x9 (ValueIdx.ix2 r q) := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  refine (Cert.Lib.over_cons_unit_of_mem _ _ _ _ y (ValueIdx.ix2 r q) (fun a => ?_)).trans ?_
  · have e0 : k0_off1 (grid0.coords t) 160#32 0 = 400 * (t.val % 25) + 160 := by rw [off1_160 t]; rfl
    have e1 : k0_off1 (grid0.coords t) 160#32 1 = 0 := by rw [off1_160 t]; rfl
    fin_cases a
    · show (y 0).val = k0_off1 (grid0.coords t) 160#32 0 + r.val; omega
    · show (y 1).val = k0_off1 (grid0.coords t) 160#32 1 + q.val; omega
  · rw [readAt_whole arg4 harg4 _ hz2, readAt_whole arg17 harg17 _ hz2, readAt_whole arg9 harg9 _ hz2]

set_option maxHeartbeats 4000000 in
theorem runB_h_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 240 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay9 x5 x17 x9 (ValueIdx.ix2 r q) := by
  unfold runB; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  refine (Cert.Lib.over_cons_unit_of_mem _ _ _ _ y (ValueIdx.ix2 r q) (fun a => ?_)).trans ?_
  · have e0 : k0_off1 (grid0.coords t) 240#32 0 = 400 * (t.val % 25) + 240 := by rw [off1_240 t]; rfl
    have e1 : k0_off1 (grid0.coords t) 240#32 1 = 0 := by rw [off1_240 t]; rfl
    fin_cases a
    · show (y 0).val = k0_off1 (grid0.coords t) 240#32 0 + r.val; omega
    · show (y 1).val = k0_off1 (grid0.coords t) 240#32 1 + q.val; omega
  · rw [readAt_whole arg5 harg5 _ hz2, readAt_whole arg17 harg17 _ hz2, readAt_whole arg9 harg9 _ hz2]

set_option maxHeartbeats 4000000 in
theorem runB_h_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 320 + r.val) (hy1 : (y 1).val = q.val) :
    Cert.Lib.over x18 (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay2 (k0_pay10 x6 x17) (k0_pay11 x9) (ValueIdx.ix2 r q) := by
  unfold runB; dsimp only; sl_unfold_run_names
  refine (Cert.Lib.over_cons_unit_of_mem _ _ _ _ y (ValueIdx.ix2 r q) (fun a => ?_)).trans ?_
  · have e0 : k0_off1 (grid0.coords t) 320#32 0 = 400 * (t.val % 25) + 320 := by rw [off1_320 t]; rfl
    have e1 : k0_off1 (grid0.coords t) 320#32 1 = 0 := by rw [off1_320 t]; rfl
    fin_cases a
    · show (y 0).val = k0_off1 (grid0.coords t) 320#32 0 + r.val; omega
    · show (y 1).val = k0_off1 (grid0.coords t) 320#32 1 + q.val; omega
  · rw [readAt_whole arg6 harg6 _ hz2, readAt_whole arg17 harg17 _ hz2, readAt_whole arg9 harg9 _ hz2]

end Cert.KernelIdeal.Frm

end
-- ==== Proof.FrmBlocks.lean ====
import proofs.«139686_g86887188398715_cont_sun_m_547_23_alg».proof.Proof.FrmBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-! # Each window's block, read off its array

The grid has 2 × 25 points `t` in row-major order (phase `t / 25`, row block `t mod 25`). A block's coordinate along an
axis is always (block index) × (block size) + (coordinate inside the block); so once the block indices are known in
closed form over the grid, the block read at `y` is the array at an explicit index.

* Inputs 0‥4 cut the adjacency matrix into strips of 80 rows: input `j` at point `t` sits at block row
  `5·(t mod 25) + j`, which is strip `5·(t mod 25) + j` (its last row, 80·124 + 79, is below 10000).
* Inputs 5‥11 are whole arrays: the only block is the array itself.
* Input 12 cuts the attention array into blocks of 400 rows, at block row `(t mod 25)·(t / 25)`: through the second
  phase that is `t − 25`. -/

/-! ## The block indices, decided over the grid -/
theorem idx0 : ∀ t : Fin cfg0.N, win0_0.index t (0 : Fin 2) = 5 * (t.val % 25) + 0 ∧ win0_0.index t (1 : Fin 2) = 0 :=
  (by decide +kernel : ∀ t : Fin grid0.N, win0_0.index t (0 : Fin 2) = 5 * (t.val % 25) + 0 ∧ win0_0.index t (1 : Fin 2) = 0)
theorem idx1 : ∀ t : Fin cfg0.N, win0_1.index t (0 : Fin 2) = 5 * (t.val % 25) + 1 ∧ win0_1.index t (1 : Fin 2) = 0 :=
  (by decide +kernel : ∀ t : Fin grid0.N, win0_1.index t (0 : Fin 2) = 5 * (t.val % 25) + 1 ∧ win0_1.index t (1 : Fin 2) = 0)
theorem idx2 : ∀ t : Fin cfg0.N, win0_2.index t (0 : Fin 2) = 5 * (t.val % 25) + 2 ∧ win0_2.index t (1 : Fin 2) = 0 :=
  (by decide +kernel : ∀ t : Fin grid0.N, win0_2.index t (0 : Fin 2) = 5 * (t.val % 25) + 2 ∧ win0_2.index t (1 : Fin 2) = 0)
theorem idx3 : ∀ t : Fin cfg0.N, win0_3.index t (0 : Fin 2) = 5 * (t.val % 25) + 3 ∧ win0_3.index t (1 : Fin 2) = 0 :=
  (by decide +kernel : ∀ t : Fin grid0.N, win0_3.index t (0 : Fin 2) = 5 * (t.val % 25) + 3 ∧ win0_3.index t (1 : Fin 2) = 0)
theorem idx4 : ∀ t : Fin cfg0.N, win0_4.index t (0 : Fin 2) = 5 * (t.val % 25) + 4 ∧ win0_4.index t (1 : Fin 2) = 0 :=
  (by decide +kernel : ∀ t : Fin grid0.N, win0_4.index t (0 : Fin 2) = 5 * (t.val % 25) + 4 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = (t.val % 25) * (t.val / 25) ∧ win0_12.index t (1 : Fin 2) = 0 :=
  (by decide +kernel : ∀ t : Fin grid0.N, win0_12.index t (0 : Fin 2) = (t.val % 25) * (t.val / 25) ∧ win0_12.index t (1 : Fin 2) = 0)

/-! ## The strips of the adjacency matrix -/

/-- Input 0's block at point `t` is strip `5·(t mod 25) + 0` of the adjacency matrix. -/
theorem iblk0 (c : Dev nD) (t : Fin cfg0.N) : iblk m c 0 t = adjStrip m c (5 * (t.val % 25) + 0) := by
  funext y
  unfold iblk adjStrip
  show V m c main_arg1 (((cfg0.win 0).blk t).view.emb y) = V m c main_arg1 _
  obtain ⟨e0, e1⟩ := idx0 t
  have ht : t.val % 25 < 25 := Nat.mod_lt _ (by decide)
  congr 1
  funext a; apply Fin.ext
  match a with
  | ⟨0, _⟩ =>
    show win0_0.index t (0 : Fin 2) * 80 + 1 * (y 0).val = (80 * (5 * (t.val % 25) + 0) + (y 0).val) % 10000
    have hy : (y 0).val < 80 := (y 0).isLt
    omega
  | ⟨1, _⟩ =>
    show win0_0.index t (1 : Fin 2) * 10000 + 1 * (y 1).val = (y 1).val
    omega

/-- Input 1's block at point `t` is strip `5·(t mod 25) + 1` of the adjacency matrix. -/
theorem iblk1 (c : Dev nD) (t : Fin cfg0.N) : iblk m c 1 t = adjStrip m c (5 * (t.val % 25) + 1) := by
  funext y
  unfold iblk adjStrip
  show V m c main_arg1 (((cfg0.win 1).blk t).view.emb y) = V m c main_arg1 _
  obtain ⟨e0, e1⟩ := idx1 t
  have ht : t.val % 25 < 25 := Nat.mod_lt _ (by decide)
  congr 1
  funext a; apply Fin.ext
  match a with
  | ⟨0, _⟩ =>
    show win0_1.index t (0 : Fin 2) * 80 + 1 * (y 0).val = (80 * (5 * (t.val % 25) + 1) + (y 0).val) % 10000
    have hy : (y 0).val < 80 := (y 0).isLt
    omega
  | ⟨1, _⟩ =>
    show win0_1.index t (1 : Fin 2) * 10000 + 1 * (y 1).val = (y 1).val
    omega

/-- Input 2's block at point `t` is strip `5·(t mod 25) + 2` of the adjacency matrix. -/
theorem iblk2 (c : Dev nD) (t : Fin cfg0.N) : iblk m c 2 t = adjStrip m c (5 * (t.val % 25) + 2) := by
  funext y
  unfold iblk adjStrip
  show V m c main_arg1 (((cfg0.win 2).blk t).view.emb y) = V m c main_arg1 _
  obtain ⟨e0, e1⟩ := idx2 t
  have ht : t.val % 25 < 25 := Nat.mod_lt _ (by decide)
  congr 1
  funext a; apply Fin.ext
  match a with
  | ⟨0, _⟩ =>
    show win0_2.index t (0 : Fin 2) * 80 + 1 * (y 0).val = (80 * (5 * (t.val % 25) + 2) + (y 0).val) % 10000
    have hy : (y 0).val < 80 := (y 0).isLt
    omega
  | ⟨1, _⟩ =>
    show win0_2.index t (1 : Fin 2) * 10000 + 1 * (y 1).val = (y 1).val
    omega

/-- Input 3's block at point `t` is strip `5·(t mod 25) + 3` of the adjacency matrix. -/
theorem iblk3 (c : Dev nD) (t : Fin cfg0.N) : iblk m c 3 t = adjStrip m c (5 * (t.val % 25) + 3) := by
  funext y
  unfold iblk adjStrip
  show V m c main_arg1 (((cfg0.win 3).blk t).view.emb y) = V m c main_arg1 _
  obtain ⟨e0, e1⟩ := idx3 t
  have ht : t.val % 25 < 25 := Nat.mod_lt _ (by decide)
  congr 1
  funext a; apply Fin.ext
  match a with
  | ⟨0, _⟩ =>
    show win0_3.index t (0 : Fin 2) * 80 + 1 * (y 0).val = (80 * (5 * (t.val % 25) + 3) + (y 0).val) % 10000
    have hy : (y 0).val < 80 := (y 0).isLt
    omega
  | ⟨1, _⟩ =>
    show win0_3.index t (1 : Fin 2) * 10000 + 1 * (y 1).val = (y 1).val
    omega

/-- Input 4's block at point `t` is strip `5·(t mod 25) + 4` of the adjacency matrix. -/
theorem iblk4 (c : Dev nD) (t : Fin cfg0.N) : iblk m c 4 t = adjStrip m c (5 * (t.val % 25) + 4) := by
  funext y
  unfold iblk adjStrip
  show V m c main_arg1 (((cfg0.win 4).blk t).view.emb y) = V m c main_arg1 _
  obtain ⟨e0, e1⟩ := idx4 t
  have ht : t.val % 25 < 25 := Nat.mod_lt _ (by decide)
  congr 1
  funext a; apply Fin.ext
  match a with
  | ⟨0, _⟩ =>
    show win0_4.index t (0 : Fin 2) * 80 + 1 * (y 0).val = (80 * (5 * (t.val % 25) + 4) + (y 0).val) % 10000
    have hy : (y 0).val < 80 := (y 0).isLt
    omega
  | ⟨1, _⟩ =>
    show win0_4.index t (1 : Fin 2) * 10000 + 1 * (y 1).val = (y 1).val
    omega

/-! ## The whole arrays -/

/-- Input 5's block is the feature array, whole, at every point. -/
theorem iblk5 (c : Dev nD) (t : Fin cfg0.N) : iblk m c 5 t = aX m c := by
  funext y
  unfold iblk
  show V m c main_arg0 (((cfg0.win 5).blk t).view.emb y) = V m c main_arg0 y
  obtain ⟨e0, e1⟩ := idx5 t
  congr 1
  funext a; apply Fin.ext
  match a with
  | ⟨0, _⟩ =>
    show win0_5.index t (0 : Fin 2) * 10000 + 1 * (y 0).val = (y 0).val
    omega
  | ⟨1, _⟩ =>
    show win0_5.index t (1 : Fin 2) * 128 + 1 * (y 1).val = (y 1).val
    omega

/-- Input 6's block is the first weight matrix, whole, at every point. -/
theorem iblk6 (c : Dev nD) (t : Fin cfg0.N) : iblk m c 6 t = aW1 m c := by
  funext y
  unfold iblk
  show V m c main_arg3 (((cfg0.win 6).blk t).view.emb y) = V m c main_arg3 y
  obtain ⟨e0, e1⟩ := idx6 t
  congr 1
  funext a; apply Fin.ext
  match a with
  | ⟨0, _⟩ =>
    show win0_6.index t (0 : Fin 2) * 128 + 1 * (y 0).val = (y 0).val
    omega
  | ⟨1, _⟩ =>
    show win0_6.index t (1 : Fin 2) * 64 + 1 * (y 1).val = (y 1).val
    omega

/-- Input 7's block is the first bias row, whole, at every point. -/
theorem iblk7 (c : Dev nD) (t : Fin cfg0.N) : iblk m c 7 t = aB1 m c := by
  funext y
  unfold iblk
  show V m c main_v0 (((cfg0.win 7).blk t).view.emb y) = V m c main_v0 y
  obtain ⟨e0, e1⟩ := idx7 t
  congr 1
  funext a; apply Fin.ext
  match a with
  | ⟨0, _⟩ =>
    show win0_7.index t (0 : Fin 2) * 1 + 1 * (y 0).val = (y 0).val
    omega
  | ⟨1, _⟩ =>
    show win0_7.index t (1 : Fin 2) * 64 + 1 * (y 1).val = (y 1).val
    omega

/-- Input 8's block is the second weight matrix, whole, at every point. -/
theorem iblk8 (c : Dev nD) (t : Fin cfg0.N) : iblk m c 8 t = aW2 m c := by
  funext y
  unfold iblk
  show V m c main_arg5 (((cfg0.win 8).blk t).view.emb y) = V m c main_arg5 y
  obtain ⟨e0, e1⟩ := idx8 t
  congr 1
  funext a; apply Fin.ext
  match a with
  | ⟨0, _⟩ =>
    show win0_8.index t (0 : Fin 2) * 64 + 1 * (y 0).val = (y 0).val
    omega
  | ⟨1, _⟩ =>
    show win0_8.index t (1 : Fin 2) * 40 + 1 * (y 1).val = (y 1).val
    omega

/-- Input 9's block is the second bias row, whole, at every point. -/
theorem iblk9 (c : Dev nD) (t : Fin cfg0.N) : iblk m c 9 t = aB2 m c := by
  funext y
  unfold iblk
  show V m c main_v1 (((cfg0.win 9).blk t).view.emb y) = V m c main_v1 y
  obtain ⟨e0, e1⟩ := idx9 t
  congr 1
  funext a; apply Fin.ext
  match a with
  | ⟨0, _⟩ =>
    show win0_9.index t (0 : Fin 2) * 1 + 1 * (y 0).val = (y 0).val
    omega
  | ⟨1, _⟩ =>
    show win0_9.index t (1 : Fin 2) * 40 + 1 * (y 1).val = (y 1).val
    omega

/-- Input 10's block is the third weight matrix, whole, at every point. -/
theorem iblk10 (c : Dev nD) (t : Fin cfg0.N) : iblk m c 10 t = aWe m c := by
  funext y
  unfold iblk
  show V m c main_arg7 (((cfg0.win 10).blk t).view.emb y) = V m c main_arg7 y
  obtain ⟨e0, e1⟩ := idx10 t
  congr 1
  funext a; apply Fin.ext
  match a with
  | ⟨0, _⟩ =>
    show win0_10.index t (0 : Fin 2) * 16 + 1 * (y 0).val = (y 0).val
    omega
  | ⟨1, _⟩ =>
    show win0_10.index t (1 : Fin 2) * 64 + 1 * (y 1).val = (y 1).val
    omega

/-- Input 11's block is the third bias row, whole, at every point. -/
theorem iblk11 (c : Dev nD) (t : Fin cfg0.N) : iblk m c 11 t = aBe m c := by
  funext y
  unfold iblk
  show V m c main_v2 (((cfg0.win 11).blk t).view.emb y) = V m c main_v2 y
  obtain ⟨e0, e1⟩ := idx11 t
  congr 1
  funext a; apply Fin.ext
  match a with
  | ⟨0, _⟩ =>
    show win0_11.index t (0 : Fin 2) * 1 + 1 * (y 0).val = (y 0).val
    omega
  | ⟨1, _⟩ =>
    show win0_11.index t (1 : Fin 2) * 16 + 1 * (y 1).val = (y 1).val
    omega

/-! ## The blocks of the attention array -/

/-- Through the second phase input 12's block at point `t` is rows 400·(t − 25) ‥ 400·(t − 25) + 399 of the attention array. -/
theorem iblk12 (c : Dev nD) (t : Fin cfg0.N) (ht : 25 ≤ t.val) :
    iblk m c 12 t = fun y : S400x16.Idx => aAtt m c (ixm (by decide) (400 * (t.val - 25) + (y 0).val) (y 1)) := by
  funext y
  unfold iblk
  show V m c main_arg2 (((cfg0.win 12).blk t).view.emb y) = V m c main_arg2 _
  obtain ⟨e0, e1⟩ := idx12 t
  have ht' : t.val < 50 := t.isLt
  have hd : t.val / 25 = 1 := by omega
  have hm : t.val % 25 = t.val - 25 := by omega
  rw [hd, hm, Nat.mul_one] at e0
  congr 1
  funext a; apply Fin.ext
  match a with
  | ⟨0, _⟩ =>
    show win0_12.index t (0 : Fin 2) * 400 + 1 * (y 0).val = (400 * (t.val - 25) + (y 0).val) % 10000
    have hy : (y 0).val < 400 := (y 0).isLt
    omega
  | ⟨1, _⟩ =>
    show win0_12.index t (1 : Fin 2) * 16 + 1 * (y 1).val = (y 1).val
    omega

end Cert.KernelIdeal.Frm

end
-- ==== Proof.FrmPureB.lean ====
import proofs.«139686_g86887188398715_cont_sun_m_547_23_alg».proof.Proof.FrmPiecesB
import proofs.«139686_g86887188398715_cont_sun_m_547_23_alg».proof.Proof.FrmBlocks
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The hidden features grow by one row block per point of the first phase -/

set_option maxHeartbeats 4000000 in
/-- At a point `t` of the first phase after the first: if the scratch agreed with the hidden features on the rows below
    400·t, then after the point's five stores it agrees with them on the rows below 400·(t + 1): a row below 400·t lies
    outside the five strips and keeps its contents; a row of the point's block lies in strip `(r − 400·t) / 80`, whose
    payload is computed from the matching strip of the adjacency matrix. -/
theorem pureB (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : cond2 (grid0.coords t)) (hc3 : ¬cond3 (grid0.coords t)) (hc4 : ¬cond4 (grid0.coords t)) (ht : t.val < 25)
    (x15 : Vec F S400x40 .f32) (x16 : Vec F S400x16 .f32) (x19 : Vec F S10000x40 .f32) (h : Vec F S10000x64 .f32)
    (hh : ∀ y : S10000x64.Idx, (y 0).val < 400 * t.val → h y = Hf m c y) :
    ∀ y : S10000x64.Idx, (y 0).val < 400 * (t.val + 1) →
      Cert.Lib.over h (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19).1 y = Hf m c y := by
  intro y hy
  have htm : t.val % 25 = t.val := Nat.mod_eq_of_lt ht
  by_cases hlt : (y 0).val < 400 * t.val
  · rw [runB_h_off c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y (by left; omega)]
    exact hh y hlt
  · rcases (show (y 0).val - 400 * t.val < 80 ∨ (80 ≤ (y 0).val - 400 * t.val ∧ (y 0).val - 400 * t.val < 160)
        ∨ (160 ≤ (y 0).val - 400 * t.val ∧ (y 0).val - 400 * t.val < 240) ∨ (240 ≤ (y 0).val - 400 * t.val ∧ (y 0).val - 400 * t.val < 320)
        ∨ (320 ≤ (y 0).val - 400 * t.val ∧ (y 0).val - 400 * t.val < 400) by omega) with h0 | h1 | h2 | h3 | h4
    · -- strip 0
      have hr : (y 0).val - 400 * t.val - 0 < 80 := by omega
      rw [runB_h_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 0, hr⟩ (y 1)
        (by show (y 0).val = 400 * (t.val % 25) + 0 + ((y 0).val - 400 * t.val - 0); omega) rfl]
      unfold Hf
      have e1 : ((y 0).val % 400) / 80 = 0 := by omega
      have e2 : (y 0).val / 80 = 5 * (t.val % 25) + 0 := by omega
      have e3 : (ixm (by decide) (y 0).val (y 1) : S80x64.Idx) = ValueIdx.ix2 ⟨(y 0).val - 400 * t.val - 0, hr⟩ (y 1) := by
        unfold ixm; congr 1; exact Fin.ext (by show (y 0).val % 80 = (y 0).val - 400 * t.val - 0; omega)
      rw [e1, e2, e3, iblk0 m c t, iblk7 m c t]
      simp only [hStrip]
      try rfl
    · -- strip 1
      have hr : (y 0).val - 400 * t.val - 80 < 80 := by omega
      rw [runB_h_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 80, hr⟩ (y 1)
        (by show (y 0).val = 400 * (t.val % 25) + 80 + ((y 0).val - 400 * t.val - 80); omega) rfl]
      unfold Hf
      have e1 : ((y 0).val % 400) / 80 = 1 := by omega
      have e2 : (y 0).val / 80 = 5 * (t.val % 25) + 1 := by omega
      have e3 : (ixm (by decide) (y 0).val (y 1) : S80x64.Idx) = ValueIdx.ix2 ⟨(y 0).val - 400 * t.val - 80, hr⟩ (y 1) := by
        unfold ixm; congr 1; exact Fin.ext (by show (y 0).val % 80 = (y 0).val - 400 * t.val - 80; omega)
      rw [e1, e2, e3, iblk1 m c t, iblk7 m c t]
      simp only [hStrip]
      try rfl
    · -- strip 2
      have hr : (y 0).val - 400 * t.val - 160 < 80 := by omega
      rw [runB_h_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 160, hr⟩ (y 1)
        (by show (y 0).val = 400 * (t.val % 25) + 160 + ((y 0).val - 400 * t.val - 160); omega) rfl]
      unfold Hf
      have e1 : ((y 0).val % 400) / 80 = 2 := by omega
      have e2 : (y 0).val / 80 = 5 * (t.val % 25) + 2 := by omega
      have e3 : (ixm (by decide) (y 0).val (y 1) : S80x64.Idx) = ValueIdx.ix2 ⟨(y 0).val - 400 * t.val - 160, hr⟩ (y 1) := by
        unfold ixm; congr 1; exact Fin.ext (by show (y 0).val % 80 = (y 0).val - 400 * t.val - 160; omega)
      rw [e1, e2, e3, iblk2 m c t, iblk7 m c t]
      simp only [hStrip]
      try rfl
    · -- strip 3
      have hr : (y 0).val - 400 * t.val - 240 < 80 := by omega
      rw [runB_h_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 240, hr⟩ (y 1)
        (by show (y 0).val = 400 * (t.val % 25) + 240 + ((y 0).val - 400 * t.val - 240); omega) rfl]
      unfold Hf
      have e1 : ((y 0).val % 400) / 80 = 3 := by omega
      have e2 : (y 0).val / 80 = 5 * (t.val % 25) + 3 := by omega
      have e3 : (ixm (by decide) (y 0).val (y 1) : S80x64.Idx) = ValueIdx.ix2 ⟨(y 0).val - 400 * t.val - 240, hr⟩ (y 1) := by
        unfold ixm; congr 1; exact Fin.ext (by show (y 0).val % 80 = (y 0).val - 400 * t.val - 240; omega)
      rw [e1, e2, e3, iblk3 m c t, iblk7 m c t]
      simp only [hStrip]
      try rfl
    · -- strip 4
      have hr : (y 0).val - 400 * t.val - 320 < 80 := by omega
      rw [runB_h_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) h x19 y ⟨(y 0).val - 400 * t.val - 320, hr⟩ (y 1)
        (by show (y 0).val = 400 * (t.val % 25) + 320 + ((y 0).val - 400 * t.val - 320); omega) rfl]
      unfold Hf
      have e1 : ((y 0).val % 400) / 80 = 4 := by omega
      have e2 : (y 0).val / 80 = 5 * (t.val % 25) + 4 := by omega
      have e3 : (ixm (by decide) (y 0).val (y 1) : S80x64.Idx) = ValueIdx.ix2 ⟨(y 0).val - 400 * t.val - 320, hr⟩ (y 1) := by
        unfold ixm; congr 1; exact Fin.ext (by show (y 0).val % 80 = (y 0).val - 400 * t.val - 320; omega)
      rw [e1, e2, e3, iblk4 m c t, iblk7 m c t]
      simp only [hStrip]
      try rfl

end Cert.KernelIdeal.Frm

end
-- ==== Proof.FrmPiecesA.lean ====
/-
  What the first point's stores leave.

  At the first point of the first phase the body stores the projected features `x · W1` through the whole of the
  first scratch buffer, loads them back, and stores five strips of hidden features — 80 rows each, at rows
  400·(t mod 25) + C for C = 0, 80, 160, 240, 320 — into the second scratch buffer. Read at an index, the stores
  written over the earlier contents leave: in the first buffer the projected features everywhere; in the second, at
  an index of a strip that strip's payload over the projected features just stored, and off the row block what was
  there.
-/
import proofs.«139686_g86887188398715_cont_sun_m_547_23_alg».proof.Proof.FrmRunA
import proofs.«139686_g86887188398715_cont_sun_m_547_23_alg».proof.Proof.FrmSel
import proofs.«139686_g86887188398715_cont_sun_m_547_23_alg».proof.Proof.LibWritesOver
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The store of the projected features -/

set_option maxHeartbeats 4000000 in
/-- The one store into the first scratch buffer is through the whole buffer: whatever it held, it now holds the
    projected features of the two arrays loaded whole. -/
theorem runA_s1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Cert.Lib.over x17 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 = k0_pay1 x7 x8 := by
  unfold runA; dsimp only; sl_unfold_run_names
  rw [Cert.Lib.over_cons_unit_zero _ hz2, readAt_whole arg7 harg7 _ hz2, readAt_whole arg8 harg8 _ hz2]

/-! ## The five stores of hidden features

Each is through a strip of 80 rows of the second scratch buffer, at rows 400·(t mod 25) + C for C = 0, 80, 160, 240,
320; the newest is the last strip. -/

set_option maxHeartbeats 4000000 in
/-- An index outside the row block keeps what the buffer held: it misses every strip. -/
theorem runA_h_off (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx)
    (hy : (y 0).val < 400 * (t.val % 25) ∨ 400 * (t.val % 25) + 400 ≤ (y 0).val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = x18 y := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  rw [Cert.Lib.over_cons_unit_of_not_mem _ _ _ _ y 0 (by rw [off1_80 t]; show (y 0).val < 400 * (t.val % 25) + 80 ∨ 400 * (t.val % 25) + 80 + 80 ≤ (y 0).val; omega)]
  rw [Cert.Lib.over_cons_unit_of_not_mem _ _ _ _ y 0 (by rw [off1_0 t]; show (y 0).val < 400 * (t.val % 25) + 0 ∨ 400 * (t.val % 25) + 0 + 80 ≤ (y 0).val; omega)]
  rfl

set_option maxHeartbeats 4000000 in
/-- An index in the first strip of the row block, at position (r, q) of it, reads that strip's store: the strip's
    payload over the strip of the adjacency matrix, the projected features the first store left, and the bias row. -/
theorem runA_h_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 0 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay6 x2 (k0_pay1 x7 x8) x9 (ValueIdx.ix2 r q) := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  rw [Cert.Lib.over_cons_unit_of_not_mem _ _ _ _ y 0 (by rw [off1_80 t]; show (y 0).val < 400 * (t.val % 25) + 80 ∨ 400 * (t.val % 25) + 80 + 80 ≤ (y 0).val; omega)]
  refine (Cert.Lib.over_cons_unit_of_mem _ _ _ _ y (ValueIdx.ix2 r q) (fun a => ?_)).trans ?_
  · have e0 : k0_off1 (grid0.coords t) 0#32 0 = 400 * (t.val % 25) + 0 := by rw [off1_0 t]; rfl
    have e1 : k0_off1 (grid0.coords t) 0#32 1 = 0 := by rw [off1_0 t]; rfl
    fin_cases a
    · show (y 0).val = k0_off1 (grid0.coords t) 0#32 0 + r.val; omega
    · show (y 1).val = k0_off1 (grid0.coords t) 0#32 1 + q.val; omega
  · rw [readAt_whole arg2 harg2 _ hz2, View.readCov_cons_toLoadRect, readAt_whole arg7 harg7 _ hz2,
      readAt_whole arg8 harg8 _ hz2, readAt_whole arg9 harg9 _ hz2]

set_option maxHeartbeats 4000000 in
/-- An index in the second strip of the row block, at position (r, q) of it, reads that strip's store: the strip's
    payload over the strip of the adjacency matrix, the projected features the first store left, and the bias row. -/
theorem runA_h_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 80 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay7 x3 (k0_pay1 x7 x8) x9 (ValueIdx.ix2 r q) := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  rw [Cert.Lib.over_cons_unit_of_not_mem _ _ _ _ y 0 (by rw [off1_160 t]; show (y 0).val < 400 * (t.val % 25) + 160 ∨ 400 * (t.val % 25) + 160 + 80 ≤ (y 0).val; omega)]
  refine (Cert.Lib.over_cons_unit_of_mem _ _ _ _ y (ValueIdx.ix2 r q) (fun a => ?_)).trans ?_
  · have e0 : k0_off1 (grid0.coords t) 80#32 0 = 400 * (t.val % 25) + 80 := by rw [off1_80 t]; rfl
    have e1 : k0_off1 (grid0.coords t) 80#32 1 = 0 := by rw [off1_80 t]; rfl
    fin_cases a
    · show (y 0).val = k0_off1 (grid0.coords t) 80#32 0 + r.val; omega
    · show (y 1).val = k0_off1 (grid0.coords t) 80#32 1 + q.val; omega
  · rw [readAt_whole arg3 harg3 _ hz2, View.readCov_cons_toLoadRect, readAt_whole arg7 harg7 _ hz2,
      readAt_whole arg8 harg8 _ hz2, readAt_whole arg9 harg9 _ hz2]

set_option maxHeartbeats 4000000 in
/-- An index in the third strip of the row block, at position (r, q) of it, reads that strip's store: the strip's
    payload over the strip of the adjacency matrix, the projected features the first store left, and the bias row. -/
theorem runA_h_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 160 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay8 x4 (k0_pay1 x7 x8) x9 (ValueIdx.ix2 r q) := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  rw [Cert.Lib.over_cons_unit_of_not_mem _ _ _ _ y 0 (by rw [off1_240 t]; show (y 0).val < 400 * (t.val % 25) + 240 ∨ 400 * (t.val % 25) + 240 + 80 ≤ (y 0).val; omega)]
  refine (Cert.Lib.over_cons_unit_of_mem _ _ _ _ y (ValueIdx.ix2 r q) (fun a => ?_)).trans ?_
  · have e0 : k0_off1 (grid0.coords t) 160#32 0 = 400 * (t.val % 25) + 160 := by rw [off1_160 t]; rfl
    have e1 : k0_off1 (grid0.coords t) 160#32 1 = 0 := by rw [off1_160 t]; rfl
    fin_cases a
    · show (y 0).val = k0_off1 (grid0.coords t) 160#32 0 + r.val; omega
    · show (y 1).val = k0_off1 (grid0.coords t) 160#32 1 + q.val; omega
  · rw [readAt_whole arg4 harg4 _ hz2, View.readCov_cons_toLoadRect, readAt_whole arg7 harg7 _ hz2,
      readAt_whole arg8 harg8 _ hz2, readAt_whole arg9 harg9 _ hz2]

set_option maxHeartbeats 4000000 in
/-- An index in the fourth strip of the row block, at position (r, q) of it, reads that strip's store: the strip's
    payload over the strip of the adjacency matrix, the projected features the first store left, and the bias row. -/
theorem runA_h_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 240 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay9 x5 (k0_pay1 x7 x8) x9 (ValueIdx.ix2 r q) := by
  unfold runA; dsimp only; sl_unfold_run_names
  rw [Cert.Lib.over_cons_unit_of_not_mem _ _ _ _ y 0 (by rw [off1_320 t]; show (y 0).val < 400 * (t.val % 25) + 320 ∨ 400 * (t.val % 25) + 320 + 80 ≤ (y 0).val; omega)]
  refine (Cert.Lib.over_cons_unit_of_mem _ _ _ _ y (ValueIdx.ix2 r q) (fun a => ?_)).trans ?_
  · have e0 : k0_off1 (grid0.coords t) 240#32 0 = 400 * (t.val % 25) + 240 := by rw [off1_240 t]; rfl
    have e1 : k0_off1 (grid0.coords t) 240#32 1 = 0 := by rw [off1_240 t]; rfl
    fin_cases a
    · show (y 0).val = k0_off1 (grid0.coords t) 240#32 0 + r.val; omega
    · show (y 1).val = k0_off1 (grid0.coords t) 240#32 1 + q.val; omega
  · rw [readAt_whole arg5 harg5 _ hz2, View.readCov_cons_toLoadRect, readAt_whole arg7 harg7 _ hz2,
      readAt_whole arg8 harg8 _ hz2, readAt_whole arg9 harg9 _ hz2]

set_option maxHeartbeats 4000000 in
/-- An index in the fifth strip of the row block, at position (r, q) of it, reads that strip's store: the strip's
    payload over the strip of the adjacency matrix, the projected features the first store left, and the bias row. -/
theorem runA_h_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S10000x64.Idx) (r : Fin 80) (q : Fin 64)
    (hy0 : (y 0).val = 400 * (t.val % 25) + 320 + r.val) (hy1 : (y 1).val = q.val) :
    Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y = k0_pay2 (k0_pay10 x6 (k0_pay1 x7 x8)) (k0_pay11 x9) (ValueIdx.ix2 r q) := by
  unfold runA; dsimp only; sl_unfold_run_names
  refine (Cert.Lib.over_cons_unit_of_mem _ _ _ _ y (ValueIdx.ix2 r q) (fun a => ?_)).trans ?_
  · have e0 : k0_off1 (grid0.coords t) 320#32 0 = 400 * (t.val % 25) + 320 := by rw [off1_320 t]; rfl
    have e1 : k0_off1 (grid0.coords t) 320#32 1 = 0 := by rw [off1_320 t]; rfl
    fin_cases a
    · show (y 0).val = k0_off1 (grid0.coords t) 320#32 0 + r.val; omega
    · show (y 1).val = k0_off1 (grid0.coords t) 320#32 1 + q.val; omega
  · rw [readAt_whole arg6 harg6 _ hz2, View.readCov_cons_toLoadRect, readAt_whole arg7 harg7 _ hz2,
      readAt_whole arg8 harg8 _ hz2, readAt_whole arg9 harg9 _ hz2]

end Cert.KernelIdeal.Frm

end
-- ==== Proof.FrmPureA.lean ====
/-
  What the first point leaves, in terms of the arrays.

  With the staging buffers holding the windows' blocks at the first point, the store into the first scratch buffer
  leaves the projected features of the arrays as the region finds them, and the five stores into the second leave the
  hidden features on the rows below 400, whatever either buffer held before.
-/
import proofs.«139686_g86887188398715_cont_sun_m_547_23_alg».proof.Proof.FrmPiecesA
import proofs.«139686_g86887188398715_cont_sun_m_547_23_alg».proof.Proof.FrmBlocks
import proofs.«139686_g86887188398715_cont_sun_m_547_23_alg».proof.Proof.FrmSel
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The first point: the projected features are in place, and the first row block of hidden features -/

set_option maxHeartbeats 4000000 in
/-- At the first point the first scratch buffer is left holding the projected features of the arrays as the region
    finds them, whatever it held: the two windows' blocks at that point are the whole arrays. -/
theorem pureA_s1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (x15 : Vec F S400x40 .f32) (x16 : Vec F S400x16 .f32) (x17 x18 : Vec F S10000x64 .f32) (x19 : Vec F S10000x40 .f32) :
    Cert.Lib.over x17 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19).1 = S1f m c := by
  exact (runA_s1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19).trans
    (by rw [iblk5 m c t, iblk6 m c t]; rfl)

set_option maxHeartbeats 4000000 in
/-- At the first point, whatever the second scratch buffer held, after the five stores it agrees with the hidden
    features on the rows below 400: such a row lies in strip `r / 80` of the first row block, whose payload is computed
    from the matching strip of the adjacency matrix, from the projected features just stored, and from the bias row. -/
theorem pureA_h (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : cond1 (grid0.coords t)) (hc2 : cond2 (grid0.coords t)) (hc3 : ¬cond3 (grid0.coords t)) (hc4 : ¬cond4 (grid0.coords t)) (ht : t.val = 0) (x15 : Vec F S400x40 .f32) (x16 : Vec F S400x16 .f32) (x17 x18 : Vec F S10000x64 .f32) (x19 : Vec F S10000x40 .f32) :
    ∀ y : S10000x64.Idx, (y 0).val < 400 * (t.val + 1) →
      Cert.Lib.over x18 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19).2.1 y = Hf m c y := by
  intro y hy
  have htm : t.val % 25 = 0 := by rw [ht]
  have hs1 : k0_pay1 (iblk m c 5 t) (iblk m c 6 t) = S1f m c := by rw [iblk5 m c t, iblk6 m c t]; rfl
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runA_h_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 0, hr⟩ (y 1)
      (by show (y 0).val = 400 * (t.val % 25) + 0 + ((y 0).val - 0); omega) rfl, hs1]
    unfold Hf
    have e1 : ((y 0).val % 400) / 80 = 0 := by omega
    have e2 : (y 0).val / 80 = 5 * (t.val % 25) + 0 := by omega
    have e3 : (ixm (by decide) (y 0).val (y 1) : S80x64.Idx) = ValueIdx.ix2 ⟨(y 0).val - 0, hr⟩ (y 1) := by
      unfold ixm; congr 1; exact Fin.ext (by show (y 0).val % 80 = (y 0).val - 0; omega)
    rw [e1, e2, e3, iblk0 m c t, iblk7 m c t]
    simp only [hStrip]
    try rfl
  · -- strip 1
    have hr : (y 0).val - 80 < 80 := by omega
    rw [runA_h_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 80, hr⟩ (y 1)
      (by show (y 0).val = 400 * (t.val % 25) + 80 + ((y 0).val - 80); omega) rfl, hs1]
    unfold Hf
    have e1 : ((y 0).val % 400) / 80 = 1 := by omega
    have e2 : (y 0).val / 80 = 5 * (t.val % 25) + 1 := by omega
    have e3 : (ixm (by decide) (y 0).val (y 1) : S80x64.Idx) = ValueIdx.ix2 ⟨(y 0).val - 80, hr⟩ (y 1) := by
      unfold ixm; congr 1; exact Fin.ext (by show (y 0).val % 80 = (y 0).val - 80; omega)
    rw [e1, e2, e3, iblk1 m c t, iblk7 m c t]
    simp only [hStrip]
    try rfl
  · -- strip 2
    have hr : (y 0).val - 160 < 80 := by omega
    rw [runA_h_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 160, hr⟩ (y 1)
      (by show (y 0).val = 400 * (t.val % 25) + 160 + ((y 0).val - 160); omega) rfl, hs1]
    unfold Hf
    have e1 : ((y 0).val % 400) / 80 = 2 := by omega
    have e2 : (y 0).val / 80 = 5 * (t.val % 25) + 2 := by omega
    have e3 : (ixm (by decide) (y 0).val (y 1) : S80x64.Idx) = ValueIdx.ix2 ⟨(y 0).val - 160, hr⟩ (y 1) := by
      unfold ixm; congr 1; exact Fin.ext (by show (y 0).val % 80 = (y 0).val - 160; omega)
    rw [e1, e2, e3, iblk2 m c t, iblk7 m c t]
    simp only [hStrip]
    try rfl
  · -- strip 3
    have hr : (y 0).val - 240 < 80 := by omega
    rw [runA_h_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 240, hr⟩ (y 1)
      (by show (y 0).val = 400 * (t.val % 25) + 240 + ((y 0).val - 240); omega) rfl, hs1]
    unfold Hf
    have e1 : ((y 0).val % 400) / 80 = 3 := by omega
    have e2 : (y 0).val / 80 = 5 * (t.val % 25) + 3 := by omega
    have e3 : (ixm (by decide) (y 0).val (y 1) : S80x64.Idx) = ValueIdx.ix2 ⟨(y 0).val - 240, hr⟩ (y 1) := by
      unfold ixm; congr 1; exact Fin.ext (by show (y 0).val % 80 = (y 0).val - 240; omega)
    rw [e1, e2, e3, iblk3 m c t, iblk7 m c t]
    simp only [hStrip]
    try rfl
  · -- strip 4
    have hr : (y 0).val - 320 < 80 := by omega
    rw [runA_h_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 x17 x18 x19 y ⟨(y 0).val - 320, hr⟩ (y 1)
      (by show (y 0).val = 400 * (t.val % 25) + 320 + ((y 0).val - 320); omega) rfl, hs1]
    unfold Hf
    have e1 : ((y 0).val % 400) / 80 = 4 := by omega
    have e2 : (y 0).val / 80 = 5 * (t.val % 25) + 4 := by omega
    have e3 : (ixm (by decide) (y 0).val (y 1) : S80x64.Idx) = ValueIdx.ix2 ⟨(y 0).val - 320, hr⟩ (y 1) := by
      unfold ixm; congr 1; exact Fin.ext (by show (y 0).val % 80 = (y 0).val - 320; omega)
    rw [e1, e2, e3, iblk4 m c t, iblk7 m c t]
    simp only [hStrip]
    try rfl

end Cert.KernelIdeal.Frm

end
-- ==== Proof.FrmPiecesCD.lean ====
import proofs.«139686_g86887188398715_cont_sun_m_547_23_alg».proof.Proof.FrmRunC
import proofs.«139686_g86887188398715_cont_sun_m_547_23_alg».proof.Proof.FrmRunD
import proofs.«139686_g86887188398715_cont_sun_m_547_23_alg».proof.Proof.FrmSel
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the second phase's stores leave, strip by strip

In the second phase the body stores the two results' 400-row blocks as five strips of 80 rows each, through literal
rectangles at rows 0, 80, 160, 240, 320 of the staging blocks, newest store last in program order. A row of a block
therefore reads the payload of the one strip it lies in. The first point of the second phase also stores the
projection of the hidden features into its scratch buffer, whole, before the strips are computed from it. -/

/-- A load of 80 rows of the hidden features through a rectangle at row offset `R`, column offset zero, as a plain
    function of the rows' positions. -/
theorem ld_rows18 (x : Vec F S10000x64 .f32) {off : Fin 2 → ℕ} (inb : ∀ a, off a + (![80, 64] : Fin 2 → ℕ) a ≤ S10000x64.size a)
    (R : ℕ) (h0 : off 0 = R) (h1 : off 1 = 0) (hR : R + 80 ≤ 10000) :
    View.ld x (Rect.unit off ![80, 64] inb) = fun z : S80x64.Idx => x (ixm (by decide) (R + (z 0).val) (z 1)) := by
  funext z
  refine Cert.Lib.ld_unit_apply x inb z _ (fun a => ?_)
  have hz : (z 0).val < 80 := (z 0).isLt
  fin_cases a
  · show (R + (z 0).val) % 10000 = off 0 + (z 0).val
    rw [h0, Nat.mod_eq_of_lt (by omega)]
  · show (z 1).val = off 1 + (z 1).val
    omega

/-- The same for 80 rows of a 400-row block of the attention array. -/
theorem ld_rows14 (x : Vec F S400x16 .f32) {off : Fin 2 → ℕ} (inb : ∀ a, off a + (![80, 16] : Fin 2 → ℕ) a ≤ S400x16.size a)
    (R : ℕ) (h0 : off 0 = R) (h1 : off 1 = 0) (hR : R + 80 ≤ 400) :
    View.ld x (Rect.unit off ![80, 16] inb) = fun z : S80x16.Idx => x (ixm (by decide) (R + (z 0).val) (z 1)) := by
  funext z
  refine Cert.Lib.ld_unit_apply x inb z _ (fun a => ?_)
  have hz : (z 0).val < 80 := (z 0).isLt
  fin_cases a
  · show (R + (z 0).val) % 400 = off 0 + (z 0).val
    rw [h0, Nat.mod_eq_of_lt (by omega)]
  · show (z 1).val = off 1 + (z 1).val
    omega

set_option maxHeartbeats 4000000 in
/-- Strip 0 of the first result's block after the body's stores: the strip's payload. -/
theorem runD_out_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 0 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay12 x2 x19 x11 (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  rw [Cert.Lib.over_cons_unit_of_not_mem _ _ _ _ y 0 (by show (y 0).val < 80 ∨ 80 + 80 ≤ (y 0).val; omega)]
  refine (Cert.Lib.over_cons_unit_of_mem _ _ _ _ y (ValueIdx.ix2 r q) (fun a => ?_)).trans ?_
  · fin_cases a
    · show (y 0).val = 0 + r.val; omega
    · show (y 1).val = 0 + q.val; omega
  · rw [readAt_whole arg2 harg2 _ hz2, readAt_whole arg19 harg19 _ hz2, readAt_whole arg11 harg11 _ hz2]

set_option maxHeartbeats 4000000 in
/-- Strip 1 of the first result's block after the body's stores: the strip's payload. -/
theorem runD_out_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 80 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay14 x3 x19 x11 (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  refine (Cert.Lib.over_cons_unit_of_mem _ _ _ _ y (ValueIdx.ix2 r q) (fun a => ?_)).trans ?_
  · fin_cases a
    · show (y 0).val = 80 + r.val; omega
    · show (y 1).val = 0 + q.val; omega
  · rw [readAt_whole arg3 harg3 _ hz2, readAt_whole arg19 harg19 _ hz2, readAt_whole arg11 harg11 _ hz2]

set_option maxHeartbeats 4000000 in
/-- Strip 2 of the first result's block after the body's stores: the strip's payload. -/
theorem runD_out_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 160 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay16 x4 x19 x11 (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  refine (Cert.Lib.over_cons_unit_of_mem _ _ _ _ y (ValueIdx.ix2 r q) (fun a => ?_)).trans ?_
  · fin_cases a
    · show (y 0).val = 160 + r.val; omega
    · show (y 1).val = 0 + q.val; omega
  · rw [readAt_whole arg4 harg4 _ hz2, readAt_whole arg19 harg19 _ hz2, readAt_whole arg11 harg11 _ hz2]

set_option maxHeartbeats 4000000 in
/-- Strip 3 of the first result's block after the body's stores: the strip's payload. -/
theorem runD_out_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 240 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay18 x5 x19 x11 (ValueIdx.ix2 r q) := by
  unfold runD; dsimp only; sl_unfold_run_names
  rw [Cert.Lib.over_cons_unit_of_not_mem _ _ _ _ y 0 (by show (y 0).val < 320 ∨ 320 + 80 ≤ (y 0).val; omega)]
  refine (Cert.Lib.over_cons_unit_of_mem _ _ _ _ y (ValueIdx.ix2 r q) (fun a => ?_)).trans ?_
  · fin_cases a
    · show (y 0).val = 240 + r.val; omega
    · show (y 1).val = 0 + q.val; omega
  · rw [readAt_whole arg5 harg5 _ hz2, readAt_whole arg19 harg19 _ hz2, readAt_whole arg11 harg11 _ hz2]

set_option maxHeartbeats 4000000 in
/-- Strip 4 of the first result's block after the body's stores: the strip's payload. -/
theorem runD_out_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 320 + r.val) (hy1 : (y 1).val = q.val) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay4 x6 x19 x11 (ValueIdx.ix2 r q) := by
  unfold runD; dsimp only; sl_unfold_run_names
  refine (Cert.Lib.over_cons_unit_of_mem _ _ _ _ y (ValueIdx.ix2 r q) (fun a => ?_)).trans ?_
  · fin_cases a
    · show (y 0).val = 320 + r.val; omega
    · show (y 1).val = 0 + q.val; omega
  · rw [readAt_whole arg6 harg6 _ hz2, readAt_whole arg19 harg19 _ hz2, readAt_whole arg11 harg11 _ hz2]

set_option maxHeartbeats 4000000 in
/-- Strip 0 of the second result's block after the body's stores: the strip's payload, its two sliced operands
    as functions of the rows' positions. -/
theorem runD_y_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 0 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay13 (fun z : S80x64.Idx => x18 (ixm (by decide) (400 * (t.val % 25) + 0 + (z 0).val) (z 1))) x12 x13
          (fun z : S80x16.Idx => x14 (ixm (by decide) (0 + (z 0).val) (z 1))) (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  rw [Cert.Lib.over_cons_unit_of_not_mem _ _ _ _ y 0 (by show (y 0).val < 80 ∨ 80 + 80 ≤ (y 0).val; omega)]
  refine (Cert.Lib.over_cons_unit_of_mem _ _ _ _ y (ValueIdx.ix2 r q) (fun a => ?_)).trans ?_
  · fin_cases a
    · show (y 0).val = 0 + r.val; omega
    · show (y 1).val = 0 + q.val; omega
  · have e0 : k0_off2 (grid0.coords t) 0#32 0 = 400 * (t.val % 25) + 0 := by rw [off2_0 t]; rfl
    have e1 : k0_off2 (grid0.coords t) 0#32 1 = 0 := by rw [off2_0 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 0) e0 e1 (by omega),
      ld_rows14 x14 _ 0 rfl rfl (by omega)]

set_option maxHeartbeats 4000000 in
/-- Strip 1 of the second result's block after the body's stores: the strip's payload, its two sliced operands
    as functions of the rows' positions. -/
theorem runD_y_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 80 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay15 (fun z : S80x64.Idx => x18 (ixm (by decide) (400 * (t.val % 25) + 80 + (z 0).val) (z 1))) x12 x13
          (fun z : S80x16.Idx => x14 (ixm (by decide) (80 + (z 0).val) (z 1))) (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  refine (Cert.Lib.over_cons_unit_of_mem _ _ _ _ y (ValueIdx.ix2 r q) (fun a => ?_)).trans ?_
  · fin_cases a
    · show (y 0).val = 80 + r.val; omega
    · show (y 1).val = 0 + q.val; omega
  · have e0 : k0_off2 (grid0.coords t) 80#32 0 = 400 * (t.val % 25) + 80 := by rw [off2_80 t]; rfl
    have e1 : k0_off2 (grid0.coords t) 80#32 1 = 0 := by rw [off2_80 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 80) e0 e1 (by omega),
      ld_rows14 x14 _ 80 rfl rfl (by omega)]

set_option maxHeartbeats 4000000 in
/-- Strip 2 of the second result's block after the body's stores: the strip's payload, its two sliced operands
    as functions of the rows' positions. -/
theorem runD_y_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 160 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay17 (fun z : S80x64.Idx => x18 (ixm (by decide) (400 * (t.val % 25) + 160 + (z 0).val) (z 1))) x12 x13
          (fun z : S80x16.Idx => x14 (ixm (by decide) (160 + (z 0).val) (z 1))) (ValueIdx.ix2 r q) := by
  unfold runD; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  refine (Cert.Lib.over_cons_unit_of_mem _ _ _ _ y (ValueIdx.ix2 r q) (fun a => ?_)).trans ?_
  · fin_cases a
    · show (y 0).val = 160 + r.val; omega
    · show (y 1).val = 0 + q.val; omega
  · have e0 : k0_off2 (grid0.coords t) 160#32 0 = 400 * (t.val % 25) + 160 := by rw [off2_160 t]; rfl
    have e1 : k0_off2 (grid0.coords t) 160#32 1 = 0 := by rw [off2_160 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 160) e0 e1 (by omega),
      ld_rows14 x14 _ 160 rfl rfl (by omega)]

set_option maxHeartbeats 4000000 in
/-- Strip 3 of the second result's block after the body's stores: the strip's payload, its two sliced operands
    as functions of the rows' positions. -/
theorem runD_y_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 240 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay19 (fun z : S80x64.Idx => x18 (ixm (by decide) (400 * (t.val % 25) + 240 + (z 0).val) (z 1))) x12 x13
          (fun z : S80x16.Idx => x14 (ixm (by decide) (240 + (z 0).val) (z 1))) (ValueIdx.ix2 r q) := by
  unfold runD; dsimp only; sl_unfold_run_names
  rw [Cert.Lib.over_cons_unit_of_not_mem _ _ _ _ y 0 (by show (y 0).val < 320 ∨ 320 + 80 ≤ (y 0).val; omega)]
  refine (Cert.Lib.over_cons_unit_of_mem _ _ _ _ y (ValueIdx.ix2 r q) (fun a => ?_)).trans ?_
  · fin_cases a
    · show (y 0).val = 240 + r.val; omega
    · show (y 1).val = 0 + q.val; omega
  · have e0 : k0_off2 (grid0.coords t) 240#32 0 = 400 * (t.val % 25) + 240 := by rw [off2_240 t]; rfl
    have e1 : k0_off2 (grid0.coords t) 240#32 1 = 0 := by rw [off2_240 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 240) e0 e1 (by omega),
      ld_rows14 x14 _ 240 rfl rfl (by omega)]

set_option maxHeartbeats 4000000 in
/-- Strip 4 of the second result's block after the body's stores: the strip's payload, its two sliced operands
    as functions of the rows' positions. -/
theorem runD_y_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 320 + r.val) (hy1 : (y 1).val = q.val) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay5 (fun z : S80x64.Idx => x18 (ixm (by decide) (400 * (t.val % 25) + 320 + (z 0).val) (z 1))) x12 x13
          (fun z : S80x16.Idx => x14 (ixm (by decide) (320 + (z 0).val) (z 1))) (ValueIdx.ix2 r q) := by
  unfold runD; dsimp only; sl_unfold_run_names
  refine (Cert.Lib.over_cons_unit_of_mem _ _ _ _ y (ValueIdx.ix2 r q) (fun a => ?_)).trans ?_
  · fin_cases a
    · show (y 0).val = 320 + r.val; omega
    · show (y 1).val = 0 + q.val; omega
  · have e0 : k0_off2 (grid0.coords t) 320#32 0 = 400 * (t.val % 25) + 320 := by rw [off2_320 t]; rfl
    have e1 : k0_off2 (grid0.coords t) 320#32 1 = 0 := by rw [off2_320 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 320) e0 e1 (by omega),
      ld_rows14 x14 _ 320 rfl rfl (by omega)]

set_option maxHeartbeats 4000000 in
/-- The projection of the hidden features after the body's one store into its scratch buffer: the store's payload. -/
theorem runC_s2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) :
    Cert.Lib.over x19 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.2.1 = k0_pay3 x18 x10 := by
  unfold runC; dsimp only; sl_unfold_run_names
  refine (Cert.Lib.over_cons_unit_zero x19 hz2 _ _ _).trans ?_
  rw [readAt_whole arg18 harg18 _ hz2, readAt_whole arg10 harg10 _ hz2]

set_option maxHeartbeats 4000000 in
/-- Strip 0 of the first result's block after the body's stores: the strip's payload. -/
theorem runC_out_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 0 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay12 x2 (k0_pay3 x18 x10) x11 (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  rw [Cert.Lib.over_cons_unit_of_not_mem _ _ _ _ y 0 (by show (y 0).val < 80 ∨ 80 + 80 ≤ (y 0).val; omega)]
  refine (Cert.Lib.over_cons_unit_of_mem _ _ _ _ y (ValueIdx.ix2 r q) (fun a => ?_)).trans ?_
  · fin_cases a
    · show (y 0).val = 0 + r.val; omega
    · show (y 1).val = 0 + q.val; omega
  · rw [View.readCov_cons_toLoadRect, readAt_whole arg2 harg2 _ hz2, readAt_whole arg18 harg18 _ hz2, readAt_whole arg10 harg10 _ hz2,
      readAt_whole arg11 harg11 _ hz2]

set_option maxHeartbeats 4000000 in
/-- Strip 1 of the first result's block after the body's stores: the strip's payload. -/
theorem runC_out_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 80 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay14 x3 (k0_pay3 x18 x10) x11 (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  refine (Cert.Lib.over_cons_unit_of_mem _ _ _ _ y (ValueIdx.ix2 r q) (fun a => ?_)).trans ?_
  · fin_cases a
    · show (y 0).val = 80 + r.val; omega
    · show (y 1).val = 0 + q.val; omega
  · rw [View.readCov_cons_toLoadRect, readAt_whole arg3 harg3 _ hz2, readAt_whole arg18 harg18 _ hz2, readAt_whole arg10 harg10 _ hz2,
      readAt_whole arg11 harg11 _ hz2]

set_option maxHeartbeats 4000000 in
/-- Strip 2 of the first result's block after the body's stores: the strip's payload. -/
theorem runC_out_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 160 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay16 x4 (k0_pay3 x18 x10) x11 (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  refine (Cert.Lib.over_cons_unit_of_mem _ _ _ _ y (ValueIdx.ix2 r q) (fun a => ?_)).trans ?_
  · fin_cases a
    · show (y 0).val = 160 + r.val; omega
    · show (y 1).val = 0 + q.val; omega
  · rw [View.readCov_cons_toLoadRect, readAt_whole arg4 harg4 _ hz2, readAt_whole arg18 harg18 _ hz2, readAt_whole arg10 harg10 _ hz2,
      readAt_whole arg11 harg11 _ hz2]

set_option maxHeartbeats 4000000 in
/-- Strip 3 of the first result's block after the body's stores: the strip's payload. -/
theorem runC_out_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 240 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay18 x5 (k0_pay3 x18 x10) x11 (ValueIdx.ix2 r q) := by
  unfold runC; dsimp only; sl_unfold_run_names
  rw [Cert.Lib.over_cons_unit_of_not_mem _ _ _ _ y 0 (by show (y 0).val < 320 ∨ 320 + 80 ≤ (y 0).val; omega)]
  refine (Cert.Lib.over_cons_unit_of_mem _ _ _ _ y (ValueIdx.ix2 r q) (fun a => ?_)).trans ?_
  · fin_cases a
    · show (y 0).val = 240 + r.val; omega
    · show (y 1).val = 0 + q.val; omega
  · rw [View.readCov_cons_toLoadRect, readAt_whole arg5 harg5 _ hz2, readAt_whole arg18 harg18 _ hz2, readAt_whole arg10 harg10 _ hz2,
      readAt_whole arg11 harg11 _ hz2]

set_option maxHeartbeats 4000000 in
/-- Strip 4 of the first result's block after the body's stores: the strip's payload. -/
theorem runC_out_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x40.Idx) (r : Fin 80) (q : Fin 40)
    (hy0 : (y 0).val = 320 + r.val) (hy1 : (y 1).val = q.val) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).1 y = k0_pay4 x6 (k0_pay3 x18 x10) x11 (ValueIdx.ix2 r q) := by
  unfold runC; dsimp only; sl_unfold_run_names
  refine (Cert.Lib.over_cons_unit_of_mem _ _ _ _ y (ValueIdx.ix2 r q) (fun a => ?_)).trans ?_
  · fin_cases a
    · show (y 0).val = 320 + r.val; omega
    · show (y 1).val = 0 + q.val; omega
  · rw [View.readCov_cons_toLoadRect, readAt_whole arg6 harg6 _ hz2, readAt_whole arg18 harg18 _ hz2, readAt_whole arg10 harg10 _ hz2,
      readAt_whole arg11 harg11 _ hz2]

set_option maxHeartbeats 4000000 in
/-- Strip 0 of the second result's block after the body's stores: the strip's payload, its two sliced operands
    as functions of the rows' positions. -/
theorem runC_y_at0 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 0 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay13 (fun z : S80x64.Idx => x18 (ixm (by decide) (400 * (t.val % 25) + 0 + (z 0).val) (z 1))) x12 x13
          (fun z : S80x16.Idx => x14 (ixm (by decide) (0 + (z 0).val) (z 1))) (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  rw [Cert.Lib.over_cons_unit_of_not_mem _ _ _ _ y 0 (by show (y 0).val < 80 ∨ 80 + 80 ≤ (y 0).val; omega)]
  refine (Cert.Lib.over_cons_unit_of_mem _ _ _ _ y (ValueIdx.ix2 r q) (fun a => ?_)).trans ?_
  · fin_cases a
    · show (y 0).val = 0 + r.val; omega
    · show (y 1).val = 0 + q.val; omega
  · have e0 : k0_off2 (grid0.coords t) 0#32 0 = 400 * (t.val % 25) + 0 := by rw [off2_0 t]; rfl
    have e1 : k0_off2 (grid0.coords t) 0#32 1 = 0 := by rw [off2_0 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 0) e0 e1 (by omega),
      ld_rows14 x14 _ 0 rfl rfl (by omega)]

set_option maxHeartbeats 4000000 in
/-- Strip 1 of the second result's block after the body's stores: the strip's payload, its two sliced operands
    as functions of the rows' positions. -/
theorem runC_y_at1 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 80 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay15 (fun z : S80x64.Idx => x18 (ixm (by decide) (400 * (t.val % 25) + 80 + (z 0).val) (z 1))) x12 x13
          (fun z : S80x16.Idx => x14 (ixm (by decide) (80 + (z 0).val) (z 1))) (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  rw [Cert.Lib.over_cons_unit_of_not_mem _ _ _ _ y 0 (by show (y 0).val < 160 ∨ 160 + 80 ≤ (y 0).val; omega)]
  refine (Cert.Lib.over_cons_unit_of_mem _ _ _ _ y (ValueIdx.ix2 r q) (fun a => ?_)).trans ?_
  · fin_cases a
    · show (y 0).val = 80 + r.val; omega
    · show (y 1).val = 0 + q.val; omega
  · have e0 : k0_off2 (grid0.coords t) 80#32 0 = 400 * (t.val % 25) + 80 := by rw [off2_80 t]; rfl
    have e1 : k0_off2 (grid0.coords t) 80#32 1 = 0 := by rw [off2_80 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 80) e0 e1 (by omega),
      ld_rows14 x14 _ 80 rfl rfl (by omega)]

set_option maxHeartbeats 4000000 in
/-- Strip 2 of the second result's block after the body's stores: the strip's payload, its two sliced operands
    as functions of the rows' positions. -/
theorem runC_y_at2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 160 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay17 (fun z : S80x64.Idx => x18 (ixm (by decide) (400 * (t.val % 25) + 160 + (z 0).val) (z 1))) x12 x13
          (fun z : S80x16.Idx => x14 (ixm (by decide) (160 + (z 0).val) (z 1))) (ValueIdx.ix2 r q) := by
  unfold runC; dsimp only; sl_unfold_run_names
  rw [Cert.Lib.over_cons_unit_of_not_mem _ _ _ _ y 0 (by show (y 0).val < 320 ∨ 320 + 80 ≤ (y 0).val; omega)]
  rw [Cert.Lib.over_cons_unit_of_not_mem _ _ _ _ y 0 (by show (y 0).val < 240 ∨ 240 + 80 ≤ (y 0).val; omega)]
  refine (Cert.Lib.over_cons_unit_of_mem _ _ _ _ y (ValueIdx.ix2 r q) (fun a => ?_)).trans ?_
  · fin_cases a
    · show (y 0).val = 160 + r.val; omega
    · show (y 1).val = 0 + q.val; omega
  · have e0 : k0_off2 (grid0.coords t) 160#32 0 = 400 * (t.val % 25) + 160 := by rw [off2_160 t]; rfl
    have e1 : k0_off2 (grid0.coords t) 160#32 1 = 0 := by rw [off2_160 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 160) e0 e1 (by omega),
      ld_rows14 x14 _ 160 rfl rfl (by omega)]

set_option maxHeartbeats 4000000 in
/-- Strip 3 of the second result's block after the body's stores: the strip's payload, its two sliced operands
    as functions of the rows' positions. -/
theorem runC_y_at3 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 240 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay19 (fun z : S80x64.Idx => x18 (ixm (by decide) (400 * (t.val % 25) + 240 + (z 0).val) (z 1))) x12 x13
          (fun z : S80x16.Idx => x14 (ixm (by decide) (240 + (z 0).val) (z 1))) (ValueIdx.ix2 r q) := by
  unfold runC; dsimp only; sl_unfold_run_names
  rw [Cert.Lib.over_cons_unit_of_not_mem _ _ _ _ y 0 (by show (y 0).val < 320 ∨ 320 + 80 ≤ (y 0).val; omega)]
  refine (Cert.Lib.over_cons_unit_of_mem _ _ _ _ y (ValueIdx.ix2 r q) (fun a => ?_)).trans ?_
  · fin_cases a
    · show (y 0).val = 240 + r.val; omega
    · show (y 1).val = 0 + q.val; omega
  · have e0 : k0_off2 (grid0.coords t) 240#32 0 = 400 * (t.val % 25) + 240 := by rw [off2_240 t]; rfl
    have e1 : k0_off2 (grid0.coords t) 240#32 1 = 0 := by rw [off2_240 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 240) e0 e1 (by omega),
      ld_rows14 x14 _ 240 rfl rfl (by omega)]

set_option maxHeartbeats 4000000 in
/-- Strip 4 of the second result's block after the body's stores: the strip's payload, its two sliced operands
    as functions of the rows' positions. -/
theorem runC_y_at4 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x2 : Vec F S80x10000 .f32) (x3 : Vec F S80x10000 .f32) (x4 : Vec F S80x10000 .f32) (x5 : Vec F S80x10000 .f32) (x6 : Vec F S80x10000 .f32) (x7 : Vec F S10000x128 .f32) (x8 : Vec F S128x64 .f32) (x9 : Vec F S1x64 .f32) (x10 : Vec F S64x40 .f32) (x11 : Vec F S1x40 .f32) (x12 : Vec F S16x64 .f32) (x13 : Vec F S1x16 .f32) (x14 : Vec F S400x16 .f32) (x15 : Vec F S400x40 .f32) (x16 : Vec F S400x16 .f32) (x17 : Vec F S10000x64 .f32) (x18 : Vec F S10000x64 .f32) (x19 : Vec F S10000x40 .f32) (y : S400x16.Idx) (r : Fin 80) (q : Fin 16)
    (hy0 : (y 0).val = 320 + r.val) (hy1 : (y 1).val = q.val) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x2 x3 x4 x5 x6 x7 x8 x9 x10 x11 x12 x13 x14 x15 x16 x17 x18 x19).2.1 y
      = k0_pay5 (fun z : S80x64.Idx => x18 (ixm (by decide) (400 * (t.val % 25) + 320 + (z 0).val) (z 1))) x12 x13
          (fun z : S80x16.Idx => x14 (ixm (by decide) (320 + (z 0).val) (z 1))) (ValueIdx.ix2 r q) := by
  unfold runC; dsimp only; sl_unfold_run_names
  refine (Cert.Lib.over_cons_unit_of_mem _ _ _ _ y (ValueIdx.ix2 r q) (fun a => ?_)).trans ?_
  · fin_cases a
    · show (y 0).val = 320 + r.val; omega
    · show (y 1).val = 0 + q.val; omega
  · have e0 : k0_off2 (grid0.coords t) 320#32 0 = 400 * (t.val % 25) + 320 := by rw [off2_320 t]; rfl
    have e1 : k0_off2 (grid0.coords t) 320#32 1 = 0 := by rw [off2_320 t]; rfl
    have ht : t.val % 25 < 25 := Nat.mod_lt _ (by decide)
    rw [readAt_slice arg18 harg18 _ x18, readAt_whole arg12 harg12 _ hz2, readAt_whole arg13 harg13 _ hz2,
      readAt_slice arg14 harg14 _ x14, ld_rows18 x18 _ (400 * (t.val % 25) + 320) e0 e1 (by omega),
      ld_rows14 x14 _ 320 rfl rfl (by omega)]

end Cert.KernelIdeal.Frm

end
-- ==== Proof.FrmPureCD.lean ====
import proofs.«139686_g86887188398715_cont_sun_m_547_23_alg».proof.Proof.FrmPiecesCD
import proofs.«139686_g86887188398715_cont_sun_m_547_23_alg».proof.Proof.FrmBlocks
import proofs.«139686_g86887188398715_cont_sun_m_547_23_alg».proof.Proof.FrmSel
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The second phase writes the two results block by block

At a point `t` of the second phase the body's stores into the two results' staging blocks leave exactly row block
`t − 25` of the results, computed from the hidden features, their projection, and the point's input blocks: a row of a
block lies in strip `r / 80`, and the strip's payload is the closed form's strip. -/

set_option maxHeartbeats 4000000 in
/-- At the first point of the second phase the scratch buffer of the hidden features' projection is left holding that
    projection. -/
theorem pureC_s2 (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (x15 : Vec F S400x40 .f32) (x16 : Vec F S400x16 .f32) (x19 : Vec F S10000x40 .f32) :
    Cert.Lib.over x19 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19).2.2.1 = S2f m c := by
  rw [runC_s2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19, iblk8 m c t]
  rfl

set_option maxHeartbeats 4000000 in
/-- At the first point of the second phase the first result's staging block is left holding row block 0 of the result. -/
theorem pureC_out (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (ht : t.val = 25) (x15 : Vec F S400x40 .f32) (x16 : Vec F S400x16 .f32) (x19 : Vec F S10000x40 .f32) :
    Cert.Lib.over x15 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19).1 = O13f m c (t.val - 25) := by
  funext y
  have ht50 : t.val < 50 := t.isLt
  have h25 : 25 ≤ t.val := by omega
  have hm : t.val % 25 = t.val - 25 := by omega
  have hy : (y 0).val < 400 := (y 0).isLt
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runC_out_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 0, hr⟩ (y 1)
      (by show (y 0).val = 0 + ((y 0).val - 0); omega) rfl]
    unfold O13f
    have e1 : (y 0).val / 80 = 0 := by omega
    have e3 : (ixm (by decide) (y 0).val (y 1) : S80x40.Idx) = ValueIdx.ix2 ⟨(y 0).val - 0, hr⟩ (y 1) := by
      unfold ixm; congr 1; exact Fin.ext (by show (y 0).val % 80 = (y 0).val - 0; omega)
    rw [e1, e3, iblk0 m c t, iblk9 m c t, iblk8 m c t, hm]
    simp only [oStrip]
    try rfl
  · -- strip 1
    have hr : (y 0).val - 80 < 80 := by omega
    rw [runC_out_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 80, hr⟩ (y 1)
      (by show (y 0).val = 80 + ((y 0).val - 80); omega) rfl]
    unfold O13f
    have e1 : (y 0).val / 80 = 1 := by omega
    have e3 : (ixm (by decide) (y 0).val (y 1) : S80x40.Idx) = ValueIdx.ix2 ⟨(y 0).val - 80, hr⟩ (y 1) := by
      unfold ixm; congr 1; exact Fin.ext (by show (y 0).val % 80 = (y 0).val - 80; omega)
    rw [e1, e3, iblk1 m c t, iblk9 m c t, iblk8 m c t, hm]
    simp only [oStrip]
    try rfl
  · -- strip 2
    have hr : (y 0).val - 160 < 80 := by omega
    rw [runC_out_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 160, hr⟩ (y 1)
      (by show (y 0).val = 160 + ((y 0).val - 160); omega) rfl]
    unfold O13f
    have e1 : (y 0).val / 80 = 2 := by omega
    have e3 : (ixm (by decide) (y 0).val (y 1) : S80x40.Idx) = ValueIdx.ix2 ⟨(y 0).val - 160, hr⟩ (y 1) := by
      unfold ixm; congr 1; exact Fin.ext (by show (y 0).val % 80 = (y 0).val - 160; omega)
    rw [e1, e3, iblk2 m c t, iblk9 m c t, iblk8 m c t, hm]
    simp only [oStrip]
    try rfl
  · -- strip 3
    have hr : (y 0).val - 240 < 80 := by omega
    rw [runC_out_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 240, hr⟩ (y 1)
      (by show (y 0).val = 240 + ((y 0).val - 240); omega) rfl]
    unfold O13f
    have e1 : (y 0).val / 80 = 3 := by omega
    have e3 : (ixm (by decide) (y 0).val (y 1) : S80x40.Idx) = ValueIdx.ix2 ⟨(y 0).val - 240, hr⟩ (y 1) := by
      unfold ixm; congr 1; exact Fin.ext (by show (y 0).val % 80 = (y 0).val - 240; omega)
    rw [e1, e3, iblk3 m c t, iblk9 m c t, iblk8 m c t, hm]
    simp only [oStrip]
    try rfl
  · -- strip 4
    have hr : (y 0).val - 320 < 80 := by omega
    rw [runC_out_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 320, hr⟩ (y 1)
      (by show (y 0).val = 320 + ((y 0).val - 320); omega) rfl]
    unfold O13f
    have e1 : (y 0).val / 80 = 4 := by omega
    have e3 : (ixm (by decide) (y 0).val (y 1) : S80x40.Idx) = ValueIdx.ix2 ⟨(y 0).val - 320, hr⟩ (y 1) := by
      unfold ixm; congr 1; exact Fin.ext (by show (y 0).val % 80 = (y 0).val - 320; omega)
    rw [e1, e3, iblk4 m c t, iblk9 m c t, iblk8 m c t, hm]
    simp only [oStrip]
    try rfl

set_option maxHeartbeats 4000000 in
/-- At the first point of the second phase the second result's staging block is left holding row block 0 of the result. -/
theorem pureC_y (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : cond3 (grid0.coords t)) (hc4 : cond4 (grid0.coords t)) (ht : t.val = 25) (x15 : Vec F S400x40 .f32) (x16 : Vec F S400x16 .f32) (x19 : Vec F S10000x40 .f32) :
    Cert.Lib.over x16 (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19).2.1 = O14f m c (t.val - 25) := by
  funext y
  have ht50 : t.val < 50 := t.isLt
  have h25 : 25 ≤ t.val := by omega
  have hm : t.val % 25 = t.val - 25 := by omega
  have hy : (y 0).val < 400 := (y 0).isLt
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runC_y_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 0, hr⟩ (y 1)
      (by show (y 0).val = 0 + ((y 0).val - 0); omega) rfl]
    unfold O14f
    have e2 : 400 * (t.val - 25) + 80 * ((y 0).val / 80) = 400 * (t.val % 25) + 0 := by omega
    have e1 : (y 0).val / 80 = 0 := by omega
    have e3 : (ixm (by decide) (y 0).val (y 1) : S80x16.Idx) = ValueIdx.ix2 ⟨(y 0).val - 0, hr⟩ (y 1) := by
      unfold ixm; congr 1; exact Fin.ext (by show (y 0).val % 80 = (y 0).val - 0; omega)
    have hatt : (fun z : S80x16.Idx => iblk m c 12 t (ixm (by decide) (0 + (z 0).val) (z 1)))
        = attRows m c (400 * (t.val % 25) + 0) := by
      funext z
      have hz : (z 0).val < 80 := (z 0).isLt
      rw [iblk12 m c t h25]
      unfold attRows
      show aAtt m c _ = aAtt m c _
      congr 1
      unfold ixm; congr 1
      exact Fin.ext (by show (400 * (t.val - 25) + (0 + (z 0).val) % 400) % 10000 = (400 * (t.val % 25) + 0 + (z 0).val) % 10000; omega)
    rw [e2, e1, e3, hatt, iblk10 m c t, iblk11 m c t]
    simp only [yStrip]
    try rfl
  · -- strip 1
    have hr : (y 0).val - 80 < 80 := by omega
    rw [runC_y_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 80, hr⟩ (y 1)
      (by show (y 0).val = 80 + ((y 0).val - 80); omega) rfl]
    unfold O14f
    have e2 : 400 * (t.val - 25) + 80 * ((y 0).val / 80) = 400 * (t.val % 25) + 80 := by omega
    have e1 : (y 0).val / 80 = 1 := by omega
    have e3 : (ixm (by decide) (y 0).val (y 1) : S80x16.Idx) = ValueIdx.ix2 ⟨(y 0).val - 80, hr⟩ (y 1) := by
      unfold ixm; congr 1; exact Fin.ext (by show (y 0).val % 80 = (y 0).val - 80; omega)
    have hatt : (fun z : S80x16.Idx => iblk m c 12 t (ixm (by decide) (80 + (z 0).val) (z 1)))
        = attRows m c (400 * (t.val % 25) + 80) := by
      funext z
      have hz : (z 0).val < 80 := (z 0).isLt
      rw [iblk12 m c t h25]
      unfold attRows
      show aAtt m c _ = aAtt m c _
      congr 1
      unfold ixm; congr 1
      exact Fin.ext (by show (400 * (t.val - 25) + (80 + (z 0).val) % 400) % 10000 = (400 * (t.val % 25) + 80 + (z 0).val) % 10000; omega)
    rw [e2, e1, e3, hatt, iblk10 m c t, iblk11 m c t]
    simp only [yStrip]
    try rfl
  · -- strip 2
    have hr : (y 0).val - 160 < 80 := by omega
    rw [runC_y_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 160, hr⟩ (y 1)
      (by show (y 0).val = 160 + ((y 0).val - 160); omega) rfl]
    unfold O14f
    have e2 : 400 * (t.val - 25) + 80 * ((y 0).val / 80) = 400 * (t.val % 25) + 160 := by omega
    have e1 : (y 0).val / 80 = 2 := by omega
    have e3 : (ixm (by decide) (y 0).val (y 1) : S80x16.Idx) = ValueIdx.ix2 ⟨(y 0).val - 160, hr⟩ (y 1) := by
      unfold ixm; congr 1; exact Fin.ext (by show (y 0).val % 80 = (y 0).val - 160; omega)
    have hatt : (fun z : S80x16.Idx => iblk m c 12 t (ixm (by decide) (160 + (z 0).val) (z 1)))
        = attRows m c (400 * (t.val % 25) + 160) := by
      funext z
      have hz : (z 0).val < 80 := (z 0).isLt
      rw [iblk12 m c t h25]
      unfold attRows
      show aAtt m c _ = aAtt m c _
      congr 1
      unfold ixm; congr 1
      exact Fin.ext (by show (400 * (t.val - 25) + (160 + (z 0).val) % 400) % 10000 = (400 * (t.val % 25) + 160 + (z 0).val) % 10000; omega)
    rw [e2, e1, e3, hatt, iblk10 m c t, iblk11 m c t]
    simp only [yStrip]
    try rfl
  · -- strip 3
    have hr : (y 0).val - 240 < 80 := by omega
    rw [runC_y_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 240, hr⟩ (y 1)
      (by show (y 0).val = 240 + ((y 0).val - 240); omega) rfl]
    unfold O14f
    have e2 : 400 * (t.val - 25) + 80 * ((y 0).val / 80) = 400 * (t.val % 25) + 240 := by omega
    have e1 : (y 0).val / 80 = 3 := by omega
    have e3 : (ixm (by decide) (y 0).val (y 1) : S80x16.Idx) = ValueIdx.ix2 ⟨(y 0).val - 240, hr⟩ (y 1) := by
      unfold ixm; congr 1; exact Fin.ext (by show (y 0).val % 80 = (y 0).val - 240; omega)
    have hatt : (fun z : S80x16.Idx => iblk m c 12 t (ixm (by decide) (240 + (z 0).val) (z 1)))
        = attRows m c (400 * (t.val % 25) + 240) := by
      funext z
      have hz : (z 0).val < 80 := (z 0).isLt
      rw [iblk12 m c t h25]
      unfold attRows
      show aAtt m c _ = aAtt m c _
      congr 1
      unfold ixm; congr 1
      exact Fin.ext (by show (400 * (t.val - 25) + (240 + (z 0).val) % 400) % 10000 = (400 * (t.val % 25) + 240 + (z 0).val) % 10000; omega)
    rw [e2, e1, e3, hatt, iblk10 m c t, iblk11 m c t]
    simp only [yStrip]
    try rfl
  · -- strip 4
    have hr : (y 0).val - 320 < 80 := by omega
    rw [runC_y_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) x19 y ⟨(y 0).val - 320, hr⟩ (y 1)
      (by show (y 0).val = 320 + ((y 0).val - 320); omega) rfl]
    unfold O14f
    have e2 : 400 * (t.val - 25) + 80 * ((y 0).val / 80) = 400 * (t.val % 25) + 320 := by omega
    have e1 : (y 0).val / 80 = 4 := by omega
    have e3 : (ixm (by decide) (y 0).val (y 1) : S80x16.Idx) = ValueIdx.ix2 ⟨(y 0).val - 320, hr⟩ (y 1) := by
      unfold ixm; congr 1; exact Fin.ext (by show (y 0).val % 80 = (y 0).val - 320; omega)
    have hatt : (fun z : S80x16.Idx => iblk m c 12 t (ixm (by decide) (320 + (z 0).val) (z 1)))
        = attRows m c (400 * (t.val % 25) + 320) := by
      funext z
      have hz : (z 0).val < 80 := (z 0).isLt
      rw [iblk12 m c t h25]
      unfold attRows
      show aAtt m c _ = aAtt m c _
      congr 1
      unfold ixm; congr 1
      exact Fin.ext (by show (400 * (t.val - 25) + (320 + (z 0).val) % 400) % 10000 = (400 * (t.val % 25) + 320 + (z 0).val) % 10000; omega)
    rw [e2, e1, e3, hatt, iblk10 m c t, iblk11 m c t]
    simp only [yStrip]
    try rfl

set_option maxHeartbeats 4000000 in
/-- At a later point `t` of the second phase the first result's staging block is left holding row block `t − 25`. -/
theorem pureD_out (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (ht : 25 < t.val) (x15 : Vec F S400x40 .f32) (x16 : Vec F S400x16 .f32) :
    Cert.Lib.over x15 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c)).1 = O13f m c (t.val - 25) := by
  funext y
  have ht50 : t.val < 50 := t.isLt
  have h25 : 25 ≤ t.val := by omega
  have hm : t.val % 25 = t.val - 25 := by omega
  have hy : (y 0).val < 400 := (y 0).isLt
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runD_out_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 0, hr⟩ (y 1)
      (by show (y 0).val = 0 + ((y 0).val - 0); omega) rfl]
    unfold O13f
    have e1 : (y 0).val / 80 = 0 := by omega
    have e3 : (ixm (by decide) (y 0).val (y 1) : S80x40.Idx) = ValueIdx.ix2 ⟨(y 0).val - 0, hr⟩ (y 1) := by
      unfold ixm; congr 1; exact Fin.ext (by show (y 0).val % 80 = (y 0).val - 0; omega)
    rw [e1, e3, iblk0 m c t, iblk9 m c t, hm]
    simp only [oStrip]
    try rfl
  · -- strip 1
    have hr : (y 0).val - 80 < 80 := by omega
    rw [runD_out_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 80, hr⟩ (y 1)
      (by show (y 0).val = 80 + ((y 0).val - 80); omega) rfl]
    unfold O13f
    have e1 : (y 0).val / 80 = 1 := by omega
    have e3 : (ixm (by decide) (y 0).val (y 1) : S80x40.Idx) = ValueIdx.ix2 ⟨(y 0).val - 80, hr⟩ (y 1) := by
      unfold ixm; congr 1; exact Fin.ext (by show (y 0).val % 80 = (y 0).val - 80; omega)
    rw [e1, e3, iblk1 m c t, iblk9 m c t, hm]
    simp only [oStrip]
    try rfl
  · -- strip 2
    have hr : (y 0).val - 160 < 80 := by omega
    rw [runD_out_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 160, hr⟩ (y 1)
      (by show (y 0).val = 160 + ((y 0).val - 160); omega) rfl]
    unfold O13f
    have e1 : (y 0).val / 80 = 2 := by omega
    have e3 : (ixm (by decide) (y 0).val (y 1) : S80x40.Idx) = ValueIdx.ix2 ⟨(y 0).val - 160, hr⟩ (y 1) := by
      unfold ixm; congr 1; exact Fin.ext (by show (y 0).val % 80 = (y 0).val - 160; omega)
    rw [e1, e3, iblk2 m c t, iblk9 m c t, hm]
    simp only [oStrip]
    try rfl
  · -- strip 3
    have hr : (y 0).val - 240 < 80 := by omega
    rw [runD_out_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 240, hr⟩ (y 1)
      (by show (y 0).val = 240 + ((y 0).val - 240); omega) rfl]
    unfold O13f
    have e1 : (y 0).val / 80 = 3 := by omega
    have e3 : (ixm (by decide) (y 0).val (y 1) : S80x40.Idx) = ValueIdx.ix2 ⟨(y 0).val - 240, hr⟩ (y 1) := by
      unfold ixm; congr 1; exact Fin.ext (by show (y 0).val % 80 = (y 0).val - 240; omega)
    rw [e1, e3, iblk3 m c t, iblk9 m c t, hm]
    simp only [oStrip]
    try rfl
  · -- strip 4
    have hr : (y 0).val - 320 < 80 := by omega
    rw [runD_out_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 320, hr⟩ (y 1)
      (by show (y 0).val = 320 + ((y 0).val - 320); omega) rfl]
    unfold O13f
    have e1 : (y 0).val / 80 = 4 := by omega
    have e3 : (ixm (by decide) (y 0).val (y 1) : S80x40.Idx) = ValueIdx.ix2 ⟨(y 0).val - 320, hr⟩ (y 1) := by
      unfold ixm; congr 1; exact Fin.ext (by show (y 0).val % 80 = (y 0).val - 320; omega)
    rw [e1, e3, iblk4 m c t, iblk9 m c t, hm]
    simp only [oStrip]
    try rfl

set_option maxHeartbeats 4000000 in
/-- At a later point `t` of the second phase the second result's staging block is left holding row block `t − 25`. -/
theorem pureD_y (c : Dev nD) (t : Fin cfg0.N) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S64x40 .f32) (harg10 : arg10.IsWhole) (arg11 : Memref sig .tc .vmem S1x40 .f32) (harg11 : arg11.IsWhole) (arg12 : Memref sig .tc .vmem S16x64 .f32) (harg12 : arg12.IsWhole) (arg13 : Memref sig .tc .vmem S1x16 .f32) (harg13 : arg13.IsWhole) (arg14 : Memref sig .tc .vmem S400x16 .f32) (harg14 : arg14.IsWhole) (arg15 : Memref sig .tc .vmem S400x40 .f32) (harg15 : arg15.IsWhole) (arg16 : Memref sig .tc .vmem S400x16 .f32) (harg16 : arg16.IsWhole) (arg17 : Memref sig .tc .vmem S10000x64 .f32) (harg17 : arg17.IsWhole) (arg18 : Memref sig .tc .vmem S10000x64 .f32) (harg18 : arg18.IsWhole) (arg19 : Memref sig .tc .vmem S10000x40 .f32) (harg19 : arg19.IsWhole) (hc1 : ¬cond1 (grid0.coords t)) (hc2 : ¬cond2 (grid0.coords t)) (hc3 : ¬cond3 (grid0.coords t)) (hc4 : cond4 (grid0.coords t)) (ht : 25 < t.val) (x15 : Vec F S400x40 .f32) (x16 : Vec F S400x16 .f32) :
    Cert.Lib.over x16 (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c)).2.1 = O14f m c (t.val - 25) := by
  funext y
  have ht50 : t.val < 50 := t.isLt
  have h25 : 25 ≤ t.val := by omega
  have hm : t.val % 25 = t.val - 25 := by omega
  have hy : (y 0).val < 400 := (y 0).isLt
  rcases (show (y 0).val < 80 ∨ (80 ≤ (y 0).val ∧ (y 0).val < 160) ∨ (160 ≤ (y 0).val ∧ (y 0).val < 240)
      ∨ (240 ≤ (y 0).val ∧ (y 0).val < 320) ∨ (320 ≤ (y 0).val ∧ (y 0).val < 400) by omega) with h0 | h1 | h2 | h3 | h4
  · -- strip 0
    have hr : (y 0).val - 0 < 80 := by omega
    rw [runD_y_at0 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 0, hr⟩ (y 1)
      (by show (y 0).val = 0 + ((y 0).val - 0); omega) rfl]
    unfold O14f
    have e2 : 400 * (t.val - 25) + 80 * ((y 0).val / 80) = 400 * (t.val % 25) + 0 := by omega
    have e1 : (y 0).val / 80 = 0 := by omega
    have e3 : (ixm (by decide) (y 0).val (y 1) : S80x16.Idx) = ValueIdx.ix2 ⟨(y 0).val - 0, hr⟩ (y 1) := by
      unfold ixm; congr 1; exact Fin.ext (by show (y 0).val % 80 = (y 0).val - 0; omega)
    have hatt : (fun z : S80x16.Idx => iblk m c 12 t (ixm (by decide) (0 + (z 0).val) (z 1)))
        = attRows m c (400 * (t.val % 25) + 0) := by
      funext z
      have hz : (z 0).val < 80 := (z 0).isLt
      rw [iblk12 m c t h25]
      unfold attRows
      show aAtt m c _ = aAtt m c _
      congr 1
      unfold ixm; congr 1
      exact Fin.ext (by show (400 * (t.val - 25) + (0 + (z 0).val) % 400) % 10000 = (400 * (t.val % 25) + 0 + (z 0).val) % 10000; omega)
    rw [e2, e1, e3, hatt, iblk10 m c t, iblk11 m c t]
    simp only [yStrip]
    try rfl
  · -- strip 1
    have hr : (y 0).val - 80 < 80 := by omega
    rw [runD_y_at1 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 80, hr⟩ (y 1)
      (by show (y 0).val = 80 + ((y 0).val - 80); omega) rfl]
    unfold O14f
    have e2 : 400 * (t.val - 25) + 80 * ((y 0).val / 80) = 400 * (t.val % 25) + 80 := by omega
    have e1 : (y 0).val / 80 = 1 := by omega
    have e3 : (ixm (by decide) (y 0).val (y 1) : S80x16.Idx) = ValueIdx.ix2 ⟨(y 0).val - 80, hr⟩ (y 1) := by
      unfold ixm; congr 1; exact Fin.ext (by show (y 0).val % 80 = (y 0).val - 80; omega)
    have hatt : (fun z : S80x16.Idx => iblk m c 12 t (ixm (by decide) (80 + (z 0).val) (z 1)))
        = attRows m c (400 * (t.val % 25) + 80) := by
      funext z
      have hz : (z 0).val < 80 := (z 0).isLt
      rw [iblk12 m c t h25]
      unfold attRows
      show aAtt m c _ = aAtt m c _
      congr 1
      unfold ixm; congr 1
      exact Fin.ext (by show (400 * (t.val - 25) + (80 + (z 0).val) % 400) % 10000 = (400 * (t.val % 25) + 80 + (z 0).val) % 10000; omega)
    rw [e2, e1, e3, hatt, iblk10 m c t, iblk11 m c t]
    simp only [yStrip]
    try rfl
  · -- strip 2
    have hr : (y 0).val - 160 < 80 := by omega
    rw [runD_y_at2 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 160, hr⟩ (y 1)
      (by show (y 0).val = 160 + ((y 0).val - 160); omega) rfl]
    unfold O14f
    have e2 : 400 * (t.val - 25) + 80 * ((y 0).val / 80) = 400 * (t.val % 25) + 160 := by omega
    have e1 : (y 0).val / 80 = 2 := by omega
    have e3 : (ixm (by decide) (y 0).val (y 1) : S80x16.Idx) = ValueIdx.ix2 ⟨(y 0).val - 160, hr⟩ (y 1) := by
      unfold ixm; congr 1; exact Fin.ext (by show (y 0).val % 80 = (y 0).val - 160; omega)
    have hatt : (fun z : S80x16.Idx => iblk m c 12 t (ixm (by decide) (160 + (z 0).val) (z 1)))
        = attRows m c (400 * (t.val % 25) + 160) := by
      funext z
      have hz : (z 0).val < 80 := (z 0).isLt
      rw [iblk12 m c t h25]
      unfold attRows
      show aAtt m c _ = aAtt m c _
      congr 1
      unfold ixm; congr 1
      exact Fin.ext (by show (400 * (t.val - 25) + (160 + (z 0).val) % 400) % 10000 = (400 * (t.val % 25) + 160 + (z 0).val) % 10000; omega)
    rw [e2, e1, e3, hatt, iblk10 m c t, iblk11 m c t]
    simp only [yStrip]
    try rfl
  · -- strip 3
    have hr : (y 0).val - 240 < 80 := by omega
    rw [runD_y_at3 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 240, hr⟩ (y 1)
      (by show (y 0).val = 240 + ((y 0).val - 240); omega) rfl]
    unfold O14f
    have e2 : 400 * (t.val - 25) + 80 * ((y 0).val / 80) = 400 * (t.val % 25) + 240 := by omega
    have e1 : (y 0).val / 80 = 3 := by omega
    have e3 : (ixm (by decide) (y 0).val (y 1) : S80x16.Idx) = ValueIdx.ix2 ⟨(y 0).val - 240, hr⟩ (y 1) := by
      unfold ixm; congr 1; exact Fin.ext (by show (y 0).val % 80 = (y 0).val - 240; omega)
    have hatt : (fun z : S80x16.Idx => iblk m c 12 t (ixm (by decide) (240 + (z 0).val) (z 1)))
        = attRows m c (400 * (t.val % 25) + 240) := by
      funext z
      have hz : (z 0).val < 80 := (z 0).isLt
      rw [iblk12 m c t h25]
      unfold attRows
      show aAtt m c _ = aAtt m c _
      congr 1
      unfold ixm; congr 1
      exact Fin.ext (by show (400 * (t.val - 25) + (240 + (z 0).val) % 400) % 10000 = (400 * (t.val % 25) + 240 + (z 0).val) % 10000; omega)
    rw [e2, e1, e3, hatt, iblk10 m c t, iblk11 m c t]
    simp only [yStrip]
    try rfl
  · -- strip 4
    have hr : (y 0).val - 320 < 80 := by omega
    rw [runD_y_at4 c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x15 x16 (S1f m c) (Hf m c) (S2f m c) y ⟨(y 0).val - 320, hr⟩ (y 1)
      (by show (y 0).val = 320 + ((y 0).val - 320); omega) rfl]
    unfold O14f
    have e2 : 400 * (t.val - 25) + 80 * ((y 0).val / 80) = 400 * (t.val % 25) + 320 := by omega
    have e1 : (y 0).val / 80 = 4 := by omega
    have e3 : (ixm (by decide) (y 0).val (y 1) : S80x16.Idx) = ValueIdx.ix2 ⟨(y 0).val - 320, hr⟩ (y 1) := by
      unfold ixm; congr 1; exact Fin.ext (by show (y 0).val % 80 = (y 0).val - 320; omega)
    have hatt : (fun z : S80x16.Idx => iblk m c 12 t (ixm (by decide) (320 + (z 0).val) (z 1)))
        = attRows m c (400 * (t.val % 25) + 320) := by
      funext z
      have hz : (z 0).val < 80 := (z 0).isLt
      rw [iblk12 m c t h25]
      unfold attRows
      show aAtt m c _ = aAtt m c _
      congr 1
      unfold ixm; congr 1
      exact Fin.ext (by show (400 * (t.val - 25) + (320 + (z 0).val) % 400) % 10000 = (400 * (t.val % 25) + 320 + (z 0).val) % 10000; omega)
    rw [e2, e1, e3, hatt, iblk10 m c t, iblk11 m c t]
    simp only [yStrip]
    try rfl

end Cert.KernelIdeal.Frm

end
-- ==== Proof.FrmBody.lean ====
import proofs.«139686_g86887188398715_cont_sun_m_547_23_alg».proof.Proof.FrmRunA
import proofs.«139686_g86887188398715_cont_sun_m_547_23_alg».proof.Proof.FrmRunB
import proofs.«139686_g86887188398715_cont_sun_m_547_23_alg».proof.Proof.FrmRunC
import proofs.«139686_g86887188398715_cont_sun_m_547_23_alg».proof.Proof.FrmRunD
import proofs.«139686_g86887188398715_cont_sun_m_547_23_alg».proof.Proof.FrmPureB
import proofs.«139686_g86887188398715_cont_sun_m_547_23_alg».proof.Proof.FrmPureA
import proofs.«139686_g86887188398715_cont_sun_m_547_23_alg».proof.Proof.FrmPureCD
import proofs.«139686_g86887188398715_cont_sun_m_547_23_alg».proof.Proof.FrmSel
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation

At each point the body is handed the invariant, every input window's buffer at its block and the two result
windows' buffers at anything; it runs in the case of its conditionals the point's position decides, and hands back
the invariant one point on: in the first phase the hidden-feature scratch agrees with the strip function on one more
row block and the result buffers are untouched; in the second phase the result buffers hold the point's row block. -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl

theorem Phi_cast (c : Dev nD) (t : Fin cfg0.N) : (dats m 0 c).Φ t.castSucc = PhiT m c t.val := by
  dsimp only [dats]; simp only [Fin.coe_castSucc]
theorem Phi_succ (c : Dev nD) (t : Fin cfg0.N) : (dats m 0 c).Φ t.succ = PhiT m c (t.val + 1) := by
  dsimp only [dats]; simp only [Fin.val_succ]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [Phi_cast, Phi_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  have hN : t.val < 50 := lt_of_lt_of_eq t.isLt (show cfg0.N = 50 from N_0)
  by_cases hA : t.val = 0
  · -- the first point: the projected features are stored, then the first row block of hidden features
    have hc1 : cond1 (grid0.coords t) := (hcond1 t).mpr hA
    have hc2 : cond2 (grid0.coords t) := (hcond2 t).mpr (by omega)
    have hc3 : ¬cond3 (grid0.coords t) := fun h => by have := (hcond3 t).mp h; omega
    have hc4 : ¬cond4 (grid0.coords t) := fun h => by have := (hcond4 t).mp h; omega
    ·
      rw [Dat.leavesExact_idle (dats m 0 c) 13 t (by rw [idle13 t]; exact decide_eq_true (by omega)) (by rw [flush13 t]; exact decide_eq_false (by omega))]
      rw [Dat.leavesExact_idle (dats m 0 c) 14 t (by rw [idle14 t]; exact decide_eq_true (by omega)) (by rw [flush14 t]; exact decide_eq_false (by omega))]
      rw [show PhiT m c t.val = Pipeline.ΦA spec0 c from by unfold PhiT; rw [if_pos hA], PhiA0_eq]
      rw [show PhiT m c (t.val + 1) = iprop(iprop(owns (c : Thread nD τ) scM0 fullShare (S1f m c)
      ∗ (∃ h : Vec F S10000x64 .f32, ⌜∀ y : S10000x64.Idx, (y 0).val < 400 * (t.val + 1) → h y = Hf m c y⌝ ∗ owns (c : Thread nD τ) scM1 fullShare h)
      ∗ (∃ d, owns (c : Thread nD τ) scM2 fullShare d)) ∗ (∃ r, prngReg c r)) from by
        unfold PhiT; rw [if_neg (Nat.succ_ne_zero _), if_pos (by omega)]]
      iintro ⟨⟨⟨⟨%s0, HS0⟩, ⟨%h, HS1⟩, ⟨%sd2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) s0 h sd2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]
          · unfold owns; iexists _; isplitr
            swap; · iexact HS0
            ipureintro; rw [Cert.Lib.read_writes_eq_over, Memref.IsWhole.read_unread]; exact pureA_s1 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 ((dats m 0 c).before 13 t d13) ((dats m 0 c).before 14 t d14) s0 h sd2
          isplitl [HS1]
          · iexists (Cert.Lib.over h (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) s0 h sd2).2.1)
            isplitr
            · ipureintro; exact pureA_h m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 hA ((dats m 0 c).before 13 t d13) ((dats m 0 c).before 14 t d14) s0 h sd2
            · unfold owns; iexists _; isplitr
              swap; · iexact HS1
              ipureintro; rw [Cert.Lib.read_writes_eq_over, Memref.IsWhole.read_unread]
          · iexists _; iexact HS2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      · iexists _; iexact H14
  by_cases hB : t.val < 25
  · -- a later point of the first phase: one more row block of hidden features
    have hc1 : ¬cond1 (grid0.coords t) := fun h => hA ((hcond1 t).mp h)
    have hc2 : cond2 (grid0.coords t) := (hcond2 t).mpr hB
    have hc3 : ¬cond3 (grid0.coords t) := fun h => by have := (hcond3 t).mp h; omega
    have hc4 : ¬cond4 (grid0.coords t) := fun h => by have := (hcond4 t).mp h; omega
    ·
      rw [Dat.leavesExact_idle (dats m 0 c) 13 t (by rw [idle13 t]; exact decide_eq_true (by omega)) (by rw [flush13 t]; exact decide_eq_false (by omega))]
      rw [Dat.leavesExact_idle (dats m 0 c) 14 t (by rw [idle14 t]; exact decide_eq_true (by omega)) (by rw [flush14 t]; exact decide_eq_false (by omega))]
      rw [show PhiT m c t.val = iprop(iprop(owns (c : Thread nD τ) scM0 fullShare (S1f m c)
      ∗ (∃ h : Vec F S10000x64 .f32, ⌜∀ y : S10000x64.Idx, (y 0).val < 400 * t.val → h y = Hf m c y⌝ ∗ owns (c : Thread nD τ) scM1 fullShare h)
      ∗ (∃ d, owns (c : Thread nD τ) scM2 fullShare d)) ∗ (∃ r, prngReg c r)) from by
        unfold PhiT; rw [if_neg hA, if_pos (by omega)]]
      rw [show PhiT m c (t.val + 1) = iprop(iprop(owns (c : Thread nD τ) scM0 fullShare (S1f m c)
      ∗ (∃ h : Vec F S10000x64 .f32, ⌜∀ y : S10000x64.Idx, (y 0).val < 400 * (t.val + 1) → h y = Hf m c y⌝ ∗ owns (c : Thread nD τ) scM1 fullShare h)
      ∗ (∃ d, owns (c : Thread nD τ) scM2 fullShare d)) ∗ (∃ r, prngReg c r)) from by
        unfold PhiT; rw [if_neg (Nat.succ_ne_zero _), if_pos (by omega)]]
      iintro ⟨⟨⟨HS0, ⟨%h, %hh, HS1⟩, ⟨%sd2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) (S1f m c) h sd2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]; · iexact HS0
          isplitl [HS1]
          · iexists (Cert.Lib.over h (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) (S1f m c) h sd2).1)
            isplitr
            · ipureintro; exact pureB m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 hB ((dats m 0 c).before 13 t d13) ((dats m 0 c).before 14 t d14) sd2 h hh
            · unfold owns; iexists _; isplitr
              swap; · iexact HS1
              ipureintro; rw [Cert.Lib.read_writes_eq_over, Memref.IsWhole.read_unread]
          · iexists _; iexact HS2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      · iexists _; iexact H14
  by_cases hC : t.val = 25
  · -- the first point of the second phase: the hidden features are whole; their projection is stored, then the first row block of each result
    have hc1 : ¬cond1 (grid0.coords t) := fun h => hA ((hcond1 t).mp h)
    have hc2 : ¬cond2 (grid0.coords t) := fun h => hB ((hcond2 t).mp h)
    have hc3 : cond3 (grid0.coords t) := (hcond3 t).mpr hC
    have hc4 : cond4 (grid0.coords t) := (hcond4 t).mpr (by omega)
    ·
      rw [show (dats m 0 c).leavesExact 13 t = owns (c : Thread nD τ) (ms13 t) fullShare ((dats m 0 c).after 13 t) from by
        unfold Dat.leavesExact; rw [idle13 t, show decide (t.val < 25) = false from decide_eq_false (by omega)], after13]
      rw [show (dats m 0 c).leavesExact 14 t = owns (c : Thread nD τ) (ms14 t) fullShare ((dats m 0 c).after 14 t) from by
        unfold Dat.leavesExact; rw [idle14 t, show decide (t.val < 25) = false from decide_eq_false (by omega)], after14]
      rw [show PhiT m c t.val = iprop(iprop(owns (c : Thread nD τ) scM0 fullShare (S1f m c)
      ∗ (∃ h : Vec F S10000x64 .f32, ⌜∀ y : S10000x64.Idx, (y 0).val < 400 * t.val → h y = Hf m c y⌝ ∗ owns (c : Thread nD τ) scM1 fullShare h)
      ∗ (∃ d, owns (c : Thread nD τ) scM2 fullShare d)) ∗ (∃ r, prngReg c r)) from by
        unfold PhiT; rw [if_neg hA, if_pos (by omega)]]
      rw [show PhiT m c (t.val + 1) = iprop(iprop(owns (c : Thread nD τ) scM0 fullShare (S1f m c) ∗ owns (c : Thread nD τ) scM1 fullShare (Hf m c)
      ∗ owns (c : Thread nD τ) scM2 fullShare (S2f m c)) ∗ (∃ r, prngReg c r)) from by
        unfold PhiT; rw [if_neg (Nat.succ_ne_zero _), if_neg (by omega)]]
      iintro ⟨⟨⟨HS0, ⟨%h, %hh, HS1⟩, ⟨%sd2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      obtain rfl : h = Hf m c := funext fun y => hh y (by have := ValueIdx.idx2_lt0 y; omega)
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) (S1f m c) (Hf m c) sd2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]; · iexact HS0
          isplitl [HS1]; · iexact HS1
          · unfold owns; iexists _; isplitr
            swap; · iexact HS2
            ipureintro; rw [Cert.Lib.read_writes_eq_over, Memref.IsWhole.read_unread]; exact pureC_s2 m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 ((dats m 0 c).before 13 t d13) ((dats m 0 c).before 14 t d14) sd2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; rw [Cert.Lib.read_writes_eq_over, Memref.IsWhole.read_unread]; exact pureC_out m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 hC ((dats m 0 c).before 13 t d13) ((dats m 0 c).before 14 t d14) sd2
      · unfold owns; iexists _; isplitr
        swap; · iexact H14
        ipureintro; rw [Cert.Lib.read_writes_eq_over, Memref.IsWhole.read_unread]; exact pureC_y m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 hC ((dats m 0 c).before 13 t d13) ((dats m 0 c).before 14 t d14) sd2
  · -- a later point of the second phase: one more row block of each result
    have hc1 : ¬cond1 (grid0.coords t) := fun h => hA ((hcond1 t).mp h)
    have hc2 : ¬cond2 (grid0.coords t) := fun h => hB ((hcond2 t).mp h)
    have hc3 : ¬cond3 (grid0.coords t) := fun h => hC ((hcond3 t).mp h)
    have hc4 : cond4 (grid0.coords t) := (hcond4 t).mpr (by omega)
    ·
      rw [show (dats m 0 c).leavesExact 13 t = owns (c : Thread nD τ) (ms13 t) fullShare ((dats m 0 c).after 13 t) from by
        unfold Dat.leavesExact; rw [idle13 t, show decide (t.val < 25) = false from decide_eq_false (by omega)], after13]
      rw [show (dats m 0 c).leavesExact 14 t = owns (c : Thread nD τ) (ms14 t) fullShare ((dats m 0 c).after 14 t) from by
        unfold Dat.leavesExact; rw [idle14 t, show decide (t.val < 25) = false from decide_eq_false (by omega)], after14]
      rw [show PhiT m c t.val = iprop(iprop(owns (c : Thread nD τ) scM0 fullShare (S1f m c) ∗ owns (c : Thread nD τ) scM1 fullShare (Hf m c)
      ∗ owns (c : Thread nD τ) scM2 fullShare (S2f m c)) ∗ (∃ r, prngReg c r)) from by
        unfold PhiT; rw [if_neg hA, if_neg (by omega)]]
      rw [show PhiT m c (t.val + 1) = iprop(iprop(owns (c : Thread nD τ) scM0 fullShare (S1f m c) ∗ owns (c : Thread nD τ) scM1 fullShare (Hf m c)
      ∗ owns (c : Thread nD τ) scM2 fullShare (S2f m c)) ∗ (∃ r, prngReg c r)) from by
        unfold PhiT; rw [if_neg (Nat.succ_ne_zero _), if_neg (by omega)]]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13) ((dats m 0 c).before 14 t d14) (S1f m c) (Hf m c) (S2f m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]; · iexact HS0
          isplitl [HS1]; · iexact HS1
          · iexact HS2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; rw [Cert.Lib.read_writes_eq_over, Memref.IsWhole.read_unread]; exact pureD_out m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (by omega) ((dats m 0 c).before 13 t d13) ((dats m 0 c).before 14 t d14)
      · unfold owns; iexists _; isplitr
        swap; · iexact H14
        ipureintro; rw [Cert.Lib.read_writes_eq_over, Memref.IsWhole.read_unread]; exact pureD_y m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _) hc1 hc2 hc3 hc4 (by omega) ((dats m 0 c).before 13 t d13) ((dats m 0 c).before 14 t d14)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.FrmSplit.lean ====
import proofs.«139686_g86887188398715_cont_sun_m_547_23_alg».proof.Proof.FrmBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The arrays at entry from the eleven distinct buffers behind them

Windows 0‥4 all read the adjacency matrix; each of the other ten windows has a buffer of its own. The adjacency
matrix's full share is dealt among its five windows; every other buffer goes whole to its one window. -/

/-- The five windows on the adjacency matrix. -/
def adjWin : Fin 5 → Fin cfg0.W := fun k => ⟨k.val, Nat.lt_of_lt_of_le k.isLt (by decide)⟩

theorem adjWin_inj : Function.Injective adjWin := fun a b h => Fin.ext (show a.val = b.val from congrArg (fun x : Fin cfg0.W => x.val) h)

/-- They have one array. -/
theorem adjWin_ref : ∀ k, Pipeline.arrRef spec0 (adjWin k) = Pipeline.arrRef spec0 (adjWin 0) := by decide

/-- Every other window's array is behind no other window. -/
theorem own_ref : ∀ w : Fin 15, (∀ k, adjWin k ≠ w) → ∀ w' : Fin 15, Pipeline.arrRef spec0 w' = Pipeline.arrRef spec0 w → w' = w := by
  decide

/-- The five windows hold the adjacency matrix at the five shares. -/
theorem share_adj (c : Dev nD) : ∀ k, (dats m 0 c).share (adjWin k) = Cert.LibSharedFrame.q5 k := by
  intro k; fin_cases k <;> rfl

/-- Every other window holds its array whole. -/
theorem share_own (c : Dev nD) : ∀ w : Fin cfg0.W, (∀ k, adjWin k ≠ w) → (dats m 0 c).share w = fullShare := by
  intro w hw
  fin_cases w
  · exact absurd rfl (hw 0)
  · exact absurd rfl (hw 1)
  · exact absurd rfl (hw 2)
  · exact absurd rfl (hw 3)
  · exact absurd rfl (hw 4)
  all_goals rfl

/-- The distinct buffers behind the windows' arrays, each whole at the contents the region finds, yield the proof
    data's arrays at entry. -/
theorem hsplit (c : Dev nD) :
    (Pipeline.arrBufs spec0 c (V m c) : sProp 𝕄) ⊢ (dats m 0 c).arrays ((dats m 0 c).arrAt · 0) :=
  Cert.LibSharedFrame.arrays_of_arrBufs_five cfg0 (dats m 0 c) arr_whole0 (V m c) _ (A_eq m c) adjWin adjWin_inj
    adjWin_ref own_ref (share_adj m c) (share_own m c)

end Cert.KernelIdeal.Frm

end
-- ==== Proof.FrmLaunch.lean ====
import proofs.«139686_g86887188398715_cont_sun_m_547_23_alg».proof.Proof.FrmBody
import proofs.«139686_g86887188398715_cont_sun_m_547_23_alg».proof.Proof.FrmSplit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What the launch hands the region is the invariant before the first point. -/
theorem hin (c : Dev nD) : Pipeline.ΦA spec0 c ⊢ (dats m 0 c).Φ 0 := by
  rw [show (dats m 0 c).Φ 0 = PhiT m c 0 from rfl]
  unfold PhiT; rw [if_pos rfl]

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, Fin.val_last,
    show cfg0.N = 50 from N_0]
  unfold PhiT; rw [if_neg (by decide), if_neg (by decide), PhiA0_eq]
  iintro ⟨⟨HS0, HS1, HS2⟩, Hg⟩
  isplitl [HS0 HS1 HS2]
  · isplitl [HS0]; · iexists _; iexact HS0
    isplitl [HS1]; · iexists _; iexact HS1
    · iexists _; iexact HS2
  · iexact Hg

set_option backward.isDefEq.respectTransparency.types false in
/-- At the compiled mesh, for any values, from any memory with zero counters: every weakly fair execution of the program
    terminates, and in every final state each array of the pipeline holds what the proof data computes — an input its
    entry contents, a result the row blocks written back — and every other unscoped buffer what it held when the region
    was entered. The adjacency matrix is read through five windows, its share dealt among them. -/
theorem run_main : θ_run defs (onTc (τ := τ) (main (F := F))) (s₀ m ρ) (Pipeline.FramePost cfgs (dats m) 0 (V m)) :=
  Cert.LibSharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m)
    (hmain := hmain m Variants.none) (hsplit := hsplit m) (hin := hin m) (hout := hout m)

end Cert.KernelIdeal.Frm

end
-- ==== Proof.FrmRead.lean ====
import proofs.«139686_g86887188398715_cont_sun_m_547_23_alg».proof.Proof.FrmBase
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays when the region is entered

Before the region only the three bias vectors are re-laid as rows, each into a buffer of its own: every argument array
is found as it was at the launch. -/

theorem V_arg0 (c : Dev nD) : V m c main_arg0 = m ((c.tc : Thread nD τ).loc main_arg0) := by
  dsimp only [V, V0, hostOps0]; after_results
theorem V_arg1 (c : Dev nD) : V m c main_arg1 = m ((c.tc : Thread nD τ).loc main_arg1) := by
  dsimp only [V, V0, hostOps0]; after_results
theorem V_arg2 (c : Dev nD) : V m c main_arg2 = m ((c.tc : Thread nD τ).loc main_arg2) := by
  dsimp only [V, V0, hostOps0]; after_results
theorem V_arg3 (c : Dev nD) : V m c main_arg3 = m ((c.tc : Thread nD τ).loc main_arg3) := by
  dsimp only [V, V0, hostOps0]; after_results
theorem V_arg4 (c : Dev nD) : V m c main_arg4 = m ((c.tc : Thread nD τ).loc main_arg4) := by
  dsimp only [V, V0, hostOps0]; after_results
theorem V_arg5 (c : Dev nD) : V m c main_arg5 = m ((c.tc : Thread nD τ).loc main_arg5) := by
  dsimp only [V, V0, hostOps0]; after_results
theorem V_arg6 (c : Dev nD) : V m c main_arg6 = m ((c.tc : Thread nD τ).loc main_arg6) := by
  dsimp only [V, V0, hostOps0]; after_results
theorem V_arg7 (c : Dev nD) : V m c main_arg7 = m ((c.tc : Thread nD τ).loc main_arg7) := by
  dsimp only [V, V0, hostOps0]; after_results
theorem V_arg8 (c : Dev nD) : V m c main_arg8 = m ((c.tc : Thread nD τ).loc main_arg8) := by
  dsimp only [V, V0, hostOps0]; after_results

/-! ## From the pipeline's post to the arrays at the end

An array read through an input window ends as the region found it; a bias vector, which no window reads, is among the
buffers that bypass the region and ends as the region found it too; the two results' arrays end at what the
write-backs left. -/

/-- The nine argument arrays end unchanged. -/
theorem frame_of_run
    (h : θ_run (defs (F := F)) (onTc (τ := τ) (main (F := F))) (s₀ m ρ) (Pipeline.FramePost cfgs (dats m) 0 (V m))) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 5).trans (((dats m 0 c).arrAt_in 5 rfl _).trans ((A_eq m c 5).trans (V_arg0 m c))),
      ((h c).1 0).trans (((dats m 0 c).arrAt_in 0 rfl _).trans ((A_eq m c 0).trans (V_arg1 m c))),
      ((h c).1 12).trans (((dats m 0 c).arrAt_in 12 rfl _).trans ((A_eq m c 12).trans (V_arg2 m c))),
      ((h c).1 6).trans (((dats m 0 c).arrAt_in 6 rfl _).trans ((A_eq m c 6).trans (V_arg3 m c))),
      ((h c).2 main_arg4 (Pipeline.mem_restRefs_of main_arg4 (by decide) (by decide))).trans (V_arg4 m c),
      ((h c).1 8).trans (((dats m 0 c).arrAt_in 8 rfl _).trans ((A_eq m c 8).trans (V_arg5 m c))),
      ((h c).2 main_arg6 (Pipeline.mem_restRefs_of main_arg6 (by decide) (by decide))).trans (V_arg6 m c),
      ((h c).1 10).trans (((dats m 0 c).arrAt_in 10 rfl _).trans ((A_eq m c 10).trans (V_arg7 m c))),
      ((h c).2 main_arg8 (Pipeline.mem_restRefs_of main_arg8 (by decide) (by decide))).trans (V_arg8 m c)⟩) h

/-- The two results' arrays end at the contents computed from the proof data, and the nine argument arrays unchanged. -/
theorem results_of_run
    (h : θ_run (defs (F := F)) (onTc (τ := τ) (main (F := F))) (s₀ m ρ) (Pipeline.FramePost cfgs (dats m) 0 (V m))) :
    θ_run (defs (F := F)) (onTc (τ := τ) (main (F := F))) ⟨m, fun _ => 0, ρ⟩ (fun r => ∀ c : Dev nD,
      r.2.mem ((c.tc : Thread nD τ).loc main_v3_0) = (dats m 0 c).arrAt 13 cfg0.N
      ∧ r.2.mem ((c.tc : Thread nD τ).loc main_v3_1) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 13, (h c).1 14,
      ((h c).1 5).trans (((dats m 0 c).arrAt_in 5 rfl _).trans ((A_eq m c 5).trans (V_arg0 m c))),
      ((h c).1 0).trans (((dats m 0 c).arrAt_in 0 rfl _).trans ((A_eq m c 0).trans (V_arg1 m c))),
      ((h c).1 12).trans (((dats m 0 c).arrAt_in 12 rfl _).trans ((A_eq m c 12).trans (V_arg2 m c))),
      ((h c).1 6).trans (((dats m 0 c).arrAt_in 6 rfl _).trans ((A_eq m c 6).trans (V_arg3 m c))),
      ((h c).2 main_arg4 (Pipeline.mem_restRefs_of main_arg4 (by decide) (by decide))).trans (V_arg4 m c),
      ((h c).1 8).trans (((dats m 0 c).arrAt_in 8 rfl _).trans ((A_eq m c 8).trans (V_arg5 m c))),
      ((h c).2 main_arg6 (Pipeline.mem_restRefs_of main_arg6 (by decide) (by decide))).trans (V_arg6 m c),
      ((h c).1 10).trans (((dats m 0 c).arrAt_in 10 rfl _).trans ((A_eq m c 10).trans (V_arg7 m c))),
      ((h c).2 main_arg8 (Pipeline.mem_restRefs_of main_arg8 (by decide) (by decide))).trans (V_arg8 m c)⟩) h

end Cert.KernelIdeal.Frm

end
-- ==== Proof.FrmFinal.lean ====
import proofs.«139686_g86887188398715_cont_sun_m_547_23_alg».proof.Proof.FrmBase
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-! # The arrays after the run, from the blocks written back

The two results are written in row blocks of 400 rows: point `t` of the second phase (25 ≤ t) leaves row block
`t − 25` in the result's buffer and writes it back at block row `(t mod 25)·(t / 25) = t − 25`; the points of the
first phase write nothing back. Row r of a result lies in the block of point 25 + r / 400, at row `r mod 400` of it
(400·k + y with y < 400 has quotient k and remainder y), so the 25 blocks tile the 10000 rows and the array ends
holding, at row r, row `r mod 400` of row block `r / 400`. The inputs' arrays are never written. -/

/-! ## The first result -/

theorem idx13 : ∀ t : Fin cfg0.N, win0_13.index t (0 : Fin 2) = (t.val % 25) * (t.val / 25) ∧ win0_13.index t (1 : Fin 2) = 0 :=
  (by decide +kernel : ∀ t : Fin grid0.N, win0_13.index t (0 : Fin 2) = (t.val % 25) * (t.val / 25) ∧ win0_13.index t (1 : Fin 2) = 0)

/-- The whole result array: row r is row `r mod 400` of row block `r / 400`. -/
def G13 (c : Dev nD) : Vec F S10000x40 .f32 := fun i => O13f m c ((i 0).val / 400) (ixm (by decide) (i 0).val (i 1))

/-- At row 400·k + (a row below 400) the whole array is row block `k` at that row. -/
theorem G13_at (c : Dev nD) (k : ℕ) (y : S400x40.Idx) (i : S10000x40.Idx)
    (h0 : (i 0).val = 400 * k + (y 0).val) (h1 : (i 1).val = (y 1).val) : G13 m c i = O13f m c k y := by
  unfold G13
  have hy0 : (y 0).val < 400 := (y 0).isLt
  have hq : (i 0).val / 400 = k := by omega
  rw [hq]
  congr 1
  funext a; apply Fin.ext
  match a with
  | ⟨0, _⟩ => show (i 0).val % 400 = (y 0).val; omega
  | ⟨1, _⟩ => exact h1

/-- What a point of the second phase writes back is its block of the whole array. -/
theorem flushed13_eq (c : Dev nD) (t : Fin cfg0.N) (ht : 25 ≤ t.val) :
    (dats m 0 c).flushed 13 t = ((cfg0.win 13).blk t).view.read (Elt F) (G13 m c) := by
  show (cfg0.win 13).cut (grid0.coords t) ((dats m 0 c).after 13 t) = _
  rw [after13]
  funext y
  show O13f m c (t.val - 25) y = G13 m c (((cfg0.win 13).blk t).view.emb y)
  obtain ⟨e0, e1⟩ := idx13 t
  have ht' : t.val < 50 := t.isLt
  have hd : t.val / 25 = 1 := by omega
  have hm : t.val % 25 = t.val - 25 := by omega
  rw [hd, hm, Nat.mul_one] at e0
  refine (G13_at m c (t.val - 25) y _ ?_ ?_).symm
  · show win0_13.index t (0 : Fin 2) * 400 + 1 * (y 0).val = 400 * (t.val - 25) + (y 0).val
    omega
  · show win0_13.index t (1 : Fin 2) * 40 + 1 * (y 1).val = (y 1).val
    omega

/-- An index of the array is in point `t`'s block iff each coordinate is in the block's range on its axis. -/
theorem mem_blk13 (t : Fin cfg0.N) (i : S10000x40.Idx) :
    i ∈ ((cfg0.win 13).blk t).view.set ↔ ∀ a : Fin 2, win0_13.index t a * S400x40.size a ≤ (i a).val ∧ (i a).val < win0_13.index t a * S400x40.size a + S400x40.size a := by
  show i ∈ ((View.whole main_v3_0).slice (win0_13.rect t)).set ↔ _
  rw [View.set_slice_whole, Rect.mem_set_unit]
  exact Iff.rfl

/-- Row r lies in the block written back at point 25 + r / 400. -/
theorem cover13 (i : S10000x40.Idx) : ∃ t : Fin cfg0.N, (cfg0.win 13).flush t = true ∧ i ∈ ((cfg0.win 13).blk t).view.set := by
  have hi0 : (i 0).val < 10000 := (i 0).isLt
  have hi1 : (i 1).val < 40 := (i 1).isLt
  have hN : 25 + (i 0).val / 400 < cfg0.N := by show _ < 50; omega
  obtain ⟨t, htv⟩ : ∃ t : Fin cfg0.N, t.val = 25 + (i 0).val / 400 := ⟨⟨_, hN⟩, rfl⟩
  refine ⟨t, ?_, ?_⟩
  · rw [flush13]; exact decide_eq_true (by omega)
  · rw [mem_blk13]
    obtain ⟨e0, e1⟩ := idx13 t
    have hd : t.val / 25 = 1 := by omega
    have hm : t.val % 25 = (i 0).val / 400 := by omega
    rw [hd, hm, Nat.mul_one] at e0
    intro a
    match a with
    | ⟨0, _⟩ =>
      show win0_13.index t (0 : Fin 2) * 400 ≤ (i 0).val ∧ (i 0).val < win0_13.index t (0 : Fin 2) * 400 + 400
      omega
    | ⟨1, _⟩ =>
      show win0_13.index t (1 : Fin 2) * 40 ≤ (i 1).val ∧ (i 1).val < win0_13.index t (1 : Fin 2) * 40 + 40
      omega

/-- The array after the run: every row block as the second phase wrote it. -/
theorem final13 (c : Dev nD) : (dats m 0 c).arrAt 13 cfg0.N = fun i : S10000x40.Idx => O13f m c ((i 0).val / 400) (ixm (by decide) (i 0).val (i 1)) :=
  (dats m 0 c).arrAt_eq_of_cover 13 (G13 m c)
    (fun t hf => flushed13_eq m c t (by rw [flush13] at hf; exact of_decide_eq_true hf))
    cover13

/-! ## The second result -/

theorem idx14 : ∀ t : Fin cfg0.N, win0_14.index t (0 : Fin 2) = (t.val % 25) * (t.val / 25) ∧ win0_14.index t (1 : Fin 2) = 0 :=
  (by decide +kernel : ∀ t : Fin grid0.N, win0_14.index t (0 : Fin 2) = (t.val % 25) * (t.val / 25) ∧ win0_14.index t (1 : Fin 2) = 0)

/-- The whole result array: row r is row `r mod 400` of row block `r / 400`. -/
def G14 (c : Dev nD) : Vec F S10000x16 .f32 := fun i => O14f m c ((i 0).val / 400) (ixm (by decide) (i 0).val (i 1))

/-- At row 400·k + (a row below 400) the whole array is row block `k` at that row. -/
theorem G14_at (c : Dev nD) (k : ℕ) (y : S400x16.Idx) (i : S10000x16.Idx)
    (h0 : (i 0).val = 400 * k + (y 0).val) (h1 : (i 1).val = (y 1).val) : G14 m c i = O14f m c k y := by
  unfold G14
  have hy0 : (y 0).val < 400 := (y 0).isLt
  have hq : (i 0).val / 400 = k := by omega
  rw [hq]
  congr 1
  funext a; apply Fin.ext
  match a with
  | ⟨0, _⟩ => show (i 0).val % 400 = (y 0).val; omega
  | ⟨1, _⟩ => exact h1

/-- What a point of the second phase writes back is its block of the whole array. -/
theorem flushed14_eq (c : Dev nD) (t : Fin cfg0.N) (ht : 25 ≤ t.val) :
    (dats m 0 c).flushed 14 t = ((cfg0.win 14).blk t).view.read (Elt F) (G14 m c) := by
  show (cfg0.win 14).cut (grid0.coords t) ((dats m 0 c).after 14 t) = _
  rw [after14]
  funext y
  show O14f m c (t.val - 25) y = G14 m c (((cfg0.win 14).blk t).view.emb y)
  obtain ⟨e0, e1⟩ := idx14 t
  have ht' : t.val < 50 := t.isLt
  have hd : t.val / 25 = 1 := by omega
  have hm : t.val % 25 = t.val - 25 := by omega
  rw [hd, hm, Nat.mul_one] at e0
  refine (G14_at m c (t.val - 25) y _ ?_ ?_).symm
  · show win0_14.index t (0 : Fin 2) * 400 + 1 * (y 0).val = 400 * (t.val - 25) + (y 0).val
    omega
  · show win0_14.index t (1 : Fin 2) * 16 + 1 * (y 1).val = (y 1).val
    omega

/-- An index of the array is in point `t`'s block iff each coordinate is in the block's range on its axis. -/
theorem mem_blk14 (t : Fin cfg0.N) (i : S10000x16.Idx) :
    i ∈ ((cfg0.win 14).blk t).view.set ↔ ∀ a : Fin 2, win0_14.index t a * S400x16.size a ≤ (i a).val ∧ (i a).val < win0_14.index t a * S400x16.size a + S400x16.size a := by
  show i ∈ ((View.whole main_v3_1).slice (win0_14.rect t)).set ↔ _
  rw [View.set_slice_whole, Rect.mem_set_unit]
  exact Iff.rfl

/-- Row r lies in the block written back at point 25 + r / 400. -/
theorem cover14 (i : S10000x16.Idx) : ∃ t : Fin cfg0.N, (cfg0.win 14).flush t = true ∧ i ∈ ((cfg0.win 14).blk t).view.set := by
  have hi0 : (i 0).val < 10000 := (i 0).isLt
  have hi1 : (i 1).val < 16 := (i 1).isLt
  have hN : 25 + (i 0).val / 400 < cfg0.N := by show _ < 50; omega
  obtain ⟨t, htv⟩ : ∃ t : Fin cfg0.N, t.val = 25 + (i 0).val / 400 := ⟨⟨_, hN⟩, rfl⟩
  refine ⟨t, ?_, ?_⟩
  · rw [flush14]; exact decide_eq_true (by omega)
  · rw [mem_blk14]
    obtain ⟨e0, e1⟩ := idx14 t
    have hd : t.val / 25 = 1 := by omega
    have hm : t.val % 25 = (i 0).val / 400 := by omega
    rw [hd, hm, Nat.mul_one] at e0
    intro a
    match a with
    | ⟨0, _⟩ =>
      show win0_14.index t (0 : Fin 2) * 400 ≤ (i 0).val ∧ (i 0).val < win0_14.index t (0 : Fin 2) * 400 + 400
      omega
    | ⟨1, _⟩ =>
      show win0_14.index t (1 : Fin 2) * 16 ≤ (i 1).val ∧ (i 1).val < win0_14.index t (1 : Fin 2) * 16 + 16
      omega

/-- The array after the run: every row block as the second phase wrote it. -/
theorem final14 (c : Dev nD) : (dats m 0 c).arrAt 14 cfg0.N = fun i : S10000x16.Idx => O14f m c ((i 0).val / 400) (ixm (by decide) (i 0).val (i 1)) :=
  (dats m 0 c).arrAt_eq_of_cover 14 (G14 m c)
    (fun t hf => flushed14_eq m c t (by rw [flush14] at hf; exact of_decide_eq_true hf))
    cover14

/-! ## The inputs -/

/-- An input's array is never written: after the run it is as the region found it. -/
theorem finalIn (c : Dev nD) (w : Fin cfg0.W) (hw : (cfg0.win w).isOut = false) : (dats m 0 c).arrAt w cfg0.N = V m c (Pipeline.arrRef spec0 w) :=
  ((dats m 0 c).arrAt_in w hw _).trans (A_eq m c w)

end Cert.KernelIdeal.Frm

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibLogSoftmax.lean ====
/-
  The row-wise log-softmax on the extended reals, as both programs compute it, and the two column forms it needs.

  For a row `z : Fin d → EReal`: its maximum `M` is taken as the fold of `max` over the row from the word of minus
  infinity, joined once more with that word; the shifted row is `z k - M`; the result at column `q` is
  `(z q - M) - log (∑ k, exp (z k - M))`. Nothing here needs the entries to be finite: the statement is only that the
  result at a row depends on that row alone.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLogSoftmax

open Idealize.ShloMosaic Idealize.ShloMosaic.ValueIdx

/-- The value of the word of minus infinity. -/
abbrev negInf : EReal := Ideal.ofBits .f32 0xFF800000#32

/-- A row's maximum: the fold of `max` from minus infinity, joined with minus infinity. -/
def rowMax {d : ℕ} (row : Fin d → EReal) : EReal :=
  max negInf ((Finset.univ : Finset (Fin d)).fold max negInf row)

/-- The log-softmax of a row at column `q`. -/
def lsmRow {d : ℕ} (row : Fin d → EReal) (q : Fin d) : EReal :=
  (row q - rowMax row) - Ideal.log (∑ k : Fin d, Ideal.exp (row k - rowMax row))

/-- Row-wise log-softmax of an `[n, d]` array. -/
def logSoftmax {n d : ℕ} (z : (⟨2, ![n, d]⟩ : Shape).Idx → EReal) : (⟨2, ![n, d]⟩ : Shape).Idx → EReal :=
  fun i => lsmRow (fun k => z (ix2 (i 0) k)) (i 1)

/-- Two arrays that agree along a row (each its own row) have the same log-softmax at any column of it. -/
theorem logSoftmax_congr {n n' d : ℕ} (z : (⟨2, ![n, d]⟩ : Shape).Idx → EReal) (z' : (⟨2, ![n', d]⟩ : Shape).Idx → EReal)
    (i : (⟨2, ![n, d]⟩ : Shape).Idx) (i' : (⟨2, ![n', d]⟩ : Shape).Idx) (hcol : (i 1).val = (i' 1).val)
    (hrow : ∀ k : Fin d, z (ix2 (i 0) k) = z' (ix2 (i' 0) k)) : logSoftmax z i = logSoftmax z' i' := by
  unfold logSoftmax
  have hr : (fun k : Fin d => z (ix2 (i 0) k)) = fun k : Fin d => z' (ix2 (i' 0) k) := funext hrow
  have hc : (i 1 : Fin d) = (i' 1 : Fin d) := Fin.ext hcol
  rw [hr, hc]

/-! ## The two column forms: a vector as a column, and a column broadcast along the rows -/

/-- A vector `v : [n]` cast to the column `[n, 1]`, at (r, 0), is `v r`. -/
theorem col_cast {n : ℕ} (v : (⟨1, ![n]⟩ : Shape).Idx → EReal) (h : (⟨1, ![n]⟩ : Shape).ShapeCasts ⟨2, ![n, 1]⟩)
    (y : (⟨2, ![n, 1]⟩ : Shape).Idx) : shapeCast ⟨2, ![n, 1]⟩ v h y = v (ix1 (y 0)) := by
  refine shapeCast_apply v h y (ix1 (y 0)) ?_
  rw [Shape.rowMajor_val_one, Shape.rowMajor_val_two]
  have h1 : (y 1).val < 1 := idx2_lt1 y
  show (y 0).val = (y 0).val * 1 + (y 1).val
  omega

/-- A column `u : [n, 1]` broadcast to `[n, d]`, at (r, j), is `u (r, 0)`. -/
theorem col_bcast {n d : ℕ} (u : (⟨2, ![n, 1]⟩ : Shape).Idx → EReal) (h : (⟨2, ![n, 1]⟩ : Shape).Broadcasts ⟨2, ![n, d]⟩)
    (i : (⟨2, ![n, d]⟩ : Shape).Idx) : broadcastTo ⟨2, ![n, d]⟩ u h i = u (ix2 (i 0) ⟨0, Nat.one_pos⟩) := by
  refine broadcastTo_apply u h i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

end Cert.LibLogSoftmax

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibPlaneSum.lean ====
/-
  A rank-4 array [A, B, H, W] summed over its last two axes, and the logistic function spelt with words.

  * The indices of [A, B, H, W] whose first two coordinates are (a, b) are the H · W positions of one plane; numbered
    k = W · h + w they are h = k / W, w = k % W. A sum over that set of indices — what a reduction over the axes
    [2, 3] computes at (a, b), in any commutative additive monoid — is the sum over k : Fin (H · W) of the array at
    position k of the plane. The same numbering is the row-major re-laying [A, B, H, W] → [A, B, H · W].
  * The f32 word of 1.0 is the extended real 1, and 1 / (1 + exp (-x)) spelt with that word is the logistic function.
-/
import Idealize.ShloMosaic.PureOps.Ideal
import Idealize.ShloMosaic.PureOps.Ideal.Laws
import Idealize.ShloMosaic.Lib.ValueIdx

noncomputable section

namespace Cert.LibPlaneSum

open Idealize.ShloMosaic Idealize.ShloMosaic.ValueIdx

/-- Position k of the plane of (a, b): row k / W, column k % W. -/
def planeIdx {A B H W : ℕ} (a : Fin A) (b : Fin B) (k : Fin (H * W)) : (⟨4, ![A, B, H, W]⟩ : Shape).Idx :=
  have hW : 0 < W := Nat.pos_of_ne_zero fun h => by
    have hpos : 0 < H * W := Nat.lt_of_le_of_lt (Nat.zero_le _) k.isLt
    rw [h, Nat.mul_zero] at hpos; exact Nat.lt_irrefl _ hpos
  ix4 a b (⟨k.val / W, (Nat.div_lt_iff_lt_mul hW).mpr k.isLt⟩ : Fin H) (⟨k.val % W, Nat.mod_lt _ hW⟩ : Fin W)

theorem planeIdx_val0 {A B H W : ℕ} (a : Fin A) (b : Fin B) (k : Fin (H * W)) : (planeIdx a b k 0).val = a.val := rfl
theorem planeIdx_val1 {A B H W : ℕ} (a : Fin A) (b : Fin B) (k : Fin (H * W)) : (planeIdx a b k 1).val = b.val := rfl
theorem planeIdx_val2 {A B H W : ℕ} (a : Fin A) (b : Fin B) (k : Fin (H * W)) : (planeIdx a b k 2).val = k.val / W := rfl
theorem planeIdx_val3 {A B H W : ℕ} (a : Fin A) (b : Fin B) (k : Fin (H * W)) : (planeIdx a b k 3).val = k.val % W := rfl

/-- Position W · h + w of the plane is (h, w). -/
theorem pos_lt {H W : ℕ} (h : Fin H) (w : Fin W) : h.val * W + w.val < H * W := by
  have hh : h.val + 1 ≤ H := h.isLt
  calc h.val * W + w.val < h.val * W + W := Nat.add_lt_add_left w.isLt _
    _ = (h.val + 1) * W := (Nat.succ_mul _ _).symm
    _ ≤ H * W := Nat.mul_le_mul_right _ hh

theorem planeIdx_pos {A B H W : ℕ} (a : Fin A) (b : Fin B) (h : Fin H) (w : Fin W) :
    planeIdx a b (⟨h.val * W + w.val, pos_lt h w⟩ : Fin (H * W)) = ix4 a b h w := by
  have hW : 0 < W := Nat.lt_of_le_of_lt (Nat.zero_le _) w.isLt
  refine funext fun d => Fin.ext ?_
  match d with
  | ⟨0, _⟩ => rfl
  | ⟨1, _⟩ => rfl
  | ⟨2, _⟩ =>
    show (h.val * W + w.val) / W = h.val
    rw [Nat.mul_comm, Nat.mul_add_div hW, Nat.div_eq_of_lt w.isLt, Nat.add_zero]
  | ⟨3, _⟩ =>
    show (h.val * W + w.val) % W = w.val
    rw [Nat.mul_comm, Nat.mul_add_mod, Nat.mod_eq_of_lt w.isLt]

/-- A sum over the indices that a map keeping the first two coordinates sends to j is the sum over the plane of
    (j 0, j 1). `drop` is a reduction's index map over the axes [2, 3]. -/
theorem sum_plane {M : Type*} [AddCommMonoid M] {A B H W : ℕ} (X : (⟨4, ![A, B, H, W]⟩ : Shape).Idx → M)
    (drop : (⟨4, ![A, B, H, W]⟩ : Shape).Idx → (⟨2, ![A, B]⟩ : Shape).Idx)
    (h0 : ∀ i, (drop i 0).val = (i 0).val) (h1 : ∀ i, (drop i 1).val = (i 1).val)
    (j : (⟨2, ![A, B]⟩ : Shape).Idx) :
    ∑ i ∈ Finset.univ.filter (fun i => drop i = j), X i = ∑ k : Fin (H * W), X (planeIdx (j 0) (j 1) k) := by
  symm
  refine Finset.sum_bij (fun k _ => planeIdx (j 0) (j 1) k) (fun k _ => ?_) (fun k _ k' _ hk => ?_) (fun i hi => ?_)
    (fun _ _ => rfl)
  · refine Finset.mem_filter.mpr ⟨Finset.mem_univ _, funext fun d => Fin.ext ?_⟩
    match d with
    | ⟨0, _⟩ => exact h0 _
    | ⟨1, _⟩ => exact h1 _
  · have e2 : k.val / W = k'.val / W := congrArg (fun i => (i 2).val) hk
    have e3 : k.val % W = k'.val % W := congrArg (fun i => (i 3).val) hk
    refine Fin.ext ?_
    rw [← Nat.div_add_mod k.val W, ← Nat.div_add_mod k'.val W, e2, e3]
  · have hj : drop i = j := (Finset.mem_filter.mp hi).2
    have e0 : (j 0).val = (i 0).val := by rw [← hj]; exact h0 i
    have e1 : (j 1).val = (i 1).val := by rw [← hj]; exact h1 i
    have hi2 : i 2 = (⟨(i 2).val, (i 2).isLt⟩ : Fin H) := rfl
    refine ⟨(⟨(i 2).val * W + (i 3).val, pos_lt (⟨(i 2).val, (i 2).isLt⟩ : Fin H) (⟨(i 3).val, (i 3).isLt⟩ : Fin W)⟩ : Fin (H * W)),
      Finset.mem_univ _, ?_⟩
    refine (planeIdx_pos (j 0) (j 1) (⟨(i 2).val, (i 2).isLt⟩ : Fin H) (⟨(i 3).val, (i 3).isLt⟩ : Fin W)).trans
      (funext fun d => Fin.ext ?_)
    match d with
    | ⟨0, _⟩ => exact e0
    | ⟨1, _⟩ => exact e1
    | ⟨2, _⟩ => rfl
    | ⟨3, _⟩ => rfl

/-- The word of 1.0 is the extended real 1. -/
theorem ofBits_one_f32 : Ideal.ofBits .f32 0x3F800000#32 = 1 := by
  simp [Ideal.ofBits, Ideal.ieee, -EReal.coe_mul]; norm_num

/-- The logistic function spelt with the word of 1.0 for both ones, 1 / (1 + exp (-x)), is the logistic function. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.LibPlaneSum

end
-- ==== Proof.PayloadValue.lean ====
/-
  What the kernel's arithmetic computes, piece by piece, on the extended reals.

  Each stored value of the body is a pure function of the vectors the body loaded. Read at one entry (r, q), on the
  extended reals, these functions are: a row-by-column sum (the two dense products); the larger of zero and a
  row-by-column sum plus a bias entry (a strip of the hidden features); the log-softmax along a row of such sums plus
  bias entries (a strip of the first result); and the logistic function of a row-against-row sum plus a bias entry,
  times an entry of the attention array (a strip of the second result). Nothing here asks any entry to be finite.
-/
import proofs.«139686_g86887188398715_cont_sun_m_547_23_alg».proof.Proof.Gen.KernelIdeal.Skeleton
import proofs.«139686_g86887188398715_cont_sun_m_547_23_alg».proof.Proof.LibDense
import proofs.«139686_g86887188398715_cont_sun_m_547_23_alg».proof.Proof.LibLogSoftmax
import proofs.«139686_g86887188398715_cont_sun_m_547_23_alg».proof.Proof.LibDotNT
import proofs.«139686_g86887188398715_cont_sun_m_547_23_alg».proof.Proof.LibPlaneSum
import Idealize.ShloMosaic.Lib.ValueIdx
import Idealize.ShloMosaic.Lib.ValueLayout
import Idealize.ShloMosaic.Lib.Pipeline.Value

noncomputable section

namespace Cert.PayloadValue

open Idealize.ShloMosaic Idealize.ShloMosaic.ValueIdx Cert.KernelIdeal Cert.KernelIdeal.Gen

/-! ## The two dense products -/

/-- The first product's dimension numbers are the plain ones: rows by contraction, contraction by columns. -/
theorem dot_x_w1 : dot_S10000x128_S128x64_S10000x64_1_0_0_1_n_n = DotDims.plain 10000 128 64 := rfl

/-- The projected features `x · W1`: entry (r, j) is the sum over k of `x (r, k) * W1 (k, j)`. The product goes into a
    zero accumulator and the cast that follows it keeps the shape, so nothing else is left. -/
theorem pay1_apply (v16 : Vec Ideal S10000x128 .f32) (v17 : Vec Ideal S128x64 .f32) :
    k0_pay1 (F := Ideal) v16 v17 = Cert.LibDense.prod v16 v17 := by
  funext i
  unfold k0_pay1
  rw [shapeCast_self]
  exact Cert.LibDense.matmul_plain v16 v17 i

/-- The second product's dimension numbers are the plain ones too. -/
theorem dot_h_w2 : dot_S10000x64_S64x40_S10000x40_1_0_0_1_n_n = DotDims.plain 10000 64 40 := rfl

/-- The projected hidden features `h · W2`, entry by entry. -/
theorem pay3_apply (v16 : Vec Ideal S10000x64 .f32) (v17 : Vec Ideal S64x40 .f32) :
    k0_pay3 (F := Ideal) v16 v17 = Cert.LibDense.prod v16 v17 := by
  funext i
  unfold k0_pay3
  rw [shapeCast_self]
  exact Cert.LibDense.matmul_plain v16 v17 i

/-! ## A strip of the second result: the gate times the attention array -/

/-- The gate's product contracts the right operand along its rows: `[80, 64]` against `[16, 64]`. -/
theorem dot_h_we : dot_S80x64_S16x64_S80x16_1_1_0_0_n_n = DotDims.transposedRhs 80 64 16 := rfl

/-- Entry (r, q) of a strip of the second result: the logistic function of row r of the hidden strip against row q of
    the encoder's weights plus the bias entry of column q, times the attention entry. The bias arrives as a `[1, 16]`
    block broadcast down the rows, so every row reads its one row. -/
theorem ystrip13_apply (hh : Vec Ideal S80x64 .f32) (we : Vec Ideal S16x64 .f32) (be : Vec Ideal S1x16 .f32)
    (att : Vec Ideal S80x16 .f32) (r : Fin 80) (q : Fin 16) :
    k0_pay13 (F := Ideal) hh we be att (ix2 r q)
      = Ideal.logistic (Cert.LibDotNT.rowDot hh we (ix2 r q) + be (ix2 (0 : Fin 1) q)) * att (ix2 r q) := by
  unfold k0_pay13
  rw [shapeCast_self]
  show Ideal.logistic (_ + _) * _ = _
  refine congrArg₂ (· * ·) (congrArg Ideal.logistic (congrArg₂ (· + ·) ?_ ?_)) rfl
  · exact Cert.LibDotNT.matmul_tr hh we (ix2 r q)
  · exact broadcastTo_1b_ab_apply be _ r q

/-- The other four strips are the same term over their own loaded vectors. -/
theorem ystrip15_apply (hh : Vec Ideal S80x64 .f32) (we : Vec Ideal S16x64 .f32) (be : Vec Ideal S1x16 .f32)
    (att : Vec Ideal S80x16 .f32) (r : Fin 80) (q : Fin 16) :
    k0_pay15 (F := Ideal) hh we be att (ix2 r q)
      = Ideal.logistic (Cert.LibDotNT.rowDot hh we (ix2 r q) + be (ix2 (0 : Fin 1) q)) * att (ix2 r q) :=
  ystrip13_apply hh we be att r q

theorem ystrip17_apply (hh : Vec Ideal S80x64 .f32) (we : Vec Ideal S16x64 .f32) (be : Vec Ideal S1x16 .f32)
    (att : Vec Ideal S80x16 .f32) (r : Fin 80) (q : Fin 16) :
    k0_pay17 (F := Ideal) hh we be att (ix2 r q)
      = Ideal.logistic (Cert.LibDotNT.rowDot hh we (ix2 r q) + be (ix2 (0 : Fin 1) q)) * att (ix2 r q) :=
  ystrip13_apply hh we be att r q

theorem ystrip19_apply (hh : Vec Ideal S80x64 .f32) (we : Vec Ideal S16x64 .f32) (be : Vec Ideal S1x16 .f32)
    (att : Vec Ideal S80x16 .f32) (r : Fin 80) (q : Fin 16) :
    k0_pay19 (F := Ideal) hh we be att (ix2 r q)
      = Ideal.logistic (Cert.LibDotNT.rowDot hh we (ix2 r q) + be (ix2 (0 : Fin 1) q)) * att (ix2 r q) :=
  ystrip13_apply hh we be att r q

theorem ystrip5_apply (hh : Vec Ideal S80x64 .f32) (we : Vec Ideal S16x64 .f32) (be : Vec Ideal S1x16 .f32)
    (att : Vec Ideal S80x16 .f32) (r : Fin 80) (q : Fin 16) :
    k0_pay5 (F := Ideal) hh we be att (ix2 r q)
      = Ideal.logistic (Cert.LibDotNT.rowDot hh we (ix2 r q) + be (ix2 (0 : Fin 1) q)) * att (ix2 r q) :=
  ystrip13_apply hh we be att r q

/-! ## A strip of the hidden features -/

/-- A strip's product is a plain one: `[80, 10000]` rows of the adjacency matrix by the projected features. -/
theorem dot_adj_s1 : dot_S80x10000_S10000x64_S80x64_1_0_0_1_n_n = DotDims.plain 80 10000 64 := rfl

/-- Entry (r, q) of a strip of the hidden features: the larger of zero and the row-by-column sum plus the bias entry of
    column q. The bias arrives as a `[1, 64]` block broadcast down the rows; the two casts keep their shapes. -/
theorem hstrip6_apply (a : Vec Ideal S80x10000 .f32) (s1 : Vec Ideal S10000x64 .f32) (b : Vec Ideal S1x64 .f32)
    (r : Fin 80) (q : Fin 64) :
    k0_pay6 (F := Ideal) a s1 b (ix2 r q)
      = max (Cert.LibDense.prod a s1 (ix2 r q) + b (ix2 (0 : Fin 1) q)) (Ideal.ofBits .f32 0x00000000#32) := by
  unfold k0_pay6
  rw [shapeCast_self, shapeCast_self]
  show max (_ + _) _ = _
  refine congrArg₂ max (congrArg₂ (· + ·) ?_ ?_) rfl
  · exact Cert.LibDense.matmul_plain a s1 (ix2 r q)
  · exact broadcastTo_1b_ab_apply b _ r q

/-- The next three strips are the same term over their own loaded vectors. -/
theorem hstrip7_apply (a : Vec Ideal S80x10000 .f32) (s1 : Vec Ideal S10000x64 .f32) (b : Vec Ideal S1x64 .f32)
    (r : Fin 80) (q : Fin 64) :
    k0_pay7 (F := Ideal) a s1 b (ix2 r q)
      = max (Cert.LibDense.prod a s1 (ix2 r q) + b (ix2 (0 : Fin 1) q)) (Ideal.ofBits .f32 0x00000000#32) :=
  hstrip6_apply a s1 b r q

theorem hstrip8_apply (a : Vec Ideal S80x10000 .f32) (s1 : Vec Ideal S10000x64 .f32) (b : Vec Ideal S1x64 .f32)
    (r : Fin 80) (q : Fin 64) :
    k0_pay8 (F := Ideal) a s1 b (ix2 r q)
      = max (Cert.LibDense.prod a s1 (ix2 r q) + b (ix2 (0 : Fin 1) q)) (Ideal.ofBits .f32 0x00000000#32) :=
  hstrip6_apply a s1 b r q

theorem hstrip9_apply (a : Vec Ideal S80x10000 .f32) (s1 : Vec Ideal S10000x64 .f32) (b : Vec Ideal S1x64 .f32)
    (r : Fin 80) (q : Fin 64) :
    k0_pay9 (F := Ideal) a s1 b (ix2 r q)
      = max (Cert.LibDense.prod a s1 (ix2 r q) + b (ix2 (0 : Fin 1) q)) (Ideal.ofBits .f32 0x00000000#32) :=
  hstrip6_apply a s1 b r q

/-- The fifth strip is cut across three terms — the product, the bias block's cast, and the rest over those two — which
    composed as the body composes them are the same term again. -/
theorem hstrip_last_apply (a : Vec Ideal S80x10000 .f32) (s1 : Vec Ideal S10000x64 .f32) (b : Vec Ideal S1x64 .f32)
    (r : Fin 80) (q : Fin 64) :
    k0_pay2 (F := Ideal) (k0_pay10 (F := Ideal) a s1) (k0_pay11 (F := Ideal) b) (ix2 r q)
      = max (Cert.LibDense.prod a s1 (ix2 r q) + b (ix2 (0 : Fin 1) q)) (Ideal.ofBits .f32 0x00000000#32) :=
  hstrip6_apply a s1 b r q

end Cert.PayloadValue

end
-- ==== Proof.PayloadValueO.lean ====
/-
  What the kernel's arithmetic computes for a strip of the first result, on the extended reals.

  A strip's stored value is a function of an 80-row strip of the adjacency matrix, the projected hidden features and
  the bias row. Read at an entry (r, q) it is the log-softmax, along row r, of the row-by-column sums plus the bias
  entries: the row's maximum is the fold of the larger-of-two over the row from minus infinity, the shifted row is
  exponentiated and summed, and the logarithm of the sum is taken off the shifted entry. Nothing asks an entry to be
  finite.
-/
import proofs.«139686_g86887188398715_cont_sun_m_547_23_alg».proof.Proof.Gen.KernelIdeal.Skeleton
import proofs.«139686_g86887188398715_cont_sun_m_547_23_alg».proof.Proof.LibDense
import proofs.«139686_g86887188398715_cont_sun_m_547_23_alg».proof.Proof.LibLogSoftmax
import proofs.«139686_g86887188398715_cont_sun_m_547_23_alg».proof.Proof.LibDotNT
import proofs.«139686_g86887188398715_cont_sun_m_547_23_alg».proof.Proof.LibPlaneSum
import Idealize.ShloMosaic.Lib.ValueIdx
import Idealize.ShloMosaic.Lib.ValueLayout
import Idealize.ShloMosaic.Lib.Pipeline.Value

noncomputable section

namespace Cert.PayloadValue

open Idealize.ShloMosaic Idealize.ShloMosaic.ValueIdx Cert.KernelIdeal Cert.KernelIdeal.Gen

open Cert.LibLogSoftmax

/-! ## Minus infinity, and a row of an `[80, 40]` array -/

/-- The word of minus infinity is the least extended real. -/
theorem negInf_eq_bot : Ideal.ofBits .f32 0xFF800000#32 = (⊥ : EReal) := by
  simp [Ideal.ofBits, Ideal.ieee]

/-- Joining with minus infinity changes nothing. -/
theorem max_negInf (x : EReal) : max (Ideal.ofBits .f32 0xFF800000#32) x = x := by
  rw [negInf_eq_bot]; exact max_bot_left x

/-- The index of row r with column k put back on the reduced axis is (r, k). -/
theorem lift_row (h : S80x40.Reduces [1] S80) (r : Fin 80) (k : Fin 40) : h.lift (ix1 r) k = ix2 r k :=
  funext fun a => Fin.ext (by match a with | ⟨0, _⟩ => rfl | ⟨1, _⟩ => rfl)

/-- A reduction by the larger-of-two along the rows from minus infinity, at row r, is the row's maximum: the fold along
    the row, which joining once more with minus infinity does not change. -/
theorem rowmax_apply (Z : FVec Ideal S80x40 .f32) (hφ : FKind.Formats .f32)
    (hacc : (0xFF800000#32 : BitVec 32) = FKind.maximumf.neutral .f32 hφ) (r : Fin 80) :
    multiReduction .maximumf [1] S80 Z 0xFF800000#32 reduces_S80x40_S80 hφ hacc (ix1 r)
      = rowMax (fun k : Fin 40 => Z (ix2 r k)) := by
  refine (Ideal.multiReduction_maximumf_single Z 0xFF800000#32 reduces_S80x40_S80 hφ hacc (ix1 r)).trans ?_
  have hfun : (Z ∘ reduces_S80x40_S80.lift (ix1 r)) = fun k : Fin 40 => Z (ix2 r k) :=
    funext fun k => congrArg Z (lift_row _ r k)
  rw [hfun]
  exact (max_negInf _).symm

/-- A reduction by addition along the rows from zero, at row r, is the sum along the row. -/
theorem rowsum_apply (E : FVec Ideal S80x40 .f32) (hφ : FKind.Formats .f32)
    (hacc : (0x00000000#32 : BitVec 32) = FKind.add.neutral .f32 hφ) (r : Fin 80) :
    multiReduction .add [1] S80 E 0x00000000#32 reduces_S80x40_S80 hφ hacc (ix1 r) = ∑ k : Fin 40, E (ix2 r k) := by
  refine (Ideal.multiReduction_add_single E 0x00000000#32 reduces_S80x40_S80 hφ hacc (ix1 r)).trans ?_
  exact Finset.sum_congr rfl fun k _ => congrArg E (lift_row _ r k)

/-! ## The three parts of a strip's value -/

/-- The class scores of a strip before normalisation: the product into a zero accumulator plus the bias block
    broadcast down the rows. -/
def zpart (a : Vec Ideal S80x10000 .f32) (s2 : Vec Ideal S10000x40 .f32) (b2 : Vec Ideal S1x40 .f32) :
    FVec Ideal S80x40 .f32 :=
  addf (matmul (φ₁ := .f32) (φ₂ := .f32) dot_S80x10000_S10000x40_S80x40_1_0_0_1_n_n none a s2 (constant S80x40 .f32 0x00000000#32))
    (broadcastTo S80x40 (shapeCast S1x40 b2 shapeCasts_S1x40_S1x40) broadcasts_S1x40_S80x40)

/-- Each row's maximum, as a column broadcast along the row. -/
def maxCol (Z : FVec Ideal S80x40 .f32) : FVec Ideal S80x40 .f32 :=
  broadcastTo S80x40
    (shapeCast S80x1 (multiReduction (F := Ideal) .maximumf [1] S80 Z 0xFF800000#32 reduces_S80x40_S80 (.inl rfl) rfl)
      shapeCasts_S80_S80x1)
    broadcasts_S80x1_S80x40

/-- The logarithm of each row's sum, as a column broadcast along the row. -/
def logSumCol (E : FVec Ideal S80x40 .f32) : FVec Ideal S80x40 .f32 :=
  broadcastTo S80x40
    (log (shapeCast S80x1 (multiReduction (F := Ideal) .add [1] S80 E 0x00000000#32 reduces_S80x40_S80 (.inl rfl) rfl)
      shapeCasts_S80_S80x1))
    broadcasts_S80x1_S80x40

/-- The normalisation of an array of scores: shift by the row maximum, then take off the logarithm of the row's sum of
    exponentials of the shifted scores. -/
def lsmTail (Z : FVec Ideal S80x40 .f32) : FVec Ideal S80x40 .f32 :=
  subf (subf Z (maxCol Z)) (logSumCol (exp (subf Z (maxCol Z))))

/-- The plain dimension numbers of a strip's product. -/
theorem dot_adj_s2 : dot_S80x10000_S10000x40_S80x40_1_0_0_1_n_n = DotDims.plain 80 10000 40 := rfl

/-- The scores at (r, k): the row-by-column sum plus the bias entry of column k. -/
theorem zpart_apply (a : Vec Ideal S80x10000 .f32) (s2 : Vec Ideal S10000x40 .f32) (b2 : Vec Ideal S1x40 .f32)
    (r : Fin 80) (k : Fin 40) :
    zpart a s2 b2 (ix2 r k) = Cert.LibDense.prod a s2 (ix2 r k) + b2 (ix2 (0 : Fin 1) k) := by
  unfold zpart
  rw [shapeCast_self]
  show _ + _ = _
  refine congrArg₂ (· + ·) ?_ ?_
  · exact Cert.LibDense.matmul_plain a s2 (ix2 r k)
  · exact broadcastTo_1b_ab_apply b2 _ r k

/-- The column of maxima at (r, k) is row r's maximum. -/
theorem maxCol_apply (Z : FVec Ideal S80x40 .f32) (r : Fin 80) (k : Fin 40) :
    maxCol Z (ix2 r k) = rowMax (fun k' : Fin 40 => Z (ix2 r k')) :=
  (col_bcast _ broadcasts_S80x1_S80x40 (ix2 r k)).trans
    ((col_cast _ shapeCasts_S80_S80x1 _).trans (rowmax_apply Z _ _ r))

/-- The column of logarithms at (r, k) is the logarithm of row r's sum. -/
theorem logSumCol_apply (E : FVec Ideal S80x40 .f32) (r : Fin 80) (k : Fin 40) :
    logSumCol E (ix2 r k) = Ideal.log (∑ k' : Fin 40, E (ix2 r k')) :=
  (col_bcast _ broadcasts_S80x1_S80x40 (ix2 r k)).trans
    (congrArg Ideal.log ((col_cast _ shapeCasts_S80_S80x1 _).trans (rowsum_apply E _ _ r)))

/-- The normalisation at (r, q) is the log-softmax of row r at column q. -/
theorem lsmTail_apply (Z : FVec Ideal S80x40 .f32) (r : Fin 80) (q : Fin 40) :
    lsmTail Z (ix2 r q) = lsmRow (fun k : Fin 40 => Z (ix2 r k)) q := by
  show (Z (ix2 r q) - maxCol Z (ix2 r q)) - logSumCol (exp (subf Z (maxCol Z))) (ix2 r q) = _
  rw [logSumCol_apply, maxCol_apply]
  unfold lsmRow
  refine congrArg (fun s => (Z (ix2 r q) - rowMax (fun k : Fin 40 => Z (ix2 r k))) - Ideal.log s) ?_
  refine Finset.sum_congr rfl fun k _ => ?_
  show Ideal.exp (Z (ix2 r k) - maxCol Z (ix2 r k)) = _
  rw [maxCol_apply]

/-! ## The five strips -/

/-- A strip's stored value is the normalisation of its scores. -/
theorem pay12_eq (a : Vec Ideal S80x10000 .f32) (s2 : Vec Ideal S10000x40 .f32) (b2 : Vec Ideal S1x40 .f32) :
    k0_pay12 (F := Ideal) a s2 b2 = lsmTail (zpart a s2 b2) := rfl

/-- Entry (r, q) of a strip of the first result: the log-softmax along row r of the row-by-column sums plus the bias
    entries, at column q. -/
theorem ostrip12_apply (a : Vec Ideal S80x10000 .f32) (s2 : Vec Ideal S10000x40 .f32) (b2 : Vec Ideal S1x40 .f32)
    (r : Fin 80) (q : Fin 40) :
    k0_pay12 (F := Ideal) a s2 b2 (ix2 r q)
      = Cert.LibLogSoftmax.lsmRow (fun k : Fin 40 => Cert.LibDense.prod a s2 (ix2 r k) + b2 (ix2 (0 : Fin 1) k)) q :=
  (congrFun (pay12_eq a s2 b2) (ix2 r q)).trans
    ((lsmTail_apply (zpart a s2 b2) r q).trans
      (congrArg (fun row : Fin 40 → EReal => lsmRow row q) (funext fun k => zpart_apply a s2 b2 r k)))

/-- The other four strips are the same term over their own loaded vectors. -/
theorem ostrip14_apply (a : Vec Ideal S80x10000 .f32) (s2 : Vec Ideal S10000x40 .f32) (b2 : Vec Ideal S1x40 .f32)
    (r : Fin 80) (q : Fin 40) :
    k0_pay14 (F := Ideal) a s2 b2 (ix2 r q)
      = Cert.LibLogSoftmax.lsmRow (fun k : Fin 40 => Cert.LibDense.prod a s2 (ix2 r k) + b2 (ix2 (0 : Fin 1) k)) q :=
  ostrip12_apply a s2 b2 r q

theorem ostrip16_apply (a : Vec Ideal S80x10000 .f32) (s2 : Vec Ideal S10000x40 .f32) (b2 : Vec Ideal S1x40 .f32)
    (r : Fin 80) (q : Fin 40) :
    k0_pay16 (F := Ideal) a s2 b2 (ix2 r q)
      = Cert.LibLogSoftmax.lsmRow (fun k : Fin 40 => Cert.LibDense.prod a s2 (ix2 r k) + b2 (ix2 (0 : Fin 1) k)) q :=
  ostrip12_apply a s2 b2 r q

theorem ostrip18_apply (a : Vec Ideal S80x10000 .f32) (s2 : Vec Ideal S10000x40 .f32) (b2 : Vec Ideal S1x40 .f32)
    (r : Fin 80) (q : Fin 40) :
    k0_pay18 (F := Ideal) a s2 b2 (ix2 r q)
      = Cert.LibLogSoftmax.lsmRow (fun k : Fin 40 => Cert.LibDense.prod a s2 (ix2 r k) + b2 (ix2 (0 : Fin 1) k)) q :=
  ostrip12_apply a s2 b2 r q

theorem ostrip4_apply (a : Vec Ideal S80x10000 .f32) (s2 : Vec Ideal S10000x40 .f32) (b2 : Vec Ideal S1x40 .f32)
    (r : Fin 80) (q : Fin 40) :
    k0_pay4 (F := Ideal) a s2 b2 (ix2 r q)
      = Cert.LibLogSoftmax.lsmRow (fun k : Fin 40 => Cert.LibDense.prod a s2 (ix2 r k) + b2 (ix2 (0 : Fin 1) k)) q :=
  ostrip12_apply a s2 b2 r q

end Cert.PayloadValue

end
-- ==== Proof.Spec.lean ====
/-
  What both programs compute, as functions of the nine argument arrays on the extended reals.

  A two-layer graph convolution over a dense adjacency matrix `adj : [N, N]` with an attention-gated encoder:
    h   = max(adj · (x · W1) + b1, 0)                      the hidden features, [N, 64]
    out = log_softmax(adj · (h · W2) + b2) along each row    [N, 40]
    y   = logistic(h · Weᵀ + be) * att                       [N, 16]
  Each matrix product is the row-by-column (or row-by-row, for Weᵀ) sum; the association is the one written:
  the adjacency multiplies the already-projected features. Nothing here needs the entries to be finite.
-/
import proofs.«139686_g86887188398715_cont_sun_m_547_23_alg».proof.Proof.LibDense
import proofs.«139686_g86887188398715_cont_sun_m_547_23_alg».proof.Proof.LibLogSoftmax
import proofs.«139686_g86887188398715_cont_sun_m_547_23_alg».proof.Proof.LibDotNT
import proofs.«139686_g86887188398715_cont_sun_m_547_23_alg».proof.Proof.LibPlaneSum

noncomputable section

namespace Cert.GcnSpec

open Idealize.ShloMosaic Idealize.ShloMosaic.ValueIdx

/-- An `[n, d]` array of extended reals. -/
abbrev Mat (n d : ℕ) : Type := (⟨2, ![n, d]⟩ : Shape).Idx → EReal
/-- A `[d]` vector of extended reals. -/
abbrev Vc (d : ℕ) : Type := (⟨1, ![d]⟩ : Shape).Idx → EReal

/-- One graph-convolution step without its nonlinearity: `a · s + b`, the bias entry of column j added in every row. -/
def conv {n K d : ℕ} (a : Mat n K) (s : Mat K d) (b : Vc d) : Mat n d :=
  fun i => Cert.LibDense.prod a s i + b (ix1 (i 1))

/-- The hidden features `max(adj · (x · W1) + b1, 0)`. -/
def hidden (x : Mat 10000 128) (adj : Mat 10000 10000) (w1 : Mat 128 64) (b1 : Vc 64) : Mat 10000 64 :=
  fun i => max (conv adj (Cert.LibDense.prod x w1) b1 i) (Ideal.ofBits .f32 0x00000000#32)

/-- The class scores before normalisation, `adj · (h · W2) + b2`. -/
def logits (x : Mat 10000 128) (adj : Mat 10000 10000) (w1 : Mat 128 64) (b1 : Vc 64) (w2 : Mat 64 40) (b2 : Vc 40) :
    Mat 10000 40 :=
  conv adj (Cert.LibDense.prod (hidden x adj w1 b1) w2) b2

/-- The first result: the row-wise log-softmax of the class scores. -/
def out (x : Mat 10000 128) (adj : Mat 10000 10000) (w1 : Mat 128 64) (b1 : Vc 64) (w2 : Mat 64 40) (b2 : Vc 40) :
    Mat 10000 40 :=
  Cert.LibLogSoftmax.logSoftmax (logits x adj w1 b1 w2 b2)

/-- The second result: the encoder's gate `logistic(h · Weᵀ + be)` times the attention array, entry by entry. -/
def gated (x : Mat 10000 128) (adj : Mat 10000 10000) (att : Mat 10000 16) (w1 : Mat 128 64) (b1 : Vc 64)
    (we : Mat 16 64) (be : Vc 16) : Mat 10000 16 :=
  fun i => Ideal.logistic (Cert.LibDotNT.layer (hidden x adj w1 b1) we be i) * att i

end Cert.GcnSpec

end
-- ==== Proof.KernelIsSpec.lean ====
/-
  What the kernel carries between points and writes back is the specification.

  The projected features, the hidden features, their projection, and each 400-row block of the two results were named
  through the body's own arithmetic, as functions of the arrays the region finds. Here each is identified, on the
  extended reals, with the corresponding function of the nine argument arrays: the region finds six arrays as they
  were launched and each bias vector as the one row of a `[1, d]` array; row r of the hidden features lies in strip
  r / 80 at position r mod 80, and that strip's row of the adjacency matrix is its row r; row p of row block k of a
  result is row 400·k + p. A row number is always taken modulo the extent, so no bound on k is used.
-/
import proofs.«139686_g86887188398715_cont_sun_m_547_23_alg».proof.Proof.FrmBase
import proofs.«139686_g86887188398715_cont_sun_m_547_23_alg».proof.Proof.PayloadValue
import proofs.«139686_g86887188398715_cont_sun_m_547_23_alg».proof.Proof.PayloadValueO
import proofs.«139686_g86887188398715_cont_sun_m_547_23_alg».proof.Proof.Spec
import Idealize.ShloMosaic.Lib.StableHlo.Run
import Idealize.ShloMosaic.Lib.Tactic
import Idealize.ShloMosaic.Lib.ValueIdx
import Idealize.ShloMosaic.Lib.ValueLayout
import Idealize.ShloMosaic.Lib.Pipeline.Value

set_option maxRecDepth 16384

noncomputable section

namespace Cert.KernelIsSpec

open Cert.KernelIdeal Cert.KernelIdeal.Gen Cert.KernelIdeal.Frm
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-! ## The nine argument arrays, and what the region finds

Before the region the program reshapes the three bias vectors to one-row arrays and touches nothing else: the region
finds six of the arrays as they were launched, and each bias vector as the one row of a `[1, d]` array. -/

/-- The node features. -/
abbrev inX (c : Dev nD) : Cert.GcnSpec.Mat 10000 128 := m ((c.tc : Thread nD τ).loc main_arg0)
/-- The adjacency matrix. -/
abbrev inAdj (c : Dev nD) : Cert.GcnSpec.Mat 10000 10000 := m ((c.tc : Thread nD τ).loc main_arg1)
/-- The attention array. -/
abbrev inAtt (c : Dev nD) : Cert.GcnSpec.Mat 10000 16 := m ((c.tc : Thread nD τ).loc main_arg2)
/-- The first layer's weights and bias. -/
abbrev inW1 (c : Dev nD) : Cert.GcnSpec.Mat 128 64 := m ((c.tc : Thread nD τ).loc main_arg3)
abbrev inB1 (c : Dev nD) : Cert.GcnSpec.Vc 64 := m ((c.tc : Thread nD τ).loc main_arg4)
/-- The second layer's weights and bias. -/
abbrev inW2 (c : Dev nD) : Cert.GcnSpec.Mat 64 40 := m ((c.tc : Thread nD τ).loc main_arg5)
abbrev inB2 (c : Dev nD) : Cert.GcnSpec.Vc 40 := m ((c.tc : Thread nD τ).loc main_arg6)
/-- The encoder's weights and bias. -/
abbrev inWe (c : Dev nD) : Cert.GcnSpec.Mat 16 64 := m ((c.tc : Thread nD τ).loc main_arg7)
abbrev inBe (c : Dev nD) : Cert.GcnSpec.Vc 16 := m ((c.tc : Thread nD τ).loc main_arg8)

theorem aX_eq (c : Dev nD) : aX (F := Ideal) m c = inX m c := by
  dsimp only [aX, V, V0, hostOps0]; after_results
theorem aAdj_eq (c : Dev nD) : aAdj (F := Ideal) m c = inAdj m c := by
  dsimp only [aAdj, V, V0, hostOps0]; after_results
theorem aAtt_eq (c : Dev nD) : aAtt (F := Ideal) m c = inAtt m c := by
  dsimp only [aAtt, V, V0, hostOps0]; after_results
theorem aW1_eq (c : Dev nD) : aW1 (F := Ideal) m c = inW1 m c := by
  dsimp only [aW1, V, V0, hostOps0]; after_results
theorem aW2_eq (c : Dev nD) : aW2 (F := Ideal) m c = inW2 m c := by
  dsimp only [aW2, V, V0, hostOps0]; after_results
theorem aWe_eq (c : Dev nD) : aWe (F := Ideal) m c = inWe m c := by
  dsimp only [aWe, V, V0, hostOps0]; after_results

/-- The first bias as the region finds it: the vector laid out as one row. -/
theorem aB1_eq (c : Dev nD) : (aB1 (F := Ideal) m c : S1x64.Idx → EReal)
    = shapeCast S1x64 (inB1 m c) shapeCasts_S64_S1x64 := by
  dsimp only [aB1, V, V0, hostOps0]; after_results; rfl
theorem aB2_eq (c : Dev nD) : (aB2 (F := Ideal) m c : S1x40.Idx → EReal)
    = shapeCast S1x40 (inB2 m c) shapeCasts_S40_S1x40 := by
  dsimp only [aB2, V, V0, hostOps0]; after_results; rfl
theorem aBe_eq (c : Dev nD) : (aBe (F := Ideal) m c : S1x16.Idx → EReal)
    = shapeCast S1x16 (inBe m c) shapeCasts_S16_S1x16 := by
  dsimp only [aBe, V, V0, hostOps0]; after_results; rfl

/-- Entry q of the one row is entry q of the vector. -/
theorem aB1_apply (c : Dev nD) (q : Fin 64) : aB1 (F := Ideal) m c (ix2 (0 : Fin 1) q) = inB1 m c (ix1 q) := by
  rw [aB1_eq]; exact shapeCast_a_1a_apply (inB1 m c) shapeCasts_S64_S1x64 0 q
theorem aB2_apply (c : Dev nD) (q : Fin 40) : aB2 (F := Ideal) m c (ix2 (0 : Fin 1) q) = inB2 m c (ix1 q) := by
  rw [aB2_eq]; exact shapeCast_a_1a_apply (inB2 m c) shapeCasts_S40_S1x40 0 q
theorem aBe_apply (c : Dev nD) (q : Fin 16) : aBe (F := Ideal) m c (ix2 (0 : Fin 1) q) = inBe m c (ix1 q) := by
  rw [aBe_eq]; exact shapeCast_a_1a_apply (inBe m c) shapeCasts_S16_S1x16 0 q

/-! ## Rows: an index by a row number taken modulo the extent -/

/-- Two row numbers with the same remainder name the same row. -/
theorem ixm_congr {n d : ℕ} (hn : 0 < n) (r r' : ℕ) (q : Fin d) (h : r % n = r' % n) : ixm hn r q = ixm hn r' q := by
  unfold ixm; exact congrArg (fun a : Fin n => ix2 a q) (Fin.ext h)

/-- A row number below the extent names its own row. -/
theorem ixm_self {n d : ℕ} (hn : 0 < n) (r : Fin n) (q : Fin d) : ixm hn r.val q = ix2 r q := by
  unfold ixm; exact congrArg (fun a : Fin n => ix2 a q) (Fin.ext (Nat.mod_eq_of_lt r.isLt))

/-- Row r' of strip kk of the adjacency matrix is its row 80·kk + r'. -/
theorem adjStrip_apply (c : Dev nD) (kk : ℕ) (r' : Fin 80) (k : Fin 10000) :
    adjStrip (F := Ideal) m c kk (ix2 r' k) = inAdj m c (ixm (by decide) (80 * kk + r'.val) k) := by
  unfold adjStrip; rw [aAdj_eq]

/-! ## The projected features -/

theorem S1f_eq (c : Dev nD) : S1f (F := Ideal) m c = Cert.LibDense.prod (inX m c) (inW1 m c) := by
  unfold S1f; rw [aX_eq, aW1_eq]; exact Cert.PayloadValue.pay1_apply _ _

/-! ## The hidden features -/

/-- Whichever of the five stores wrote it, a strip of hidden features at (r, q) is the larger of zero and the
    row-by-column sum plus the bias entry. -/
theorem hStrip_apply (j : ℕ) (a : Vec Ideal S80x10000 .f32) (s : Vec Ideal S10000x64 .f32) (b : Vec Ideal S1x64 .f32)
    (r : Fin 80) (q : Fin 64) :
    hStrip (F := Ideal) j a s b (ix2 r q)
      = max (Cert.LibDense.prod a s (ix2 r q) + b (ix2 (0 : Fin 1) q)) (Ideal.ofBits .f32 0x00000000#32) := by
  unfold hStrip
  split_ifs
  · exact Cert.PayloadValue.hstrip6_apply a s b r q
  · exact Cert.PayloadValue.hstrip7_apply a s b r q
  · exact Cert.PayloadValue.hstrip8_apply a s b r q
  · exact Cert.PayloadValue.hstrip9_apply a s b r q
  · exact Cert.PayloadValue.hstrip_last_apply a s b r q

/-- The hidden features the kernel carries are the specification's: row r lies in strip r / 80 at position r mod 80,
    and that strip's row is row r of the adjacency matrix. -/
theorem Hf_apply (c : Dev nD) (y : S10000x64.Idx) :
    Hf (F := Ideal) m c y = Cert.GcnSpec.hidden (inX m c) (inAdj m c) (inW1 m c) (inB1 m c) y := by
  obtain ⟨r, q, rfl⟩ : ∃ (r : Fin 10000) (q : Fin 64), y = ix2 r q := ⟨y 0, y 1, eq_ix2 y⟩
  have h80 : r.val % 80 < 80 := Nat.mod_lt _ (by decide)
  show hStrip (F := Ideal) ((r.val % 400) / 80) (adjStrip m c (r.val / 80)) (S1f m c) (aB1 m c) (ix2 ⟨r.val % 80, h80⟩ q) = _
  rw [hStrip_apply, aB1_apply, S1f_eq]
  show _ = max (Cert.LibDense.prod (inAdj m c) (Cert.LibDense.prod (inX m c) (inW1 m c)) (ix2 r q) + inB1 m c (ix1 q)) _
  refine congrArg (fun s => max (s + inB1 m c (ix1 q)) (Ideal.ofBits .f32 0x00000000#32)) ?_
  unfold Cert.LibDense.prod
  refine Finset.sum_congr rfl fun k _ => ?_
  refine congrArg (· * _) ?_
  refine (adjStrip_apply m c (r.val / 80) ⟨r.val % 80, h80⟩ k).trans (congrArg (inAdj m c) ?_)
  refine (ixm_congr _ _ r.val k ?_).trans (ixm_self _ r k)
  show (80 * (r.val / 80) + r.val % 80) % 10000 = r.val % 10000
  omega

/-! ## Their projection -/

theorem S2f_eq (c : Dev nD) :
    S2f (F := Ideal) m c
      = Cert.LibDense.prod (Cert.GcnSpec.hidden (inX m c) (inAdj m c) (inW1 m c) (inB1 m c)) (inW2 m c) := by
  unfold S2f
  rw [aW2_eq, show Hf (F := Ideal) m c = Cert.GcnSpec.hidden (inX m c) (inAdj m c) (inW1 m c) (inB1 m c) from
    funext (Hf_apply m c)]
  exact Cert.PayloadValue.pay3_apply _ _

/-! ## A row block of the first result -/

/-- Whichever of the five stores wrote it, a strip of the first result at (r, q) is the log-softmax along row r of the
    row-by-column sums plus the bias entries. -/
theorem oStrip_apply (j : ℕ) (a : Vec Ideal S80x10000 .f32) (s : Vec Ideal S10000x40 .f32) (b : Vec Ideal S1x40 .f32)
    (r : Fin 80) (q : Fin 40) :
    oStrip (F := Ideal) j a s b (ix2 r q)
      = Cert.LibLogSoftmax.lsmRow (fun k : Fin 40 => Cert.LibDense.prod a s (ix2 r k) + b (ix2 (0 : Fin 1) k)) q := by
  unfold oStrip
  split_ifs
  · exact Cert.PayloadValue.ostrip12_apply a s b r q
  · exact Cert.PayloadValue.ostrip14_apply a s b r q
  · exact Cert.PayloadValue.ostrip16_apply a s b r q
  · exact Cert.PayloadValue.ostrip18_apply a s b r q
  · exact Cert.PayloadValue.ostrip4_apply a s b r q

/-- Row p of row block k of the first result is row 400·k + p of the specification's: it lies in strip p / 80 of the
    block at position p mod 80, and that strip's row of the adjacency matrix is row 400·k + p. -/
theorem O13f_apply (c : Dev nD) (k : ℕ) (hk : k < 25) (y : S400x40.Idx) :
    O13f (F := Ideal) m c k y
      = Cert.GcnSpec.out (inX m c) (inAdj m c) (inW1 m c) (inB1 m c) (inW2 m c) (inB2 m c)
          (ixm (by decide) (400 * k + (y 0).val) (y 1)) := by
  obtain ⟨p, q, rfl⟩ : ∃ (p : Fin 400) (q : Fin 40), y = ix2 p q := ⟨y 0, y 1, eq_ix2 y⟩
  have h80 : p.val % 80 < 80 := Nat.mod_lt _ (by decide)
  have hR : (400 * k + p.val) % 10000 < 10000 := Nat.mod_lt _ (by decide)
  show oStrip (F := Ideal) (p.val / 80) (adjStrip m c (5 * k + p.val / 80)) (S2f m c) (aB2 m c) (ix2 ⟨p.val % 80, h80⟩ q)
    = Cert.LibLogSoftmax.lsmRow
        (fun k' : Fin 40 => Cert.GcnSpec.logits (inX m c) (inAdj m c) (inW1 m c) (inB1 m c) (inW2 m c) (inB2 m c)
          (ix2 (⟨(400 * k + p.val) % 10000, hR⟩ : Fin 10000) k')) q
  rw [oStrip_apply, S2f_eq]
  refine congrArg (fun row : Fin 40 → EReal => Cert.LibLogSoftmax.lsmRow row q) (funext fun k' => ?_)
  rw [aB2_apply]
  show _ = Cert.LibDense.prod (inAdj m c)
      (Cert.LibDense.prod (Cert.GcnSpec.hidden (inX m c) (inAdj m c) (inW1 m c) (inB1 m c)) (inW2 m c))
      (ix2 (⟨(400 * k + p.val) % 10000, hR⟩ : Fin 10000) k') + inB2 m c (ix1 k')
  refine congrArg (· + inB2 m c (ix1 k')) ?_
  unfold Cert.LibDense.prod
  refine Finset.sum_congr rfl fun l _ => ?_
  refine congrArg (· * _) ?_
  refine (adjStrip_apply m c (5 * k + p.val / 80) ⟨p.val % 80, h80⟩ l).trans (congrArg (inAdj m c) ?_)
  refine ixm_congr _ _ (400 * k + p.val) l ?_
  show (80 * (5 * k + p.val / 80) + p.val % 80) % 10000 = (400 * k + p.val) % 10000
  omega

/-! ## A row block of the second result -/

/-- Whichever of the five stores wrote it, a strip of the second result at (r, q) is the logistic function of the
    row-against-row sum plus the bias entry, times the attention entry. -/
theorem yStrip_apply (j : ℕ) (hh : Vec Ideal S80x64 .f32) (we : Vec Ideal S16x64 .f32) (be : Vec Ideal S1x16 .f32)
    (att : Vec Ideal S80x16 .f32) (r : Fin 80) (q : Fin 16) :
    yStrip (F := Ideal) j hh we be att (ix2 r q)
      = Ideal.logistic (Cert.LibDotNT.rowDot hh we (ix2 r q) + be (ix2 (0 : Fin 1) q)) * att (ix2 r q) := by
  unfold yStrip
  split_ifs
  · exact Cert.PayloadValue.ystrip13_apply hh we be att r q
  · exact Cert.PayloadValue.ystrip15_apply hh we be att r q
  · exact Cert.PayloadValue.ystrip17_apply hh we be att r q
  · exact Cert.PayloadValue.ystrip19_apply hh we be att r q
  · exact Cert.PayloadValue.ystrip5_apply hh we be att r q

/-- Row p of row block k of the second result is row 400·k + p of the specification's: the 80 rows of hidden features
    and of the attention array that its strip reads start at row 400·k + 80·(p / 80). -/
theorem O14f_apply (c : Dev nD) (k : ℕ) (hk : k < 25) (y : S400x16.Idx) :
    O14f (F := Ideal) m c k y
      = Cert.GcnSpec.gated (inX m c) (inAdj m c) (inAtt m c) (inW1 m c) (inB1 m c) (inWe m c) (inBe m c)
          (ixm (by decide) (400 * k + (y 0).val) (y 1)) := by
  obtain ⟨p, q, rfl⟩ : ∃ (p : Fin 400) (q : Fin 16), y = ix2 p q := ⟨y 0, y 1, eq_ix2 y⟩
  have h80 : p.val % 80 < 80 := Nat.mod_lt _ (by decide)
  have hR : (400 * k + p.val) % 10000 < 10000 := Nat.mod_lt _ (by decide)
  have hrow : ∀ {d : ℕ} (l : Fin d), ixm (n := 10000) (by decide) (400 * k + 80 * (p.val / 80) + p.val % 80) l
      = ix2 (⟨(400 * k + p.val) % 10000, hR⟩ : Fin 10000) l := fun l =>
    ixm_congr _ _ (400 * k + p.val) l (by
      show (400 * k + 80 * (p.val / 80) + p.val % 80) % 10000 = (400 * k + p.val) % 10000
      omega)
  show yStrip (F := Ideal) (p.val / 80) (hRows m c (400 * k + 80 * (p.val / 80))) (aWe m c) (aBe m c)
      (attRows m c (400 * k + 80 * (p.val / 80))) (ix2 ⟨p.val % 80, h80⟩ q)
    = Ideal.logistic (Cert.LibDotNT.rowDot (Cert.GcnSpec.hidden (inX m c) (inAdj m c) (inW1 m c) (inB1 m c)) (inWe m c)
          (ix2 (⟨(400 * k + p.val) % 10000, hR⟩ : Fin 10000) q) + inBe m c (ix1 q))
        * inAtt m c (ix2 (⟨(400 * k + p.val) % 10000, hR⟩ : Fin 10000) q)
  rw [yStrip_apply, aBe_apply, aWe_eq]
  refine congrArg₂ (· * ·) (congrArg (fun s => Ideal.logistic (s + inBe m c (ix1 q))) ?_) ?_
  · rw [Cert.LibDotNT.rowDot_ix2, Cert.LibDotNT.rowDot_ix2]
    refine Finset.sum_congr rfl fun l _ => congrArg (· * _) ?_
    show Hf (F := Ideal) m c (ixm (by decide) (400 * k + 80 * (p.val / 80) + p.val % 80) l) = _
    rw [Hf_apply, hrow]
  · show aAtt (F := Ideal) m c (ixm (by decide) (400 * k + 80 * (p.val / 80) + p.val % 80) q) = _
    rw [aAtt_eq, hrow]

end Cert.KernelIsSpec

end
-- ==== Proof.KernelOut.lean ====
import proofs.«139686_g86887188398715_cont_sun_m_547_23_alg».proof.Proof.FrmFinal
import proofs.«139686_g86887188398715_cont_sun_m_547_23_alg».proof.Proof.KernelIsSpec

set_option maxRecDepth 16384

noncomputable section

namespace Cert.KernelOut

open Cert.KernelIdeal Cert.KernelIdeal.Gen Cert.KernelIdeal.Frm Cert.KernelIsSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-! # The two result arrays after the run are the specification

After the run a result array holds, at row r, row `r mod 400` of row block `r / 400`; row p of row block k is the
specification's row 400·k + p; and 400·(r / 400) + r mod 400 = r, with r / 400 < 25 because r < 10000. -/

/-- The first result: the log-softmax of the second layer's logits. -/
theorem out_spec (c : Dev nD) :
    (dats (F := Ideal) m 0 c).arrAt 13 cfg0.N
      = Cert.GcnSpec.out (inX m c) (inAdj m c) (inW1 m c) (inB1 m c) (inW2 m c) (inB2 m c) := by
  rw [final13]
  funext i
  have hi : (i 0).val < 10000 := (i 0).isLt
  have hk : (i 0).val / 400 < 25 := by omega
  show O13f (F := Ideal) m c ((i 0).val / 400) (ixm (by decide) (i 0).val (i 1)) = _
  rw [O13f_apply m c _ hk]
  congr 1
  funext a; apply Fin.ext
  match a with
  | ⟨0, _⟩ =>
    show (400 * ((i 0).val / 400) + (i 0).val % 400) % 10000 = (i 0).val
    omega
  | ⟨1, _⟩ => rfl

/-- The second result: the encoder's gate on the hidden features, times the attention array. -/
theorem gated_spec (c : Dev nD) :
    (dats (F := Ideal) m 0 c).arrAt 14 cfg0.N
      = Cert.GcnSpec.gated (inX m c) (inAdj m c) (inAtt m c) (inW1 m c) (inB1 m c) (inWe m c) (inBe m c) := by
  rw [final14]
  funext i
  have hi : (i 0).val < 10000 := (i 0).isLt
  have hk : (i 0).val / 400 < 25 := by omega
  show O14f (F := Ideal) m c ((i 0).val / 400) (ixm (by decide) (i 0).val (i 1)) = _
  rw [O14f_apply m c _ hk]
  congr 1
  funext a; apply Fin.ext
  match a with
  | ⟨0, _⟩ =>
    show (400 * ((i 0).val / 400) + (i 0).val % 400) % 10000 = (i 0).val
    omega
  | ⟨1, _⟩ => rfl

end Cert.KernelOut

end
-- ==== Proof.RefIsSpec.lean ====
/-
  The reference's two results are the specification's functions of the argument arrays.

  Stage by stage, index by index: each matrix product of the reference is the row-by-column sum (its contraction index
  is the one coordinate k), each bias is broadcast down the rows, the rectifier is the maximum with the zero word, the
  row maximum is the fold of max over the row's forty columns from minus infinity, and the two ones of the gate are the
  word of 1.0. Both sides are the same operations in the same order on the extended reals: nothing is commuted, and
  nothing asks an entry to be finite.
-/
import proofs.«139686_g86887188398715_cont_sun_m_547_23_alg».proof.Proof.Spec
import proofs.«139686_g86887188398715_cont_sun_m_547_23_alg».proof.Proof.RefRunP
import proofs.«139686_g86887188398715_cont_sun_m_547_23_alg».proof.Proof.RefReadP

noncomputable section

namespace Cert.RefIsSpec

open Idealize.ShloMosaic Idealize.ShloMosaic.ValueIdx Idealize.ShloMosaic.TcCoe Idealize.SL.Sem
open Cert.ReferenceIdeal Cert.ReferenceIdeal.Gen Cert.ReferenceIdeal.ReadP Cert.GcnSpec

/-! ## The hidden features -/

/-- The first product, x · W1. -/
theorem xw1_eq (x : Mat 10000 128) (w1 : Mat 128 64) :
    val_main_v0 (F := Ideal) x w1 = Cert.LibDense.prod x w1 := by
  funext i
  rw [val_main_v0_apply]
  show _ = ∑ k : Fin 128, x (ix2 (i 0) k) * w1 (ix2 k (i 1))
  exact Finset.sum_congr rfl fun k _ => congrArg₂ (· * ·)
    (congrArg x (funext fun a => by match a with | ⟨0, _⟩ => rfl | ⟨1, _⟩ => rfl)) (congrArg w1 (funext fun a => by match a with | ⟨0, _⟩ => rfl | ⟨1, _⟩ => rfl))

/-- The adjacency applied to it, adj · (x · W1). -/
theorem axw1_eq (x : Mat 10000 128) (adj : Mat 10000 10000) (w1 : Mat 128 64) :
    val_main_v1 (F := Ideal) x adj w1 = Cert.LibDense.prod adj (Cert.LibDense.prod x w1) := by
  funext i
  rw [val_main_v1_apply, xw1_eq]
  show _ = ∑ k : Fin 10000, adj (ix2 (i 0) k) * Cert.LibDense.prod x w1 (ix2 k (i 1))
  exact Finset.sum_congr rfl fun k _ => congrArg₂ (· * ·)
    (congrArg adj (funext fun a => by match a with | ⟨0, _⟩ => rfl | ⟨1, _⟩ => rfl)) (congrArg (Cert.LibDense.prod x w1) (funext fun a => by match a with | ⟨0, _⟩ => rfl | ⟨1, _⟩ => rfl))

/-- The first bias, broadcast down the rows, at (r, j) is its entry j. -/
theorem b1_apply (b1 : Vc 64) (i : S10000x64.Idx) : val_main_v3 (F := Ideal) b1 i = b1 (ix1 (i 1)) := by
  rw [val_main_v3_apply, val_main_v2_apply]
  exact congrArg b1 (funext fun a => by match a with | ⟨0, _⟩ => rfl)

/-- The hidden features before the rectifier. -/
theorem conv1_eq (x : Mat 10000 128) (adj : Mat 10000 10000) (w1 : Mat 128 64) (b1 : Vc 64) :
    val_main_v4 (F := Ideal) x adj w1 b1 = conv adj (Cert.LibDense.prod x w1) b1 := by
  funext i
  rw [val_main_v4_apply, axw1_eq, b1_apply]
  rfl

/-- The hidden features. -/
theorem hidden_eq (x : Mat 10000 128) (adj : Mat 10000 10000) (w1 : Mat 128 64) (b1 : Vc 64) :
    val_main_v5 (F := Ideal) x adj w1 b1 = hidden x adj w1 b1 := by
  funext i
  rw [val_main_v5_apply, conv1_eq, val_main_call0_v0_apply, val_main_call0_cst_apply]
  rfl

/-! ## The class scores -/

/-- The second product, h · W2. -/
theorem hw2_eq (x : Mat 10000 128) (adj : Mat 10000 10000) (w1 : Mat 128 64) (b1 : Vc 64) (w2 : Mat 64 40) :
    val_main_v6 (F := Ideal) x adj w1 b1 w2 = Cert.LibDense.prod (hidden x adj w1 b1) w2 := by
  funext i
  rw [val_main_v6_apply, hidden_eq]
  show _ = ∑ k : Fin 64, hidden x adj w1 b1 (ix2 (i 0) k) * w2 (ix2 k (i 1))
  exact Finset.sum_congr rfl fun k _ => congrArg₂ (· * ·)
    (congrArg (hidden x adj w1 b1) (funext fun a => by match a with | ⟨0, _⟩ => rfl | ⟨1, _⟩ => rfl)) (congrArg w2 (funext fun a => by match a with | ⟨0, _⟩ => rfl | ⟨1, _⟩ => rfl))

/-- The adjacency applied to it, adj · (h · W2). -/
theorem ahw2_eq (x : Mat 10000 128) (adj : Mat 10000 10000) (w1 : Mat 128 64) (b1 : Vc 64) (w2 : Mat 64 40) :
    val_main_v7 (F := Ideal) x adj w1 b1 w2 = Cert.LibDense.prod adj (Cert.LibDense.prod (hidden x adj w1 b1) w2) := by
  funext i
  rw [val_main_v7_apply, hw2_eq]
  show _ = ∑ k : Fin 10000, adj (ix2 (i 0) k) * Cert.LibDense.prod (hidden x adj w1 b1) w2 (ix2 k (i 1))
  exact Finset.sum_congr rfl fun k _ => congrArg₂ (· * ·)
    (congrArg adj (funext fun a => by match a with | ⟨0, _⟩ => rfl | ⟨1, _⟩ => rfl)) (congrArg (Cert.LibDense.prod (hidden x adj w1 b1) w2) (funext fun a => by match a with | ⟨0, _⟩ => rfl | ⟨1, _⟩ => rfl))

/-- The second bias, broadcast down the rows, at (r, j) is its entry j. -/
theorem b2_apply (b2 : Vc 40) (i : S10000x40.Idx) : val_main_v9 (F := Ideal) b2 i = b2 (ix1 (i 1)) := by
  rw [val_main_v9_apply, val_main_v8_apply]
  exact congrArg b2 (funext fun a => by match a with | ⟨0, _⟩ => rfl)

/-- The class scores. -/
theorem logits_eq (x : Mat 10000 128) (adj : Mat 10000 10000) (w1 : Mat 128 64) (b1 : Vc 64) (w2 : Mat 64 40) (b2 : Vc 40) :
    val_main_v10 (F := Ideal) x adj w1 b1 w2 b2 = logits x adj w1 b1 w2 b2 := by
  funext i
  rw [val_main_v10_apply, ahw2_eq, b2_apply]
  rfl

/-! ## The gate -/

/-- The encoder's product h · Weᵀ: the transposed weight read at (k, c) is We (c, k). -/
theorem hwe_eq (x : Mat 10000 128) (adj : Mat 10000 10000) (w1 : Mat 128 64) (b1 : Vc 64) (we : Mat 16 64) :
    val_main_v12 (F := Ideal) x adj w1 b1 we = Cert.LibDotNT.rowDot (hidden x adj w1 b1) we := by
  funext i
  rw [val_main_v12_apply, hidden_eq]
  show _ = ∑ k : Fin 64, hidden x adj w1 b1 (ix2 (i 0) k) * we (ix2 (i 1) k)
  exact Finset.sum_congr rfl fun k _ => congrArg₂ (· * ·)
    (congrArg (hidden x adj w1 b1) (funext fun a => by match a with | ⟨0, _⟩ => rfl | ⟨1, _⟩ => rfl))
    ((val_main_v11_apply (F := Ideal) we _).trans (congrArg we (funext fun a => by match a with | ⟨0, _⟩ => rfl | ⟨1, _⟩ => rfl)))

/-- The encoder's bias, broadcast down the rows, at (r, c) is its entry c. -/
theorem be_apply (be : Vc 16) (i : S10000x16.Idx) : val_main_v14 (F := Ideal) be i = be (ix1 (i 1)) := by
  rw [val_main_v14_apply, val_main_v13_apply]
  exact congrArg be (funext fun a => by match a with | ⟨0, _⟩ => rfl)

/-- The encoder's layer h · Weᵀ + be. -/
theorem layer_eq (x : Mat 10000 128) (adj : Mat 10000 10000) (w1 : Mat 128 64) (b1 : Vc 64) (we : Mat 16 64) (be : Vc 16) :
    val_main_v15 (F := Ideal) x adj w1 b1 we be = Cert.LibDotNT.layer (hidden x adj w1 b1) we be := by
  funext i
  rw [val_main_v15_apply, hwe_eq, be_apply]
  rfl

/-- The second result's stage is the specification's gated encoder: 1 / (1 + exp (-t)) with both ones the word of 1.0 is the
    logistic function of t. -/
theorem gated_stage_eq (x : Mat 10000 128) (adj : Mat 10000 10000) (att : Mat 10000 16) (w1 : Mat 128 64) (b1 : Vc 64)
    (we : Mat 16 64) (be : Vc 16) :
    val_main_v22 (F := Ideal) x adj att w1 b1 we be = gated x adj att w1 b1 we be := by
  funext i
  rw [val_main_v22_apply, val_main_v21_apply, val_main_v20_apply, val_main_cst_0_apply, val_main_v19_apply,
    val_main_v18_apply, val_main_cst_apply, val_main_v17_apply, val_main_v16_apply, layer_eq]
  exact congrArg (· * att i) (Cert.LibPlaneSum.logistic_spelt (Cert.LibDotNT.layer (hidden x adj w1 b1) we be i))

/-- The reference's second result, as its run states it, is the specification's gated encoder. -/
theorem ref_gated_eq (x : FVec Ideal S10000x128 .f32) (adj : FVec Ideal S10000x10000 .f32)
    (att : FVec Ideal S10000x16 .f32) (w1 : FVec Ideal S128x64 .f32)
    (b1 : FVec Ideal S64 .f32) (we : FVec Ideal S16x64 .f32)
    (be : FVec Ideal S16 .f32) :
    mulf (Host.divf (broadcastInDim S10000x16 ![] bcast_S_S10000x16 (constant (F := Ideal) S_ .f32 0x3F800000#32)) (addf (broadcastInDim S10000x16 ![] bcast_S_S10000x16 (constant (F := Ideal) S_ .f32 0x3F800000#32)) (Host.exp (Host.negf (addf (Host.dotGeneral dot_S10000x64_S64x16_S10000x16_1_0_0_1_n_n none (maximumf (addf (Host.dotGeneral dot_S10000x10000_S10000x64_S10000x64_1_0_0_1_n_n none adj (Host.dotGeneral dot_S10000x128_S128x64_S10000x64_1_0_0_1_n_n none x w1)) (broadcastInDim S10000x64 ![0, 1] bcast_S1x64_S10000x64_0_1 (broadcastInDim S1x64 ![1] bcast_S64_S1x64_1 b1))) (broadcastInDim S10000x64 ![] bcast_S_S10000x64 (constant (F := Ideal) S_ .f32 0x00000000#32))) (transpose S64x16 [1, 0] we transposes_S16x64_S64x16_1_0)) (broadcastInDim S10000x16 ![0, 1] bcast_S1x16_S10000x16_0_1 (broadcastInDim S1x16 ![1] bcast_S16_S1x16_1 be))))))) att
      = gated x adj att w1 b1 we be :=
  (val_main_v22_eq (F := Ideal) x adj att w1 b1 we be).trans (gated_stage_eq x adj att w1 b1 we be)

/-! ## The log-softmax of the class scores -/

/-- The host's maximum-reduce of a [10000, 40] array over its columns from the word of minus infinity, at row r, is the fold of
    max over that row's forty entries from minus infinity. -/
theorem rowFold_eq (z : Mat 10000 40) (j : S10000.Idx) :
    Host.reduce (FloatOps.maximumf (F := Ideal) (φ := .f32)) z (val_main_call1_cst (F := Ideal))
        reducesTo_S10000x40_S10000_d1 h_S_ j
      = (Finset.univ : Finset (Fin 40)).fold max Cert.LibLogSoftmax.negInf (fun k : Fin 40 => z (ix2 (j 0) k)) := by
  have h : S10000x40.Reduces [1] S10000 := by decide
  rw [Host.reduce_eq_fold_single (FloatOps.maximumf (F := Ideal) (φ := .f32)) z _ reducesTo_S10000x40_S10000_d1 h h_S_]
  have hf : (z ∘ h.lift j) = fun k : Fin 40 => z (ix2 (j 0) k) :=
    funext fun k => congrArg z (funext fun c => Fin.ext (by match c with | ⟨0, _⟩ => rfl | ⟨1, _⟩ => rfl))
  rw [hf]
  rfl

/-- The reduced maximum of the class scores at row r. -/
theorem scoreFold_apply (x : Mat 10000 128) (adj : Mat 10000 10000) (w1 : Mat 128 64) (b1 : Vc 64) (w2 : Mat 64 40) (b2 : Vc 40) (j : S10000.Idx) :
    val_main_call1_v0 (F := Ideal) x adj w1 b1 w2 b2 j
      = (Finset.univ : Finset (Fin 40)).fold max Cert.LibLogSoftmax.negInf (fun k : Fin 40 => logits x adj w1 b1 w2 b2 (ix2 (j 0) k)) := by
  unfold val_main_call1_v0
  rw [logits_eq]
  exact rowFold_eq (logits x adj w1 b1 w2 b2) j

/-- Joined once more with minus infinity it is the row's maximum. -/
theorem scoreMax_apply (x : Mat 10000 128) (adj : Mat 10000 10000) (w1 : Mat 128 64) (b1 : Vc 64) (w2 : Mat 64 40) (b2 : Vc 40) (j : S10000.Idx) :
    val_main_call1_v2 (F := Ideal) x adj w1 b1 w2 b2 j
      = Cert.LibLogSoftmax.rowMax (fun k : Fin 40 => logits x adj w1 b1 w2 b2 (ix2 (j 0) k)) := by
  rw [val_main_call1_v2_apply, val_main_call1_v1_apply, val_main_call1_cst_0_apply, scoreFold_apply]
  rfl

/-- The row's maximum as a column, broadcast along the row: at (r, q) it is row r's maximum. -/
theorem scoreMaxB_apply (x : Mat 10000 128) (adj : Mat 10000 10000) (w1 : Mat 128 64) (b1 : Vc 64) (w2 : Mat 64 40) (b2 : Vc 40) (i : S10000x40.Idx) :
    val_main_call1_v4 (F := Ideal) x adj w1 b1 w2 b2 i
      = Cert.LibLogSoftmax.rowMax (fun k : Fin 40 => logits x adj w1 b1 w2 b2 (ix2 (i 0) k)) := by
  rw [val_main_call1_v4_apply, val_main_call1_v3_apply, scoreMax_apply]
  rfl

/-- The shifted scores. -/
theorem shifted_apply (x : Mat 10000 128) (adj : Mat 10000 10000) (w1 : Mat 128 64) (b1 : Vc 64) (w2 : Mat 64 40) (b2 : Vc 40) (i : S10000x40.Idx) :
    val_main_call1_v5 (F := Ideal) x adj w1 b1 w2 b2 i
      = logits x adj w1 b1 w2 b2 i - Cert.LibLogSoftmax.rowMax (fun k : Fin 40 => logits x adj w1 b1 w2 b2 (ix2 (i 0) k)) := by
  rw [val_main_call1_v5_apply, logits_eq, scoreMaxB_apply]
  rfl

/-- The sum of the exponentials of row r's shifted scores (the reduction starts from the zero word, which adds nothing). -/
theorem expSum_apply (x : Mat 10000 128) (adj : Mat 10000 10000) (w1 : Mat 128 64) (b1 : Vc 64) (w2 : Mat 64 40) (b2 : Vc 40) (j : S10000.Idx) :
    val_main_call1_v7 (F := Ideal) x adj w1 b1 w2 b2 j
      = ∑ k : Fin 40, Ideal.exp (logits x adj w1 b1 w2 b2 (ix2 (j 0) k)
          - Cert.LibLogSoftmax.rowMax (fun k' : Fin 40 => logits x adj w1 b1 w2 b2 (ix2 (j 0) k'))) := by
  rw [val_main_call1_v7_apply, val_main_call1_cst_1_apply]
  have hs : ∀ k : Fin 40, val_main_call1_v6 (F := Ideal) x adj w1 b1 w2 b2 (idx_main_call1_v7 j k)
      = Ideal.exp (logits x adj w1 b1 w2 b2 (ix2 (j 0) k)
          - Cert.LibLogSoftmax.rowMax (fun k' : Fin 40 => logits x adj w1 b1 w2 b2 (ix2 (j 0) k'))) := fun k => by
    rw [val_main_call1_v6_apply, shifted_apply,
      show idx_main_call1_v7 j k = ix2 (j 0) k from funext fun a => by match a with | ⟨0, _⟩ => rfl | ⟨1, _⟩ => rfl]
    rfl
  rw [Finset.sum_congr rfl (fun k _ => hs k)]
  show Ideal.ofBits .f32 0x00000000#32 + _ = _
  rw [Ideal.ofBits_zero_f32, zero_add]

/-- Its logarithm as a column, broadcast along the row. -/
theorem logSum_apply (x : Mat 10000 128) (adj : Mat 10000 10000) (w1 : Mat 128 64) (b1 : Vc 64) (w2 : Mat 64 40) (b2 : Vc 40) (i : S10000x40.Idx) :
    val_main_call1_v10 (F := Ideal) x adj w1 b1 w2 b2 i
      = Ideal.log (∑ k : Fin 40, Ideal.exp (logits x adj w1 b1 w2 b2 (ix2 (i 0) k)
          - Cert.LibLogSoftmax.rowMax (fun k' : Fin 40 => logits x adj w1 b1 w2 b2 (ix2 (i 0) k')))) := by
  rw [val_main_call1_v10_apply, val_main_call1_v9_apply, val_main_call1_v8_apply, expSum_apply]
  rfl

/-- The first result's stage is the specification's log-softmax of the class scores. -/
theorem out_stage_eq (x : Mat 10000 128) (adj : Mat 10000 10000) (w1 : Mat 128 64) (b1 : Vc 64) (w2 : Mat 64 40) (b2 : Vc 40) :
    val_main_v23 (F := Ideal) x adj w1 b1 w2 b2 = out x adj w1 b1 w2 b2 := by
  funext i
  rw [val_main_v23_apply, shifted_apply, logSum_apply]
  show _ = Cert.LibLogSoftmax.lsmRow (fun k : Fin 40 => logits x adj w1 b1 w2 b2 (ix2 (i 0) k)) (i 1)
  unfold Cert.LibLogSoftmax.lsmRow
  have hi : logits x adj w1 b1 w2 b2 i = logits x adj w1 b1 w2 b2 (ix2 (i 0) (i 1)) := congrArg (logits x adj w1 b1 w2 b2) (eq_ix2 i)
  rw [hi]
  rfl

/-! ## The two results as the run states them -/

/-- The reference's first result, as its run names it, is the specification's log-softmax output of the argument arrays. -/
theorem ref_out_eq (m : (ℓ : Loc nD τ sig) → Buf (Elt Ideal) ℓ) (c : Dev nD) :
    Cert.ReferenceIdeal.ValueP.res_main_v23 (F := Ideal) m c
      = out (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)) :=
  (val_main_v23_eq (F := Ideal) m c).trans (out_stage_eq _ _ _ _ _ _)

/-- The reference's run, with both results stated by the specification: from any memory with zero counters every weakly
    fair execution terminates with the first result at the log-softmax output and the second at the gated encoder of the
    argument arrays, the nine arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v23)
        = out (m' ((c.tc : Thread nD τ).loc main_arg0)) (m' ((c.tc : Thread nD τ).loc main_arg1)) (m' ((c.tc : Thread nD τ).loc main_arg3))
            (m' ((c.tc : Thread nD τ).loc main_arg4)) (m' ((c.tc : Thread nD τ).loc main_arg5)) (m' ((c.tc : Thread nD τ).loc main_arg6))
      ∧ r.2.mem ((c.tc : Thread nD τ).loc main_v22)
        = gated (m' ((c.tc : Thread nD τ).loc main_arg0)) (m' ((c.tc : Thread nD τ).loc main_arg1)) (m' ((c.tc : Thread nD τ).loc main_arg2))
            (m' ((c.tc : Thread nD τ).loc main_arg3)) (m' ((c.tc : Thread nD τ).loc main_arg4)) (m' ((c.tc : Thread nD τ).loc main_arg7)) (m' ((c.tc : Thread nD τ).loc main_arg8))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8) :=
  (θ_run defs _ _).mono (fun _ h c => ⟨by rw [(h c).1, ref_out_eq], by rw [(h c).2.1, ref_gated_eq], (h c).2.2⟩)
    (Cert.ReferenceIdeal.ValueP.run (F := Ideal) m' ρ')

end Cert.RefIsSpec

end
-- ==== Proof.lean ====
/-
  The kernel computes, on the extended reals, what its reference computes.

  Both programs are a two-layer graph convolution over a dense adjacency matrix with an attention-gated encoder:
    h   = max(adj · (x · W1) + b1, 0),   out = log_softmax(adj · (h · W2) + b2),   y = logistic(h · Weᵀ + be) * att
  (`Spec.lean`). The kernel runs a grid of 2 × 25 points: the first phase builds the hidden features in a scratch buffer,
  one block of 400 rows per point in five strips of 80 rows, each from the matching strip of the adjacency matrix (the
  matrix is read through five windows at once); the second phase projects them once and writes one block of 400 rows
  of each result per point. What the scratch buffers hold between points is an invariant of the run: after point t of
  the first phase the rows below 400·(t + 1) are the hidden features. Each result array ends as its 25 blocks; every
  block is the specification at its rows, because every strip is the same operations in the same order as the
  reference's whole-array operations restricted to the strip's rows: no law of arithmetic is used beyond re-indexing
  sums, so nothing depends on the inputs being finite. The reference's run is read back one operation at a time.
  The frames say that each program runs to the end without fault and leaves its arguments as they were; the word-level
  kernel's frame is the same run at the bit-exact instance.
-/
import proofs.«139686_g86887188398715_cont_sun_m_547_23_alg».proof.Defs
import proofs.«139686_g86887188398715_cont_sun_m_547_23_alg».proof.Proof.Gen.Kernel
import proofs.«139686_g86887188398715_cont_sun_m_547_23_alg».proof.Proof.Gen.KernelIdeal
import proofs.«139686_g86887188398715_cont_sun_m_547_23_alg».proof.Proof.Gen.ReferenceIdeal
import proofs.«139686_g86887188398715_cont_sun_m_547_23_alg».proof.Proof.Gen.Pre_finite_inputs
import proofs.«139686_g86887188398715_cont_sun_m_547_23_alg».proof.Proof.KFrmLaunch
import proofs.«139686_g86887188398715_cont_sun_m_547_23_alg».proof.Proof.KFrmRead
import proofs.«139686_g86887188398715_cont_sun_m_547_23_alg».proof.Proof.FrmLaunch
import proofs.«139686_g86887188398715_cont_sun_m_547_23_alg».proof.Proof.FrmRead
import proofs.«139686_g86887188398715_cont_sun_m_547_23_alg».proof.Proof.KernelOut
import proofs.«139686_g86887188398715_cont_sun_m_547_23_alg».proof.Proof.RefIsSpec
import Idealize.ShloMosaic.Adequacy
import Idealize.ShloMosaic.Init

noncomputable section

namespace Cert.Proof

open Idealize.ShloMosaic Idealize.SL.Sem

/-- The word-level kernel runs to the end and leaves its nine arguments unchanged. -/
theorem frame_k : Cert.frame_Kernel := fun m ρ _ =>
  Cert.Kernel.Frm.frame_of_run m ρ (Cert.Kernel.Frm.run_main m ρ)

/-- So does the idealized kernel. -/
theorem frame_ki : Cert.frame_KernelIdeal := fun m ρ _ =>
  Cert.KernelIdeal.Frm.frame_of_run m ρ (Cert.KernelIdeal.Frm.run_main m ρ)

/-- And the idealized reference: its run with the two results dropped. -/
theorem frame_ri : Cert.frame_ReferenceIdeal := fun m ρ _ =>
  (θ_run Cert.ReferenceIdeal.defs _ _).mono (fun _ h c => (h c).2.2) (Cert.RefIsSpec.ref_run m ρ)

/-- The idealization rewrote no operation. -/
theorem preserves : Cert.preserves_Kernel_KernelIdeal := trivial

/-- From memories agreeing on the arguments both programs end with the specification's two arrays of those arguments:
    the kernel's result arrays are their 25 row blocks, each the specification at its rows; the reference's results are
    the specification operation by operation. -/
theorem algebraic : Cert.algebraic_KernelIdeal_ReferenceIdeal := by
  intro m ρ m' ρ' _ hagree
  refine ⟨fun c => Cert.GcnSpec.out (Cert.KernelIsSpec.inX m c) (Cert.KernelIsSpec.inAdj m c) (Cert.KernelIsSpec.inW1 m c)
      (Cert.KernelIsSpec.inB1 m c) (Cert.KernelIsSpec.inW2 m c) (Cert.KernelIsSpec.inB2 m c),
    fun c => Cert.GcnSpec.gated (Cert.KernelIsSpec.inX m c) (Cert.KernelIsSpec.inAdj m c) (Cert.KernelIsSpec.inAtt m c)
      (Cert.KernelIsSpec.inW1 m c) (Cert.KernelIsSpec.inB1 m c) (Cert.KernelIsSpec.inWe m c) (Cert.KernelIsSpec.inBe m c), ?_, ?_⟩
  · exact (θ_run Cert.KernelIdeal.defs _ _).mono
      (fun _ h c => ⟨(h c).1.trans (Cert.KernelOut.out_spec m c), (h c).2.1.trans (Cert.KernelOut.gated_spec m c), (h c).2.2⟩)
      (Cert.KernelIdeal.Frm.results_of_run m ρ (Cert.KernelIdeal.Frm.run_main m ρ))
  · refine (θ_run Cert.ReferenceIdeal.defs _ _).mono (fun _ h c => ⟨(h c).1.trans ?_, (h c).2.1.trans ?_, (h c).2.2⟩)
      (Cert.RefIsSpec.ref_run m' ρ')
    · simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    · simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
